-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v248)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v248) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v366) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x800000 : Shape := ⟨2, ![2, 800000]⟩
abbrev S32x64 : Shape := ⟨2, ![32, 64]⟩
abbrev S4x192x64 : Shape := ⟨3, ![4, 192, 64]⟩
abbrev S4x3x2 : Shape := ⟨3, ![4, 3, 2]⟩
abbrev S4x64 : Shape := ⟨2, ![4, 64]⟩
abbrev S4x2x2 : Shape := ⟨3, ![4, 2, 2]⟩
abbrev S4x2 : Shape := ⟨2, ![4, 2]⟩
abbrev S32 : Shape := ⟨1, ![32]⟩
abbrev S16x32 : Shape := ⟨2, ![16, 32]⟩
abbrev S16 : Shape := ⟨1, ![16]⟩
abbrev S7x16 : Shape := ⟨2, ![7, 16]⟩
abbrev S7 : Shape := ⟨1, ![7]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S4x192x64 : S_.BroadcastsInDim S4x192x64 (![] : Fin 0 → Fin S4x192x64.rank)
  reducesTo_S4x192x64_S_d0_1_2 : S4x192x64.ReducesTo [0, 1, 2] S_
  bcast_S_S4x3x2 : S_.BroadcastsInDim S4x3x2 (![] : Fin 0 → Fin S4x3x2.rank)
  reducesTo_S4x3x2_S_d0_1_2 : S4x3x2.ReducesTo [0, 1, 2] S_
  bcast_S_S4x64 : S_.BroadcastsInDim S4x64 (![] : Fin 0 → Fin S4x64.rank)
  reducesTo_S4x64_S_d0_1 : S4x64.ReducesTo [0, 1] S_
  bcast_S_S4x2x2 : S_.BroadcastsInDim S4x2x2 (![] : Fin 0 → Fin S4x2x2.rank)
  reducesTo_S4x2x2_S_d0_1_2 : S4x2x2.ReducesTo [0, 1, 2] S_
  bcast_S_S4x2 : S_.BroadcastsInDim S4x2 (![] : Fin 0 → Fin S4x2.rank)
  reducesTo_S4x2_S_d0_1 : S4x2.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S7x16 : S_.BroadcastsInDim S7x16 (![] : Fin 0 → Fin S7x16.rank)
  reducesTo_S7x16_S_d0_1 : S7x16.ReducesTo [0, 1] S_
  bcast_S_S7 : S_.BroadcastsInDim S7 (![] : Fin 0 → Fin S7.rank)
  reducesTo_S7_S_d0 : S7.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S16 .f32) (main_arg14 : FVec F S7x16 .f32) (main_arg15 : FVec F S7 .f32) (main_v48 : IVec S_ 1) (main_v49 : FVec F S16x32 .f32) (main_v50 : FVec F S16x32 .f32) : IVec S_ 1 :=
  let main_v51 : IVec S16x32 1 := cmpf .olt main_v49 main_v50
  let main_c_19 : IVec S_ 1 := constantI S_ 1 1#1
  let main_v52 : IVec S_ 1 := (fun x v => Host.reduce IntOp.andi x v reducesTo_S16x32_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S7x16 .f32 := Host.absf main_arg14
  let main_cst_22 : FVec F S_ .f32 := constant S_ .f32 0x7F800000#32
  let main_v60 : FVec F S7x16 .f32 := broadcastInDim S7x16 ![] bcast_S_S7x16 main_cst_22
  let main_v61 : IVec S7x16 1 := cmpf .olt main_v59 main_v60
  let main_c_23 : IVec S_ 1 := constantI S_ 1 1#1
  let main_v62 : IVec S_ 1 := (fun x v => Host.reduce IntOp.andi x v reducesTo_S7x16_S_d0_1 h_S_) main_v61 main_c_23
  let main_v63 : IVec S_ 1 := andi main_v58 main_v62
  let main_v64 : FVec F S7 .f32 := Host.absf main_arg15
  let main_cst_24 : FVec F S_ .f32 := constant S_ .f32 0x7F800000#32
  let main_v65 : FVec F S7 .f32 := broadcastInDim S7 ![] bcast_S_S7 main_cst_24
  let main_v66 : IVec S7 1 := cmpf .olt main_v64 main_v65
  let main_c_25 : IVec S_ 1 := constantI S_ 1 1#1
  let main_v67 : IVec S_ 1 := (fun x v => Host.reduce IntOp.andi x v reducesTo_S7_S_d0 h_S_) main_v66 main_c_25
  fn_part4 (F := F) main_v63 main_v67

def fn_part2 {F : FTy → Type} [FloatOps F] (main_arg9 : FVec F S4x2 .f32) (main_arg10 : FVec F S32x64 .f32) (main_arg11 : FVec F S32 .f32) (main_arg12 : FVec F S16x32 .f32) (main_arg13 : FVec F S16 .f32) (main_arg14 : FVec F S7x16 .f32) (main_arg15 : FVec F S7 .f32) (main_v33 : IVec S_ 1) : IVec S_ 1 :=
  let main_v34 : FVec F S4x2 .f32 := Host.absf main_arg9
  let main_cst_12 : FVec F S_ .f32 := constant S_ .f32 0x7F800000#32
  let main_v35 : FVec F S4x2 .f32 := broadcastInDim S4x2 ![] bcast_S_S4x2 main_cst_12
  let main_v36 : IVec S4x2 1 := cmpf .olt main_v34 main_v35
  let main_c_13 : IVec S_ 1 := constantI S_ 1 1#1
  let main_v37 : IVec S_ 1 := (fun x v => Host.reduce IntOp.andi x v reducesTo_S4x2_S_d0_1 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S16x32 .f32 := Host.absf main_arg12
  let main_cst_18 : FVec F S_ .f32 := constant S_ .f32 0x7F800000#32
  let main_v50 : FVec F S16x32 .f32 := broadcastInDim S16x32 ![] bcast_S_S16x32 main_cst_18
  fn_part3 (F := F) main_arg13 main_arg14 main_arg15 main_v48 main_v49 main_v50

def fn_part1 {F : FTy → Type} [FloatOps F] (main_arg6 : FVec F S4x64 .f32) (main_arg7 : FVec F S4x64 .f32) (main_arg8 : FVec F S4x2x2 .f32) (main_arg9 : FVec F S4x2 .f32) (main_arg10 : FVec F S32x64 .f32) (main_arg11 : FVec F S32 .f32) (main_arg12 : FVec F S16x32 .f32) (main_arg13 : FVec F S16 .f32) (main_arg14 : FVec F S7x16 .f32) (main_arg15 : FVec F S7 .f32) (main_v13 : IVec S_ 1) (main_v16 : IVec S4x3x2 1) : IVec S_ 1 :=
  let main_c_5 : IVec S_ 1 := constantI S_ 1 1#1
  let main_v17 : IVec S_ 1 := (fun x v => Host.reduce IntOp.andi x v reducesTo_S4x3x2_S_d0_1_2 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x2x2 .f32 := Host.absf main_arg8
  let main_cst_10 : FVec F S_ .f32 := constant S_ .f32 0x7F800000#32
  let main_v30 : FVec F S4x2x2 .f32 := broadcastInDim S4x2x2 ![] bcast_S_S4x2x2 main_cst_10
  let main_v31 : IVec S4x2x2 1 := cmpf .olt main_v29 main_v30
  let main_c_11 : IVec S_ 1 := constantI S_ 1 1#1
  let main_v32 : IVec S_ 1 := (fun x v => Host.reduce IntOp.andi x v reducesTo_S4x2x2_S_d0_1_2 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : IVec S100000 32) (main_arg1 : IVec S2x800000 32) (main_arg2 : FVec F S32x64 .f32) (main_arg3 : FVec F S4x192x64 .f32) (main_arg4 : FVec F S4x3x2 .f32) (main_arg5 : FVec F S4x3x2 .f32) (main_arg6 : FVec F S4x64 .f32) (main_arg7 : FVec F S4x64 .f32) (main_arg8 : FVec F S4x2x2 .f32) (main_arg9 : FVec F S4x2 .f32) (main_arg10 : FVec F S32x64 .f32) (main_arg11 : FVec F S32 .f32) (main_arg12 : FVec F S16x32 .f32) (main_arg13 : FVec F S16 .f32) (main_arg14 : FVec F S7x16 .f32) (main_arg15 : FVec F S7 .f32) : IVec S_ 1 :=
  let main_v0 : FVec F S32x64 .f32 := Host.absf main_arg2
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_v4 : FVec F S4x192x64 .f32 := Host.absf main_arg3
  let main_cst_0 : FVec F S_ .f32 := constant S_ .f32 0x7F800000#32
  let main_v5 : FVec F S4x192x64 .f32 := broadcastInDim S4x192x64 ![] bcast_S_S4x192x64 main_cst_0
  let main_v6 : IVec S4x192x64 1 := cmpf .olt main_v4 main_v5
  let main_c_1 : IVec S_ 1 := constantI S_ 1 1#1
  let main_v7 : IVec S_ 1 := (fun x v => Host.reduce IntOp.andi x v reducesTo_S4x192x64_S_d0_1_2 h_S_) main_v6 main_c_1
  let main_v8 : IVec S_ 1 := andi main_v3 main_v7
  let main_v9 : FVec F S4x3x2 .f32 := Host.absf main_arg4
  let main_cst_2 : FVec F S_ .f32 := constant S_ .f32 0x7F800000#32
  let main_v10 : FVec F S4x3x2 .f32 := broadcastInDim S4x3x2 ![] bcast_S_S4x3x2 main_cst_2
  let main_v11 : IVec S4x3x2 1 := cmpf .olt main_v9 main_v10
  let main_c_3 : IVec S_ 1 := constantI S_ 1 1#1
  let main_v12 : IVec S_ 1 := (fun x v => Host.reduce IntOp.andi x v reducesTo_S4x3x2_S_d0_1_2 h_S_) main_v11 main_c_3
  let main_v13 : IVec S_ 1 := andi main_v8 main_v12
  let main_v14 : FVec F S4x3x2 .f32 := Host.absf main_arg5
  let main_cst_4 : FVec F S_ .f32 := constant S_ .f32 0x7F800000#32
  let main_v15 : FVec F S4x3x2 .f32 := broadcastInDim S4x3x2 ![] bcast_S_S4x3x2 main_cst_4
  let main_v16 : IVec S4x3x2 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000 : Shape := ⟨1, ![100000]⟩
abbrev S2x800000 : Shape := ⟨2, ![2, 800000]⟩
abbrev S32x64 : Shape := ⟨2, ![32, 64]⟩
abbrev S4x192x64 : Shape := ⟨3, ![4, 192, 64]⟩
abbrev S4x3x2 : Shape := ⟨3, ![4, 3, 2]⟩
abbrev S4x64 : Shape := ⟨2, ![4, 64]⟩
abbrev S4x2x2 : Shape := ⟨3, ![4, 2, 2]⟩
abbrev S4x2 : Shape := ⟨2, ![4, 2]⟩
abbrev S32 : Shape := ⟨1, ![32]⟩
abbrev S16x32 : Shape := ⟨2, ![16, 32]⟩
abbrev S16 : Shape := ⟨1, ![16]⟩
abbrev S7x16 : Shape := ⟨2, ![7, 16]⟩
abbrev S7 : Shape := ⟨1, ![7]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S100000x1 : Shape := ⟨2, ![100000, 1]⟩
abbrev S100000x64 : Shape := ⟨2, ![100000, 64]⟩
abbrev S1x2x2 : Shape := ⟨3, ![1, 2, 2]⟩
abbrev S2x2 : Shape := ⟨2, ![2, 2]⟩
abbrev S1x2 : Shape := ⟨2, ![1, 2]⟩
abbrev S2 : Shape := ⟨1, ![2]⟩
abbrev S1x3x2 : Shape := ⟨3, ![1, 3, 2]⟩
abbrev S3x2 : Shape := ⟨2, ![3, 2]⟩
abbrev S800000x3 : Shape := ⟨2, ![800000, 3]⟩
abbrev S2000x2 : Shape := ⟨2, ![2000, 2]⟩
abbrev S2000x3 : Shape := ⟨2, ![2000, 3]⟩
abbrev S2000x1 : Shape := ⟨2, ![2000, 1]⟩
abbrev S1x1 : Shape := ⟨2, ![1, 1]⟩
abbrev S1x192x64 : Shape := ⟨3, ![1, 192, 64]⟩
abbrev S192x64 : Shape := ⟨2, ![192, 64]⟩
abbrev S64x192 : Shape := ⟨2, ![64, 192]⟩
abbrev S100000x192 : Shape := ⟨2, ![100000, 192]⟩
abbrev S10000x64 : Shape := ⟨2, ![10000, 64]⟩
abbrev S10000x192 : Shape := ⟨2, ![10000, 192]⟩
abbrev S100000x3x64 : Shape := ⟨3, ![100000, 3, 64]⟩
abbrev S800000x3x64 : Shape := ⟨3, ![800000, 3, 64]⟩
abbrev S800000x3x1 : Shape := ⟨3, ![800000, 3, 1]⟩
abbrev S800000x64 : Shape := ⟨2, ![800000, 64]⟩
abbrev S64 : Shape := ⟨1, ![64]⟩
abbrev S1x64 : Shape := ⟨2, ![1, 64]⟩
abbrev S64x32 : Shape := ⟨2, ![64, 32]⟩
abbrev S32x16 : Shape := ⟨2, ![32, 16]⟩
abbrev S16x7 : Shape := ⟨2, ![16, 7]⟩
abbrev S1x32 : Shape := ⟨2, ![1, 32]⟩
abbrev S1x16 : Shape := ⟨2, ![1, 16]⟩
abbrev S1x7 : Shape := ⟨2, ![1, 7]⟩
abbrev S100000x7 : Shape := ⟨2, ![100000, 7]⟩
abbrev S10000x7 : Shape := ⟨2, ![10000, 7]⟩
abbrev S10000x32 : Shape := ⟨2, ![10000, 32]⟩
abbrev S10000x16 : Shape := ⟨2, ![10000, 16]⟩

abbrev nBuf : Space → Nat
  | .hbm => 307
  | .vmem => 102
  | .smem => 0
  | _ => 0

abbrev hbmTy0_0 (i : Nat) : BufTy := match i % 128 with
  | 0 => ⟨S100000, .i32⟩
  | 1 => ⟨S2x800000, .i32⟩
  | 2 => ⟨S32x64, .f32⟩
  | 3 => ⟨S4x192x64, .f32⟩
  | 4 => ⟨S4x3x2, .f32⟩
  | 5 => ⟨S4x3x2, .f32⟩
  | 6 => ⟨S4x64, .f32⟩
  | 7 => ⟨S4x64, .f32⟩
  | 8 => ⟨S4x2x2, .f32⟩
  | 9 => ⟨S4x2, .f32⟩
  | 10 => ⟨S32x64, .f32⟩
  | 11 => ⟨S32, .f32⟩
  | 12 => ⟨S16x32, .f32⟩
  | 13 => ⟨S16, .f32⟩
  | 14 => ⟨S7x16, .f32⟩
  | 15 => ⟨S7, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S100000, .f32⟩
  | 24 => ⟨S800000x1, .i32⟩
  | 25 => ⟨S100000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .f32⟩
  | 36 => ⟨S800000, .f32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S_, .f32⟩
  | 49 => ⟨S800000, .f32⟩
  | 50 => ⟨S800000, .f32⟩
  | 51 => ⟨S800000, .f32⟩
  | 52 => ⟨S800000x1, .f32⟩
  | 53 => ⟨S800000x1, .f32⟩
  | 54 => ⟨S800000x2, .f32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S100000x64, .f32⟩
  | 64 => ⟨S1x2x2, .f32⟩
  | 65 => ⟨S2x2, .f32⟩
  | 66 => ⟨S1x2, .f32⟩
  | 67 => ⟨S2, .f32⟩
  | 68 => ⟨S1x2, .f32⟩
  | 69 => ⟨S1x3x2, .f32⟩
  | 70 => ⟨S3x2, .f32⟩
  | 71 => ⟨S1x3x2, .f32⟩
  | 72 => ⟨S3x2, .f32⟩
  | 73 => ⟨S800000x3, .f32⟩
  | 74 => ⟨S100000x64, .bf16⟩
  | 75 => ⟨S1x192x64, .f32⟩
  | 76 => ⟨S192x64, .f32⟩
  | 77 => ⟨S64x192, .f32⟩
  | 78 => ⟨S64x192, .bf16⟩
  | 79 => ⟨S100000x192, .f32⟩
  | 80 => ⟨S100000x3x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x3x64, .f32⟩
  | 90 => ⟨S800000x3x1, .f32⟩
  | 91 => ⟨S800000x3x64, .f32⟩
  | 92 => ⟨S800000x3x64, .f32⟩
  | 93 => ⟨S_, .f32⟩
  | 94 => ⟨S800000x64, .f32⟩
  | 95 => ⟨S_, .f32⟩
  | 96 => ⟨S100000x64, .f32⟩
  | 97 => ⟨S800000x1, .i32⟩
  | 98 => ⟨S100000x64, .f32⟩
  | 99 => ⟨S_, .f32⟩
  | 100 => ⟨S64, .f32⟩
  | 101 => ⟨S_, .f32⟩
  | 102 => ⟨S64, .f32⟩
  | 103 => ⟨S64, .f32⟩
  | 104 => ⟨S1x64, .f32⟩
  | 105 => ⟨S100000x64, .f32⟩
  | 106 => ⟨S100000x64, .f32⟩
  | 107 => ⟨S100000x64, .f32⟩
  | 108 => ⟨S_, .f32⟩
  | 109 => ⟨S64, .f32⟩
  | 110 => ⟨S_, .f32⟩
  | 111 => ⟨S64, .f32⟩
  | 112 => ⟨S64, .f32⟩
  | 113 => ⟨S1x64, .f32⟩
  | 114 => ⟨S1x64, .f32⟩
  | 115 => ⟨S1x64, .f32⟩
  | 116 => ⟨S64, .f32⟩
  | 117 => ⟨S1x64, .f32⟩
  | 118 => ⟨S1x64, .f32⟩
  | 119 => ⟨S64, .f32⟩
  | 120 => ⟨S1x64, .f32⟩
  | 121 => ⟨S100000x64, .f32⟩
  | 122 => ⟨S1x2x2, .f32⟩
  | 123 => ⟨S2x2, .f32⟩
  | 124 => ⟨S1x2, .f32⟩
  | 125 => ⟨S2, .f32⟩
  | 126 => ⟨S1x2, .f32⟩
  | 127 => ⟨S1x3x2, .f32⟩
  | _ => ⟨S100000, .i32⟩

abbrev hbmTy0_1 (i : Nat) : BufTy := match i % 128 with
  | 0 => ⟨S3x2, .f32⟩
  | 1 => ⟨S1x3x2, .f32⟩
  | 2 => ⟨S3x2, .f32⟩
  | 3 => ⟨S800000x3, .f32⟩
  | 4 => ⟨S100000x64, .bf16⟩
  | 5 => ⟨S1x192x64, .f32⟩
  | 6 => ⟨S192x64, .f32⟩
  | 7 => ⟨S64x192, .f32⟩
  | 8 => ⟨S64x192, .bf16⟩
  | 9 => ⟨S100000x192, .f32⟩
  | 10 => ⟨S100000x3x64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x3x64, .f32⟩
  | 20 => ⟨S800000x3x1, .f32⟩
  | 21 => ⟨S800000x3x64, .f32⟩
  | 22 => ⟨S800000x3x64, .f32⟩
  | 23 => ⟨S_, .f32⟩
  | 24 => ⟨S800000x64, .f32⟩
  | 25 => ⟨S_, .f32⟩
  | 26 => ⟨S100000x64, .f32⟩
  | 27 => ⟨S800000x1, .i32⟩
  | 28 => ⟨S100000x64, .f32⟩
  | 29 => ⟨S_, .f32⟩
  | 30 => ⟨S64, .f32⟩
  | 31 => ⟨S_, .f32⟩
  | 32 => ⟨S64, .f32⟩
  | 33 => ⟨S64, .f32⟩
  | 34 => ⟨S1x64, .f32⟩
  | 35 => ⟨S100000x64, .f32⟩
  | 36 => ⟨S100000x64, .f32⟩
  | 37 => ⟨S100000x64, .f32⟩
  | 38 => ⟨S_, .f32⟩
  | 39 => ⟨S64, .f32⟩
  | 40 => ⟨S_, .f32⟩
  | 41 => ⟨S64, .f32⟩
  | 42 => ⟨S64, .f32⟩
  | 43 => ⟨S1x64, .f32⟩
  | 44 => ⟨S1x64, .f32⟩
  | 45 => ⟨S1x64, .f32⟩
  | 46 => ⟨S64, .f32⟩
  | 47 => ⟨S1x64, .f32⟩
  | 48 => ⟨S1x64, .f32⟩
  | 49 => ⟨S64, .f32⟩
  | 50 => ⟨S1x64, .f32⟩
  | 51 => ⟨S100000x64, .f32⟩
  | 52 => ⟨S1x2x2, .f32⟩
  | 53 => ⟨S2x2, .f32⟩
  | 54 => ⟨S1x2, .f32⟩
  | 55 => ⟨S2, .f32⟩
  | 56 => ⟨S1x2, .f32⟩
  | 57 => ⟨S1x3x2, .f32⟩
  | 58 => ⟨S3x2, .f32⟩
  | 59 => ⟨S1x3x2, .f32⟩
  | 60 => ⟨S3x2, .f32⟩
  | 61 => ⟨S800000x3, .f32⟩
  | 62 => ⟨S100000x64, .bf16⟩
  | 63 => ⟨S1x192x64, .f32⟩
  | 64 => ⟨S192x64, .f32⟩
  | 65 => ⟨S64x192, .f32⟩
  | 66 => ⟨S64x192, .bf16⟩
  | 67 => ⟨S100000x192, .f32⟩
  | 68 => ⟨S100000x3x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x3x64, .f32⟩
  | 78 => ⟨S800000x3x1, .f32⟩
  | 79 => ⟨S800000x3x64, .f32⟩
  | 80 => ⟨S800000x3x64, .f32⟩
  | 81 => ⟨S_, .f32⟩
  | 82 => ⟨S800000x64, .f32⟩
  | 83 => ⟨S_, .f32⟩
  | 84 => ⟨S100000x64, .f32⟩
  | 85 => ⟨S800000x1, .i32⟩
  | 86 => ⟨S100000x64, .f32⟩
  | 87 => ⟨S_, .f32⟩
  | 88 => ⟨S64, .f32⟩
  | 89 => ⟨S_, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S100000x64, .f32⟩
  | 96 => ⟨S_, .f32⟩
  | 97 => ⟨S64, .f32⟩
  | 98 => ⟨S_, .f32⟩
  | 99 => ⟨S64, .f32⟩
  | 100 => ⟨S64, .f32⟩
  | 101 => ⟨S1x64, .f32⟩
  | 102 => ⟨S1x64, .f32⟩
  | 103 => ⟨S1x64, .f32⟩
  | 104 => ⟨S64, .f32⟩
  | 105 => ⟨S1x64, .f32⟩
  | 106 => ⟨S1x64, .f32⟩
  | 107 => ⟨S64, .f32⟩
  | 108 => ⟨S1x64, .f32⟩
  | 109 => ⟨S100000x64, .f32⟩
  | 110 => ⟨S1x2x2, .f32⟩
  | 111 => ⟨S2x2, .f32⟩
  | 112 => ⟨S1x2, .f32⟩
  | 113 => ⟨S2, .f32⟩
  | 114 => ⟨S1x2, .f32⟩
  | 115 => ⟨S1x3x2, .f32⟩
  | 116 => ⟨S3x2, .f32⟩
  | 117 => ⟨S1x3x2, .f32⟩
  | 118 => ⟨S3x2, .f32⟩
  | 119 => ⟨S800000x3, .f32⟩
  | 120 => ⟨S100000x64, .bf16⟩
  | 121 => ⟨S1x192x64, .f32⟩
  | 122 => ⟨S192x64, .f32⟩
  | 123 => ⟨S64x192, .f32⟩
  | 124 => ⟨S64x192, .bf16⟩
  | 125 => ⟨S100000x192, .f32⟩
  | 126 => ⟨S100000x3x64, .f32⟩
  | 127 => ⟨S_, .i32⟩
  | _ => ⟨S100000, .i32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x3x64, .f32⟩
  | 8 => ⟨S800000x3x1, .f32⟩
  | 9 => ⟨S800000x3x64, .f32⟩
  | 10 => ⟨S800000x3x64, .f32⟩
  | 11 => ⟨S_, .f32⟩
  | 12 => ⟨S800000x64, .f32⟩
  | 13 => ⟨S_, .f32⟩
  | 14 => ⟨S100000x64, .f32⟩
  | 15 => ⟨S800000x1, .i32⟩
  | 16 => ⟨S100000x64, .f32⟩
  | 17 => ⟨S_, .f32⟩
  | 18 => ⟨S64, .f32⟩
  | 19 => ⟨S_, .f32⟩
  | 20 => ⟨S64, .f32⟩
  | 21 => ⟨S64, .f32⟩
  | 22 => ⟨S1x64, .f32⟩
  | 23 => ⟨S100000x64, .f32⟩
  | 24 => ⟨S100000x64, .f32⟩
  | 25 => ⟨S100000x64, .f32⟩
  | 26 => ⟨S_, .f32⟩
  | 27 => ⟨S64, .f32⟩
  | 28 => ⟨S_, .f32⟩
  | 29 => ⟨S64, .f32⟩
  | 30 => ⟨S64, .f32⟩
  | 31 => ⟨S1x64, .f32⟩
  | 32 => ⟨S1x64, .f32⟩
  | 33 => ⟨S1x64, .f32⟩
  | 34 => ⟨S64, .f32⟩
  | 35 => ⟨S1x64, .f32⟩
  | 36 => ⟨S1x64, .f32⟩
  | 37 => ⟨S64, .f32⟩
  | 38 => ⟨S1x64, .f32⟩
  | 39 => ⟨S100000x64, .f32⟩
  | 40 => ⟨S100000x64, .bf16⟩
  | 41 => ⟨S64x32, .f32⟩
  | 42 => ⟨S64x32, .bf16⟩
  | 43 => ⟨S32x16, .f32⟩
  | 44 => ⟨S32x16, .bf16⟩
  | 45 => ⟨S16x7, .f32⟩
  | 46 => ⟨S16x7, .bf16⟩
  | 47 => ⟨S1x32, .f32⟩
  | 48 => ⟨S1x16, .f32⟩
  | 49 => ⟨S1x7, .f32⟩
  | 50 => ⟨S100000x7, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S2000x2, .f32⟩
  | .local _ .vmem, ⟨1, _⟩ => ⟨S2000x2, .f32⟩
  | .local _ .vmem, ⟨2, _⟩ => ⟨S2x2, .f32⟩
  | .local _ .vmem, ⟨3, _⟩ => ⟨S1x2, .f32⟩
  | .local _ .vmem, ⟨4, _⟩ => ⟨S3x2, .f32⟩
  | .local _ .vmem, ⟨5, _⟩ => ⟨S3x2, .f32⟩
  | .local _ .vmem, ⟨6, _⟩ => ⟨S2000x3, .f32⟩
  | .local _ .vmem, ⟨7, _⟩ => ⟨S2000x3, .f32⟩
  | .local _ .vmem, ⟨8, _⟩ => ⟨S10000x64, .bf16⟩
  | .local _ .vmem, ⟨9, _⟩ => ⟨S10000x64, .bf16⟩
  | .local _ .vmem, ⟨10, _⟩ => ⟨S64x192, .bf16⟩
  | .local _ .vmem, ⟨11, _⟩ => ⟨S10000x192, .f32⟩
  | .local _ .vmem, ⟨12, _⟩ => ⟨S10000x192, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S2000x2, .f32⟩
  | .local _ .vmem, ⟨24, _⟩ => ⟨S2000x2, .f32⟩
  | .local _ .vmem, ⟨25, _⟩ => ⟨S2x2, .f32⟩
  | .local _ .vmem, ⟨26, _⟩ => ⟨S1x2, .f32⟩
  | .local _ .vmem, ⟨27, _⟩ => ⟨S3x2, .f32⟩
  | .local _ .vmem, ⟨28, _⟩ => ⟨S3x2, .f32⟩
  | .local _ .vmem, ⟨29, _⟩ => ⟨S2000x3, .f32⟩
  | .local _ .vmem, ⟨30, _⟩ => ⟨S2000x3, .f32⟩
  | .local _ .vmem, ⟨31, _⟩ => ⟨S10000x64, .bf16⟩
  | .local _ .vmem, ⟨32, _⟩ => ⟨S10000x64, .bf16⟩
  | .local _ .vmem, ⟨33, _⟩ => ⟨S64x192, .bf16⟩
  | .local _ .vmem, ⟨34, _⟩ => ⟨S10000x192, .f32⟩
  | .local _ .vmem, ⟨35, _⟩ => ⟨S10000x192, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S2000x2, .f32⟩
  | .local _ .vmem, ⟨47, _⟩ => ⟨S2000x2, .f32⟩
  | .local _ .vmem, ⟨48, _⟩ => ⟨S2x2, .f32⟩
  | .local _ .vmem, ⟨49, _⟩ => ⟨S1x2, .f32⟩
  | .local _ .vmem, ⟨50, _⟩ => ⟨S3x2, .f32⟩
  | .local _ .vmem, ⟨51, _⟩ => ⟨S3x2, .f32⟩
  | .local _ .vmem, ⟨52, _⟩ => ⟨S2000x3, .f32⟩
  | .local _ .vmem, ⟨53, _⟩ => ⟨S2000x3, .f32⟩
  | .local _ .vmem, ⟨54, _⟩ => ⟨S10000x64, .bf16⟩
  | .local _ .vmem, ⟨55, _⟩ => ⟨S10000x64, .bf16⟩
  | .local _ .vmem, ⟨56, _⟩ => ⟨S64x192, .bf16⟩
  | .local _ .vmem, ⟨57, _⟩ => ⟨S10000x192, .f32⟩
  | .local _ .vmem, ⟨58, _⟩ => ⟨S10000x192, .f32⟩
  | .local _ .vmem, ⟨59, _⟩ => ⟨S10000x64, .f32⟩
  | .local _ .vmem, ⟨60, _⟩ => ⟨S10000x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S1x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S2000x2, .f32⟩
  | .local _ .vmem, ⟨70, _⟩ => ⟨S2000x2, .f32⟩
  | .local _ .vmem, ⟨71, _⟩ => ⟨S2x2, .f32⟩
  | .local _ .vmem, ⟨72, _⟩ => ⟨S1x2, .f32⟩
  | .local _ .vmem, ⟨73, _⟩ => ⟨S3x2, .f32⟩
  | .local _ .vmem, ⟨74, _⟩ => ⟨S3x2, .f32⟩
  | .local _ .vmem, ⟨75, _⟩ => ⟨S2000x3, .f32⟩
  | .local _ .vmem, ⟨76, _⟩ => ⟨S2000x3, .f32⟩
  | .local _ .vmem, ⟨77, _⟩ => ⟨S10000x64, .bf16⟩
  | .local _ .vmem, ⟨78, _⟩ => ⟨S10000x64, .bf16⟩
  | .local _ .vmem, ⟨79, _⟩ => ⟨S64x192, .bf16⟩
  | .local _ .vmem, ⟨80, _⟩ => ⟨S10000x192, .f32⟩
  | .local _ .vmem, ⟨81, _⟩ => ⟨S10000x192, .f32⟩
  | .local _ .vmem, ⟨82, _⟩ => ⟨S10000x64, .f32⟩
  | .local _ .vmem, ⟨83, _⟩ => ⟨S10000x64, .f32⟩
  | .local _ .vmem, ⟨84, _⟩ => ⟨S1x64, .f32⟩
  | .local _ .vmem, ⟨85, _⟩ => ⟨S1x64, .f32⟩
  | .local _ .vmem, ⟨86, _⟩ => ⟨S1x64, .f32⟩
  | .local _ .vmem, ⟨87, _⟩ => ⟨S1x64, .f32⟩
  | .local _ .vmem, ⟨88, _⟩ => ⟨S10000x64, .f32⟩
  | .local _ .vmem, ⟨89, _⟩ => ⟨S10000x64, .f32⟩
  | .local _ .vmem, ⟨90, _⟩ => ⟨S10000x64, .f32⟩
  | .local _ .vmem, ⟨91, _⟩ => ⟨S10000x64, .f32⟩
  | .local _ .vmem, ⟨92, _⟩ => ⟨S10000x64, .bf16⟩
  | .local _ .vmem, ⟨93, _⟩ => ⟨S10000x64, .bf16⟩
  | .local _ .vmem, ⟨94, _⟩ => ⟨S64x32, .bf16⟩
  | .local _ .vmem, ⟨95, _⟩ => ⟨S1x32, .f32⟩
  | .local _ .vmem, ⟨96, _⟩ => ⟨S32x16, .bf16⟩
  | .local _ .vmem, ⟨97, _⟩ => ⟨S1x16, .f32⟩
  | .local _ .vmem, ⟨98, _⟩ => ⟨S16x7, .bf16⟩
  | .local _ .vmem, ⟨99, _⟩ => ⟨S1x7, .f32⟩
  | .local _ .vmem, ⟨100, _⟩ => ⟨S10000x7, .f32⟩
  | .local _ .vmem, ⟨101, _⟩ => ⟨S10000x7, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_8 : Ref sig .tc := ⟨.hbm, 81, rfl⟩
abbrev main_v55 : Ref sig .tc := ⟨.hbm, 82, rfl⟩
abbrev main_v56 : Ref sig .tc := ⟨.hbm, 83, rfl⟩
abbrev main_c_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_16 : Ref sig .tc := ⟨.hbm, 139, rfl⟩
abbrev main_v105 : Ref sig .tc := ⟨.hbm, 140, rfl⟩
abbrev main_v106 : Ref sig .tc := ⟨.hbm, 141, rfl⟩
abbrev main_c_17 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_18 : Ref sig .tc := ⟨.hbm, 151, rfl⟩
abbrev main_v115 : Ref sig .tc := ⟨.hbm, 152, rfl⟩
abbrev main_cst_19 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_20 : Ref sig .tc := ⟨.hbm, 157, rfl⟩
abbrev main_v119 : Ref sig .tc := ⟨.hbm, 158, rfl⟩
abbrev main_cst_21 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_22 : Ref sig .tc := ⟨.hbm, 166, rfl⟩
abbrev main_v126 : Ref sig .tc := ⟨.hbm, 167, rfl⟩
abbrev main_cst_23 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_c_24 : Ref sig .tc := ⟨.hbm, 197, rfl⟩
abbrev main_v155 : Ref sig .tc := ⟨.hbm, 198, rfl⟩
abbrev main_v156 : Ref sig .tc := ⟨.hbm, 199, rfl⟩
abbrev main_c_25 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_26 : Ref sig .tc := ⟨.hbm, 209, rfl⟩
abbrev main_v165 : Ref sig .tc := ⟨.hbm, 210, rfl⟩
abbrev main_cst_27 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_28 : Ref sig .tc := ⟨.hbm, 215, rfl⟩
abbrev main_v169 : Ref sig .tc := ⟨.hbm, 216, rfl⟩
abbrev main_cst_29 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_30 : Ref sig .tc := ⟨.hbm, 224, rfl⟩
abbrev main_v176 : Ref sig .tc := ⟨.hbm, 225, rfl⟩
abbrev main_cst_31 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_c_32 : Ref sig .tc := ⟨.hbm, 255, rfl⟩
abbrev main_v205 : Ref sig .tc := ⟨.hbm, 256, rfl⟩
abbrev main_v206 : Ref sig .tc := ⟨.hbm, 257, rfl⟩
abbrev main_c_33 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_cst_34 : Ref sig .tc := ⟨.hbm, 267, rfl⟩
abbrev main_v215 : Ref sig .tc := ⟨.hbm, 268, rfl⟩
abbrev main_cst_35 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_cst_36 : Ref sig .tc := ⟨.hbm, 273, rfl⟩
abbrev main_v219 : Ref sig .tc := ⟨.hbm, 274, rfl⟩
abbrev main_cst_37 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_cst_38 : Ref sig .tc := ⟨.hbm, 282, rfl⟩
abbrev main_v226 : Ref sig .tc := ⟨.hbm, 283, rfl⟩
abbrev main_cst_39 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc5_stg6_0 : Ref sig .tc := ⟨.vmem, 44, rfl⟩
abbrev cc5_stg6_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg2_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg3_0 : Ref sig .tc := ⟨.vmem, 63, rfl⟩
abbrev cc8_stg4_0 : Ref sig .tc := ⟨.vmem, 64, rfl⟩
abbrev cc8_stg5_0 : Ref sig .tc := ⟨.vmem, 65, rfl⟩
abbrev cc8_stg5_1 : Ref sig .tc := ⟨.vmem, 66, rfl⟩
abbrev cc8_stg6_0 : Ref sig .tc := ⟨.vmem, 67, rfl⟩
abbrev cc8_stg6_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg3_0 : Ref sig .tc := ⟨.vmem, 73, rfl⟩
abbrev cc9_stg4_0 : Ref sig .tc := ⟨.vmem, 74, rfl⟩
abbrev cc9_stg5_0 : Ref sig .tc := ⟨.vmem, 75, rfl⟩
abbrev cc9_stg5_1 : Ref sig .tc := ⟨.vmem, 76, rfl⟩
abbrev cc10_stg0_0 : Ref sig .tc := ⟨.vmem, 77, rfl⟩
abbrev cc10_stg0_1 : Ref sig .tc := ⟨.vmem, 78, rfl⟩
abbrev cc10_stg1_0 : Ref sig .tc := ⟨.vmem, 79, rfl⟩
abbrev cc10_stg2_0 : Ref sig .tc := ⟨.vmem, 80, rfl⟩
abbrev cc10_stg2_1 : Ref sig .tc := ⟨.vmem, 81, rfl⟩
abbrev cc11_stg0_0 : Ref sig .tc := ⟨.vmem, 82, rfl⟩
abbrev cc11_stg0_1 : Ref sig .tc := ⟨.vmem, 83, rfl⟩
abbrev cc11_stg1_0 : Ref sig .tc := ⟨.vmem, 84, rfl⟩
abbrev cc11_stg2_0 : Ref sig .tc := ⟨.vmem, 85, rfl⟩
abbrev cc11_stg3_0 : Ref sig .tc := ⟨.vmem, 86, rfl⟩
abbrev cc11_stg4_0 : Ref sig .tc := ⟨.vmem, 87, rfl⟩
abbrev cc11_stg5_0 : Ref sig .tc := ⟨.vmem, 88, rfl⟩
abbrev cc11_stg5_1 : Ref sig .tc := ⟨.vmem, 89, rfl⟩
abbrev cc11_stg6_0 : Ref sig .tc := ⟨.vmem, 90, rfl⟩
abbrev cc11_stg6_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg2_0 : Ref sig .tc := ⟨.vmem, 95, rfl⟩
abbrev cc12_stg3_0 : Ref sig .tc := ⟨.vmem, 96, rfl⟩
abbrev cc12_stg4_0 : Ref sig .tc := ⟨.vmem, 97, rfl⟩
abbrev cc12_stg5_0 : Ref sig .tc := ⟨.vmem, 98, rfl⟩
abbrev cc12_stg6_0 : Ref sig .tc := ⟨.vmem, 99, rfl⟩
abbrev cc12_stg7_0 : Ref sig .tc := ⟨.vmem, 100, rfl⟩
abbrev cc12_stg7_1 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc5_sem6_0 : DmaSem sig := 44
abbrev cc5_sem6_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem2_1 : DmaSem sig := 58
abbrev cc8_sem0_0 : DmaSem sig := 59
abbrev cc8_sem0_1 : DmaSem sig := 60
abbrev cc8_sem1_0 : DmaSem sig := 61
abbrev cc8_sem2_0 : DmaSem sig := 62
abbrev cc8_sem3_0 : DmaSem sig := 63
abbrev cc8_sem4_0 : DmaSem sig := 64
abbrev cc8_sem5_0 : DmaSem sig := 65
abbrev cc8_sem5_1 : DmaSem sig := 66
abbrev cc8_sem6_0 : DmaSem sig := 67
abbrev cc8_sem6_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem3_0 : DmaSem sig := 73
abbrev cc9_sem4_0 : DmaSem sig := 74
abbrev cc9_sem5_0 : DmaSem sig := 75
abbrev cc9_sem5_1 : DmaSem sig := 76
abbrev cc10_sem0_0 : DmaSem sig := 77
abbrev cc10_sem0_1 : DmaSem sig := 78
abbrev cc10_sem1_0 : DmaSem sig := 79
abbrev cc10_sem2_0 : DmaSem sig := 80
abbrev cc10_sem2_1 : DmaSem sig := 81
abbrev cc11_sem0_0 : DmaSem sig := 82
abbrev cc11_sem0_1 : DmaSem sig := 83
abbrev cc11_sem1_0 : DmaSem sig := 84
abbrev cc11_sem2_0 : DmaSem sig := 85
abbrev cc11_sem3_0 : DmaSem sig := 86
abbrev cc11_sem4_0 : DmaSem sig := 87
abbrev cc11_sem5_0 : DmaSem sig := 88
abbrev cc11_sem5_1 : DmaSem sig := 89
abbrev cc11_sem6_0 : DmaSem sig := 90
abbrev cc11_sem6_1 : DmaSem sig := 91
abbrev cc12_sem0_0 : DmaSem sig := 92
abbrev cc12_sem0_1 : DmaSem sig := 93
abbrev cc12_sem1_0 : DmaSem sig := 94
abbrev cc12_sem2_0 : DmaSem sig := 95
abbrev cc12_sem3_0 : DmaSem sig := 96
abbrev cc12_sem4_0 : DmaSem sig := 97
abbrev cc12_sem5_0 : DmaSem sig := 98
abbrev cc12_sem6_0 : DmaSem sig := 99
abbrev cc12_sem7_0 : DmaSem sig := 100
abbrev cc12_sem7_1 : DmaSem sig := 101

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![400], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S3x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x3 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x192 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![400], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S3x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S3x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x3 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x192 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x192 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![400], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x2 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S2x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x2 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S3x2 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S3x2 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x3 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x192 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x192 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S10000x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x32 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x32 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S32x16 .bf16 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x16 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S16x7 .bf16 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x7 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S10000x7 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  bcast_S100000_S100000x1_0 : S100000.BroadcastsInDim S100000x1 (![0] : Fin 1 → Fin S100000x1.rank)
  slices_S4x2x2_S1x2x2_0_0_0 : S4x2x2.Slices ![0, 0, 0] S1x2x2
  shapeCasts_S1x2x2_S2x2 : S1x2x2.ShapeCasts S2x2
  slices_S4x2_S1x2_0_0 : S4x2.Slices ![0, 0] S1x2
  shapeCasts_S1x2_S2 : S1x2.ShapeCasts S2
  shapeCasts_S2_S1x2 : S2.ShapeCasts S1x2
  slices_S4x3x2_S1x3x2_0_0_0 : S4x3x2.Slices ![0, 0, 0] S1x3x2
  shapeCasts_S1x3x2_S3x2 : S1x3x2.ShapeCasts S3x2
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S2x2_S2x2_0_0 : ∀ a, (![0, 0] : Fin 2 → Nat) a + S2x2.size a ≤ S2x2.size a
  h_S2x2 : 0 < S2x2.numel
  shapeCasts_S2x2_S2x2 : S2x2.ShapeCasts S2x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S2000x2_o0_0_S2000x1 : S2000x2.Slices ![0, 0] S2000x1
  slices_S2000x2_o0_1_S2000x1 : S2000x2.Slices ![0, 1] S2000x1
  slices_S2x2_o0_0_S1x1 : S2x2.Slices ![0, 0] S1x1
  inpos_S1x1_p0_0 : ∀ a, (![0, 0] : Fin 2 → Nat) a < S1x1.size a
  slices_S2x2_o0_1_S1x1 : S2x2.Slices ![0, 1] S1x1
  slices_S1x2_o0_0_S1x1 : S1x2.Slices ![0, 0] S1x1
  slices_S2x2_o1_0_S1x1 : S2x2.Slices ![1, 0] S1x1
  slices_S2x2_o1_1_S1x1 : S2x2.Slices ![1, 1] S1x1
  slices_S1x2_o0_1_S1x1 : S1x2.Slices ![0, 1] S1x1
  inb_S3x2_S3x2_0_0 : ∀ a, (![0, 0] : Fin 2 → Nat) a + S3x2.size a ≤ S3x2.size a
  h_S3x2 : 0 < S3x2.numel
  shapeCasts_S3x2_S3x2 : S3x2.ShapeCasts S3x2
  slices_S3x2_o0_0_S1x1 : S3x2.Slices ![0, 0] S1x1
  slices_S3x2_o0_1_S1x1 : S3x2.Slices ![0, 1] S1x1
  slices_S3x2_o1_0_S1x1 : S3x2.Slices ![1, 0] S1x1
  slices_S3x2_o1_1_S1x1 : S3x2.Slices ![1, 1] S1x1
  slices_S3x2_o2_0_S1x1 : S3x2.Slices ![2, 0] S1x1
  slices_S3x2_o2_1_S1x1 : S3x2.Slices ![2, 1] S1x1
  concatenates_S2000x1_S2000x1_S2000x1_S2000x3_d1 : Shape.Concatenates [S2000x1, S2000x1, S2000x1] S2000x3 1
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  slices_S4x192x64_S1x192x64_0_0_0 : S4x192x64.Slices ![0, 0, 0] S1x192x64
  shapeCasts_S1x192x64_S192x64 : S1x192x64.ShapeCasts S192x64
  transposes_S192x64_S64x192_1_0 : S192x64.Transposes [1, 0] S64x192
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S10000x192_S10000x192_0_0 : ∀ a, (![0, 0] : Fin 2 → Nat) a + S10000x192.size a ≤ S10000x192.size a
  h_S10000x192 : 0 < S10000x192.numel
  shapeCasts_S100000x192_S100000x3x64 : S100000x192.ShapeCasts S100000x3x64
  bcast_S800000x3_S800000x3x1_0_1 : S800000x3.BroadcastsInDim S800000x3x1 (![0, 1] : Fin 2 → Fin S800000x3x1.rank)
  bcast_S800000x3x1_S800000x3x64_0_1_2 : S800000x3x1.BroadcastsInDim S800000x3x64 (![0, 1, 2] : Fin 3 → Fin S800000x3x64.rank)
  reducesTo_S800000x3x64_S800000x64_d1 : S800000x3x64.ReducesTo [1] S800000x64
  h_S_ : 0 < S_.numel
  bcast_S_S100000x64 : S_.BroadcastsInDim S100000x64 (![] : Fin 0 → Fin S100000x64.rank)
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64_S1x64 : S64.ShapeCasts S1x64
  slices_S4x64_S1x64_0_0 : S4x64.Slices ![0, 0] S1x64
  shapeCasts_S1x64_S64 : S1x64.ShapeCasts S64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S4x2x2_S1x2x2_1_0_0 : S4x2x2.Slices ![1, 0, 0] S1x2x2
  slices_S4x2_S1x2_1_0 : S4x2.Slices ![1, 0] S1x2
  slices_S4x3x2_S1x3x2_1_0_0 : S4x3x2.Slices ![1, 0, 0] S1x3x2
  slices_S4x192x64_S1x192x64_1_0_0 : S4x192x64.Slices ![1, 0, 0] S1x192x64
  slices_S4x64_S1x64_1_0 : S4x64.Slices ![1, 0] S1x64
  slices_S4x2x2_S1x2x2_2_0_0 : S4x2x2.Slices ![2, 0, 0] S1x2x2
  slices_S4x2_S1x2_2_0 : S4x2.Slices ![2, 0] S1x2
  slices_S4x3x2_S1x3x2_2_0_0 : S4x3x2.Slices ![2, 0, 0] S1x3x2
  slices_S4x192x64_S1x192x64_2_0_0 : S4x192x64.Slices ![2, 0, 0] S1x192x64
  slices_S4x64_S1x64_2_0 : S4x64.Slices ![2, 0] S1x64
  slices_S4x2x2_S1x2x2_3_0_0 : S4x2x2.Slices ![3, 0, 0] S1x2x2
  slices_S4x2_S1x2_3_0 : S4x2.Slices ![3, 0] S1x2
  slices_S4x3x2_S1x3x2_3_0_0 : S4x3x2.Slices ![3, 0, 0] S1x3x2
  slices_S4x192x64_S1x192x64_3_0_0 : S4x192x64.Slices ![3, 0, 0] S1x192x64
  slices_S4x64_S1x64_3_0 : S4x64.Slices ![3, 0] S1x64
  transposes_S32x64_S64x32_1_0 : S32x64.Transposes [1, 0] S64x32
  transposes_S16x32_S32x16_1_0 : S16x32.Transposes [1, 0] S32x16
  transposes_S7x16_S16x7_1_0 : S7x16.Transposes [1, 0] S16x7
  shapeCasts_S32_S1x32 : S32.ShapeCasts S1x32
  shapeCasts_S16_S1x16 : S16.ShapeCasts S1x16
  shapeCasts_S7_S1x7 : S7.ShapeCasts S1x7
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x7_S16x7_0_0 : ∀ a, (![0, 0] : Fin 2 → Nat) a + S16x7.size a ≤ S16x7.size a
  h_S16x7 : 0 < S16x7.numel
  shapeCasts_S16x7_S16x7 : S16x7.ShapeCasts S16x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  inb_S10000x7_S10000x7_0_0 : ∀ a, (![0, 0] : Fin 2 → Nat) a + S10000x7.size a ≤ S10000x7.size a
  h_S10000x7 : 0 < S10000x7.numel
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S32x64_S100000x1_S100000x64_1_0_n_n_0_1_164_wf : GatherDims.WF S32x64 S100000x1 S100000x64 [1] [0] [] [0] [] 1 ![1, 64]
  dot_S10000x64_S64x192_S10000x192_1_0_0_1_n_n_wf : DotDims.WF S10000x64 S64x192 S10000x192 [1] [0] [0] [1] [] []
  gather_S100000x3x64_S800000x1_S800000x3x64_12_0_n_n_0_1_1364_wf : GatherDims.WF S100000x3x64 S800000x1 S800000x3x64 [1, 2] [0] [] [0] [] 1 ![1, 3, 64]
  scatter_S100000x64_S800000x1_S800000x64_1_0_0_1_wf : ScatterDims.WF S100000x64 S800000x1 S800000x64 [1] [0] [0] 1
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  dot_S10000x16_S16x7_S10000x7_1_0_0_1_n_n_wf : DotDims.WF S10000x16 S16x7 S10000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S800000x2.size a
  hwx0_0 : ∀ i : grid0.Coords, EltTy.bits .f32 = 32 ∨ (Rect.block (s := S800000x2) S2000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2.size a ≤ S2x2.size a
  hwx0_1 : ∀ i : grid0.Coords, EltTy.bits .f32 = 32 ∨ (Rect.block (s := S2x2) S2x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2.size a ≤ S3x2.size a
  hwx0_3 : ∀ i : grid0.Coords, EltTy.bits .f32 = 32 ∨ (Rect.block (s := S3x2) S3x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x2.size a ≤ S3x2.size a
  hwx0_4 : ∀ i : grid0.Coords, EltTy.bits .f32 = 32 ∨ (Rect.block (s := S3x2) S3x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x3.size a ≤ S800000x3.size a
  hwx0_5 : ∀ i : grid0.Coords, EltTy.bits .f32 = 32 ∨ (Rect.block (s := S800000x3) S2000x3.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .bf16 = 32 ∨ (Rect.block (s := S100000x64) S10000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x192.size a ≤ S64x192.size a
  hwx1_1 : ∀ i : grid1.Coords, EltTy.bits .bf16 = 32 ∨ (Rect.block (s := S64x192) S64x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x192.size a ≤ S100000x192.size a
  hwx1_2 : ∀ i : grid1.Coords, EltTy.bits .f32 = 32 ∨ (Rect.block (s := S100000x192) S10000x192.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S800000x2.size a
  hwx3_0 : ∀ i : grid3.Coords, EltTy.bits .f32 = 32 ∨ (Rect.block (s := S800000x2) S2000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x2.size a ≤ S2x2.size a
  hwx3_1 : ∀ i : grid3.Coords, EltTy.bits .f32 = 32 ∨ (Rect.block (s := S2x2) S2x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x2.size a ≤ S3x2.size a
  hwx3_3 : ∀ i : grid3.Coords, EltTy.bits .f32 = 32 ∨ (Rect.block (s := S3x2) S3x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x2.size a ≤ S3x2.size a
  hwx3_4 : ∀ i : grid3.Coords, EltTy.bits .f32 = 32 ∨ (Rect.block (s := S3x2) S3x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x3.size a ≤ S800000x3.size a
  hwx3_5 : ∀ i : grid3.Coords, EltTy.bits .f32 = 32 ∨ (Rect.block (s := S800000x3) S2000x3.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .bf16 = 32 ∨ (Rect.block (s := S100000x64) S10000x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x192.size a ≤ S64x192.size a
  hwx4_1 : ∀ i : grid4.Coords, EltTy.bits .bf16 = 32 ∨ (Rect.block (s := S64x192) S64x192.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x192.size a ≤ S100000x192.size a
  hwx4_2 : ∀ i : grid4.Coords, EltTy.bits .f32 = 32 ∨ (Rect.block (s := S100000x192) S10000x192.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x2.size a ≤ S800000x2.size a
  hwx6_0 : ∀ i : grid6.Coords, EltTy.bits .f32 = 32 ∨ (Rect.block (s := S800000x2) S2000x2.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2x2.size a ≤ S2x2.size a
  hwx6_1 : ∀ i : grid6.Coords, EltTy.bits .f32 = 32 ∨ (Rect.block (s := S2x2) S2x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S3x2.size a ≤ S3x2.size a
  hwx6_3 : ∀ i : grid6.Coords, EltTy.bits .f32 = 32 ∨ (Rect.block (s := S3x2) S3x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S3x2.size a ≤ S3x2.size a
  hwx6_4 : ∀ i : grid6.Coords, EltTy.bits .f32 = 32 ∨ (Rect.block (s := S3x2) S3x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x3.size a ≤ S800000x3.size a
  hwx6_5 : ∀ i : grid6.Coords, EltTy.bits .f32 = 32 ∨ (Rect.block (s := S800000x3) S2000x3.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .bf16 = 32 ∨ (Rect.block (s := S100000x64) S10000x64.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x192.size a ≤ S64x192.size a
  hwx7_1 : ∀ i : grid7.Coords, EltTy.bits .bf16 = 32 ∨ (Rect.block (s := S64x192) S64x192.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x192.size a ≤ S100000x192.size a
  hwx7_2 : ∀ i : grid7.Coords, EltTy.bits .f32 = 32 ∨ (Rect.block (s := S100000x192) S10000x192.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x2.size a ≤ S800000x2.size a
  hwx9_0 : ∀ i : grid9.Coords, EltTy.bits .f32 = 32 ∨ (Rect.block (s := S800000x2) S2000x2.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2x2.size a ≤ S2x2.size a
  hwx9_1 : ∀ i : grid9.Coords, EltTy.bits .f32 = 32 ∨ (Rect.block (s := S2x2) S2x2.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x2.size a ≤ S1x2.size a
  hwx9_2 : ∀ i : grid9.Coords, EltTy.bits .f32 = 32 ∨ (Rect.block (s := S1x2) S1x2.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S3x2.size a ≤ S3x2.size a
  hwx9_3 : ∀ i : grid9.Coords, EltTy.bits .f32 = 32 ∨ (Rect.block (s := S3x2) S3x2.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S3x2.size a ≤ S3x2.size a
  hwx9_4 : ∀ i : grid9.Coords, EltTy.bits .f32 = 32 ∨ (Rect.block (s := S3x2) S3x2.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x3.size a ≤ S800000x3.size a
  hwx9_5 : ∀ i : grid9.Coords, EltTy.bits .f32 = 32 ∨ (Rect.block (s := S800000x3) S2000x3.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .bf16 = 32 ∨ (Rect.block (s := S100000x64) S10000x64.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x192.size a ≤ S64x192.size a
  hwx10_1 : ∀ i : grid10.Coords, EltTy.bits .bf16 = 32 ∨ (Rect.block (s := S64x192) S64x192.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x192.size a ≤ S100000x192.size a
  hwx10_2 : ∀ i : grid10.Coords, EltTy.bits .f32 = 32 ∨ (Rect.block (s := S100000x192) S10000x192.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x64.size a ≤ S100000x64.size a
  hwx11_5 : ∀ i : grid11.Coords, EltTy.bits .f32 = 32 ∨ (Rect.block (s := S100000x64) S10000x64.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S10000x64.size a ≤ S100000x64.size a
  hwx11_6 : ∀ i : grid11.Coords, EltTy.bits .f32 = 32 ∨ (Rect.block (s := S100000x64) S10000x64.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .bf16 = 32 ∨ (Rect.block (s := S100000x64) S10000x64.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x32.size a ≤ S64x32.size a
  hwx12_1 : ∀ i : grid12.Coords, EltTy.bits .bf16 = 32 ∨ (Rect.block (s := S64x32) S64x32.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x32.size a ≤ S1x32.size a
  hwx12_2 : ∀ i : grid12.Coords, EltTy.bits .f32 = 32 ∨ (Rect.block (s := S1x32) S1x32.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S32x16.size a ≤ S32x16.size a
  hwx12_3 : ∀ i : grid12.Coords, EltTy.bits .bf16 = 32 ∨ (Rect.block (s := S32x16) S32x16.size (cc12_transform_3 i) (hinb12_3 i)).WholeWords (EltTy.packing .bf16)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x16.size a ≤ S1x16.size a
  hwx12_4 : ∀ i : grid12.Coords, EltTy.bits .f32 = 32 ∨ (Rect.block (s := S1x16) S1x16.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S16x7.size a ≤ S16x7.size a
  hwx12_5 : ∀ i : grid12.Coords, EltTy.bits .bf16 = 32 ∨ (Rect.block (s := S16x7) S16x7.size (cc12_transform_5 i) (hinb12_5 i)).WholeWords (EltTy.packing .bf16)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x7.size a ≤ S1x7.size a
  hwx12_6 : ∀ i : grid12.Coords, EltTy.bits .f32 = 32 ∨ (Rect.block (s := S1x7) S1x7.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S10000x7.size a ≤ S100000x7.size a
  hwx12_7 : ∀ i : grid12.Coords, EltTy.bits .f32 = 32 ∨ (Rect.block (s := S100000x7) S10000x7.size (cc12_transform_7 i) (hinb12_7 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S32x64_S100000x1_S100000x64_1_0_n_n_0_1_164 : GatherDims S32x64 S100000x1 S100000x64 where
  offsetDims := [1]
  collapsedSliceDims := [0]
  operandBatchingDims := []
  startIndicesBatchingDims := []
  startIndexMap := [0]
  indexVectorDim := 1
  sliceSizes := ![1, 64]
  wf := gather_S32x64_S100000x1_S100000x64_1_0_n_n_0_1_164_wf
def dot_S10000x64_S64x192_S10000x192_1_0_0_1_n_n : DotDims S10000x64 S64x192 S10000x192 where
  lhsContracting := [1]
  rhsContracting := [0]
  lhsNonContracting := [0]
  rhsNonContracting := [1]
  lhsBatch := []
  rhsBatch := []
  wf := dot_S10000x64_S64x192_S10000x192_1_0_0_1_n_n_wf
def gather_S100000x3x64_S800000x1_S800000x3x64_12_0_n_n_0_1_1364 : GatherDims S100000x3x64 S800000x1 S800000x3x64 where
  offsetDims := [1, 2]
  collapsedSliceDims := [0]
  operandBatchingDims := []
  startIndicesBatchingDims := []
  startIndexMap := [0]
  indexVectorDim := 1
  sliceSizes := ![1, 3, 64]
  wf := gather_S100000x3x64_S800000x1_S800000x3x64_12_0_n_n_0_1_1364_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf

abbrev win0_0 : Pipeline.Window sig grid0 :=
  Pipeline.Window.ofSpec (Memref.whole main_v30) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S2x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S3x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S3x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S2000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S64x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v83) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S10000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v87) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v30) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S2x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S3x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v96) S3x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v97) S2000x3.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v98) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102) S64x192.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v103) S10000x192.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v118) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v129) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v130) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v133) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v136) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S10000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v137) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v30) S2000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v139) S2x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v142) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v144) S3x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v146) S3x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v147) S2000x3.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v148) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v152) S64x192.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v153) S10000x192.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v168) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v179) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v180) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v183) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v186) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v137) S10000x64.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v187) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v30) S2000x2.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v189) S2x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v192) S1x2.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v194) S3x2.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v196) S3x2.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v197) S2000x3.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v198) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v202) S64x192.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v203) S10000x192.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v218) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v229) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v230) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v233) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v236) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v187) S10000x64.size cc11_transform_5 reads11_5 false false 2 stage11_5 sem11_5
    hrank11 hreads11_5 hinb11_5 nbuf11_5 (Memref.isWhole_whole _) hwx11_5 hstage11_5

abbrev win11_6 : Pipeline.Window sig grid11 :=
  Pipeline.Window.ofSpec (Memref.whole main_v237) S10000x64.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v238) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v240) S64x32.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v245) S1x32.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v242) S32x16.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v246) S1x16.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v244) S16x7.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v247) S1x7.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v248) S10000x7.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

class Facts : Prop extends Facts₀ where

variable [Facts]
-- ==== ReferenceIdeal.lean ====
abbrev S100000 : Shape := ⟨1, ![100000]⟩
abbrev S2x800000 : Shape := ⟨2, ![2, 800000]⟩
abbrev S32x64 : Shape := ⟨2, ![32, 64]⟩
abbrev S4x192x64 : Shape := ⟨3, ![4, 192, 64]⟩
abbrev S4x3x2 : Shape := ⟨3, ![4, 3, 2]⟩
abbrev S4x64 : Shape := ⟨2, ![4, 64]⟩
abbrev S4x2x2 : Shape := ⟨3, ![4, 2, 2]⟩
abbrev S4x2 : Shape := ⟨2, ![4, 2]⟩
abbrev S32 : Shape := ⟨1, ![32]⟩
abbrev S16x32 : Shape := ⟨2, ![16, 32]⟩
abbrev S16 : Shape := ⟨1, ![16]⟩
abbrev S7x16 : Shape := ⟨2, ![7, 16]⟩
abbrev S7 : Shape := ⟨1, ![7]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S100000x1 : Shape := ⟨2, ![100000, 1]⟩
abbrev S100000x64 : Shape := ⟨2, ![100000, 64]⟩
abbrev S1x2x2 : Shape := ⟨3, ![1, 2, 2]⟩
abbrev S2x2 : Shape := ⟨2, ![2, 2]⟩
abbrev S1x2 : Shape := ⟨2, ![1, 2]⟩
abbrev S2 : Shape := ⟨1, ![2]⟩
abbrev S1x192x64 : Shape := ⟨3, ![1, 192, 64]⟩
abbrev S192x64 : Shape := ⟨2, ![192, 64]⟩
abbrev S64x192 : Shape := ⟨2, ![64, 192]⟩
abbrev S100000x192 : Shape := ⟨2, ![100000, 192]⟩
abbrev S100000x3x64 : Shape := ⟨3, ![100000, 3, 64]⟩
abbrev S800000x1x2 : Shape := ⟨3, ![800000, 1, 2]⟩
abbrev S1x3x2 : Shape := ⟨3, ![1, 3, 2]⟩
abbrev S3x2 : Shape := ⟨2, ![3, 2]⟩
abbrev S800000x3x2 : Shape := ⟨3, ![800000, 3, 2]⟩
abbrev S800000x3 : Shape := ⟨2, ![800000, 3]⟩
abbrev S800000x3x64 : Shape := ⟨3, ![800000, 3, 64]⟩
abbrev S800000x3x1 : Shape := ⟨3, ![800000, 3, 1]⟩
abbrev S64 : Shape := ⟨1, ![64]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩
abbrev S32x16 : Shape := ⟨2, ![32, 16]⟩
abbrev S100000x16 : Shape := ⟨2, ![100000, 16]⟩
abbrev S1x16 : Shape := ⟨2, ![1, 16]⟩
abbrev S16x7 : Shape := ⟨2, ![16, 7]⟩
abbrev S100000x7 : Shape := ⟨2, ![100000, 7]⟩
abbrev S1x7 : Shape := ⟨2, ![1, 7]⟩

abbrev nBuf : Space → Nat
  | .hbm => 449
  | .vmem => 0
  | .smem => 0
  | _ => 0

abbrev hbmTy0_0 (i : Nat) : BufTy := match i % 128 with
  | 0 => ⟨S100000, .i32⟩
  | 1 => ⟨S2x800000, .i32⟩
  | 2 => ⟨S32x64, .f32⟩
  | 3 => ⟨S4x192x64, .f32⟩
  | 4 => ⟨S4x3x2, .f32⟩
  | 5 => ⟨S4x3x2, .f32⟩
  | 6 => ⟨S4x64, .f32⟩
  | 7 => ⟨S4x64, .f32⟩
  | 8 => ⟨S4x2x2, .f32⟩
  | 9 => ⟨S4x2, .f32⟩
  | 10 => ⟨S32x64, .f32⟩
  | 11 => ⟨S32, .f32⟩
  | 12 => ⟨S16x32, .f32⟩
  | 13 => ⟨S16, .f32⟩
  | 14 => ⟨S7x16, .f32⟩
  | 15 => ⟨S7, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S100000, .f32⟩
  | 24 => ⟨S800000x1, .i32⟩
  | 25 => ⟨S100000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .f32⟩
  | 36 => ⟨S800000, .f32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S_, .f32⟩
  | 49 => ⟨S800000, .f32⟩
  | 50 => ⟨S800000, .f32⟩
  | 51 => ⟨S800000, .f32⟩
  | 52 => ⟨S800000x1, .f32⟩
  | 53 => ⟨S800000x1, .f32⟩
  | 54 => ⟨S800000x2, .f32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S100000x64, .f32⟩
  | 64 => ⟨S1x2x2, .f32⟩
  | 65 => ⟨S2x2, .f32⟩
  | 66 => ⟨S2x2, .f32⟩
  | 67 => ⟨S800000x2, .f32⟩
  | 68 => ⟨S1x2, .f32⟩
  | 69 => ⟨S2, .f32⟩
  | 70 => ⟨S1x2, .f32⟩
  | 71 => ⟨S800000x2, .f32⟩
  | 72 => ⟨S800000x2, .f32⟩
  | 73 => ⟨S800000x2, .f32⟩
  | 74 => ⟨S1x192x64, .f32⟩
  | 75 => ⟨S192x64, .f32⟩
  | 76 => ⟨S64x192, .f32⟩
  | 77 => ⟨S100000x192, .f32⟩
  | 78 => ⟨S100000x3x64, .f32⟩
  | 79 => ⟨S800000x1x2, .f32⟩
  | 80 => ⟨S1x3x2, .f32⟩
  | 81 => ⟨S3x2, .f32⟩
  | 82 => ⟨S1x3x2, .f32⟩
  | 83 => ⟨S800000x3x2, .f32⟩
  | 84 => ⟨S800000x3x2, .f32⟩
  | 85 => ⟨S800000x3x2, .f32⟩
  | 86 => ⟨S800000x3x2, .f32⟩
  | 87 => ⟨S1x3x2, .f32⟩
  | 88 => ⟨S3x2, .f32⟩
  | 89 => ⟨S1x3x2, .f32⟩
  | 90 => ⟨S1x3x2, .f32⟩
  | 91 => ⟨S800000x3x2, .f32⟩
  | 92 => ⟨S800000x3x2, .f32⟩
  | 93 => ⟨S_, .f32⟩
  | 94 => ⟨S800000x3, .f32⟩
  | 95 => ⟨S_, .f32⟩
  | 96 => ⟨S800000x3, .f32⟩
  | 97 => ⟨S800000x3, .f32⟩
  | 98 => ⟨S800000x3, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x3x64, .f32⟩
  | 108 => ⟨S800000x3x1, .f32⟩
  | 109 => ⟨S800000x3x64, .f32⟩
  | 110 => ⟨S800000x3x64, .f32⟩
  | 111 => ⟨S_, .f32⟩
  | 112 => ⟨S100000x3x64, .f32⟩
  | 113 => ⟨S800000x1, .i32⟩
  | 114 => ⟨S100000x3x64, .f32⟩
  | 115 => ⟨S_, .f32⟩
  | 116 => ⟨S100000x64, .f32⟩
  | 117 => ⟨S_, .f32⟩
  | 118 => ⟨S64, .f32⟩
  | 119 => ⟨S_, .f32⟩
  | 120 => ⟨S64, .f32⟩
  | 121 => ⟨S64, .f32⟩
  | 122 => ⟨S1x64, .f32⟩
  | 123 => ⟨S100000x64, .f32⟩
  | 124 => ⟨S100000x64, .f32⟩
  | 125 => ⟨S100000x64, .f32⟩
  | 126 => ⟨S_, .f32⟩
  | 127 => ⟨S64, .f32⟩
  | _ => ⟨S100000, .i32⟩

abbrev hbmTy0_1 (i : Nat) : BufTy := match i % 128 with
  | 0 => ⟨S_, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S_, .f32⟩
  | 7 => ⟨S64, .f32⟩
  | 8 => ⟨S64, .f32⟩
  | 9 => ⟨S64, .f32⟩
  | 10 => ⟨S1x64, .f32⟩
  | 11 => ⟨S100000x64, .f32⟩
  | 12 => ⟨S100000x64, .f32⟩
  | 13 => ⟨S1x64, .f32⟩
  | 14 => ⟨S64, .f32⟩
  | 15 => ⟨S1x64, .f32⟩
  | 16 => ⟨S100000x64, .f32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S1x2x2, .f32⟩
  | 28 => ⟨S2x2, .f32⟩
  | 29 => ⟨S2x2, .f32⟩
  | 30 => ⟨S800000x2, .f32⟩
  | 31 => ⟨S1x2, .f32⟩
  | 32 => ⟨S2, .f32⟩
  | 33 => ⟨S1x2, .f32⟩
  | 34 => ⟨S800000x2, .f32⟩
  | 35 => ⟨S800000x2, .f32⟩
  | 36 => ⟨S800000x2, .f32⟩
  | 37 => ⟨S1x192x64, .f32⟩
  | 38 => ⟨S192x64, .f32⟩
  | 39 => ⟨S64x192, .f32⟩
  | 40 => ⟨S100000x192, .f32⟩
  | 41 => ⟨S100000x3x64, .f32⟩
  | 42 => ⟨S800000x1x2, .f32⟩
  | 43 => ⟨S1x3x2, .f32⟩
  | 44 => ⟨S3x2, .f32⟩
  | 45 => ⟨S1x3x2, .f32⟩
  | 46 => ⟨S800000x3x2, .f32⟩
  | 47 => ⟨S800000x3x2, .f32⟩
  | 48 => ⟨S800000x3x2, .f32⟩
  | 49 => ⟨S800000x3x2, .f32⟩
  | 50 => ⟨S1x3x2, .f32⟩
  | 51 => ⟨S3x2, .f32⟩
  | 52 => ⟨S1x3x2, .f32⟩
  | 53 => ⟨S1x3x2, .f32⟩
  | 54 => ⟨S800000x3x2, .f32⟩
  | 55 => ⟨S800000x3x2, .f32⟩
  | 56 => ⟨S_, .f32⟩
  | 57 => ⟨S800000x3, .f32⟩
  | 58 => ⟨S_, .f32⟩
  | 59 => ⟨S800000x3, .f32⟩
  | 60 => ⟨S800000x3, .f32⟩
  | 61 => ⟨S800000x3, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x3x64, .f32⟩
  | 71 => ⟨S800000x3x1, .f32⟩
  | 72 => ⟨S800000x3x64, .f32⟩
  | 73 => ⟨S800000x3x64, .f32⟩
  | 74 => ⟨S_, .f32⟩
  | 75 => ⟨S100000x3x64, .f32⟩
  | 76 => ⟨S800000x1, .i32⟩
  | 77 => ⟨S100000x3x64, .f32⟩
  | 78 => ⟨S_, .f32⟩
  | 79 => ⟨S100000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S_, .f32⟩
  | 98 => ⟨S64, .f32⟩
  | 99 => ⟨S64, .f32⟩
  | 100 => ⟨S64, .f32⟩
  | 101 => ⟨S1x64, .f32⟩
  | 102 => ⟨S100000x64, .f32⟩
  | 103 => ⟨S100000x64, .f32⟩
  | 104 => ⟨S1x64, .f32⟩
  | 105 => ⟨S64, .f32⟩
  | 106 => ⟨S1x64, .f32⟩
  | 107 => ⟨S100000x64, .f32⟩
  | 108 => ⟨S100000x64, .f32⟩
  | 109 => ⟨S1x64, .f32⟩
  | 110 => ⟨S64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S1x2x2, .f32⟩
  | 119 => ⟨S2x2, .f32⟩
  | 120 => ⟨S2x2, .f32⟩
  | 121 => ⟨S800000x2, .f32⟩
  | 122 => ⟨S1x2, .f32⟩
  | 123 => ⟨S2, .f32⟩
  | 124 => ⟨S1x2, .f32⟩
  | 125 => ⟨S800000x2, .f32⟩
  | 126 => ⟨S800000x2, .f32⟩
  | 127 => ⟨S800000x2, .f32⟩
  | _ => ⟨S100000, .i32⟩

abbrev hbmTy0_2 (i : Nat) : BufTy := match i % 128 with
  | 0 => ⟨S1x192x64, .f32⟩
  | 1 => ⟨S192x64, .f32⟩
  | 2 => ⟨S64x192, .f32⟩
  | 3 => ⟨S100000x192, .f32⟩
  | 4 => ⟨S100000x3x64, .f32⟩
  | 5 => ⟨S800000x1x2, .f32⟩
  | 6 => ⟨S1x3x2, .f32⟩
  | 7 => ⟨S3x2, .f32⟩
  | 8 => ⟨S1x3x2, .f32⟩
  | 9 => ⟨S800000x3x2, .f32⟩
  | 10 => ⟨S800000x3x2, .f32⟩
  | 11 => ⟨S800000x3x2, .f32⟩
  | 12 => ⟨S800000x3x2, .f32⟩
  | 13 => ⟨S1x3x2, .f32⟩
  | 14 => ⟨S3x2, .f32⟩
  | 15 => ⟨S1x3x2, .f32⟩
  | 16 => ⟨S1x3x2, .f32⟩
  | 17 => ⟨S800000x3x2, .f32⟩
  | 18 => ⟨S800000x3x2, .f32⟩
  | 19 => ⟨S_, .f32⟩
  | 20 => ⟨S800000x3, .f32⟩
  | 21 => ⟨S_, .f32⟩
  | 22 => ⟨S800000x3, .f32⟩
  | 23 => ⟨S800000x3, .f32⟩
  | 24 => ⟨S800000x3, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x3x64, .f32⟩
  | 34 => ⟨S800000x3x1, .f32⟩
  | 35 => ⟨S800000x3x64, .f32⟩
  | 36 => ⟨S800000x3x64, .f32⟩
  | 37 => ⟨S_, .f32⟩
  | 38 => ⟨S100000x3x64, .f32⟩
  | 39 => ⟨S800000x1, .i32⟩
  | 40 => ⟨S100000x3x64, .f32⟩
  | 41 => ⟨S_, .f32⟩
  | 42 => ⟨S100000x64, .f32⟩
  | 43 => ⟨S_, .f32⟩
  | 44 => ⟨S64, .f32⟩
  | 45 => ⟨S_, .f32⟩
  | 46 => ⟨S64, .f32⟩
  | 47 => ⟨S64, .f32⟩
  | 48 => ⟨S1x64, .f32⟩
  | 49 => ⟨S100000x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S_, .f32⟩
  | 61 => ⟨S64, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S1x64, .f32⟩
  | 68 => ⟨S64, .f32⟩
  | 69 => ⟨S1x64, .f32⟩
  | 70 => ⟨S100000x64, .f32⟩
  | 71 => ⟨S100000x64, .f32⟩
  | 72 => ⟨S1x64, .f32⟩
  | 73 => ⟨S64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S1x2x2, .f32⟩
  | 82 => ⟨S2x2, .f32⟩
  | 83 => ⟨S2x2, .f32⟩
  | 84 => ⟨S800000x2, .f32⟩
  | 85 => ⟨S1x2, .f32⟩
  | 86 => ⟨S2, .f32⟩
  | 87 => ⟨S1x2, .f32⟩
  | 88 => ⟨S800000x2, .f32⟩
  | 89 => ⟨S800000x2, .f32⟩
  | 90 => ⟨S800000x2, .f32⟩
  | 91 => ⟨S1x192x64, .f32⟩
  | 92 => ⟨S192x64, .f32⟩
  | 93 => ⟨S64x192, .f32⟩
  | 94 => ⟨S100000x192, .f32⟩
  | 95 => ⟨S100000x3x64, .f32⟩
  | 96 => ⟨S800000x1x2, .f32⟩
  | 97 => ⟨S1x3x2, .f32⟩
  | 98 => ⟨S3x2, .f32⟩
  | 99 => ⟨S1x3x2, .f32⟩
  | 100 => ⟨S800000x3x2, .f32⟩
  | 101 => ⟨S800000x3x2, .f32⟩
  | 102 => ⟨S800000x3x2, .f32⟩
  | 103 => ⟨S800000x3x2, .f32⟩
  | 104 => ⟨S1x3x2, .f32⟩
  | 105 => ⟨S3x2, .f32⟩
  | 106 => ⟨S1x3x2, .f32⟩
  | 107 => ⟨S1x3x2, .f32⟩
  | 108 => ⟨S800000x3x2, .f32⟩
  | 109 => ⟨S800000x3x2, .f32⟩
  | 110 => ⟨S_, .f32⟩
  | 111 => ⟨S800000x3, .f32⟩
  | 112 => ⟨S_, .f32⟩
  | 113 => ⟨S800000x3, .f32⟩
  | 114 => ⟨S800000x3, .f32⟩
  | 115 => ⟨S800000x3, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x3x64, .f32⟩
  | 125 => ⟨S800000x3x1, .f32⟩
  | 126 => ⟨S800000x3x64, .f32⟩
  | 127 => ⟨S800000x3x64, .f32⟩
  | _ => ⟨S100000, .i32⟩

abbrev hbmTy0_3 (i : Nat) : BufTy := match i % 128 with
  | 0 => ⟨S_, .f32⟩
  | 1 => ⟨S100000x3x64, .f32⟩
  | 2 => ⟨S800000x1, .i32⟩
  | 3 => ⟨S100000x3x64, .f32⟩
  | 4 => ⟨S_, .f32⟩
  | 5 => ⟨S100000x64, .f32⟩
  | 6 => ⟨S_, .f32⟩
  | 7 => ⟨S64, .f32⟩
  | 8 => ⟨S_, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S64, .f32⟩
  | 17 => ⟨S_, .f32⟩
  | 18 => ⟨S64, .f32⟩
  | 19 => ⟨S64, .f32⟩
  | 20 => ⟨S1x64, .f32⟩
  | 21 => ⟨S100000x64, .f32⟩
  | 22 => ⟨S100000x64, .f32⟩
  | 23 => ⟨S_, .f32⟩
  | 24 => ⟨S64, .f32⟩
  | 25 => ⟨S64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S1x64, .f32⟩
  | 36 => ⟨S64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x64, .f32⟩
  | 44 => ⟨S64x32, .f32⟩
  | 45 => ⟨S100000x32, .f32⟩
  | 46 => ⟨S1x32, .f32⟩
  | 47 => ⟨S100000x32, .f32⟩
  | 48 => ⟨S100000x32, .f32⟩
  | 49 => ⟨S_, .f32⟩
  | 50 => ⟨S100000x32, .f32⟩
  | 51 => ⟨S100000x32, .f32⟩
  | 52 => ⟨S32x16, .f32⟩
  | 53 => ⟨S100000x16, .f32⟩
  | 54 => ⟨S1x16, .f32⟩
  | 55 => ⟨S100000x16, .f32⟩
  | 56 => ⟨S100000x16, .f32⟩
  | 57 => ⟨S_, .f32⟩
  | 58 => ⟨S100000x16, .f32⟩
  | 59 => ⟨S100000x16, .f32⟩
  | 60 => ⟨S16x7, .f32⟩
  | 61 => ⟨S100000x7, .f32⟩
  | 62 => ⟨S1x7, .f32⟩
  | 63 => ⟨S100000x7, .f32⟩
  | 64 => ⟨S100000x7, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_8 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_10 : Ref sig .tc := ⟨.hbm, 99, rfl⟩
abbrev main_v71 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_13 : Ref sig .tc := ⟨.hbm, 115, rfl⟩
abbrev main_v84 : Ref sig .tc := ⟨.hbm, 116, rfl⟩
abbrev main_cst_14 : Ref sig .tc := ⟨.hbm, 117, rfl⟩
abbrev main_v85 : Ref sig .tc := ⟨.hbm, 118, rfl⟩
abbrev main_cst_15 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_cst_17 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_18 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_call0_cst : Ref sig .tc := ⟨.hbm, 151, rfl⟩
abbrev main_call0_v0 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_19 : Ref sig .tc := ⟨.hbm, 184, rfl⟩
abbrev main_v145 : Ref sig .tc := ⟨.hbm, 185, rfl⟩
abbrev main_cst_20 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_c_21 : Ref sig .tc := ⟨.hbm, 190, rfl⟩
abbrev main_v149 : Ref sig .tc := ⟨.hbm, 191, rfl⟩
abbrev main_v150 : Ref sig .tc := ⟨.hbm, 192, rfl⟩
abbrev main_c_22 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_23 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_cst_24 : Ref sig .tc := ⟨.hbm, 206, rfl⟩
abbrev main_v162 : Ref sig .tc := ⟨.hbm, 207, rfl⟩
abbrev main_cst_25 : Ref sig .tc := ⟨.hbm, 208, rfl⟩
abbrev main_v163 : Ref sig .tc := ⟨.hbm, 209, rfl⟩
abbrev main_cst_26 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_27 : Ref sig .tc := ⟨.hbm, 217, rfl⟩
abbrev main_v170 : Ref sig .tc := ⟨.hbm, 218, rfl⟩
abbrev main_cst_28 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_29 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_call1_cst : Ref sig .tc := ⟨.hbm, 242, rfl⟩
abbrev main_call1_v0 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_cst_30 : Ref sig .tc := ⟨.hbm, 275, rfl⟩
abbrev main_v223 : Ref sig .tc := ⟨.hbm, 276, rfl⟩
abbrev main_cst_31 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_c_32 : Ref sig .tc := ⟨.hbm, 281, rfl⟩
abbrev main_v227 : Ref sig .tc := ⟨.hbm, 282, rfl⟩
abbrev main_v228 : Ref sig .tc := ⟨.hbm, 283, rfl⟩
abbrev main_c_33 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_cst_34 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_cst_35 : Ref sig .tc := ⟨.hbm, 297, rfl⟩
abbrev main_v240 : Ref sig .tc := ⟨.hbm, 298, rfl⟩
abbrev main_cst_36 : Ref sig .tc := ⟨.hbm, 299, rfl⟩
abbrev main_v241 : Ref sig .tc := ⟨.hbm, 300, rfl⟩
abbrev main_cst_37 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_cst_38 : Ref sig .tc := ⟨.hbm, 308, rfl⟩
abbrev main_v248 : Ref sig .tc := ⟨.hbm, 309, rfl⟩
abbrev main_cst_39 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_cst_40 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_call2_cst : Ref sig .tc := ⟨.hbm, 333, rfl⟩
abbrev main_call2_v0 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_cst_41 : Ref sig .tc := ⟨.hbm, 366, rfl⟩
abbrev main_v301 : Ref sig .tc := ⟨.hbm, 367, rfl⟩
abbrev main_cst_42 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_c_43 : Ref sig .tc := ⟨.hbm, 372, rfl⟩
abbrev main_v305 : Ref sig .tc := ⟨.hbm, 373, rfl⟩
abbrev main_v306 : Ref sig .tc := ⟨.hbm, 374, rfl⟩
abbrev main_c_44 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩
abbrev main_v313 : Ref sig .tc := ⟨.hbm, 382, rfl⟩
abbrev main_v314 : Ref sig .tc := ⟨.hbm, 383, rfl⟩
abbrev main_cst_45 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_cst_46 : Ref sig .tc := ⟨.hbm, 388, rfl⟩
abbrev main_v318 : Ref sig .tc := ⟨.hbm, 389, rfl⟩
abbrev main_cst_47 : Ref sig .tc := ⟨.hbm, 390, rfl⟩
abbrev main_v319 : Ref sig .tc := ⟨.hbm, 391, rfl⟩
abbrev main_cst_48 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_cst_49 : Ref sig .tc := ⟨.hbm, 399, rfl⟩
abbrev main_v326 : Ref sig .tc := ⟨.hbm, 400, rfl⟩
abbrev main_cst_50 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_cst_51 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_v340 : Ref sig .tc := ⟨.hbm, 416, rfl⟩
abbrev main_v341 : Ref sig .tc := ⟨.hbm, 417, rfl⟩
abbrev main_v342 : Ref sig .tc := ⟨.hbm, 418, rfl⟩
abbrev main_v343 : Ref sig .tc := ⟨.hbm, 419, rfl⟩
abbrev main_v344 : Ref sig .tc := ⟨.hbm, 420, rfl⟩
abbrev main_v345 : Ref sig .tc := ⟨.hbm, 421, rfl⟩
abbrev main_v346 : Ref sig .tc := ⟨.hbm, 422, rfl⟩
abbrev main_v347 : Ref sig .tc := ⟨.hbm, 423, rfl⟩
abbrev main_call3_cst : Ref sig .tc := ⟨.hbm, 424, rfl⟩
abbrev main_call3_v0 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_v354 : Ref sig .tc := ⟨.hbm, 432, rfl⟩
abbrev main_call4_cst : Ref sig .tc := ⟨.hbm, 433, rfl⟩
abbrev main_call4_v0 : Ref sig .tc := ⟨.hbm, 434, rfl⟩
abbrev main_v355 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_call5_cst : Ref sig .tc := ⟨.hbm, 441, rfl⟩
abbrev main_call5_v0 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_v365 : Ref sig .tc := ⟨.hbm, 447, rfl⟩
abbrev main_v366 : Ref sig .tc := ⟨.hbm, 448, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  bcast_S100000_S100000x1_0 : S100000.BroadcastsInDim S100000x1 (![0] : Fin 1 → Fin S100000x1.rank)
  slices_S4x2x2_S1x2x2_0_0_0 : S4x2x2.Slices ![0, 0, 0] S1x2x2
  shapeCasts_S1x2x2_S2x2 : S1x2x2.ShapeCasts S2x2
  transposes_S2x2_S2x2_1_0 : S2x2.Transposes [1, 0] S2x2
  slices_S4x2_S1x2_0_0 : S4x2.Slices ![0, 0] S1x2
  shapeCasts_S1x2_S2 : S1x2.ShapeCasts S2
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  slices_S4x192x64_S1x192x64_0_0_0 : S4x192x64.Slices ![0, 0, 0] S1x192x64
  shapeCasts_S1x192x64_S192x64 : S1x192x64.ShapeCasts S192x64
  transposes_S192x64_S64x192_1_0 : S192x64.Transposes [1, 0] S64x192
  shapeCasts_S100000x192_S100000x3x64 : S100000x192.ShapeCasts S100000x3x64
  bcast_S800000x2_S800000x1x2_0_2 : S800000x2.BroadcastsInDim S800000x1x2 (![0, 2] : Fin 2 → Fin S800000x1x2.rank)
  slices_S4x3x2_S1x3x2_0_0_0 : S4x3x2.Slices ![0, 0, 0] S1x3x2
  shapeCasts_S1x3x2_S3x2 : S1x3x2.ShapeCasts S3x2
  bcast_S3x2_S1x3x2_1_2 : S3x2.BroadcastsInDim S1x3x2 (![1, 2] : Fin 2 → Fin S1x3x2.rank)
  bcast_S800000x1x2_S800000x3x2_0_1_2 : S800000x1x2.BroadcastsInDim S800000x3x2 (![0, 1, 2] : Fin 3 → Fin S800000x3x2.rank)
  bcast_S1x3x2_S800000x3x2_0_1_2 : S1x3x2.BroadcastsInDim S800000x3x2 (![0, 1, 2] : Fin 3 → Fin S800000x3x2.rank)
  reducesTo_S800000x3x2_S800000x3_d2 : S800000x3x2.ReducesTo [2] S800000x3
  h_S_ : 0 < S_.numel
  bcast_S_S800000x3 : S_.BroadcastsInDim S800000x3 (![] : Fin 0 → Fin S800000x3.rank)
  bcast_S800000x3_S800000x3x1_0_1 : S800000x3.BroadcastsInDim S800000x3x1 (![0, 1] : Fin 2 → Fin S800000x3x1.rank)
  bcast_S800000x3x1_S800000x3x64_0_1_2 : S800000x3x1.BroadcastsInDim S800000x3x64 (![0, 1, 2] : Fin 3 → Fin S800000x3x64.rank)
  bcast_S_S100000x3x64 : S_.BroadcastsInDim S100000x3x64 (![] : Fin 0 → Fin S100000x3x64.rank)
  reducesTo_S100000x3x64_S100000x64_d1 : S100000x3x64.ReducesTo [1] S100000x64
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64_S1x64_0_0 : S4x64.Slices ![0, 0] S1x64
  shapeCasts_S1x64_S64 : S1x64.ShapeCasts S64
  bcast_S_S100000x64 : S_.BroadcastsInDim S100000x64 (![] : Fin 0 → Fin S100000x64.rank)
  slices_S4x2x2_S1x2x2_1_0_0 : S4x2x2.Slices ![1, 0, 0] S1x2x2
  slices_S4x2_S1x2_1_0 : S4x2.Slices ![1, 0] S1x2
  slices_S4x192x64_S1x192x64_1_0_0 : S4x192x64.Slices ![1, 0, 0] S1x192x64
  slices_S4x3x2_S1x3x2_1_0_0 : S4x3x2.Slices ![1, 0, 0] S1x3x2
  slices_S4x64_S1x64_1_0 : S4x64.Slices ![1, 0] S1x64
  slices_S4x2x2_S1x2x2_2_0_0 : S4x2x2.Slices ![2, 0, 0] S1x2x2
  slices_S4x2_S1x2_2_0 : S4x2.Slices ![2, 0] S1x2
  slices_S4x192x64_S1x192x64_2_0_0 : S4x192x64.Slices ![2, 0, 0] S1x192x64
  slices_S4x3x2_S1x3x2_2_0_0 : S4x3x2.Slices ![2, 0, 0] S1x3x2
  slices_S4x64_S1x64_2_0 : S4x64.Slices ![2, 0] S1x64
  slices_S4x2x2_S1x2x2_3_0_0 : S4x2x2.Slices ![3, 0, 0] S1x2x2
  slices_S4x2_S1x2_3_0 : S4x2.Slices ![3, 0] S1x2
  slices_S4x192x64_S1x192x64_3_0_0 : S4x192x64.Slices ![3, 0, 0] S1x192x64
  slices_S4x3x2_S1x3x2_3_0_0 : S4x3x2.Slices ![3, 0, 0] S1x3x2
  slices_S4x64_S1x64_3_0 : S4x64.Slices ![3, 0] S1x64
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S7x16_S16x7_1_0 : S7x16.Transposes [1, 0] S16x7
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S32x64_S100000x1_S100000x64_1_0_n_n_0_1_164_wf : GatherDims.WF S32x64 S100000x1 S100000x64 [1] [0] [] [0] [] 1 ![1, 64]
  dot_S800000x2_S2x2_S800000x2_1_0_0_1_n_n_wf : DotDims.WF S800000x2 S2x2 S800000x2 [1] [0] [0] [1] [] []
  dot_S100000x64_S64x192_S100000x192_1_0_0_1_n_n_wf : DotDims.WF S100000x64 S64x192 S100000x192 [1] [0] [0] [1] [] []
  gather_S100000x3x64_S800000x1_S800000x3x64_12_0_n_n_0_1_1364_wf : GatherDims.WF S100000x3x64 S800000x1 S800000x3x64 [1, 2] [0] [] [0] [] 1 ![1, 3, 64]
  scatter_S100000x3x64_S800000x1_S800000x3x64_12_0_0_1_wf : ScatterDims.WF S100000x3x64 S800000x1 S800000x3x64 [1, 2] [0] [0] 1
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  dot_S100000x16_S16x7_S100000x7_1_0_0_1_n_n_wf : DotDims.WF S100000x16 S16x7 S100000x7 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S32x64_S100000x1_S100000x64_1_0_n_n_0_1_164 : GatherDims S32x64 S100000x1 S100000x64 where
  offsetDims := [1]
  collapsedSliceDims := [0]
  operandBatchingDims := []
  startIndicesBatchingDims := []
  startIndexMap := [0]
  indexVectorDim := 1
  sliceSizes := ![1, 64]
  wf := gather_S32x64_S100000x1_S100000x64_1_0_n_n_0_1_164_wf
def dot_S800000x2_S2x2_S800000x2_1_0_0_1_n_n : DotDims S800000x2 S2x2 S800000x2 where
  lhsContracting := [1]
  rhsContracting := [0]
  lhsNonContracting := [0]
  rhsNonContracting := [1]
  lhsBatch := []
  rhsBatch := []
  wf := dot_S800000x2_S2x2_S800000x2_1_0_0_1_n_n_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def gather_S100000x3x64_S800000x1_S800000x3x64_12_0_n_n_0_1_1364 : GatherDims S100000x3x64 S800000x1 S800000x3x64 where
  offsetDims := [1, 2]
  collapsedSliceDims := [0]
  operandBatchingDims := []
  startIndicesBatchingDims := []
  startIndexMap := [0]
  indexVectorDim := 1
  sliceSizes := ![1, 3, 64]
  wf := gather_S100000x3x64_S800000x1_S800000x3x64_12_0_n_n_0_1_1364_wf
def scatter_S100000x3x64_S800000x1_S800000x3x64_12_0_0_1 : ScatterDims S100000x3x64 S800000x1 S800000x3x64 where
  updateWindowDims := [1, 2]
  insertedWindowDims := [0]
  scatterDimsToOperandDims := [0]
  indexVectorDim := 1
  wf := scatter_S100000x3x64_S800000x1_S800000x3x64_12_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf

class Facts : Prop extends Facts₀ where

variable [Facts]
-- ==== Proof.KRun.lean ====
/-
  The idealized kernel's run with its result named.  @main is thirteen kernel regions among stretches of host
  operations; the buffer contents at each boundary are a fold from the launch memory (the generated `W0 … W26`).
  Every weakly fair execution terminates without a fault, the argument arrays end as launched, and the result
  array `main_v248` ends at the last boundary's contents `W26`: the regions' launch theorem applied to the
  generated segments, the last thread state read against the final state at the result buffer as well.
-/
import proofs.«168295_j62088047231392_2_alg».proof.Proof.Gen.KernelIdeal.Frame

set_option maxRecDepth 16384

noncomputable section

namespace Cert.MoNet.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result buffer
    at the last boundary's contents and the arguments unchanged. -/
theorem run_named : θ_run defs (onTc (τ := τ) (main (F := F))) ⟨m, fun _ => 0, ρ⟩ (fun r => ∀ c : Dev nD,
      r.2.mem ((c.tc : Thread nD τ).loc main_v248) = W26 m ρ c (Proc.devRef .tc main_v248)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v248 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c)⟩)

end Cert.MoNet.KRun

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«168295_j62088047231392_2_alg».proof.Proof.LibDenseLayer
import proofs.«168295_j62088047231392_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibRowBias.lean ====
/-
  The two dense steps of a graph-convolution layer on the extended reals, in the spellings a vector unit and a host
  program give them.

  `dense x w b` is `x · w + b` with the bias `b` a function of the column. A vector unit that is handed the bias as
  a `[1, N]` row forms it as a matrix product into a zero accumulator plus the row broadcast over the rows
  (`vec_dense_row`); its two product operands may first have passed through changes of float format or of layout that
  leave every entry as it was, so the lemma takes operands that agree with `x` and `w` entry by entry. The host program
  forms the product by a general dot product and adds the bias vector broadcast over the rows (`host_dense`); with
  the zero row for a bias the layer is the bare product (`dense_zero_row`: `s + 0 = s` on the extended reals).

  `reluB a b` is `max (a + b) 0`, the bias added to every row and the rectifier applied, again in both spellings
  (`vec_reluB`, `host_reluB`). A `[1, N]` row that is a bias vector reshaped is, as a function of the column, that vector
  (`rowOf_cast`).
-/
import proofs.«168295_j62088047231392_2_alg».proof.Proof.LibDenseLayer
import proofs.«168295_j62088047231392_2_alg».proof.Proof.LibPlainMatmul
import proofs.«168295_j62088047231392_2_alg».proof.Proof.LibLayerForms
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibRowBias

open Idealize.ShloMosaic Idealize.ShloMosaic.ValueIdx Cert.DenseLayer Cert.LayerForms

/-- A `[1, N]` row as a function of the column. -/
def rowOf {N : ℕ} (b : (⟨2, ![1, N]⟩ : Shape).Idx → EReal) : Fin N → EReal := fun q => b (ix2 (0 : Fin 1) q)

/-- A bias added to every row, then the rectifier: entry `(p, q)` is `max (a (p, q) + b q) 0`. -/
def reluB {M N : ℕ} (a : (⟨2, ![M, N]⟩ : Shape).Idx → EReal) (b : Fin N → EReal) : (⟨2, ![M, N]⟩ : Shape).Idx → EReal :=
  fun i => max (a i + b (i 1)) 0

theorem reluB_ix2 {M N : ℕ} (a : (⟨2, ![M, N]⟩ : Shape).Idx → EReal) (b : Fin N → EReal) (p : Fin M) (q : Fin N) :
    reluB a b (ix2 p q) = max (a (ix2 p q) + b q) 0 := rfl

/-- An entry of a dense layer on a block of rows, a copy of the weights and a copy of the bias is the entry of the dense
    layer on the whole arrays in the row the block's row came from: the entry depends on that one row of the operand, on
    one column of the weights and on one entry of the bias. -/
theorem dense_block_apply {m M K N : ℕ} (xb : (⟨2, ![m, K]⟩ : Shape).Idx → EReal) (x : (⟨2, ![M, K]⟩ : Shape).Idx → EReal)
    (wb w : (⟨2, ![K, N]⟩ : Shape).Idx → EReal) (bb b : Fin N → EReal) (p : Fin m) (P : Fin M) (q : Fin N)
    (hx : ∀ k : Fin K, xb (ix2 p k) = x (ix2 P k)) (hw : ∀ k : Fin K, wb (ix2 k q) = w (ix2 k q)) (hb : bb q = b q) :
    dense xb wb bb (ix2 p q) = dense x w b (ix2 P q) := by
  show (∑ k : Fin K, xb (ix2 p k) * wb (ix2 k q)) + bb q = (∑ k : Fin K, x (ix2 P k) * w (ix2 k q)) + b q
  rw [hb]
  exact congrArg (· + b q) (Finset.sum_congr rfl fun k _ => by rw [hx, hw])

/-- The same for the bias-and-rectifier step: its entry `(p, q)` depends on entry `(p, q)` of the operand and on the bias
    at `q` only. -/
theorem reluB_block_apply {m M N : ℕ} (ab : (⟨2, ![m, N]⟩ : Shape).Idx → EReal) (a : (⟨2, ![M, N]⟩ : Shape).Idx → EReal)
    (bb b : Fin N → EReal) (p : Fin m) (P : Fin M) (q : Fin N)
    (ha : ab (ix2 p q) = a (ix2 P q)) (hb : bb q = b q) :
    reluB ab bb (ix2 p q) = reluB a b (ix2 P q) := by
  show max (ab (ix2 p q) + bb q) 0 = max (a (ix2 P q) + b q) 0
  rw [ha, hb]

/-- A bias vector reshaped to a `[1, N]` row is, column by column, the vector. -/
theorem rowOf_cast {N : ℕ} (b : FVec Ideal ⟨1, ![N]⟩ .f32) (hc : (⟨1, ![N]⟩ : Shape).ShapeCasts ⟨2, ![1, N]⟩) :
    rowOf (shapeCast ⟨2, ![1, N]⟩ b hc) = colBias b := by
  funext q
  show shapeCast ⟨2, ![1, N]⟩ b hc (ix2 (0 : Fin 1) q) = b (ix1 q)
  rw [shapeCast_a_1a_apply]

/-- The layer as a vector unit spells it, the bias a `[1, N]` row, the product's operands any arrays that agree entry by
    entry with `x` and `w`. -/
theorem vec_dense_row {M K N : ℕ} (D : DotDims ⟨2, ![M, K]⟩ ⟨2, ![K, N]⟩ ⟨2, ![M, N]⟩) (hD : D = DotDims.plain M K N)
    (prec : Option ContractPrecision) {φ₁ φ₂ : FTy} (x' : FVec Ideal ⟨2, ![M, K]⟩ φ₁) (w' : FVec Ideal ⟨2, ![K, N]⟩ φ₂)
    (x : (⟨2, ![M, K]⟩ : Shape).Idx → EReal) (w : (⟨2, ![K, N]⟩ : Shape).Idx → EReal)
    (hx : ∀ i, x' i = x i) (hw : ∀ i, w' i = w i)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x' w' (constant ⟨2, ![M, N]⟩ .f32 0x00000000#32))
        (broadcastTo ⟨2, ![M, N]⟩ (shapeCast ⟨2, ![1, N]⟩ b hc) hb)
      = dense x w (rowOf b) := by
  funext i
  obtain ⟨p, q, rfl⟩ : ∃ (p : Fin M) (q : Fin N), i = ix2 p q := ⟨i 0, i 1, eq_ix2 i⟩
  show FloatOps.matmul D prec x' w' (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]
  exact congrArg (· + b (ix2 (0 : Fin 1) q)) (Finset.sum_congr rfl fun k _ => by rw [hx, hw])

/-- The bias row and the rectifier as a vector unit spells them. -/
theorem vec_reluB {M N : ℕ} (a : FVec Ideal ⟨2, ![M, N]⟩ .f32) (b : FVec Ideal ⟨2, ![1, N]⟩ .f32)
    (hs : (⟨2, ![M, N]⟩ : Shape).ShapeCasts ⟨2, ![M, N]⟩) (hc : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a hs) (broadcastTo ⟨2, ![M, N]⟩ (shapeCast ⟨2, ![1, N]⟩ b hc) hb))
        (broadcast ⟨2, ![M, N]⟩ (Scalar.ofBits (F := Ideal) .f32 0x00000000#32))
      = reluB a (rowOf b) := by
  funext i
  obtain ⟨p, q, rfl⟩ : ∃ (p : Fin M) (q : Fin N), i = ix2 p q := ⟨i 0, i 1, eq_ix2 i⟩
  show max (shapeCast ⟨2, ![M, N]⟩ a hs (ix2 p q) + broadcastTo ⟨2, ![M, N]⟩ (shapeCast ⟨2, ![1, N]⟩ b hc) hb (ix2 p q))
      (Ideal.ofBits .f32 0x00000000#32) = max (a (ix2 p q) + b (ix2 (0 : Fin 1) q)) 0
  rw [shapeCast_self, broadcastTo_1b_ab_apply, shapeCast_self, Ideal.ofBits_zero_f32]

/-- The layer as a host program spells it: `dense` of the bias vector. -/
theorem host_dense {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) :=
  host_layer D hD prec x w b h1 h2

/-- With the zero row for a bias the layer is the bare product, which is the host's general dot product. -/
theorem dense_zero_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (h0 : (⟨0, ![]⟩ : Shape).BroadcastsInDim ⟨2, ![1, N]⟩ ![]) :
    dense x w (rowOf (broadcastInDim ⟨2, ![1, N]⟩ ![] h0 (constant (F := Ideal) ⟨0, ![]⟩ .f32 0x00000000#32)))
      = Host.dotGeneral D prec x w := by
  funext i
  obtain ⟨p, q, rfl⟩ : ∃ (p : Fin M) (q : Fin N), i = ix2 p q := ⟨i 0, i 1, eq_ix2 i⟩
  show (∑ k : Fin K, x (ix2 p k) * w (ix2 k q)) + Ideal.ofBits .f32 0x00000000#32
    = FloatOps.dotGeneral D prec .single x w (ix2 p q)
  rw [dotGeneral_plain_apply D hD, Ideal.ofBits_zero_f32, add_zero]

/-- A bias vector broadcast to a row along a new leading axis and that row broadcast over the rows, at `(p, q)`, is the
    vector at `q`. -/
theorem bcast_rows_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : q.val = if N = 1 then 0 else q.val := by
    split
    · have := q.isLt; omega
    · rfl
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ => exact hq
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ => exact hq
  rw [e2, e1]

/-- The bias and the rectifier as a host program spells them. -/
theorem host_reluB {M N : ℕ} (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluB a (colBias b) := by
  funext i
  obtain ⟨p, q, rfl⟩ : ∃ (p : Fin M) (q : Fin N), i = ix2 p q := ⟨i 0, i 1, eq_ix2 i⟩
  show max (a (ix2 p q) + broadcastInDim ⟨2, ![M, N]⟩ ![0, 1] h2 (broadcastInDim ⟨2, ![1, N]⟩ ![1] h1 b) (ix2 p q))
      (Ideal.ofBits .f32 0x00000000#32) = max (a (ix2 p q) + b (ix1 q)) 0
  rw [bcast_rows_apply, Ideal.ofBits_zero_f32]

end Cert.LibRowBias

end
-- ==== Proof.LibPerceptron3.lean ====
/-
  A perceptron of three dense layers on the extended reals with a rectifier after the first and after the second:
  `x ↦ max (max (x · w₁ + b₁) 0 · w₂ + b₂) 0 · w₃ + b₃`, for `x : [M, K]`, weights `[K, A]`, `[A, B]`, `[B, C]` and a bias per
  column of each layer (`mlp3`).

  Row `p` of the result depends on row `p` of `x` only, so the perceptron of a block of rows is that block of rows of the
  perceptron of all rows (`mlp3_rows`).

  A vector unit that is handed each bias as a `[1, N]` row spells a layer as a matrix product into a zero accumulator plus
  the row broadcast over the rows, the rectifier as the maximum with a scalar zero broadcast to the shape, and narrows the
  operands of every product to a shorter float format first; on the extended reals a change of float format leaves every
  entry as it was, so that spelling is `mlp3` of the rows' entries (`vec_mlp3`). A host program spells a layer as a general
  dot product plus the bias vector broadcast to a row and the row over the rows, and the rectifier as the maximum with a
  rank-0 zero broadcast to the shape: `mlp3` of the bias vectors' entries (`host_mlp3`).
-/
import proofs.«168295_j62088047231392_2_alg».proof.Proof.LibDenseLayer
import proofs.«168295_j62088047231392_2_alg».proof.Proof.LibPlainMatmul
import proofs.«168295_j62088047231392_2_alg».proof.Proof.LibLayerForms
import proofs.«168295_j62088047231392_2_alg».proof.Proof.LibRowBias
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibPerceptron3

open Idealize.ShloMosaic Idealize.ShloMosaic.ValueIdx Cert.DenseLayer Cert.LayerForms Cert.LibRowBias

/-- The perceptron: three dense layers, the first two followed by the rectifier. -/
def mlp3 {M K A B C : ℕ} (x : (⟨2, ![M, K]⟩ : Shape).Idx → EReal)
    (w1 : (⟨2, ![K, A]⟩ : Shape).Idx → EReal) (b1 : Fin A → EReal)
    (w2 : (⟨2, ![A, B]⟩ : Shape).Idx → EReal) (b2 : Fin B → EReal)
    (w3 : (⟨2, ![B, C]⟩ : Shape).Idx → EReal) (b3 : Fin C → EReal) : (⟨2, ![M, C]⟩ : Shape).Idx → EReal :=
  dense (relu (dense (relu (dense x w1 b1)) w2 b2)) w3 b3

/-- The perceptron of a block of rows is that block of rows of the perceptron. -/
theorem mlp3_rows {m M K A B C : ℕ} {xb : (⟨2, ![m, K]⟩ : Shape).Idx → EReal} {x : (⟨2, ![M, K]⟩ : Shape).Idx → EReal} {off : ℕ}
    (h : RowsAgree xb x off)
    (w1 : (⟨2, ![K, A]⟩ : Shape).Idx → EReal) (b1 : Fin A → EReal)
    (w2 : (⟨2, ![A, B]⟩ : Shape).Idx → EReal) (b2 : Fin B → EReal)
    (w3 : (⟨2, ![B, C]⟩ : Shape).Idx → EReal) (b3 : Fin C → EReal) :
    RowsAgree (mlp3 xb w1 b1 w2 b2 w3 b3) (mlp3 x w1 b1 w2 b2 w3 b3) off :=
  dense_rows (relu_rows (dense_rows (relu_rows (dense_rows h w1 b1)) w2 b2)) w3 b3

/-- The rectifier in a vector unit's spelling, then a change of float format: entry by entry the rectifier. -/
theorem vec_relu_narrow {S : Shape} {ψ : FTy} (v : FVec Ideal S .f32) (u : S.Idx → EReal) (hv : v = u)
    (ht : ψ.bits < FTy.bits .f32) (i : S.Idx) :
    truncf ψ (maximumf v (broadcast S (Scalar.ofBits (F := Ideal) .f32 0x00000000#32))) ht i = relu u i := by
  subst hv
  exact congrFun (vec_relu v) i

/-- The perceptron as a vector unit spells it, the biases `[1, N]` rows, the products' operands narrowed. -/
theorem vec_mlp3 {M K A B C : ℕ} {ψ : FTy}
    (D1 : DotDims ⟨2, ![M, K]⟩ ⟨2, ![K, A]⟩ ⟨2, ![M, A]⟩) (hD1 : D1 = DotDims.plain M K A)
    (D2 : DotDims ⟨2, ![M, A]⟩ ⟨2, ![A, B]⟩ ⟨2, ![M, B]⟩) (hD2 : D2 = DotDims.plain M A B)
    (D3 : DotDims ⟨2, ![M, B]⟩ ⟨2, ![B, C]⟩ ⟨2, ![M, C]⟩) (hD3 : D3 = DotDims.plain M B C)
    (prec : Option ContractPrecision) (ht : ψ.bits < FTy.bits .f32)
    (x : FVec Ideal ⟨2, ![M, K]⟩ ψ) (hx : (⟨2, ![M, K]⟩ : Shape).ShapeCasts ⟨2, ![M, K]⟩)
    (w1 : FVec Ideal ⟨2, ![K, A]⟩ ψ) (hw1 : (⟨2, ![K, A]⟩ : Shape).ShapeCasts ⟨2, ![K, A]⟩)
    (b1 : FVec Ideal ⟨2, ![1, A]⟩ .f32) (hc1 : (⟨2, ![1, A]⟩ : Shape).ShapeCasts ⟨2, ![1, A]⟩)
    (hb1 : (⟨2, ![1, A]⟩ : Shape).Broadcasts ⟨2, ![M, A]⟩)
    (w2 : FVec Ideal ⟨2, ![A, B]⟩ ψ) (hw2 : (⟨2, ![A, B]⟩ : Shape).ShapeCasts ⟨2, ![A, B]⟩)
    (b2 : FVec Ideal ⟨2, ![1, B]⟩ .f32) (hc2 : (⟨2, ![1, B]⟩ : Shape).ShapeCasts ⟨2, ![1, B]⟩)
    (hb2 : (⟨2, ![1, B]⟩ : Shape).Broadcasts ⟨2, ![M, B]⟩)
    (w3 : FVec Ideal ⟨2, ![B, C]⟩ ψ) (hw3 : (⟨2, ![B, C]⟩ : Shape).ShapeCasts ⟨2, ![B, C]⟩)
    (b3 : FVec Ideal ⟨2, ![1, C]⟩ .f32) (hc3 : (⟨2, ![1, C]⟩ : Shape).ShapeCasts ⟨2, ![1, C]⟩)
    (hb3 : (⟨2, ![1, C]⟩ : Shape).Broadcasts ⟨2, ![M, C]⟩) :
    addf (matmul D3 prec
          (truncf ψ (maximumf
            (addf (matmul D2 prec
                (truncf ψ (maximumf
                  (addf (matmul D1 prec (shapeCast ⟨2, ![M, K]⟩ x hx) (shapeCast ⟨2, ![K, A]⟩ w1 hw1)
                      (constant ⟨2, ![M, A]⟩ .f32 0x00000000#32))
                    (broadcastTo ⟨2, ![M, A]⟩ (shapeCast ⟨2, ![1, A]⟩ b1 hc1) hb1))
                  (broadcast ⟨2, ![M, A]⟩ (Scalar.ofBits (F := Ideal) .f32 0x00000000#32))) ht)
                (shapeCast ⟨2, ![A, B]⟩ w2 hw2) (constant ⟨2, ![M, B]⟩ .f32 0x00000000#32))
              (broadcastTo ⟨2, ![M, B]⟩ (shapeCast ⟨2, ![1, B]⟩ b2 hc2) hb2))
            (broadcast ⟨2, ![M, B]⟩ (Scalar.ofBits (F := Ideal) .f32 0x00000000#32))) ht)
          (shapeCast ⟨2, ![B, C]⟩ w3 hw3) (constant ⟨2, ![M, C]⟩ .f32 0x00000000#32))
        (broadcastTo ⟨2, ![M, C]⟩ (shapeCast ⟨2, ![1, C]⟩ b3 hc3) hb3)
      = mlp3 x w1 (rowOf b1) w2 (rowOf b2) w3 (rowOf b3) := by
  have e1 := vec_dense_row D1 hD1 prec (shapeCast ⟨2, ![M, K]⟩ x hx) (shapeCast ⟨2, ![K, A]⟩ w1 hw1) x w1
    (fun i => by rw [shapeCast_self]) (fun i => by rw [shapeCast_self]) b1 hc1 hb1
  have e2 := vec_dense_row D2 hD2 prec _ (shapeCast ⟨2, ![A, B]⟩ w2 hw2) (relu (dense x w1 (rowOf b1))) w2
    (vec_relu_narrow _ _ e1 ht) (fun i => by rw [shapeCast_self]) b2 hc2 hb2
  exact vec_dense_row D3 hD3 prec _ (shapeCast ⟨2, ![B, C]⟩ w3 hw3) (relu (dense (relu (dense x w1 (rowOf b1))) w2 (rowOf b2))) w3
    (vec_relu_narrow _ _ e2 ht) (fun i => by rw [shapeCast_self]) b3 hc3 hb3

/-- The perceptron as a host program spells it, the biases vectors. -/
theorem host_mlp3 {M K A B C : ℕ}
    (D1 : DotDims ⟨2, ![M, K]⟩ ⟨2, ![K, A]⟩ ⟨2, ![M, A]⟩) (hD1 : D1 = DotDims.plain M K A)
    (D2 : DotDims ⟨2, ![M, A]⟩ ⟨2, ![A, B]⟩ ⟨2, ![M, B]⟩) (hD2 : D2 = DotDims.plain M A B)
    (D3 : DotDims ⟨2, ![M, B]⟩ ⟨2, ![B, C]⟩ ⟨2, ![M, C]⟩) (hD3 : D3 = DotDims.plain M B C)
    (prec : Option ContractPrecision)
    (x : FVec Ideal ⟨2, ![M, K]⟩ .f32)
    (w1 : FVec Ideal ⟨2, ![K, A]⟩ .f32) (b1 : FVec Ideal ⟨1, ![A]⟩ .f32)
    (h11 : (⟨1, ![A]⟩ : Shape).BroadcastsInDim ⟨2, ![1, A]⟩ ![1])
    (h12 : (⟨2, ![1, A]⟩ : Shape).BroadcastsInDim ⟨2, ![M, A]⟩ ![0, 1])
    (h10 : (⟨0, ![]⟩ : Shape).BroadcastsInDim ⟨2, ![M, A]⟩ ![])
    (w2 : FVec Ideal ⟨2, ![A, B]⟩ .f32) (b2 : FVec Ideal ⟨1, ![B]⟩ .f32)
    (h21 : (⟨1, ![B]⟩ : Shape).BroadcastsInDim ⟨2, ![1, B]⟩ ![1])
    (h22 : (⟨2, ![1, B]⟩ : Shape).BroadcastsInDim ⟨2, ![M, B]⟩ ![0, 1])
    (h20 : (⟨0, ![]⟩ : Shape).BroadcastsInDim ⟨2, ![M, B]⟩ ![])
    (w3 : FVec Ideal ⟨2, ![B, C]⟩ .f32) (b3 : FVec Ideal ⟨1, ![C]⟩ .f32)
    (h31 : (⟨1, ![C]⟩ : Shape).BroadcastsInDim ⟨2, ![1, C]⟩ ![1])
    (h32 : (⟨2, ![1, C]⟩ : Shape).BroadcastsInDim ⟨2, ![M, C]⟩ ![0, 1]) :
    addf (Host.dotGeneral D3 prec
          (maximumf
            (addf (Host.dotGeneral D2 prec
                (maximumf
                  (addf (Host.dotGeneral D1 prec x w1)
                    (broadcastInDim ⟨2, ![M, A]⟩ ![0, 1] h12 (broadcastInDim ⟨2, ![1, A]⟩ ![1] h11 b1)))
                  (broadcastInDim ⟨2, ![M, A]⟩ ![] h10 (constant (F := Ideal) ⟨0, ![]⟩ .f32 0x00000000#32)))
                w2)
              (broadcastInDim ⟨2, ![M, B]⟩ ![0, 1] h22 (broadcastInDim ⟨2, ![1, B]⟩ ![1] h21 b2)))
            (broadcastInDim ⟨2, ![M, B]⟩ ![] h20 (constant (F := Ideal) ⟨0, ![]⟩ .f32 0x00000000#32)))
          w3)
        (broadcastInDim ⟨2, ![M, C]⟩ ![0, 1] h32 (broadcastInDim ⟨2, ![1, C]⟩ ![1] h31 b3))
      = mlp3 x w1 (colBias b1) w2 (colBias b2) w3 (colBias b3) := by
  unfold mlp3
  rw [host_layer D1 hD1 prec x w1 b1 h11 h12, host_relu _ h10,
    host_layer D2 hD2 prec (relu (dense x w1 (colBias b1))) w2 b2 h21 h22, host_relu _ h20,
    host_layer D3 hD3 prec (relu (dense (relu (dense x w1 (colBias b1))) w2 (colBias b2))) w3 b3 h31 h32]

end Cert.LibPerceptron3

end
-- ==== Proof.MlpPayload.lean ====
/-
  The readout of the network: a perceptron of three dense layers, 64 → 32 → 16 → 7, a rectifier after the first and after
  the second, applied to every one of the 100000 rows of the last graph layer's output:
  `y = max (max (h · w₁ + b₁) 0 · w₂ + b₂) 0 · w₃ + b₃`, the weights as `[64, 32]`, `[32, 16]`, `[16, 7]` matrices, each bias
  as a `[1, N]` row.

  `MlpK` is that array as a function of the seven arrays the vector unit's program is handed, in the order it is handed
  them. The program works on a block of 10000 rows at a time, with the weights and the bias rows whole; it narrows the
  operands of each product to a shorter float format, which changes no entry on the extended reals. What it computes on
  a block is the perceptron of the block (`mlp_payload`), and since row `p` of a perceptron depends on row `p` of its
  operand only, that is the corresponding block of rows of `MlpK` (`mlp_block`).
-/
import proofs.«168295_j62088047231392_2_alg».proof.Proof.Gen.KernelIdeal.Skeleton
import proofs.«168295_j62088047231392_2_alg».proof.Proof.LibLayerForms
import proofs.«168295_j62088047231392_2_alg».proof.Proof.LibRowBias
import proofs.«168295_j62088047231392_2_alg».proof.Proof.LibPerceptron3
import Idealize.ShloMosaic.PureOps.Ideal.Laws
import Idealize.ShloMosaic.Lib.Pipeline.Value
import Idealize.ShloMosaic.Lib.ValueIdx
import Idealize.ShloMosaic.Lib.ValueLayout

noncomputable section

namespace Cert.MoNet

open Idealize.ShloMosaic Idealize.ShloMosaic.ValueIdx Cert.KernelIdeal Cert.LayerForms Cert.LibRowBias Cert.LibPerceptron3

/-- The readout of all 100000 rows, from the rows, the three weight matrices and the three bias rows. -/
def MlpK (h : (⟨S100000x64, .bf16⟩ : BufTy).Contents (Elt Ideal))
    (w1 : (⟨S64x32, .bf16⟩ : BufTy).Contents (Elt Ideal)) (b1 : (⟨S1x32, .f32⟩ : BufTy).Contents (Elt Ideal))
    (w2 : (⟨S32x16, .bf16⟩ : BufTy).Contents (Elt Ideal)) (b2 : (⟨S1x16, .f32⟩ : BufTy).Contents (Elt Ideal))
    (w3 : (⟨S16x7, .bf16⟩ : BufTy).Contents (Elt Ideal)) (b3 : (⟨S1x7, .f32⟩ : BufTy).Contents (Elt Ideal)) :
    (⟨S100000x7, .f32⟩ : BufTy).Contents (Elt Ideal) :=
  mlp3 (M := 100000) (K := 64) (A := 32) (B := 16) (C := 7) h w1 (rowOf b1) w2 (rowOf b2) w3 (rowOf b3)

/-- What the program computes from a block of 10000 rows, the weights and the bias rows: the perceptron of the block. -/
theorem mlp_payload (x0 : Vec Ideal S10000x64 .bf16) (x1 : Vec Ideal S64x32 .bf16) (x2 : Vec Ideal S1x32 .f32)
    (x3 : Vec Ideal S32x16 .bf16) (x4 : Vec Ideal S1x16 .f32) (x5 : Vec Ideal S16x7 .bf16) (x6 : Vec Ideal S1x7 .f32) :
    Cert.KernelIdeal.Gen.k12_pay1 (F := Ideal) x0 x1 x2 x3 x4 x5 x6
      = mlp3 (M := 10000) (K := 64) (A := 32) (B := 16) (C := 7) x0 x1 (rowOf x2) x3 (rowOf x4) x5 (rowOf x6) := by
  unfold Cert.KernelIdeal.Gen.k12_pay1
  exact vec_mlp3 (M := 10000) (K := 64) (A := 32) (B := 16) (C := 7) (ψ := .bf16)
    dot_S10000x64_S64x32_S10000x32_1_0_0_1_n_n rfl dot_S10000x32_S32x16_S10000x16_1_0_0_1_n_n rfl
    dot_S10000x16_S16x7_S10000x7_1_0_0_1_n_n rfl none _ x0 _ x1 _ x2 _ _ x3 _ x4 _ _ x5 _ x6 _ _

/-- An entry of what the program computes from a block: when the block's rows are rows `off, off + 1, …` of `X0` and
    the weights and bias rows are the whole arrays, it is the entry of the readout of all rows in the row the block's
    row came from. -/
theorem mlp_block (X0 : (⟨S100000x64, .bf16⟩ : BufTy).Contents (Elt Ideal))
    (X1 : (⟨S64x32, .bf16⟩ : BufTy).Contents (Elt Ideal)) (X2 : (⟨S1x32, .f32⟩ : BufTy).Contents (Elt Ideal))
    (X3 : (⟨S32x16, .bf16⟩ : BufTy).Contents (Elt Ideal)) (X4 : (⟨S1x16, .f32⟩ : BufTy).Contents (Elt Ideal))
    (X5 : (⟨S16x7, .bf16⟩ : BufTy).Contents (Elt Ideal)) (X6 : (⟨S1x7, .f32⟩ : BufTy).Contents (Elt Ideal))
    (x0 : Vec Ideal S10000x64 .bf16) (x1 : Vec Ideal S64x32 .bf16) (x2 : Vec Ideal S1x32 .f32)
    (x3 : Vec Ideal S32x16 .bf16) (x4 : Vec Ideal S1x16 .f32) (x5 : Vec Ideal S16x7 .bf16) (x6 : Vec Ideal S1x7 .f32)
    (off : ℕ) (h0 : RowsAgree (m := 10000) (M := 100000) (K := 64) x0 X0 off)
    (h1 : x1 = X1) (h2 : x2 = X2) (h3 : x3 = X3) (h4 : x4 = X4) (h5 : x5 = X5) (h6 : x6 = X6)
    (p : Fin 10000) (P : Fin 100000) (hP : P.val = off + p.val) (q : Fin 7) :
    Cert.KernelIdeal.Gen.k12_pay1 (F := Ideal) x0 x1 x2 x3 x4 x5 x6 (ix2 p q) = MlpK X0 X1 X2 X3 X4 X5 X6 (ix2 P q) := by
  subst h1 h2 h3 h4 h5 h6
  rw [mlp_payload]
  exact mlp3_rows h0 x1 (rowOf x2) x3 (rowOf x4) x5 (rowOf x6) p P hP q

end Cert.MoNet

end
-- ==== Proof.MlpRegion12.lean ====
/-
  The array the readout region leaves. The region runs over ten points; at point `t` it is handed rows
  `10000 t … 10000 t + 9999` of the 100000 input rows together with the three weight matrices and the three bias rows
  whole, and writes rows `10000 t … 10000 t + 9999` of its result. What it writes at a point is the corresponding block of
  rows of the readout of all rows (`MlpK`), because a row of the readout depends on the same row of the input only; the
  ten blocks cover the result, so after the region the result array is `MlpK` of the seven input arrays as the region found
  them.
-/
import proofs.«168295_j62088047231392_2_alg».proof.Proof.Gen.KernelIdeal.Frame
import proofs.«168295_j62088047231392_2_alg».proof.Proof.MlpPayload
import Idealize.ShloMosaic.Lib.Pipeline.Value
import Idealize.ShloMosaic.Lib.ValueIdx

noncomputable section

namespace Cert.MoNet

open Idealize.ShloMosaic Idealize.ShloMosaic.TcCoe Idealize.ShloMosaic.ValueIdx Idealize.SL.Sem
open Idealize.ShloMosaic.Pipeline (Dat)
open Cert.KernelIdeal Cert.KernelIdeal.Gen Cert.LayerForms

variable (V : (c : Dev nD) → (b : Ref sig .tc) → Buf (Elt Ideal) ((c : Thread nD τ).loc b))

theorem zero_offsets12 : (![0, 0] : Fin 2 → Nat) = fun _ => 0 := funext fun a => by fin_cases a <;> rfl

/-- The block indices of the region's windows at every point: the rows' and the result's block moves with the point along
    the rows; the weights and the bias rows are one block each. -/
theorem block_indices12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 2) = t.val ∧ win12_7.index t (1 : Fin 2) = 0 :=
  (by decide +kernel : ∀ t : Fin grid12.N, _)

/-- The rows' block at point `t` is rows `10000 t, 10000 t + 1, …` of the rows' array. -/
theorem rows_block12 (c : Dev nD) (t : Fin cfg12.N) :
    RowsAgree (m := 10000) (M := 100000) (K := 64) (iblk12 V c 0 t) (V c (Pipeline.arrRef spec12 0)) (10000 * t.val) := by
  intro p P hP k
  obtain ⟨e0, e1, -⟩ := block_indices12 t
  unfold iblk12
  rw [View.read_apply]
  show V c main_v238 (((cfg12.win 0).blk t).view.emb (ix2 p k)) = V c main_v238 (ix2 P k)
  refine congrArg (V c main_v238) (funext fun a => Fin.ext ?_)
  match a with
  | ⟨0, _⟩ => show win12_0.index t (0 : Fin 2) * 10000 + 1 * p.val = P.val; rw [e0, hP]; omega
  | ⟨1, _⟩ => show win12_0.index t (1 : Fin 2) * 64 + 1 * k.val = k.val; rw [e1]; omega

/-- The first weight matrix's block at any point is the whole matrix. -/
theorem whole_block12_1 (c : Dev nD) (t : Fin cfg12.N) : iblk12 V c 1 t = V c (Pipeline.arrRef spec12 1) := by
  obtain ⟨-, -, e0, e1, -⟩ := block_indices12 t
  funext y
  unfold iblk12
  rw [View.read_apply]
  show V c main_v240 (((cfg12.win 1).blk t).view.emb y) = V c main_v240 y
  refine congrArg (V c main_v240) (funext fun a => Fin.ext ?_)
  match a with
  | ⟨0, _⟩ => show win12_1.index t (0 : Fin 2) * 64 + 1 * (y 0).val = (y 0).val; rw [e0]; omega
  | ⟨1, _⟩ => show win12_1.index t (1 : Fin 2) * 32 + 1 * (y 1).val = (y 1).val; rw [e1]; omega

/-- The first bias row's block at any point is the whole row. -/
theorem whole_block12_2 (c : Dev nD) (t : Fin cfg12.N) : iblk12 V c 2 t = V c (Pipeline.arrRef spec12 2) := by
  obtain ⟨-, -, -, -, e0, e1, -⟩ := block_indices12 t
  funext y
  unfold iblk12
  rw [View.read_apply]
  show V c main_v245 (((cfg12.win 2).blk t).view.emb y) = V c main_v245 y
  refine congrArg (V c main_v245) (funext fun a => Fin.ext ?_)
  match a with
  | ⟨0, _⟩ => show win12_2.index t (0 : Fin 2) * 1 + 1 * (y 0).val = (y 0).val; rw [e0]; omega
  | ⟨1, _⟩ => show win12_2.index t (1 : Fin 2) * 32 + 1 * (y 1).val = (y 1).val; rw [e1]; omega

/-- The second weight matrix's block at any point is the whole matrix. -/
theorem whole_block12_3 (c : Dev nD) (t : Fin cfg12.N) : iblk12 V c 3 t = V c (Pipeline.arrRef spec12 3) := by
  obtain ⟨-, -, -, -, -, -, e0, e1, -⟩ := block_indices12 t
  funext y
  unfold iblk12
  rw [View.read_apply]
  show V c main_v242 (((cfg12.win 3).blk t).view.emb y) = V c main_v242 y
  refine congrArg (V c main_v242) (funext fun a => Fin.ext ?_)
  match a with
  | ⟨0, _⟩ => show win12_3.index t (0 : Fin 2) * 32 + 1 * (y 0).val = (y 0).val; rw [e0]; omega
  | ⟨1, _⟩ => show win12_3.index t (1 : Fin 2) * 16 + 1 * (y 1).val = (y 1).val; rw [e1]; omega

/-- The second bias row's block at any point is the whole row. -/
theorem whole_block12_4 (c : Dev nD) (t : Fin cfg12.N) : iblk12 V c 4 t = V c (Pipeline.arrRef spec12 4) := by
  obtain ⟨-, -, -, -, -, -, -, -, e0, e1, -⟩ := block_indices12 t
  funext y
  unfold iblk12
  rw [View.read_apply]
  show V c main_v246 (((cfg12.win 4).blk t).view.emb y) = V c main_v246 y
  refine congrArg (V c main_v246) (funext fun a => Fin.ext ?_)
  match a with
  | ⟨0, _⟩ => show win12_4.index t (0 : Fin 2) * 1 + 1 * (y 0).val = (y 0).val; rw [e0]; omega
  | ⟨1, _⟩ => show win12_4.index t (1 : Fin 2) * 16 + 1 * (y 1).val = (y 1).val; rw [e1]; omega

/-- The third weight matrix's block at any point is the whole matrix. -/
theorem whole_block12_5 (c : Dev nD) (t : Fin cfg12.N) : iblk12 V c 5 t = V c (Pipeline.arrRef spec12 5) := by
  obtain ⟨-, -, -, -, -, -, -, -, -, -, e0, e1, -⟩ := block_indices12 t
  funext y
  unfold iblk12
  rw [View.read_apply]
  show V c main_v244 (((cfg12.win 5).blk t).view.emb y) = V c main_v244 y
  refine congrArg (V c main_v244) (funext fun a => Fin.ext ?_)
  match a with
  | ⟨0, _⟩ => show win12_5.index t (0 : Fin 2) * 16 + 1 * (y 0).val = (y 0).val; rw [e0]; omega
  | ⟨1, _⟩ => show win12_5.index t (1 : Fin 2) * 7 + 1 * (y 1).val = (y 1).val; rw [e1]; omega

/-- The third bias row's block at any point is the whole row. -/
theorem whole_block12_6 (c : Dev nD) (t : Fin cfg12.N) : iblk12 V c 6 t = V c (Pipeline.arrRef spec12 6) := by
  obtain ⟨-, -, -, -, -, -, -, -, -, -, -, -, e0, e1, -⟩ := block_indices12 t
  funext y
  unfold iblk12
  rw [View.read_apply]
  show V c main_v247 (((cfg12.win 6).blk t).view.emb y) = V c main_v247 y
  refine congrArg (V c main_v247) (funext fun a => Fin.ext ?_)
  match a with
  | ⟨0, _⟩ => show win12_6.index t (0 : Fin 2) * 1 + 1 * (y 0).val = (y 0).val; rw [e0]; omega
  | ⟨1, _⟩ => show win12_6.index t (1 : Fin 2) * 7 + 1 * (y 1).val = (y 1).val; rw [e1]; omega

/-- What a write-back takes of the result's staging buffer, at an index: the buffer's entry at the same coordinates (the
    blocks tile the result, so a write-back moves the whole buffer). -/
theorem written_apply12 {α : Type} (X : S10000x7.Idx → α) (t : Fin cfg12.N)
    (j : ((cfg12.win 7).xblock (grid12.coords t)).Idx) (p : Fin 10000) (q : Fin 7)
    (hp : (j 0).val = p.val) (hq : (j 1).val = q.val) :
    (cfg12.win 7).cut (grid12.coords t) X j = X (ix2 p q) := by
  show X ((cfg12.win 7).xinj (grid12.coords t) j) = X (ix2 p q)
  refine congrArg X (funext fun a => Fin.ext ?_)
  match a with
  | ⟨0, _⟩ => exact hp
  | ⟨1, _⟩ => exact hq

set_option maxHeartbeats 2000000 in
/-- What point `t` writes back is block `t` of the readout of all rows. -/
theorem flushed12 (c : Dev nD) (t : Fin cfg12.N) :
    (dat12 (F := Ideal) V c).flushed 7 t = ((cfg12.win 7).blk t).view.read (Elt Ideal)
      (MlpK (V c (Pipeline.arrRef spec12 0)) (V c (Pipeline.arrRef spec12 1)) (V c (Pipeline.arrRef spec12 2))
        (V c (Pipeline.arrRef spec12 3)) (V c (Pipeline.arrRef spec12 4)) (V c (Pipeline.arrRef spec12 5))
        (V c (Pipeline.arrRef spec12 6))) := by
  show (cfg12.win 7).cut (grid12.coords t) ((dat12 (F := Ideal) V c).after 7 t) = _
  rw [after12_7]
  unfold out12_7
  rw [View.canon_unit_zero zero_offsets12]
  simp only [View.ld_unit_zero (S := S10000x64) zero_offsets12, View.ld_unit_zero (S := S64x32) zero_offsets12,
    View.ld_unit_zero (S := S1x32) zero_offsets12, View.ld_unit_zero (S := S32x16) zero_offsets12,
    View.ld_unit_zero (S := S1x16) zero_offsets12, View.ld_unit_zero (S := S16x7) zero_offsets12,
    View.ld_unit_zero (S := S1x7) zero_offsets12]
  obtain ⟨-, -, -, -, -, -, -, -, -, -, -, -, -, -, e0, e1⟩ := block_indices12 t
  funext j
  have hp : (j 0).val < 10000 := (j 0).isLt
  have hq : (j 1).val < 7 := (j 1).isLt
  have hN : cfg12.N = 10 := N_12
  have hlt : 10000 * t.val + (j 0).val < 100000 := by have := t.isLt; omega
  rw [View.read_apply]
  refine (written_apply12 _ t j ⟨(j 0).val, hp⟩ ⟨(j 1).val, hq⟩ rfl rfl).trans ?_
  refine (mlp_block (V c (Pipeline.arrRef spec12 0)) (V c (Pipeline.arrRef spec12 1)) (V c (Pipeline.arrRef spec12 2))
    (V c (Pipeline.arrRef spec12 3)) (V c (Pipeline.arrRef spec12 4)) (V c (Pipeline.arrRef spec12 5))
    (V c (Pipeline.arrRef spec12 6)) (iblk12 V c 0 t) (iblk12 V c 1 t) (iblk12 V c 2 t) (iblk12 V c 3 t) (iblk12 V c 4 t)
    (iblk12 V c 5 t) (iblk12 V c 6 t) (10000 * t.val) (rows_block12 V c t) (whole_block12_1 V c t) (whole_block12_2 V c t)
    (whole_block12_3 V c t) (whole_block12_4 V c t) (whole_block12_5 V c t) (whole_block12_6 V c t)
    ⟨(j 0).val, hp⟩ ⟨10000 * t.val + (j 0).val, hlt⟩ rfl ⟨(j 1).val, hq⟩).trans ?_
  refine congrArg (MlpK (V c (Pipeline.arrRef spec12 0)) (V c (Pipeline.arrRef spec12 1)) (V c (Pipeline.arrRef spec12 2))
    (V c (Pipeline.arrRef spec12 3)) (V c (Pipeline.arrRef spec12 4)) (V c (Pipeline.arrRef spec12 5))
    (V c (Pipeline.arrRef spec12 6))) (funext fun a => Fin.ext ?_)
  match a with
  | ⟨0, _⟩ => show 10000 * t.val + (j 0).val = win12_7.index t (0 : Fin 2) * 10000 + 1 * (j 0).val; rw [e0]; omega
  | ⟨1, _⟩ => show (j 1).val = win12_7.index t (1 : Fin 2) * 7 + 1 * (j 1).val; rw [e1]; omega

/-- An index of the result is in point `t`'s block iff each coordinate is in the block's range on its axis. -/
theorem mem_block12 (t : Fin cfg12.N) (i : S100000x7.Idx) :
    i ∈ ((cfg12.win 7).blk t).view.set ↔ ∀ a : Fin 2, win12_7.index t a * S10000x7.size a ≤ (i a).val
      ∧ (i a).val < win12_7.index t a * S10000x7.size a + S10000x7.size a := by
  show i ∈ ((View.whole main_v248).slice (win12_7.rect t)).set ↔ _
  rw [View.set_slice_whole, Rect.mem_set_unit]
  exact Iff.rfl

/-- Row `r` of the result is in the block of point `r / 10000`. -/
theorem covered12 (i : S100000x7.Idx) :
    ∃ t : Fin cfg12.N, (cfg12.win 7).flush t = true ∧ i ∈ ((cfg12.win 7).blk t).view.set := by
  have hi0 : (i 0).val < 100000 := (i 0).isLt
  have hi1 : (i 1).val < 7 := (i 1).isLt
  have hN : cfg12.N = 10 := N_12
  let t : Fin cfg12.N := ⟨(i 0).val / 10000, by rw [hN]; omega⟩
  have ht : t.val = (i 0).val / 10000 := rfl
  obtain ⟨-, -, -, -, -, -, -, -, -, -, -, -, -, -, e0, e1⟩ := block_indices12 t
  refine ⟨t, flush12_7 t, ?_⟩
  rw [mem_block12]
  intro a
  match a with
  | ⟨0, _⟩ =>
    show win12_7.index t (0 : Fin 2) * 10000 ≤ (i 0).val ∧ (i 0).val < win12_7.index t (0 : Fin 2) * 10000 + 10000
    rw [e0, ht]; omega
  | ⟨1, _⟩ =>
    show win12_7.index t (1 : Fin 2) * 7 ≤ (i 1).val ∧ (i 1).val < win12_7.index t (1 : Fin 2) * 7 + 7
    rw [e1]; omega

/-- After the region the result array is the readout of the seven input arrays as the region found them. -/
theorem final12 (c : Dev nD) :
    (dat12 (F := Ideal) V c).arrAt 7 cfg12.N
      = MlpK (V c (Pipeline.arrRef spec12 0)) (V c (Pipeline.arrRef spec12 1)) (V c (Pipeline.arrRef spec12 2))
        (V c (Pipeline.arrRef spec12 3)) (V c (Pipeline.arrRef spec12 4)) (V c (Pipeline.arrRef spec12 5))
        (V c (Pipeline.arrRef spec12 6)) :=
  (dat12 (F := Ideal) V c).arrAt_eq_of_cover 7 _ (fun t _ => flushed12 V c t) (covered12)

end Cert.MoNet

end
-- ==== Proof.MlpStretch12.lean ====
/-
  What the host prepares for the readout region: the last graph layer's output narrowed to a shorter float format, each
  weight matrix transposed and narrowed, each bias vector reshaped to a `[1, N]` row — each as a function of the buffers'
  contents before the stretch of host operations, whatever those are.
-/
import proofs.«168295_j62088047231392_2_alg».proof.Proof.Gen.KernelIdeal.Launch
import Idealize.ShloMosaic.PureOps.Ideal.Laws
import Idealize.ShloMosaic.Lib.StableHlo.Run
import Idealize.ShloMosaic.Lib.Pipeline.Value

noncomputable section

namespace Cert.MoNet

open Idealize.ShloMosaic Idealize.ShloMosaic.TcCoe Idealize.SL.Sem Idealize.ShloMosaic.StableHlo
open Cert.KernelIdeal Cert.KernelIdeal.Gen

variable (X : Valuation τ sig (Elt Ideal))

/-- The rows, narrowed. -/
theorem stretch12_rows :
    (StableHlo.after (hostOps12 (F := Ideal)) X (Proc.devRef .tc main_v238) : (⟨S100000x64, .bf16⟩ : BufTy).Contents (Elt Ideal))
      = truncf (F := Ideal) .bf16 (X (Proc.devRef .tc main_v237) : (⟨S100000x64, .f32⟩ : BufTy).Contents (Elt Ideal)) bitsLt_bf16_f32 := by
  after_results <;> rfl

/-- The first weight matrix, transposed and narrowed. -/
theorem stretch12_w1 :
    (StableHlo.after (hostOps12 (F := Ideal)) X (Proc.devRef .tc main_v240) : (⟨S64x32, .bf16⟩ : BufTy).Contents (Elt Ideal))
      = truncf (F := Ideal) .bf16
          (transpose S64x32 [1, 0] (X (Proc.devRef .tc main_arg10) : (⟨S32x64, .f32⟩ : BufTy).Contents (Elt Ideal)) transposes_S32x64_S64x32_1_0)
          bitsLt_bf16_f32 := by
  after_results <;> rfl

/-- The second weight matrix, transposed and narrowed. -/
theorem stretch12_w2 :
    (StableHlo.after (hostOps12 (F := Ideal)) X (Proc.devRef .tc main_v242) : (⟨S32x16, .bf16⟩ : BufTy).Contents (Elt Ideal))
      = truncf (F := Ideal) .bf16
          (transpose S32x16 [1, 0] (X (Proc.devRef .tc main_arg12) : (⟨S16x32, .f32⟩ : BufTy).Contents (Elt Ideal)) transposes_S16x32_S32x16_1_0)
          bitsLt_bf16_f32 := by
  after_results <;> rfl

/-- The third weight matrix, transposed and narrowed. -/
theorem stretch12_w3 :
    (StableHlo.after (hostOps12 (F := Ideal)) X (Proc.devRef .tc main_v244) : (⟨S16x7, .bf16⟩ : BufTy).Contents (Elt Ideal))
      = truncf (F := Ideal) .bf16
          (transpose S16x7 [1, 0] (X (Proc.devRef .tc main_arg14) : (⟨S7x16, .f32⟩ : BufTy).Contents (Elt Ideal)) transposes_S7x16_S16x7_1_0)
          bitsLt_bf16_f32 := by
  after_results <;> rfl

/-- The first bias, reshaped to a row. -/
theorem stretch12_b1 :
    (StableHlo.after (hostOps12 (F := Ideal)) X (Proc.devRef .tc main_v245) : (⟨S1x32, .f32⟩ : BufTy).Contents (Elt Ideal))
      = shapeCast S1x32 (X (Proc.devRef .tc main_arg11) : (⟨S32, .f32⟩ : BufTy).Contents (Elt Ideal)) shapeCasts_S32_S1x32 := by
  after_results <;> rfl

/-- The second bias, reshaped to a row. -/
theorem stretch12_b2 :
    (StableHlo.after (hostOps12 (F := Ideal)) X (Proc.devRef .tc main_v246) : (⟨S1x16, .f32⟩ : BufTy).Contents (Elt Ideal))
      = shapeCast S1x16 (X (Proc.devRef .tc main_arg13) : (⟨S16, .f32⟩ : BufTy).Contents (Elt Ideal)) shapeCasts_S16_S1x16 := by
  after_results <;> rfl

/-- The third bias, reshaped to a row. -/
theorem stretch12_b3 :
    (StableHlo.after (hostOps12 (F := Ideal)) X (Proc.devRef .tc main_v247) : (⟨S1x7, .f32⟩ : BufTy).Contents (Elt Ideal))
      = shapeCast S1x7 (X (Proc.devRef .tc main_arg15) : (⟨S7, .f32⟩ : BufTy).Contents (Elt Ideal)) shapeCasts_S7_S1x7 := by
  after_results <;> rfl

end Cert.MoNet

end
-- ==== Proof.MlpRef.lean ====
/-
  The readout on the host. The host program transposes each weight matrix (`[32, 64]`, `[16, 32]`, `[7, 16]` as stored,
  one row per output feature), forms each layer as a general dot product plus the bias vector broadcast to a row and the row
  broadcast over the 100000 rows, and applies the rectifier as a maximum with a zero broadcast to the shape (`MlpR`, its
  operations in the program's order).

  The vector unit's program is handed the same rows and the transposed weights narrowed to a shorter float format, and each
  bias reshaped to a `[1, N]` row. On the extended reals a change of float format leaves every entry as it was, a bias
  reshaped to a row reads column by column as the bias, and both spellings of a layer are `x · w + b`, so the two readouts are
  the same array (`mlp_eq`).
-/
import proofs.«168295_j62088047231392_2_alg».proof.Proof.Gen.ReferenceIdeal
import proofs.«168295_j62088047231392_2_alg».proof.Proof.Gen.KernelIdeal
import proofs.«168295_j62088047231392_2_alg».proof.Proof.MlpPayload
import proofs.«168295_j62088047231392_2_alg».proof.Proof.LibLayerForms
import proofs.«168295_j62088047231392_2_alg».proof.Proof.LibRowBias
import proofs.«168295_j62088047231392_2_alg».proof.Proof.LibPerceptron3
import Idealize.ShloMosaic.PureOps.Ideal.Laws
import Idealize.ShloMosaic.Lib.Pipeline.Value
import Idealize.ShloMosaic.Lib.ValueIdx
import Idealize.ShloMosaic.Lib.ValueLayout

noncomputable section

namespace Cert.MoNet

open Idealize.ShloMosaic Idealize.ShloMosaic.ValueIdx Cert.LayerForms Cert.LibRowBias Cert.LibPerceptron3

/-- The host's readout, operation by operation: rows `h`, weights `w₁ w₂ w₃` as stored, bias vectors `b₁ b₂ b₃`. -/
def MlpR (h : (⟨Cert.ReferenceIdeal.S100000x64, .f32⟩ : BufTy).Contents (Elt Ideal))
    (w1 : (⟨Cert.ReferenceIdeal.S32x64, .f32⟩ : BufTy).Contents (Elt Ideal))
    (b1 : (⟨Cert.ReferenceIdeal.S32, .f32⟩ : BufTy).Contents (Elt Ideal))
    (w2 : (⟨Cert.ReferenceIdeal.S16x32, .f32⟩ : BufTy).Contents (Elt Ideal))
    (b2 : (⟨Cert.ReferenceIdeal.S16, .f32⟩ : BufTy).Contents (Elt Ideal))
    (w3 : (⟨Cert.ReferenceIdeal.S7x16, .f32⟩ : BufTy).Contents (Elt Ideal))
    (b3 : (⟨Cert.ReferenceIdeal.S7, .f32⟩ : BufTy).Contents (Elt Ideal)) :
    (⟨Cert.ReferenceIdeal.S100000x7, .f32⟩ : BufTy).Contents (Elt Ideal) :=
  open Cert.ReferenceIdeal Cert.ReferenceIdeal.Gen in
  addf
    (Host.dotGeneral (F := Ideal) (φ₁ := .f32) (φ₂ := .f32) dot_S100000x16_S16x7_S100000x7_1_0_0_1_n_n none
      (maximumf
        (addf
          (Host.dotGeneral (F := Ideal) (φ₁ := .f32) (φ₂ := .f32) dot_S100000x32_S32x16_S100000x16_1_0_0_1_n_n none
            (maximumf
              (addf
                (Host.dotGeneral (F := Ideal) (φ₁ := .f32) (φ₂ := .f32) dot_S100000x64_S64x32_S100000x32_1_0_0_1_n_n none h
                  (transpose S64x32 [1, 0] w1 transposes_S32x64_S64x32_1_0))
                (broadcastInDim S100000x32 ![0, 1] bcast_S1x32_S100000x32_0_1 (broadcastInDim S1x32 ![1] bcast_S32_S1x32_1 b1)))
              (broadcastInDim S100000x32 ![] bcast_S_S100000x32 (constant (F := Ideal) S_ .f32 0x00000000#32)))
            (transpose S32x16 [1, 0] w2 transposes_S16x32_S32x16_1_0))
          (broadcastInDim S100000x16 ![0, 1] bcast_S1x16_S100000x16_0_1 (broadcastInDim S1x16 ![1] bcast_S16_S1x16_1 b2)))
        (broadcastInDim S100000x16 ![] bcast_S_S100000x16 (constant (F := Ideal) S_ .f32 0x00000000#32)))
      (transpose S16x7 [1, 0] w3 transposes_S7x16_S16x7_1_0))
    (broadcastInDim S100000x7 ![0, 1] bcast_S1x7_S100000x7_0_1 (broadcastInDim S1x7 ![1] bcast_S7_S1x7_1 b3))

/-- The host's readout is the perceptron of the rows, the transposed weights and the bias vectors. -/
theorem MlpR_eq (h : (⟨Cert.ReferenceIdeal.S100000x64, .f32⟩ : BufTy).Contents (Elt Ideal))
    (w1 : (⟨Cert.ReferenceIdeal.S32x64, .f32⟩ : BufTy).Contents (Elt Ideal))
    (b1 : (⟨Cert.ReferenceIdeal.S32, .f32⟩ : BufTy).Contents (Elt Ideal))
    (w2 : (⟨Cert.ReferenceIdeal.S16x32, .f32⟩ : BufTy).Contents (Elt Ideal))
    (b2 : (⟨Cert.ReferenceIdeal.S16, .f32⟩ : BufTy).Contents (Elt Ideal))
    (w3 : (⟨Cert.ReferenceIdeal.S7x16, .f32⟩ : BufTy).Contents (Elt Ideal))
    (b3 : (⟨Cert.ReferenceIdeal.S7, .f32⟩ : BufTy).Contents (Elt Ideal)) :
    MlpR h w1 b1 w2 b2 w3 b3
      = mlp3 (M := 100000) (K := 64) (A := 32) (B := 16) (C := 7) h
          (transpose ⟨2, ![64, 32]⟩ [1, 0] w1 Cert.ReferenceIdeal.Gen.transposes_S32x64_S64x32_1_0) (colBias b1)
          (transpose ⟨2, ![32, 16]⟩ [1, 0] w2 Cert.ReferenceIdeal.Gen.transposes_S16x32_S32x16_1_0) (colBias b2)
          (transpose ⟨2, ![16, 7]⟩ [1, 0] w3 Cert.ReferenceIdeal.Gen.transposes_S7x16_S16x7_1_0) (colBias b3) := by
  unfold MlpR
  exact host_mlp3 (M := 100000) (K := 64) (A := 32) (B := 16) (C := 7) _ rfl _ rfl _ rfl none h _ b1 _ _ _ _ b2 _ _ _ _ b3 _ _

/-- The vector unit's readout of the host-prepared inputs is the host's readout. -/
theorem mlp_eq (h : (⟨Cert.KernelIdeal.S100000x64, .f32⟩ : BufTy).Contents (Elt Ideal))
    (w1 : (⟨Cert.KernelIdeal.S32x64, .f32⟩ : BufTy).Contents (Elt Ideal))
    (b1 : (⟨Cert.KernelIdeal.S32, .f32⟩ : BufTy).Contents (Elt Ideal))
    (w2 : (⟨Cert.KernelIdeal.S16x32, .f32⟩ : BufTy).Contents (Elt Ideal))
    (b2 : (⟨Cert.KernelIdeal.S16, .f32⟩ : BufTy).Contents (Elt Ideal))
    (w3 : (⟨Cert.KernelIdeal.S7x16, .f32⟩ : BufTy).Contents (Elt Ideal))
    (b3 : (⟨Cert.KernelIdeal.S7, .f32⟩ : BufTy).Contents (Elt Ideal)) :
    MlpK (truncf (F := Ideal) (φ := .f32) .bf16 h Cert.KernelIdeal.Gen.bitsLt_bf16_f32)
        (truncf (F := Ideal) (φ := .f32) .bf16 (transpose Cert.KernelIdeal.S64x32 [1, 0] w1 Cert.KernelIdeal.Gen.transposes_S32x64_S64x32_1_0)
          Cert.KernelIdeal.Gen.bitsLt_bf16_f32)
        (shapeCast Cert.KernelIdeal.S1x32 b1 Cert.KernelIdeal.Gen.shapeCasts_S32_S1x32)
        (truncf (F := Ideal) (φ := .f32) .bf16 (transpose Cert.KernelIdeal.S32x16 [1, 0] w2 Cert.KernelIdeal.Gen.transposes_S16x32_S32x16_1_0)
          Cert.KernelIdeal.Gen.bitsLt_bf16_f32)
        (shapeCast Cert.KernelIdeal.S1x16 b2 Cert.KernelIdeal.Gen.shapeCasts_S16_S1x16)
        (truncf (F := Ideal) (φ := .f32) .bf16 (transpose Cert.KernelIdeal.S16x7 [1, 0] w3 Cert.KernelIdeal.Gen.transposes_S7x16_S16x7_1_0)
          Cert.KernelIdeal.Gen.bitsLt_bf16_f32)
        (shapeCast Cert.KernelIdeal.S1x7 b3 Cert.KernelIdeal.Gen.shapeCasts_S7_S1x7)
      = MlpR h w1 b1 w2 b2 w3 b3 := by
  rw [MlpR_eq]
  unfold MlpK
  rw [rowOf_cast (N := 32) b1, rowOf_cast (N := 16) b2, rowOf_cast (N := 7) b3]
  rfl

end Cert.MoNet

end
-- ==== Proof.MlpResult.lean ====
/-
  The readout region together with the host operations that prepare its inputs: whatever the buffers hold before that
  stretch of host operations, after the region the result array is the host's readout (`MlpR`) of the last graph
  layer's output and of the readout's parameters as those buffers hold them. The host narrows the rows and the transposed
  weights to a shorter float format and reshapes each bias to a row; the region computes the perceptron of what it is
  handed (`final12`); on the extended reals that is the host's readout of the unprepared arrays (`mlp_eq`).
-/
import proofs.«168295_j62088047231392_2_alg».proof.Proof.MlpRegion12
import proofs.«168295_j62088047231392_2_alg».proof.Proof.MlpStretch12
import proofs.«168295_j62088047231392_2_alg».proof.Proof.MlpRef
import Idealize.ShloMosaic.PureOps.Ideal.Laws
import Idealize.ShloMosaic.Lib.StableHlo.Run

noncomputable section

namespace Cert.MoNet

open Idealize.ShloMosaic Idealize.ShloMosaic.TcCoe Idealize.SL.Sem Idealize.ShloMosaic.StableHlo
open Cert.KernelIdeal Cert.KernelIdeal.Gen

/-- After the host's preparation and the region, the result array is the host's readout of the buffers' contents before
    the preparation. -/
theorem readout12 (W : Dev nD → Valuation τ sig (Elt Ideal)) (c : Dev nD) :
    (dat12 (F := Ideal) (fun c b => StableHlo.after (hostOps12 (F := Ideal)) (W c) (Proc.devRef .tc b)) c).arrAt 7 cfg12.N
      = MlpR (W c (Proc.devRef .tc main_v237)) (W c (Proc.devRef .tc main_arg10)) (W c (Proc.devRef .tc main_arg11))
          (W c (Proc.devRef .tc main_arg12)) (W c (Proc.devRef .tc main_arg13)) (W c (Proc.devRef .tc main_arg14))
          (W c (Proc.devRef .tc main_arg15)) := by
  rw [final12]
  show MlpK (StableHlo.after (hostOps12 (F := Ideal)) (W c) (Proc.devRef .tc main_v238))
      (StableHlo.after (hostOps12 (F := Ideal)) (W c) (Proc.devRef .tc main_v240))
      (StableHlo.after (hostOps12 (F := Ideal)) (W c) (Proc.devRef .tc main_v245))
      (StableHlo.after (hostOps12 (F := Ideal)) (W c) (Proc.devRef .tc main_v242))
      (StableHlo.after (hostOps12 (F := Ideal)) (W c) (Proc.devRef .tc main_v246))
      (StableHlo.after (hostOps12 (F := Ideal)) (W c) (Proc.devRef .tc main_v244))
      (StableHlo.after (hostOps12 (F := Ideal)) (W c) (Proc.devRef .tc main_v247)) = _
  rw [stretch12_rows, stretch12_w1, stretch12_b1, stretch12_w2, stretch12_b2, stretch12_w3, stretch12_b3]
  exact mlp_eq _ _ _ _ _ _ _

end Cert.MoNet

end
-- ==== Proof.KeepArgsC.lean ====
/-
  Between two boundaries of the idealized kernel's @main a buffer that no host operation of the stretch writes and that is none of the region's arrays keeps its contents.  Here: the readout's weights and biases (read back from the end of the run, where the generated frame has them as launched), from the boundary where each is written (an argument: the launch) to every later boundary at which a host stretch or a region reads it.
-/
import proofs.«168295_j62088047231392_2_alg».proof.Proof.Gen.KernelIdeal.Frame

set_option maxRecDepth 16384

noncomputable section

namespace Cert.MoNet.Keep

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- `main_arg10` at the readout's stretch is the launch contents: nothing after that boundary writes it either, and it ends as launched. -/
theorem keep_arg10_24 (c : Dev nD) : W24 m ρ c (Proc.devRef .tc main_arg10) = m ((c : Thread nD τ).loc main_arg10) :=
  ((StableHlo.after_of_forall_not_mem (b := Proc.devRef .tc main_arg10) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W25 m ρ c (Proc.devRef .tc main_arg10) = W24 m ρ c (Proc.devRef .tc main_arg10)).symm).trans
    (((W26_of_ne m ρ c main_arg10 (by decide) : W26 m ρ c (Proc.devRef .tc main_arg10) = W25 m ρ c (Proc.devRef .tc main_arg10)).symm).trans (W26_main_arg10 m ρ c))

/-- `main_arg12` at the readout's stretch is the launch contents: nothing after that boundary writes it either, and it ends as launched. -/
theorem keep_arg12_24 (c : Dev nD) : W24 m ρ c (Proc.devRef .tc main_arg12) = m ((c : Thread nD τ).loc main_arg12) :=
  ((StableHlo.after_of_forall_not_mem (b := Proc.devRef .tc main_arg12) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W25 m ρ c (Proc.devRef .tc main_arg12) = W24 m ρ c (Proc.devRef .tc main_arg12)).symm).trans
    (((W26_of_ne m ρ c main_arg12 (by decide) : W26 m ρ c (Proc.devRef .tc main_arg12) = W25 m ρ c (Proc.devRef .tc main_arg12)).symm).trans (W26_main_arg12 m ρ c))

/-- `main_arg14` at the readout's stretch is the launch contents: nothing after that boundary writes it either, and it ends as launched. -/
theorem keep_arg14_24 (c : Dev nD) : W24 m ρ c (Proc.devRef .tc main_arg14) = m ((c : Thread nD τ).loc main_arg14) :=
  ((StableHlo.after_of_forall_not_mem (b := Proc.devRef .tc main_arg14) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W25 m ρ c (Proc.devRef .tc main_arg14) = W24 m ρ c (Proc.devRef .tc main_arg14)).symm).trans
    (((W26_of_ne m ρ c main_arg14 (by decide) : W26 m ρ c (Proc.devRef .tc main_arg14) = W25 m ρ c (Proc.devRef .tc main_arg14)).symm).trans (W26_main_arg14 m ρ c))

/-- `main_arg11` at the readout's stretch is the launch contents: nothing after that boundary writes it either, and it ends as launched. -/
theorem keep_arg11_24 (c : Dev nD) : W24 m ρ c (Proc.devRef .tc main_arg11) = m ((c : Thread nD τ).loc main_arg11) :=
  ((StableHlo.after_of_forall_not_mem (b := Proc.devRef .tc main_arg11) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W25 m ρ c (Proc.devRef .tc main_arg11) = W24 m ρ c (Proc.devRef .tc main_arg11)).symm).trans
    (((W26_of_ne m ρ c main_arg11 (by decide) : W26 m ρ c (Proc.devRef .tc main_arg11) = W25 m ρ c (Proc.devRef .tc main_arg11)).symm).trans (W26_main_arg11 m ρ c))

/-- `main_arg13` at the readout's stretch is the launch contents: nothing after that boundary writes it either, and it ends as launched. -/
theorem keep_arg13_24 (c : Dev nD) : W24 m ρ c (Proc.devRef .tc main_arg13) = m ((c : Thread nD τ).loc main_arg13) :=
  ((StableHlo.after_of_forall_not_mem (b := Proc.devRef .tc main_arg13) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W25 m ρ c (Proc.devRef .tc main_arg13) = W24 m ρ c (Proc.devRef .tc main_arg13)).symm).trans
    (((W26_of_ne m ρ c main_arg13 (by decide) : W26 m ρ c (Proc.devRef .tc main_arg13) = W25 m ρ c (Proc.devRef .tc main_arg13)).symm).trans (W26_main_arg13 m ρ c))

/-- `main_arg15` at the readout's stretch is the launch contents: nothing after that boundary writes it either, and it ends as launched. -/
theorem keep_arg15_24 (c : Dev nD) : W24 m ρ c (Proc.devRef .tc main_arg15) = m ((c : Thread nD τ).loc main_arg15) :=
  ((StableHlo.after_of_forall_not_mem (b := Proc.devRef .tc main_arg15) _ _ (List.forall_iff_forall_mem.mp (by
          simp only [hostOps12, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W25 m ρ c (Proc.devRef .tc main_arg15) = W24 m ρ c (Proc.devRef .tc main_arg15)).symm).trans
    (((W26_of_ne m ρ c main_arg15 (by decide) : W26 m ρ c (Proc.devRef .tc main_arg15) = W25 m ρ c (Proc.devRef .tc main_arg15)).symm).trans (W26_main_arg15 m ρ c))

end Cert.MoNet.Keep

end
-- ==== Proof.KMlp.lean ====
/-
  The readout on the kernel's side.  The last region's output array is the three-layer perceptron
  y = (relu(relu(h·w1ᵀ + b1)·w2ᵀ + b2))·w3ᵀ + b3 of the last layer's node features h and the readout's weights and
  biases as launched: the region leaves the perceptron of its input arrays, the host stretch before it makes those
  arrays from h and the arguments, and nothing before that stretch has written the arguments.  Stated in the
  reference's spelling of the perceptron.
-/
import proofs.«168295_j62088047231392_2_alg».proof.Proof.Gen.KernelIdeal.Frame
import proofs.«168295_j62088047231392_2_alg».proof.Proof.MlpResult
import proofs.«168295_j62088047231392_2_alg».proof.Proof.KeepArgsC

set_option maxRecDepth 16384

noncomputable section

namespace Cert.MoNet.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array is the readout of the node features the last layer left. -/
theorem readout (c : Dev nD) :
    W26 m ρ c (Proc.devRef .tc main_v248)
      = Cert.MoNet.MlpR (W24 m ρ c (Proc.devRef .tc main_v237))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15)) := by
  refine (W26_arr m ρ c 7).trans ((Cert.MoNet.readout12 (W24 m ρ) c).trans ?_)
  rw [Cert.MoNet.Keep.keep_arg10_24, Cert.MoNet.Keep.keep_arg11_24, Cert.MoNet.Keep.keep_arg12_24,
    Cert.MoNet.Keep.keep_arg13_24, Cert.MoNet.Keep.keep_arg14_24, Cert.MoNet.Keep.keep_arg15_24]

end Cert.MoNet.Chain

end
-- ==== Proof.KeepArgsA.lean ====
/-
  Between two boundaries of the idealized kernel's @main a buffer that no host operation of the stretch writes and that is none of the region's arrays keeps its contents.  Here: the arguments fc_w, bn_g, bn_b, from the boundary where each is written (an argument: the launch) to every later boundary at which a host stretch or a region reads it.
-/
import proofs.«168295_j62088047231392_2_alg».proof.Proof.Gen.KernelIdeal.Frame

set_option maxRecDepth 16384

noncomputable section

namespace Cert.MoNet.Keep

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ### `main_arg3`: written at boundary 0, untouched up to boundary 20 -/
theorem keep_arg3_1 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_arg3_2 (c : Dev nD) : W2 m ρ c (Proc.devRef .tc main_arg3) = W0 m ρ c (Proc.devRef .tc main_arg3) :=
  (W2_of_ne m ρ c main_arg3 (by decide) : W2 m ρ c (Proc.devRef .tc main_arg3) = W1 m ρ c (Proc.devRef .tc main_arg3)).trans (keep_arg3_1 m ρ c)
theorem keep_arg3_3 (c : Dev nD) : W3 m ρ c (Proc.devRef .tc main_arg3) = W0 m ρ c (Proc.devRef .tc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg3) = W2 m ρ c (Proc.devRef .tc main_arg3)).trans (keep_arg3_2 m ρ c)
theorem keep_arg3_4 (c : Dev nD) : W4 m ρ c (Proc.devRef .tc main_arg3) = W0 m ρ c (Proc.devRef .tc main_arg3) :=
  (W4_of_ne m ρ c main_arg3 (by decide) : W4 m ρ c (Proc.devRef .tc main_arg3) = W3 m ρ c (Proc.devRef .tc main_arg3)).trans (keep_arg3_3 m ρ c)
theorem keep_arg3_5 (c : Dev nD) : W5 m ρ c (Proc.devRef .tc main_arg3) = W0 m ρ c (Proc.devRef .tc main_arg3) :=
  (StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg3) = W4 m ρ c (Proc.devRef .tc main_arg3)).trans (keep_arg3_4 m ρ c)
theorem keep_arg3_6 (c : Dev nD) : W6 m ρ c (Proc.devRef .tc main_arg3) = W0 m ρ c (Proc.devRef .tc main_arg3) :=
  (W6_of_ne m ρ c main_arg3 (by decide) : W6 m ρ c (Proc.devRef .tc main_arg3) = W5 m ρ c (Proc.devRef .tc main_arg3)).trans (keep_arg3_5 m ρ c)
theorem keep_arg3_7 (c : Dev nD) : W7 m ρ c (Proc.devRef .tc main_arg3) = W0 m ρ c (Proc.devRef .tc main_arg3) :=
  (StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_arg3) = W6 m ρ c (Proc.devRef .tc main_arg3)).trans (keep_arg3_6 m ρ c)
theorem keep_arg3_8 (c : Dev nD) : W8 m ρ c (Proc.devRef .tc main_arg3) = W0 m ρ c (Proc.devRef .tc main_arg3) :=
  (W8_of_ne m ρ c main_arg3 (by decide) : W8 m ρ c (Proc.devRef .tc main_arg3) = W7 m ρ c (Proc.devRef .tc main_arg3)).trans (keep_arg3_7 m ρ c)
theorem keep_arg3_9 (c : Dev nD) : W9 m ρ c (Proc.devRef .tc main_arg3) = W0 m ρ c (Proc.devRef .tc main_arg3) :=
  (StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_arg3) = W8 m ρ c (Proc.devRef .tc main_arg3)).trans (keep_arg3_8 m ρ c)
theorem keep_arg3_10 (c : Dev nD) : W10 m ρ c (Proc.devRef .tc main_arg3) = W0 m ρ c (Proc.devRef .tc main_arg3) :=
  (W10_of_ne m ρ c main_arg3 (by decide) : W10 m ρ c (Proc.devRef .tc main_arg3) = W9 m ρ c (Proc.devRef .tc main_arg3)).trans (keep_arg3_9 m ρ c)
theorem keep_arg3_11 (c : Dev nD) : W11 m ρ c (Proc.devRef .tc main_arg3) = W0 m ρ c (Proc.devRef .tc main_arg3) :=
  (StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_arg3) = W10 m ρ c (Proc.devRef .tc main_arg3)).trans (keep_arg3_10 m ρ c)
theorem keep_arg3_12 (c : Dev nD) : W12 m ρ c (Proc.devRef .tc main_arg3) = W0 m ρ c (Proc.devRef .tc main_arg3) :=
  (W12_of_ne m ρ c main_arg3 (by decide) : W12 m ρ c (Proc.devRef .tc main_arg3) = W11 m ρ c (Proc.devRef .tc main_arg3)).trans (keep_arg3_11 m ρ c)
theorem keep_arg3_13 (c : Dev nD) : W13 m ρ c (Proc.devRef .tc main_arg3) = W0 m ρ c (Proc.devRef .tc main_arg3) :=
  (StableHlo.after_of_forall_not_mem (b := Proc.devRef .tc main_arg3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_arg3) = W12 m ρ c (Proc.devRef .tc main_arg3)).trans (keep_arg3_12 m ρ c)
theorem keep_arg3_14 (c : Dev nD) : W14 m ρ c (Proc.devRef .tc main_arg3) = W0 m ρ c (Proc.devRef .tc main_arg3) :=
  (W14_of_ne m ρ c main_arg3 (by decide) : W14 m ρ c (Proc.devRef .tc main_arg3) = W13 m ρ c (Proc.devRef .tc main_arg3)).trans (keep_arg3_13 m ρ c)
theorem keep_arg3_15 (c : Dev nD) : W15 m ρ c (Proc.devRef .tc main_arg3) = W0 m ρ c (Proc.devRef .tc main_arg3) :=
  (StableHlo.after_of_forall_not_mem (b := Proc.devRef .tc main_arg3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_arg3) = W14 m ρ c (Proc.devRef .tc main_arg3)).trans (keep_arg3_14 m ρ c)
theorem keep_arg3_16 (c : Dev nD) : W16 m ρ c (Proc.devRef .tc main_arg3) = W0 m ρ c (Proc.devRef .tc main_arg3) :=
  (W16_of_ne m ρ c main_arg3 (by decide) : W16 m ρ c (Proc.devRef .tc main_arg3) = W15 m ρ c (Proc.devRef .tc main_arg3)).trans (keep_arg3_15 m ρ c)
theorem keep_arg3_17 (c : Dev nD) : W17 m ρ c (Proc.devRef .tc main_arg3) = W0 m ρ c (Proc.devRef .tc main_arg3) :=
  (StableHlo.after_of_forall_not_mem (b := Proc.devRef .tc main_arg3) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_arg3) = W16 m ρ c (Proc.devRef .tc main_arg3)).trans (keep_arg3_16 m ρ c)
theorem keep_arg3_18 (c : Dev nD) : W18 m ρ c (Proc.devRef .tc main_arg3) = W0 m ρ c (Proc.devRef .tc main_arg3) :=
  (W18_of_ne m ρ c main_arg3 (by decide) : W18 m ρ c (Proc.devRef .tc main_arg3) = W17 m ρ c (Proc.devRef .tc main_arg3)).trans (keep_arg3_17 m ρ c)
theorem keep_arg3_19 (c : Dev nD) : W19 m ρ c (Proc.devRef .tc main_arg3) = W0 m ρ c (Proc.devRef .tc main_arg3) :=
  (StableHlo.after_of_forall_not_mem (b := Proc.devRef .tc main_arg3) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W19 m ρ c (Proc.devRef .tc main_arg3) = W18 m ρ c (Proc.devRef .tc main_arg3)).trans (keep_arg3_18 m ρ c)
theorem keep_arg3_20 (c : Dev nD) : W20 m ρ c (Proc.devRef .tc main_arg3) = W0 m ρ c (Proc.devRef .tc main_arg3) :=
  (W20_of_ne m ρ c main_arg3 (by decide) : W20 m ρ c (Proc.devRef .tc main_arg3) = W19 m ρ c (Proc.devRef .tc main_arg3)).trans (keep_arg3_19 m ρ c)

/-! ### `main_arg6`: written at boundary 0, untouched up to boundary 22 -/
theorem keep_arg6_1 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_arg6_2 (c : Dev nD) : W2 m ρ c (Proc.devRef .tc main_arg6) = W0 m ρ c (Proc.devRef .tc main_arg6) :=
  (W2_of_ne m ρ c main_arg6 (by decide) : W2 m ρ c (Proc.devRef .tc main_arg6) = W1 m ρ c (Proc.devRef .tc main_arg6)).trans (keep_arg6_1 m ρ c)
theorem keep_arg6_3 (c : Dev nD) : W3 m ρ c (Proc.devRef .tc main_arg6) = W0 m ρ c (Proc.devRef .tc main_arg6) :=
  (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg6) = W2 m ρ c (Proc.devRef .tc main_arg6)).trans (keep_arg6_2 m ρ c)
theorem keep_arg6_4 (c : Dev nD) : W4 m ρ c (Proc.devRef .tc main_arg6) = W0 m ρ c (Proc.devRef .tc main_arg6) :=
  (W4_of_ne m ρ c main_arg6 (by decide) : W4 m ρ c (Proc.devRef .tc main_arg6) = W3 m ρ c (Proc.devRef .tc main_arg6)).trans (keep_arg6_3 m ρ c)
theorem keep_arg6_5 (c : Dev nD) : W5 m ρ c (Proc.devRef .tc main_arg6) = W0 m ρ c (Proc.devRef .tc main_arg6) :=
  (StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg6) = W4 m ρ c (Proc.devRef .tc main_arg6)).trans (keep_arg6_4 m ρ c)
theorem keep_arg6_6 (c : Dev nD) : W6 m ρ c (Proc.devRef .tc main_arg6) = W0 m ρ c (Proc.devRef .tc main_arg6) :=
  (W6_of_ne m ρ c main_arg6 (by decide) : W6 m ρ c (Proc.devRef .tc main_arg6) = W5 m ρ c (Proc.devRef .tc main_arg6)).trans (keep_arg6_5 m ρ c)
theorem keep_arg6_7 (c : Dev nD) : W7 m ρ c (Proc.devRef .tc main_arg6) = W0 m ρ c (Proc.devRef .tc main_arg6) :=
  (StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_arg6) = W6 m ρ c (Proc.devRef .tc main_arg6)).trans (keep_arg6_6 m ρ c)
theorem keep_arg6_8 (c : Dev nD) : W8 m ρ c (Proc.devRef .tc main_arg6) = W0 m ρ c (Proc.devRef .tc main_arg6) :=
  (W8_of_ne m ρ c main_arg6 (by decide) : W8 m ρ c (Proc.devRef .tc main_arg6) = W7 m ρ c (Proc.devRef .tc main_arg6)).trans (keep_arg6_7 m ρ c)
theorem keep_arg6_9 (c : Dev nD) : W9 m ρ c (Proc.devRef .tc main_arg6) = W0 m ρ c (Proc.devRef .tc main_arg6) :=
  (StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_arg6) = W8 m ρ c (Proc.devRef .tc main_arg6)).trans (keep_arg6_8 m ρ c)
theorem keep_arg6_10 (c : Dev nD) : W10 m ρ c (Proc.devRef .tc main_arg6) = W0 m ρ c (Proc.devRef .tc main_arg6) :=
  (W10_of_ne m ρ c main_arg6 (by decide) : W10 m ρ c (Proc.devRef .tc main_arg6) = W9 m ρ c (Proc.devRef .tc main_arg6)).trans (keep_arg6_9 m ρ c)
theorem keep_arg6_11 (c : Dev nD) : W11 m ρ c (Proc.devRef .tc main_arg6) = W0 m ρ c (Proc.devRef .tc main_arg6) :=
  (StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_arg6) = W10 m ρ c (Proc.devRef .tc main_arg6)).trans (keep_arg6_10 m ρ c)
theorem keep_arg6_12 (c : Dev nD) : W12 m ρ c (Proc.devRef .tc main_arg6) = W0 m ρ c (Proc.devRef .tc main_arg6) :=
  (W12_of_ne m ρ c main_arg6 (by decide) : W12 m ρ c (Proc.devRef .tc main_arg6) = W11 m ρ c (Proc.devRef .tc main_arg6)).trans (keep_arg6_11 m ρ c)
theorem keep_arg6_13 (c : Dev nD) : W13 m ρ c (Proc.devRef .tc main_arg6) = W0 m ρ c (Proc.devRef .tc main_arg6) :=
  (StableHlo.after_of_forall_not_mem (b := Proc.devRef .tc main_arg6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_arg6) = W12 m ρ c (Proc.devRef .tc main_arg6)).trans (keep_arg6_12 m ρ c)
theorem keep_arg6_14 (c : Dev nD) : W14 m ρ c (Proc.devRef .tc main_arg6) = W0 m ρ c (Proc.devRef .tc main_arg6) :=
  (W14_of_ne m ρ c main_arg6 (by decide) : W14 m ρ c (Proc.devRef .tc main_arg6) = W13 m ρ c (Proc.devRef .tc main_arg6)).trans (keep_arg6_13 m ρ c)
theorem keep_arg6_15 (c : Dev nD) : W15 m ρ c (Proc.devRef .tc main_arg6) = W0 m ρ c (Proc.devRef .tc main_arg6) :=
  (StableHlo.after_of_forall_not_mem (b := Proc.devRef .tc main_arg6) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_arg6) = W14 m ρ c (Proc.devRef .tc main_arg6)).trans (keep_arg6_14 m ρ c)
theorem keep_arg6_16 (c : Dev nD) : W16 m ρ c (Proc.devRef .tc main_arg6) = W0 m ρ c (Proc.devRef .tc main_arg6) :=
  (W16_of_ne m ρ c main_arg6 (by decide) : W16 m ρ c (Proc.devRef .tc main_arg6) = W15 m ρ c (Proc.devRef .tc main_arg6)).trans (keep_arg6_15 m ρ c)
theorem keep_arg6_17 (c : Dev nD) : W17 m ρ c (Proc.devRef .tc main_arg6) = W0 m ρ c (Proc.devRef .tc main_arg6) :=
  (StableHlo.after_of_forall_not_mem (b := Proc.devRef .tc main_arg6) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_arg6) = W16 m ρ c (Proc.devRef .tc main_arg6)).trans (keep_arg6_16 m ρ c)
theorem keep_arg6_18 (c : Dev nD) : W18 m ρ c (Proc.devRef .tc main_arg6) = W0 m ρ c (Proc.devRef .tc main_arg6) :=
  (W18_of_ne m ρ c main_arg6 (by decide) : W18 m ρ c (Proc.devRef .tc main_arg6) = W17 m ρ c (Proc.devRef .tc main_arg6)).trans (keep_arg6_17 m ρ c)
theorem keep_arg6_19 (c : Dev nD) : W19 m ρ c (Proc.devRef .tc main_arg6) = W0 m ρ c (Proc.devRef .tc main_arg6) :=
  (StableHlo.after_of_forall_not_mem (b := Proc.devRef .tc main_arg6) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W19 m ρ c (Proc.devRef .tc main_arg6) = W18 m ρ c (Proc.devRef .tc main_arg6)).trans (keep_arg6_18 m ρ c)
theorem keep_arg6_20 (c : Dev nD) : W20 m ρ c (Proc.devRef .tc main_arg6) = W0 m ρ c (Proc.devRef .tc main_arg6) :=
  (W20_of_ne m ρ c main_arg6 (by decide) : W20 m ρ c (Proc.devRef .tc main_arg6) = W19 m ρ c (Proc.devRef .tc main_arg6)).trans (keep_arg6_19 m ρ c)
theorem keep_arg6_21 (c : Dev nD) : W21 m ρ c (Proc.devRef .tc main_arg6) = W0 m ρ c (Proc.devRef .tc main_arg6) :=
  (StableHlo.after_of_forall_not_mem (b := Proc.devRef .tc main_arg6) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W21 m ρ c (Proc.devRef .tc main_arg6) = W20 m ρ c (Proc.devRef .tc main_arg6)).trans (keep_arg6_20 m ρ c)
theorem keep_arg6_22 (c : Dev nD) : W22 m ρ c (Proc.devRef .tc main_arg6) = W0 m ρ c (Proc.devRef .tc main_arg6) :=
  (W22_of_ne m ρ c main_arg6 (by decide) : W22 m ρ c (Proc.devRef .tc main_arg6) = W21 m ρ c (Proc.devRef .tc main_arg6)).trans (keep_arg6_21 m ρ c)

/-! ### `main_arg7`: written at boundary 0, untouched up to boundary 22 -/
theorem keep_arg7_1 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_arg7_2 (c : Dev nD) : W2 m ρ c (Proc.devRef .tc main_arg7) = W0 m ρ c (Proc.devRef .tc main_arg7) :=
  (W2_of_ne m ρ c main_arg7 (by decide) : W2 m ρ c (Proc.devRef .tc main_arg7) = W1 m ρ c (Proc.devRef .tc main_arg7)).trans (keep_arg7_1 m ρ c)
theorem keep_arg7_3 (c : Dev nD) : W3 m ρ c (Proc.devRef .tc main_arg7) = W0 m ρ c (Proc.devRef .tc main_arg7) :=
  (StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg7) = W2 m ρ c (Proc.devRef .tc main_arg7)).trans (keep_arg7_2 m ρ c)
theorem keep_arg7_4 (c : Dev nD) : W4 m ρ c (Proc.devRef .tc main_arg7) = W0 m ρ c (Proc.devRef .tc main_arg7) :=
  (W4_of_ne m ρ c main_arg7 (by decide) : W4 m ρ c (Proc.devRef .tc main_arg7) = W3 m ρ c (Proc.devRef .tc main_arg7)).trans (keep_arg7_3 m ρ c)
theorem keep_arg7_5 (c : Dev nD) : W5 m ρ c (Proc.devRef .tc main_arg7) = W0 m ρ c (Proc.devRef .tc main_arg7) :=
  (StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg7) = W4 m ρ c (Proc.devRef .tc main_arg7)).trans (keep_arg7_4 m ρ c)
theorem keep_arg7_6 (c : Dev nD) : W6 m ρ c (Proc.devRef .tc main_arg7) = W0 m ρ c (Proc.devRef .tc main_arg7) :=
  (W6_of_ne m ρ c main_arg7 (by decide) : W6 m ρ c (Proc.devRef .tc main_arg7) = W5 m ρ c (Proc.devRef .tc main_arg7)).trans (keep_arg7_5 m ρ c)
theorem keep_arg7_7 (c : Dev nD) : W7 m ρ c (Proc.devRef .tc main_arg7) = W0 m ρ c (Proc.devRef .tc main_arg7) :=
  (StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_arg7) = W6 m ρ c (Proc.devRef .tc main_arg7)).trans (keep_arg7_6 m ρ c)
theorem keep_arg7_8 (c : Dev nD) : W8 m ρ c (Proc.devRef .tc main_arg7) = W0 m ρ c (Proc.devRef .tc main_arg7) :=
  (W8_of_ne m ρ c main_arg7 (by decide) : W8 m ρ c (Proc.devRef .tc main_arg7) = W7 m ρ c (Proc.devRef .tc main_arg7)).trans (keep_arg7_7 m ρ c)
theorem keep_arg7_9 (c : Dev nD) : W9 m ρ c (Proc.devRef .tc main_arg7) = W0 m ρ c (Proc.devRef .tc main_arg7) :=
  (StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_arg7) = W8 m ρ c (Proc.devRef .tc main_arg7)).trans (keep_arg7_8 m ρ c)
theorem keep_arg7_10 (c : Dev nD) : W10 m ρ c (Proc.devRef .tc main_arg7) = W0 m ρ c (Proc.devRef .tc main_arg7) :=
  (W10_of_ne m ρ c main_arg7 (by decide) : W10 m ρ c (Proc.devRef .tc main_arg7) = W9 m ρ c (Proc.devRef .tc main_arg7)).trans (keep_arg7_9 m ρ c)
theorem keep_arg7_11 (c : Dev nD) : W11 m ρ c (Proc.devRef .tc main_arg7) = W0 m ρ c (Proc.devRef .tc main_arg7) :=
  (StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_arg7) = W10 m ρ c (Proc.devRef .tc main_arg7)).trans (keep_arg7_10 m ρ c)
theorem keep_arg7_12 (c : Dev nD) : W12 m ρ c (Proc.devRef .tc main_arg7) = W0 m ρ c (Proc.devRef .tc main_arg7) :=
  (W12_of_ne m ρ c main_arg7 (by decide) : W12 m ρ c (Proc.devRef .tc main_arg7) = W11 m ρ c (Proc.devRef .tc main_arg7)).trans (keep_arg7_11 m ρ c)
theorem keep_arg7_13 (c : Dev nD) : W13 m ρ c (Proc.devRef .tc main_arg7) = W0 m ρ c (Proc.devRef .tc main_arg7) :=
  (StableHlo.after_of_forall_not_mem (b := Proc.devRef .tc main_arg7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_arg7) = W12 m ρ c (Proc.devRef .tc main_arg7)).trans (keep_arg7_12 m ρ c)
theorem keep_arg7_14 (c : Dev nD) : W14 m ρ c (Proc.devRef .tc main_arg7) = W0 m ρ c (Proc.devRef .tc main_arg7) :=
  (W14_of_ne m ρ c main_arg7 (by decide) : W14 m ρ c (Proc.devRef .tc main_arg7) = W13 m ρ c (Proc.devRef .tc main_arg7)).trans (keep_arg7_13 m ρ c)
theorem keep_arg7_15 (c : Dev nD) : W15 m ρ c (Proc.devRef .tc main_arg7) = W0 m ρ c (Proc.devRef .tc main_arg7) :=
  (StableHlo.after_of_forall_not_mem (b := Proc.devRef .tc main_arg7) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_arg7) = W14 m ρ c (Proc.devRef .tc main_arg7)).trans (keep_arg7_14 m ρ c)
theorem keep_arg7_16 (c : Dev nD) : W16 m ρ c (Proc.devRef .tc main_arg7) = W0 m ρ c (Proc.devRef .tc main_arg7) :=
  (W16_of_ne m ρ c main_arg7 (by decide) : W16 m ρ c (Proc.devRef .tc main_arg7) = W15 m ρ c (Proc.devRef .tc main_arg7)).trans (keep_arg7_15 m ρ c)
theorem keep_arg7_17 (c : Dev nD) : W17 m ρ c (Proc.devRef .tc main_arg7) = W0 m ρ c (Proc.devRef .tc main_arg7) :=
  (StableHlo.after_of_forall_not_mem (b := Proc.devRef .tc main_arg7) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_arg7) = W16 m ρ c (Proc.devRef .tc main_arg7)).trans (keep_arg7_16 m ρ c)
theorem keep_arg7_18 (c : Dev nD) : W18 m ρ c (Proc.devRef .tc main_arg7) = W0 m ρ c (Proc.devRef .tc main_arg7) :=
  (W18_of_ne m ρ c main_arg7 (by decide) : W18 m ρ c (Proc.devRef .tc main_arg7) = W17 m ρ c (Proc.devRef .tc main_arg7)).trans (keep_arg7_17 m ρ c)
theorem keep_arg7_19 (c : Dev nD) : W19 m ρ c (Proc.devRef .tc main_arg7) = W0 m ρ c (Proc.devRef .tc main_arg7) :=
  (StableHlo.after_of_forall_not_mem (b := Proc.devRef .tc main_arg7) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W19 m ρ c (Proc.devRef .tc main_arg7) = W18 m ρ c (Proc.devRef .tc main_arg7)).trans (keep_arg7_18 m ρ c)
theorem keep_arg7_20 (c : Dev nD) : W20 m ρ c (Proc.devRef .tc main_arg7) = W0 m ρ c (Proc.devRef .tc main_arg7) :=
  (W20_of_ne m ρ c main_arg7 (by decide) : W20 m ρ c (Proc.devRef .tc main_arg7) = W19 m ρ c (Proc.devRef .tc main_arg7)).trans (keep_arg7_19 m ρ c)
theorem keep_arg7_21 (c : Dev nD) : W21 m ρ c (Proc.devRef .tc main_arg7) = W0 m ρ c (Proc.devRef .tc main_arg7) :=
  (StableHlo.after_of_forall_not_mem (b := Proc.devRef .tc main_arg7) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W21 m ρ c (Proc.devRef .tc main_arg7) = W20 m ρ c (Proc.devRef .tc main_arg7)).trans (keep_arg7_20 m ρ c)
theorem keep_arg7_22 (c : Dev nD) : W22 m ρ c (Proc.devRef .tc main_arg7) = W0 m ρ c (Proc.devRef .tc main_arg7) :=
  (W22_of_ne m ρ c main_arg7 (by decide) : W22 m ρ c (Proc.devRef .tc main_arg7) = W21 m ρ c (Proc.devRef .tc main_arg7)).trans (keep_arg7_21 m ρ c)

end Cert.MoNet.Keep

end
-- ==== Proof.KeepArgsB.lean ====
/-
  Between two boundaries of the idealized kernel's @main a buffer that no host operation of the stretch writes and that is none of the region's arrays keeps its contents.  Here: the arguments mu, inv_sigma, pp_w, pp_b, from the boundary where each is written (an argument: the launch) to every later boundary at which a host stretch or a region reads it.
-/
import proofs.«168295_j62088047231392_2_alg».proof.Proof.Gen.KernelIdeal.Frame

set_option maxRecDepth 16384

noncomputable section

namespace Cert.MoNet.Keep

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ### `main_arg8`: written at boundary 0, untouched up to boundary 18 -/
theorem keep_arg8_1 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_arg8_2 (c : Dev nD) : W2 m ρ c (Proc.devRef .tc main_arg8) = W0 m ρ c (Proc.devRef .tc main_arg8) :=
  (W2_of_ne m ρ c main_arg8 (by decide) : W2 m ρ c (Proc.devRef .tc main_arg8) = W1 m ρ c (Proc.devRef .tc main_arg8)).trans (keep_arg8_1 m ρ c)
theorem keep_arg8_3 (c : Dev nD) : W3 m ρ c (Proc.devRef .tc main_arg8) = W0 m ρ c (Proc.devRef .tc main_arg8) :=
  (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg8) = W2 m ρ c (Proc.devRef .tc main_arg8)).trans (keep_arg8_2 m ρ c)
theorem keep_arg8_4 (c : Dev nD) : W4 m ρ c (Proc.devRef .tc main_arg8) = W0 m ρ c (Proc.devRef .tc main_arg8) :=
  (W4_of_ne m ρ c main_arg8 (by decide) : W4 m ρ c (Proc.devRef .tc main_arg8) = W3 m ρ c (Proc.devRef .tc main_arg8)).trans (keep_arg8_3 m ρ c)
theorem keep_arg8_5 (c : Dev nD) : W5 m ρ c (Proc.devRef .tc main_arg8) = W0 m ρ c (Proc.devRef .tc main_arg8) :=
  (StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg8) = W4 m ρ c (Proc.devRef .tc main_arg8)).trans (keep_arg8_4 m ρ c)
theorem keep_arg8_6 (c : Dev nD) : W6 m ρ c (Proc.devRef .tc main_arg8) = W0 m ρ c (Proc.devRef .tc main_arg8) :=
  (W6_of_ne m ρ c main_arg8 (by decide) : W6 m ρ c (Proc.devRef .tc main_arg8) = W5 m ρ c (Proc.devRef .tc main_arg8)).trans (keep_arg8_5 m ρ c)
theorem keep_arg8_7 (c : Dev nD) : W7 m ρ c (Proc.devRef .tc main_arg8) = W0 m ρ c (Proc.devRef .tc main_arg8) :=
  (StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_arg8) = W6 m ρ c (Proc.devRef .tc main_arg8)).trans (keep_arg8_6 m ρ c)
theorem keep_arg8_8 (c : Dev nD) : W8 m ρ c (Proc.devRef .tc main_arg8) = W0 m ρ c (Proc.devRef .tc main_arg8) :=
  (W8_of_ne m ρ c main_arg8 (by decide) : W8 m ρ c (Proc.devRef .tc main_arg8) = W7 m ρ c (Proc.devRef .tc main_arg8)).trans (keep_arg8_7 m ρ c)
theorem keep_arg8_9 (c : Dev nD) : W9 m ρ c (Proc.devRef .tc main_arg8) = W0 m ρ c (Proc.devRef .tc main_arg8) :=
  (StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_arg8) = W8 m ρ c (Proc.devRef .tc main_arg8)).trans (keep_arg8_8 m ρ c)
theorem keep_arg8_10 (c : Dev nD) : W10 m ρ c (Proc.devRef .tc main_arg8) = W0 m ρ c (Proc.devRef .tc main_arg8) :=
  (W10_of_ne m ρ c main_arg8 (by decide) : W10 m ρ c (Proc.devRef .tc main_arg8) = W9 m ρ c (Proc.devRef .tc main_arg8)).trans (keep_arg8_9 m ρ c)
theorem keep_arg8_11 (c : Dev nD) : W11 m ρ c (Proc.devRef .tc main_arg8) = W0 m ρ c (Proc.devRef .tc main_arg8) :=
  (StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_arg8) = W10 m ρ c (Proc.devRef .tc main_arg8)).trans (keep_arg8_10 m ρ c)
theorem keep_arg8_12 (c : Dev nD) : W12 m ρ c (Proc.devRef .tc main_arg8) = W0 m ρ c (Proc.devRef .tc main_arg8) :=
  (W12_of_ne m ρ c main_arg8 (by decide) : W12 m ρ c (Proc.devRef .tc main_arg8) = W11 m ρ c (Proc.devRef .tc main_arg8)).trans (keep_arg8_11 m ρ c)
theorem keep_arg8_13 (c : Dev nD) : W13 m ρ c (Proc.devRef .tc main_arg8) = W0 m ρ c (Proc.devRef .tc main_arg8) :=
  (StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_arg8) = W12 m ρ c (Proc.devRef .tc main_arg8)).trans (keep_arg8_12 m ρ c)
theorem keep_arg8_14 (c : Dev nD) : W14 m ρ c (Proc.devRef .tc main_arg8) = W0 m ρ c (Proc.devRef .tc main_arg8) :=
  (W14_of_ne m ρ c main_arg8 (by decide) : W14 m ρ c (Proc.devRef .tc main_arg8) = W13 m ρ c (Proc.devRef .tc main_arg8)).trans (keep_arg8_13 m ρ c)
theorem keep_arg8_15 (c : Dev nD) : W15 m ρ c (Proc.devRef .tc main_arg8) = W0 m ρ c (Proc.devRef .tc main_arg8) :=
  (StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_arg8) = W14 m ρ c (Proc.devRef .tc main_arg8)).trans (keep_arg8_14 m ρ c)
theorem keep_arg8_16 (c : Dev nD) : W16 m ρ c (Proc.devRef .tc main_arg8) = W0 m ρ c (Proc.devRef .tc main_arg8) :=
  (W16_of_ne m ρ c main_arg8 (by decide) : W16 m ρ c (Proc.devRef .tc main_arg8) = W15 m ρ c (Proc.devRef .tc main_arg8)).trans (keep_arg8_15 m ρ c)
theorem keep_arg8_17 (c : Dev nD) : W17 m ρ c (Proc.devRef .tc main_arg8) = W0 m ρ c (Proc.devRef .tc main_arg8) :=
  (StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_arg8) = W16 m ρ c (Proc.devRef .tc main_arg8)).trans (keep_arg8_16 m ρ c)
theorem keep_arg8_18 (c : Dev nD) : W18 m ρ c (Proc.devRef .tc main_arg8) = W0 m ρ c (Proc.devRef .tc main_arg8) :=
  (W18_of_ne m ρ c main_arg8 (by decide) : W18 m ρ c (Proc.devRef .tc main_arg8) = W17 m ρ c (Proc.devRef .tc main_arg8)).trans (keep_arg8_17 m ρ c)

/-! ### `main_arg9`: written at boundary 0, untouched up to boundary 18 -/
theorem keep_arg9_1 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_arg9_2 (c : Dev nD) : W2 m ρ c (Proc.devRef .tc main_arg9) = W0 m ρ c (Proc.devRef .tc main_arg9) :=
  (W2_of_ne m ρ c main_arg9 (by decide) : W2 m ρ c (Proc.devRef .tc main_arg9) = W1 m ρ c (Proc.devRef .tc main_arg9)).trans (keep_arg9_1 m ρ c)
theorem keep_arg9_3 (c : Dev nD) : W3 m ρ c (Proc.devRef .tc main_arg9) = W0 m ρ c (Proc.devRef .tc main_arg9) :=
  (StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg9) = W2 m ρ c (Proc.devRef .tc main_arg9)).trans (keep_arg9_2 m ρ c)
theorem keep_arg9_4 (c : Dev nD) : W4 m ρ c (Proc.devRef .tc main_arg9) = W0 m ρ c (Proc.devRef .tc main_arg9) :=
  (W4_of_ne m ρ c main_arg9 (by decide) : W4 m ρ c (Proc.devRef .tc main_arg9) = W3 m ρ c (Proc.devRef .tc main_arg9)).trans (keep_arg9_3 m ρ c)
theorem keep_arg9_5 (c : Dev nD) : W5 m ρ c (Proc.devRef .tc main_arg9) = W0 m ρ c (Proc.devRef .tc main_arg9) :=
  (StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg9) = W4 m ρ c (Proc.devRef .tc main_arg9)).trans (keep_arg9_4 m ρ c)
theorem keep_arg9_6 (c : Dev nD) : W6 m ρ c (Proc.devRef .tc main_arg9) = W0 m ρ c (Proc.devRef .tc main_arg9) :=
  (W6_of_ne m ρ c main_arg9 (by decide) : W6 m ρ c (Proc.devRef .tc main_arg9) = W5 m ρ c (Proc.devRef .tc main_arg9)).trans (keep_arg9_5 m ρ c)
theorem keep_arg9_7 (c : Dev nD) : W7 m ρ c (Proc.devRef .tc main_arg9) = W0 m ρ c (Proc.devRef .tc main_arg9) :=
  (StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_arg9) = W6 m ρ c (Proc.devRef .tc main_arg9)).trans (keep_arg9_6 m ρ c)
theorem keep_arg9_8 (c : Dev nD) : W8 m ρ c (Proc.devRef .tc main_arg9) = W0 m ρ c (Proc.devRef .tc main_arg9) :=
  (W8_of_ne m ρ c main_arg9 (by decide) : W8 m ρ c (Proc.devRef .tc main_arg9) = W7 m ρ c (Proc.devRef .tc main_arg9)).trans (keep_arg9_7 m ρ c)
theorem keep_arg9_9 (c : Dev nD) : W9 m ρ c (Proc.devRef .tc main_arg9) = W0 m ρ c (Proc.devRef .tc main_arg9) :=
  (StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_arg9) = W8 m ρ c (Proc.devRef .tc main_arg9)).trans (keep_arg9_8 m ρ c)
theorem keep_arg9_10 (c : Dev nD) : W10 m ρ c (Proc.devRef .tc main_arg9) = W0 m ρ c (Proc.devRef .tc main_arg9) :=
  (W10_of_ne m ρ c main_arg9 (by decide) : W10 m ρ c (Proc.devRef .tc main_arg9) = W9 m ρ c (Proc.devRef .tc main_arg9)).trans (keep_arg9_9 m ρ c)
theorem keep_arg9_11 (c : Dev nD) : W11 m ρ c (Proc.devRef .tc main_arg9) = W0 m ρ c (Proc.devRef .tc main_arg9) :=
  (StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_arg9) = W10 m ρ c (Proc.devRef .tc main_arg9)).trans (keep_arg9_10 m ρ c)
theorem keep_arg9_12 (c : Dev nD) : W12 m ρ c (Proc.devRef .tc main_arg9) = W0 m ρ c (Proc.devRef .tc main_arg9) :=
  (W12_of_ne m ρ c main_arg9 (by decide) : W12 m ρ c (Proc.devRef .tc main_arg9) = W11 m ρ c (Proc.devRef .tc main_arg9)).trans (keep_arg9_11 m ρ c)
theorem keep_arg9_13 (c : Dev nD) : W13 m ρ c (Proc.devRef .tc main_arg9) = W0 m ρ c (Proc.devRef .tc main_arg9) :=
  (StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_arg9) = W12 m ρ c (Proc.devRef .tc main_arg9)).trans (keep_arg9_12 m ρ c)
theorem keep_arg9_14 (c : Dev nD) : W14 m ρ c (Proc.devRef .tc main_arg9) = W0 m ρ c (Proc.devRef .tc main_arg9) :=
  (W14_of_ne m ρ c main_arg9 (by decide) : W14 m ρ c (Proc.devRef .tc main_arg9) = W13 m ρ c (Proc.devRef .tc main_arg9)).trans (keep_arg9_13 m ρ c)
theorem keep_arg9_15 (c : Dev nD) : W15 m ρ c (Proc.devRef .tc main_arg9) = W0 m ρ c (Proc.devRef .tc main_arg9) :=
  (StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_arg9) = W14 m ρ c (Proc.devRef .tc main_arg9)).trans (keep_arg9_14 m ρ c)
theorem keep_arg9_16 (c : Dev nD) : W16 m ρ c (Proc.devRef .tc main_arg9) = W0 m ρ c (Proc.devRef .tc main_arg9) :=
  (W16_of_ne m ρ c main_arg9 (by decide) : W16 m ρ c (Proc.devRef .tc main_arg9) = W15 m ρ c (Proc.devRef .tc main_arg9)).trans (keep_arg9_15 m ρ c)
theorem keep_arg9_17 (c : Dev nD) : W17 m ρ c (Proc.devRef .tc main_arg9) = W0 m ρ c (Proc.devRef .tc main_arg9) :=
  (StableHlo.after_of_forall_not_mem (b := Proc.devRef .tc main_arg9) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_arg9) = W16 m ρ c (Proc.devRef .tc main_arg9)).trans (keep_arg9_16 m ρ c)
theorem keep_arg9_18 (c : Dev nD) : W18 m ρ c (Proc.devRef .tc main_arg9) = W0 m ρ c (Proc.devRef .tc main_arg9) :=
  (W18_of_ne m ρ c main_arg9 (by decide) : W18 m ρ c (Proc.devRef .tc main_arg9) = W17 m ρ c (Proc.devRef .tc main_arg9)).trans (keep_arg9_17 m ρ c)

/-! ### `main_arg4`: written at boundary 0, untouched up to boundary 18 -/
theorem keep_arg4_1 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_arg4_2 (c : Dev nD) : W2 m ρ c (Proc.devRef .tc main_arg4) = W0 m ρ c (Proc.devRef .tc main_arg4) :=
  (W2_of_ne m ρ c main_arg4 (by decide) : W2 m ρ c (Proc.devRef .tc main_arg4) = W1 m ρ c (Proc.devRef .tc main_arg4)).trans (keep_arg4_1 m ρ c)
theorem keep_arg4_3 (c : Dev nD) : W3 m ρ c (Proc.devRef .tc main_arg4) = W0 m ρ c (Proc.devRef .tc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg4) = W2 m ρ c (Proc.devRef .tc main_arg4)).trans (keep_arg4_2 m ρ c)
theorem keep_arg4_4 (c : Dev nD) : W4 m ρ c (Proc.devRef .tc main_arg4) = W0 m ρ c (Proc.devRef .tc main_arg4) :=
  (W4_of_ne m ρ c main_arg4 (by decide) : W4 m ρ c (Proc.devRef .tc main_arg4) = W3 m ρ c (Proc.devRef .tc main_arg4)).trans (keep_arg4_3 m ρ c)
theorem keep_arg4_5 (c : Dev nD) : W5 m ρ c (Proc.devRef .tc main_arg4) = W0 m ρ c (Proc.devRef .tc main_arg4) :=
  (StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg4) = W4 m ρ c (Proc.devRef .tc main_arg4)).trans (keep_arg4_4 m ρ c)
theorem keep_arg4_6 (c : Dev nD) : W6 m ρ c (Proc.devRef .tc main_arg4) = W0 m ρ c (Proc.devRef .tc main_arg4) :=
  (W6_of_ne m ρ c main_arg4 (by decide) : W6 m ρ c (Proc.devRef .tc main_arg4) = W5 m ρ c (Proc.devRef .tc main_arg4)).trans (keep_arg4_5 m ρ c)
theorem keep_arg4_7 (c : Dev nD) : W7 m ρ c (Proc.devRef .tc main_arg4) = W0 m ρ c (Proc.devRef .tc main_arg4) :=
  (StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_arg4) = W6 m ρ c (Proc.devRef .tc main_arg4)).trans (keep_arg4_6 m ρ c)
theorem keep_arg4_8 (c : Dev nD) : W8 m ρ c (Proc.devRef .tc main_arg4) = W0 m ρ c (Proc.devRef .tc main_arg4) :=
  (W8_of_ne m ρ c main_arg4 (by decide) : W8 m ρ c (Proc.devRef .tc main_arg4) = W7 m ρ c (Proc.devRef .tc main_arg4)).trans (keep_arg4_7 m ρ c)
theorem keep_arg4_9 (c : Dev nD) : W9 m ρ c (Proc.devRef .tc main_arg4) = W0 m ρ c (Proc.devRef .tc main_arg4) :=
  (StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_arg4) = W8 m ρ c (Proc.devRef .tc main_arg4)).trans (keep_arg4_8 m ρ c)
theorem keep_arg4_10 (c : Dev nD) : W10 m ρ c (Proc.devRef .tc main_arg4) = W0 m ρ c (Proc.devRef .tc main_arg4) :=
  (W10_of_ne m ρ c main_arg4 (by decide) : W10 m ρ c (Proc.devRef .tc main_arg4) = W9 m ρ c (Proc.devRef .tc main_arg4)).trans (keep_arg4_9 m ρ c)
theorem keep_arg4_11 (c : Dev nD) : W11 m ρ c (Proc.devRef .tc main_arg4) = W0 m ρ c (Proc.devRef .tc main_arg4) :=
  (StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_arg4) = W10 m ρ c (Proc.devRef .tc main_arg4)).trans (keep_arg4_10 m ρ c)
theorem keep_arg4_12 (c : Dev nD) : W12 m ρ c (Proc.devRef .tc main_arg4) = W0 m ρ c (Proc.devRef .tc main_arg4) :=
  (W12_of_ne m ρ c main_arg4 (by decide) : W12 m ρ c (Proc.devRef .tc main_arg4) = W11 m ρ c (Proc.devRef .tc main_arg4)).trans (keep_arg4_11 m ρ c)
theorem keep_arg4_13 (c : Dev nD) : W13 m ρ c (Proc.devRef .tc main_arg4) = W0 m ρ c (Proc.devRef .tc main_arg4) :=
  (StableHlo.after_of_forall_not_mem (b := Proc.devRef .tc main_arg4) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_arg4) = W12 m ρ c (Proc.devRef .tc main_arg4)).trans (keep_arg4_12 m ρ c)
theorem keep_arg4_14 (c : Dev nD) : W14 m ρ c (Proc.devRef .tc main_arg4) = W0 m ρ c (Proc.devRef .tc main_arg4) :=
  (W14_of_ne m ρ c main_arg4 (by decide) : W14 m ρ c (Proc.devRef .tc main_arg4) = W13 m ρ c (Proc.devRef .tc main_arg4)).trans (keep_arg4_13 m ρ c)
theorem keep_arg4_15 (c : Dev nD) : W15 m ρ c (Proc.devRef .tc main_arg4) = W0 m ρ c (Proc.devRef .tc main_arg4) :=
  (StableHlo.after_of_forall_not_mem (b := Proc.devRef .tc main_arg4) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_arg4) = W14 m ρ c (Proc.devRef .tc main_arg4)).trans (keep_arg4_14 m ρ c)
theorem keep_arg4_16 (c : Dev nD) : W16 m ρ c (Proc.devRef .tc main_arg4) = W0 m ρ c (Proc.devRef .tc main_arg4) :=
  (W16_of_ne m ρ c main_arg4 (by decide) : W16 m ρ c (Proc.devRef .tc main_arg4) = W15 m ρ c (Proc.devRef .tc main_arg4)).trans (keep_arg4_15 m ρ c)
theorem keep_arg4_17 (c : Dev nD) : W17 m ρ c (Proc.devRef .tc main_arg4) = W0 m ρ c (Proc.devRef .tc main_arg4) :=
  (StableHlo.after_of_forall_not_mem (b := Proc.devRef .tc main_arg4) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_arg4) = W16 m ρ c (Proc.devRef .tc main_arg4)).trans (keep_arg4_16 m ρ c)
theorem keep_arg4_18 (c : Dev nD) : W18 m ρ c (Proc.devRef .tc main_arg4) = W0 m ρ c (Proc.devRef .tc main_arg4) :=
  (W18_of_ne m ρ c main_arg4 (by decide) : W18 m ρ c (Proc.devRef .tc main_arg4) = W17 m ρ c (Proc.devRef .tc main_arg4)).trans (keep_arg4_17 m ρ c)

/-! ### `main_arg5`: written at boundary 0, untouched up to boundary 18 -/
theorem keep_arg5_1 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_arg5_2 (c : Dev nD) : W2 m ρ c (Proc.devRef .tc main_arg5) = W0 m ρ c (Proc.devRef .tc main_arg5) :=
  (W2_of_ne m ρ c main_arg5 (by decide) : W2 m ρ c (Proc.devRef .tc main_arg5) = W1 m ρ c (Proc.devRef .tc main_arg5)).trans (keep_arg5_1 m ρ c)
theorem keep_arg5_3 (c : Dev nD) : W3 m ρ c (Proc.devRef .tc main_arg5) = W0 m ρ c (Proc.devRef .tc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg5) = W2 m ρ c (Proc.devRef .tc main_arg5)).trans (keep_arg5_2 m ρ c)
theorem keep_arg5_4 (c : Dev nD) : W4 m ρ c (Proc.devRef .tc main_arg5) = W0 m ρ c (Proc.devRef .tc main_arg5) :=
  (W4_of_ne m ρ c main_arg5 (by decide) : W4 m ρ c (Proc.devRef .tc main_arg5) = W3 m ρ c (Proc.devRef .tc main_arg5)).trans (keep_arg5_3 m ρ c)
theorem keep_arg5_5 (c : Dev nD) : W5 m ρ c (Proc.devRef .tc main_arg5) = W0 m ρ c (Proc.devRef .tc main_arg5) :=
  (StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg5) = W4 m ρ c (Proc.devRef .tc main_arg5)).trans (keep_arg5_4 m ρ c)
theorem keep_arg5_6 (c : Dev nD) : W6 m ρ c (Proc.devRef .tc main_arg5) = W0 m ρ c (Proc.devRef .tc main_arg5) :=
  (W6_of_ne m ρ c main_arg5 (by decide) : W6 m ρ c (Proc.devRef .tc main_arg5) = W5 m ρ c (Proc.devRef .tc main_arg5)).trans (keep_arg5_5 m ρ c)
theorem keep_arg5_7 (c : Dev nD) : W7 m ρ c (Proc.devRef .tc main_arg5) = W0 m ρ c (Proc.devRef .tc main_arg5) :=
  (StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_arg5) = W6 m ρ c (Proc.devRef .tc main_arg5)).trans (keep_arg5_6 m ρ c)
theorem keep_arg5_8 (c : Dev nD) : W8 m ρ c (Proc.devRef .tc main_arg5) = W0 m ρ c (Proc.devRef .tc main_arg5) :=
  (W8_of_ne m ρ c main_arg5 (by decide) : W8 m ρ c (Proc.devRef .tc main_arg5) = W7 m ρ c (Proc.devRef .tc main_arg5)).trans (keep_arg5_7 m ρ c)
theorem keep_arg5_9 (c : Dev nD) : W9 m ρ c (Proc.devRef .tc main_arg5) = W0 m ρ c (Proc.devRef .tc main_arg5) :=
  (StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_arg5) = W8 m ρ c (Proc.devRef .tc main_arg5)).trans (keep_arg5_8 m ρ c)
theorem keep_arg5_10 (c : Dev nD) : W10 m ρ c (Proc.devRef .tc main_arg5) = W0 m ρ c (Proc.devRef .tc main_arg5) :=
  (W10_of_ne m ρ c main_arg5 (by decide) : W10 m ρ c (Proc.devRef .tc main_arg5) = W9 m ρ c (Proc.devRef .tc main_arg5)).trans (keep_arg5_9 m ρ c)
theorem keep_arg5_11 (c : Dev nD) : W11 m ρ c (Proc.devRef .tc main_arg5) = W0 m ρ c (Proc.devRef .tc main_arg5) :=
  (StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_arg5) = W10 m ρ c (Proc.devRef .tc main_arg5)).trans (keep_arg5_10 m ρ c)
theorem keep_arg5_12 (c : Dev nD) : W12 m ρ c (Proc.devRef .tc main_arg5) = W0 m ρ c (Proc.devRef .tc main_arg5) :=
  (W12_of_ne m ρ c main_arg5 (by decide) : W12 m ρ c (Proc.devRef .tc main_arg5) = W11 m ρ c (Proc.devRef .tc main_arg5)).trans (keep_arg5_11 m ρ c)
theorem keep_arg5_13 (c : Dev nD) : W13 m ρ c (Proc.devRef .tc main_arg5) = W0 m ρ c (Proc.devRef .tc main_arg5) :=
  (StableHlo.after_of_forall_not_mem (b := Proc.devRef .tc main_arg5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_arg5) = W12 m ρ c (Proc.devRef .tc main_arg5)).trans (keep_arg5_12 m ρ c)
theorem keep_arg5_14 (c : Dev nD) : W14 m ρ c (Proc.devRef .tc main_arg5) = W0 m ρ c (Proc.devRef .tc main_arg5) :=
  (W14_of_ne m ρ c main_arg5 (by decide) : W14 m ρ c (Proc.devRef .tc main_arg5) = W13 m ρ c (Proc.devRef .tc main_arg5)).trans (keep_arg5_13 m ρ c)
theorem keep_arg5_15 (c : Dev nD) : W15 m ρ c (Proc.devRef .tc main_arg5) = W0 m ρ c (Proc.devRef .tc main_arg5) :=
  (StableHlo.after_of_forall_not_mem (b := Proc.devRef .tc main_arg5) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_arg5) = W14 m ρ c (Proc.devRef .tc main_arg5)).trans (keep_arg5_14 m ρ c)
theorem keep_arg5_16 (c : Dev nD) : W16 m ρ c (Proc.devRef .tc main_arg5) = W0 m ρ c (Proc.devRef .tc main_arg5) :=
  (W16_of_ne m ρ c main_arg5 (by decide) : W16 m ρ c (Proc.devRef .tc main_arg5) = W15 m ρ c (Proc.devRef .tc main_arg5)).trans (keep_arg5_15 m ρ c)
theorem keep_arg5_17 (c : Dev nD) : W17 m ρ c (Proc.devRef .tc main_arg5) = W0 m ρ c (Proc.devRef .tc main_arg5) :=
  (StableHlo.after_of_forall_not_mem (b := Proc.devRef .tc main_arg5) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_arg5) = W16 m ρ c (Proc.devRef .tc main_arg5)).trans (keep_arg5_16 m ρ c)
theorem keep_arg5_18 (c : Dev nD) : W18 m ρ c (Proc.devRef .tc main_arg5) = W0 m ρ c (Proc.devRef .tc main_arg5) :=
  (W18_of_ne m ρ c main_arg5 (by decide) : W18 m ρ c (Proc.devRef .tc main_arg5) = W17 m ρ c (Proc.devRef .tc main_arg5)).trans (keep_arg5_17 m ρ c)

end Cert.MoNet.Keep

end
-- ==== Proof.KeepBufs.lean ====
/-
  Between two boundaries of the idealized kernel's @main a buffer that no host operation of the stretch writes and that is none of the region's arrays keeps its contents.  Here: the edge endpoints, the pseudo-coordinate array (an input array of every featurize region, which leaves it as entered), and each layer's node features and edge weights, from the boundary where each is written (an argument: the launch) to every later boundary at which a host stretch or a region reads it.
-/
import proofs.«168295_j62088047231392_2_alg».proof.Proof.Gen.KernelIdeal.Frame

set_option maxRecDepth 16384

noncomputable section

namespace Cert.MoNet.Keep

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ### `main_v37`: written at boundary 1, untouched up to boundary 5 -/
theorem keep_v37_2 (c : Dev nD) : W2 m ρ c (Proc.devRef .tc main_v37) = W1 m ρ c (Proc.devRef .tc main_v37) :=
  W2_of_ne m ρ c main_v37 (by decide)
theorem keep_v37_3 (c : Dev nD) : W3 m ρ c (Proc.devRef .tc main_v37) = W1 m ρ c (Proc.devRef .tc main_v37) :=
  (StableHlo.after_of_forall_not_mem (b := Proc.devRef .tc main_v37) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_v37) = W2 m ρ c (Proc.devRef .tc main_v37)).trans (keep_v37_2 m ρ c)
theorem keep_v37_4 (c : Dev nD) : W4 m ρ c (Proc.devRef .tc main_v37) = W1 m ρ c (Proc.devRef .tc main_v37) :=
  (W4_of_ne m ρ c main_v37 (by decide) : W4 m ρ c (Proc.devRef .tc main_v37) = W3 m ρ c (Proc.devRef .tc main_v37)).trans (keep_v37_3 m ρ c)
theorem keep_v37_5 (c : Dev nD) : W5 m ρ c (Proc.devRef .tc main_v37) = W1 m ρ c (Proc.devRef .tc main_v37) :=
  (StableHlo.after_of_forall_not_mem (b := Proc.devRef .tc main_v37) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_v37) = W4 m ρ c (Proc.devRef .tc main_v37)).trans (keep_v37_4 m ρ c)

/-! ### `main_v1`: written at boundary 1, untouched up to boundary 22 -/
theorem keep_v1_2 (c : Dev nD) : W2 m ρ c (Proc.devRef .tc main_v1) = W1 m ρ c (Proc.devRef .tc main_v1) :=
  W2_of_ne m ρ c main_v1 (by decide)
theorem keep_v1_3 (c : Dev nD) : W3 m ρ c (Proc.devRef .tc main_v1) = W1 m ρ c (Proc.devRef .tc main_v1) :=
  (StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_v1) = W2 m ρ c (Proc.devRef .tc main_v1)).trans (keep_v1_2 m ρ c)
theorem keep_v1_4 (c : Dev nD) : W4 m ρ c (Proc.devRef .tc main_v1) = W1 m ρ c (Proc.devRef .tc main_v1) :=
  (W4_of_ne m ρ c main_v1 (by decide) : W4 m ρ c (Proc.devRef .tc main_v1) = W3 m ρ c (Proc.devRef .tc main_v1)).trans (keep_v1_3 m ρ c)
theorem keep_v1_5 (c : Dev nD) : W5 m ρ c (Proc.devRef .tc main_v1) = W1 m ρ c (Proc.devRef .tc main_v1) :=
  (StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_v1) = W4 m ρ c (Proc.devRef .tc main_v1)).trans (keep_v1_4 m ρ c)
theorem keep_v1_6 (c : Dev nD) : W6 m ρ c (Proc.devRef .tc main_v1) = W1 m ρ c (Proc.devRef .tc main_v1) :=
  (W6_of_ne m ρ c main_v1 (by decide) : W6 m ρ c (Proc.devRef .tc main_v1) = W5 m ρ c (Proc.devRef .tc main_v1)).trans (keep_v1_5 m ρ c)
theorem keep_v1_7 (c : Dev nD) : W7 m ρ c (Proc.devRef .tc main_v1) = W1 m ρ c (Proc.devRef .tc main_v1) :=
  (StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_v1) = W6 m ρ c (Proc.devRef .tc main_v1)).trans (keep_v1_6 m ρ c)
theorem keep_v1_8 (c : Dev nD) : W8 m ρ c (Proc.devRef .tc main_v1) = W1 m ρ c (Proc.devRef .tc main_v1) :=
  (W8_of_ne m ρ c main_v1 (by decide) : W8 m ρ c (Proc.devRef .tc main_v1) = W7 m ρ c (Proc.devRef .tc main_v1)).trans (keep_v1_7 m ρ c)
theorem keep_v1_9 (c : Dev nD) : W9 m ρ c (Proc.devRef .tc main_v1) = W1 m ρ c (Proc.devRef .tc main_v1) :=
  (StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_v1) = W8 m ρ c (Proc.devRef .tc main_v1)).trans (keep_v1_8 m ρ c)
theorem keep_v1_10 (c : Dev nD) : W10 m ρ c (Proc.devRef .tc main_v1) = W1 m ρ c (Proc.devRef .tc main_v1) :=
  (W10_of_ne m ρ c main_v1 (by decide) : W10 m ρ c (Proc.devRef .tc main_v1) = W9 m ρ c (Proc.devRef .tc main_v1)).trans (keep_v1_9 m ρ c)
theorem keep_v1_11 (c : Dev nD) : W11 m ρ c (Proc.devRef .tc main_v1) = W1 m ρ c (Proc.devRef .tc main_v1) :=
  (StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_v1) = W10 m ρ c (Proc.devRef .tc main_v1)).trans (keep_v1_10 m ρ c)
theorem keep_v1_12 (c : Dev nD) : W12 m ρ c (Proc.devRef .tc main_v1) = W1 m ρ c (Proc.devRef .tc main_v1) :=
  (W12_of_ne m ρ c main_v1 (by decide) : W12 m ρ c (Proc.devRef .tc main_v1) = W11 m ρ c (Proc.devRef .tc main_v1)).trans (keep_v1_11 m ρ c)
theorem keep_v1_13 (c : Dev nD) : W13 m ρ c (Proc.devRef .tc main_v1) = W1 m ρ c (Proc.devRef .tc main_v1) :=
  (StableHlo.after_of_forall_not_mem (b := Proc.devRef .tc main_v1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_v1) = W12 m ρ c (Proc.devRef .tc main_v1)).trans (keep_v1_12 m ρ c)
theorem keep_v1_14 (c : Dev nD) : W14 m ρ c (Proc.devRef .tc main_v1) = W1 m ρ c (Proc.devRef .tc main_v1) :=
  (W14_of_ne m ρ c main_v1 (by decide) : W14 m ρ c (Proc.devRef .tc main_v1) = W13 m ρ c (Proc.devRef .tc main_v1)).trans (keep_v1_13 m ρ c)
theorem keep_v1_15 (c : Dev nD) : W15 m ρ c (Proc.devRef .tc main_v1) = W1 m ρ c (Proc.devRef .tc main_v1) :=
  (StableHlo.after_of_forall_not_mem (b := Proc.devRef .tc main_v1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_v1) = W14 m ρ c (Proc.devRef .tc main_v1)).trans (keep_v1_14 m ρ c)
theorem keep_v1_16 (c : Dev nD) : W16 m ρ c (Proc.devRef .tc main_v1) = W1 m ρ c (Proc.devRef .tc main_v1) :=
  (W16_of_ne m ρ c main_v1 (by decide) : W16 m ρ c (Proc.devRef .tc main_v1) = W15 m ρ c (Proc.devRef .tc main_v1)).trans (keep_v1_15 m ρ c)
theorem keep_v1_17 (c : Dev nD) : W17 m ρ c (Proc.devRef .tc main_v1) = W1 m ρ c (Proc.devRef .tc main_v1) :=
  (StableHlo.after_of_forall_not_mem (b := Proc.devRef .tc main_v1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_v1) = W16 m ρ c (Proc.devRef .tc main_v1)).trans (keep_v1_16 m ρ c)
theorem keep_v1_18 (c : Dev nD) : W18 m ρ c (Proc.devRef .tc main_v1) = W1 m ρ c (Proc.devRef .tc main_v1) :=
  (W18_of_ne m ρ c main_v1 (by decide) : W18 m ρ c (Proc.devRef .tc main_v1) = W17 m ρ c (Proc.devRef .tc main_v1)).trans (keep_v1_17 m ρ c)
theorem keep_v1_19 (c : Dev nD) : W19 m ρ c (Proc.devRef .tc main_v1) = W1 m ρ c (Proc.devRef .tc main_v1) :=
  (StableHlo.after_of_forall_not_mem (b := Proc.devRef .tc main_v1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W19 m ρ c (Proc.devRef .tc main_v1) = W18 m ρ c (Proc.devRef .tc main_v1)).trans (keep_v1_18 m ρ c)
theorem keep_v1_20 (c : Dev nD) : W20 m ρ c (Proc.devRef .tc main_v1) = W1 m ρ c (Proc.devRef .tc main_v1) :=
  (W20_of_ne m ρ c main_v1 (by decide) : W20 m ρ c (Proc.devRef .tc main_v1) = W19 m ρ c (Proc.devRef .tc main_v1)).trans (keep_v1_19 m ρ c)
theorem keep_v1_21 (c : Dev nD) : W21 m ρ c (Proc.devRef .tc main_v1) = W1 m ρ c (Proc.devRef .tc main_v1) :=
  (StableHlo.after_of_forall_not_mem (b := Proc.devRef .tc main_v1) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W21 m ρ c (Proc.devRef .tc main_v1) = W20 m ρ c (Proc.devRef .tc main_v1)).trans (keep_v1_20 m ρ c)
theorem keep_v1_22 (c : Dev nD) : W22 m ρ c (Proc.devRef .tc main_v1) = W1 m ρ c (Proc.devRef .tc main_v1) :=
  (W22_of_ne m ρ c main_v1 (by decide) : W22 m ρ c (Proc.devRef .tc main_v1) = W21 m ρ c (Proc.devRef .tc main_v1)).trans (keep_v1_21 m ρ c)

/-! ### `main_v47`: written at boundary 2, untouched up to boundary 4 -/
theorem keep_v47_3 (c : Dev nD) : W3 m ρ c (Proc.devRef .tc main_v47) = W2 m ρ c (Proc.devRef .tc main_v47) :=
  StableHlo.after_of_forall_not_mem (b := Proc.devRef .tc main_v47) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_v47_4 (c : Dev nD) : W4 m ρ c (Proc.devRef .tc main_v47) = W2 m ρ c (Proc.devRef .tc main_v47) :=
  (W4_of_ne m ρ c main_v47 (by decide) : W4 m ρ c (Proc.devRef .tc main_v47) = W3 m ρ c (Proc.devRef .tc main_v47)).trans (keep_v47_3 m ρ c)

/-! ### `main_v3`: written at boundary 1, untouched up to boundary 22 -/
theorem keep_v3_2 (c : Dev nD) : W2 m ρ c (Proc.devRef .tc main_v3) = W1 m ρ c (Proc.devRef .tc main_v3) :=
  W2_of_ne m ρ c main_v3 (by decide)
theorem keep_v3_3 (c : Dev nD) : W3 m ρ c (Proc.devRef .tc main_v3) = W1 m ρ c (Proc.devRef .tc main_v3) :=
  (StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_v3) = W2 m ρ c (Proc.devRef .tc main_v3)).trans (keep_v3_2 m ρ c)
theorem keep_v3_4 (c : Dev nD) : W4 m ρ c (Proc.devRef .tc main_v3) = W1 m ρ c (Proc.devRef .tc main_v3) :=
  (W4_of_ne m ρ c main_v3 (by decide) : W4 m ρ c (Proc.devRef .tc main_v3) = W3 m ρ c (Proc.devRef .tc main_v3)).trans (keep_v3_3 m ρ c)
theorem keep_v3_5 (c : Dev nD) : W5 m ρ c (Proc.devRef .tc main_v3) = W1 m ρ c (Proc.devRef .tc main_v3) :=
  (StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_v3) = W4 m ρ c (Proc.devRef .tc main_v3)).trans (keep_v3_4 m ρ c)
theorem keep_v3_6 (c : Dev nD) : W6 m ρ c (Proc.devRef .tc main_v3) = W1 m ρ c (Proc.devRef .tc main_v3) :=
  (W6_of_ne m ρ c main_v3 (by decide) : W6 m ρ c (Proc.devRef .tc main_v3) = W5 m ρ c (Proc.devRef .tc main_v3)).trans (keep_v3_5 m ρ c)
theorem keep_v3_7 (c : Dev nD) : W7 m ρ c (Proc.devRef .tc main_v3) = W1 m ρ c (Proc.devRef .tc main_v3) :=
  (StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_v3) = W6 m ρ c (Proc.devRef .tc main_v3)).trans (keep_v3_6 m ρ c)
theorem keep_v3_8 (c : Dev nD) : W8 m ρ c (Proc.devRef .tc main_v3) = W1 m ρ c (Proc.devRef .tc main_v3) :=
  (W8_of_ne m ρ c main_v3 (by decide) : W8 m ρ c (Proc.devRef .tc main_v3) = W7 m ρ c (Proc.devRef .tc main_v3)).trans (keep_v3_7 m ρ c)
theorem keep_v3_9 (c : Dev nD) : W9 m ρ c (Proc.devRef .tc main_v3) = W1 m ρ c (Proc.devRef .tc main_v3) :=
  (StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_v3) = W8 m ρ c (Proc.devRef .tc main_v3)).trans (keep_v3_8 m ρ c)
theorem keep_v3_10 (c : Dev nD) : W10 m ρ c (Proc.devRef .tc main_v3) = W1 m ρ c (Proc.devRef .tc main_v3) :=
  (W10_of_ne m ρ c main_v3 (by decide) : W10 m ρ c (Proc.devRef .tc main_v3) = W9 m ρ c (Proc.devRef .tc main_v3)).trans (keep_v3_9 m ρ c)
theorem keep_v3_11 (c : Dev nD) : W11 m ρ c (Proc.devRef .tc main_v3) = W1 m ρ c (Proc.devRef .tc main_v3) :=
  (StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_v3) = W10 m ρ c (Proc.devRef .tc main_v3)).trans (keep_v3_10 m ρ c)
theorem keep_v3_12 (c : Dev nD) : W12 m ρ c (Proc.devRef .tc main_v3) = W1 m ρ c (Proc.devRef .tc main_v3) :=
  (W12_of_ne m ρ c main_v3 (by decide) : W12 m ρ c (Proc.devRef .tc main_v3) = W11 m ρ c (Proc.devRef .tc main_v3)).trans (keep_v3_11 m ρ c)
theorem keep_v3_13 (c : Dev nD) : W13 m ρ c (Proc.devRef .tc main_v3) = W1 m ρ c (Proc.devRef .tc main_v3) :=
  (StableHlo.after_of_forall_not_mem (b := Proc.devRef .tc main_v3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_v3) = W12 m ρ c (Proc.devRef .tc main_v3)).trans (keep_v3_12 m ρ c)
theorem keep_v3_14 (c : Dev nD) : W14 m ρ c (Proc.devRef .tc main_v3) = W1 m ρ c (Proc.devRef .tc main_v3) :=
  (W14_of_ne m ρ c main_v3 (by decide) : W14 m ρ c (Proc.devRef .tc main_v3) = W13 m ρ c (Proc.devRef .tc main_v3)).trans (keep_v3_13 m ρ c)
theorem keep_v3_15 (c : Dev nD) : W15 m ρ c (Proc.devRef .tc main_v3) = W1 m ρ c (Proc.devRef .tc main_v3) :=
  (StableHlo.after_of_forall_not_mem (b := Proc.devRef .tc main_v3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_v3) = W14 m ρ c (Proc.devRef .tc main_v3)).trans (keep_v3_14 m ρ c)
theorem keep_v3_16 (c : Dev nD) : W16 m ρ c (Proc.devRef .tc main_v3) = W1 m ρ c (Proc.devRef .tc main_v3) :=
  (W16_of_ne m ρ c main_v3 (by decide) : W16 m ρ c (Proc.devRef .tc main_v3) = W15 m ρ c (Proc.devRef .tc main_v3)).trans (keep_v3_15 m ρ c)
theorem keep_v3_17 (c : Dev nD) : W17 m ρ c (Proc.devRef .tc main_v3) = W1 m ρ c (Proc.devRef .tc main_v3) :=
  (StableHlo.after_of_forall_not_mem (b := Proc.devRef .tc main_v3) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_v3) = W16 m ρ c (Proc.devRef .tc main_v3)).trans (keep_v3_16 m ρ c)
theorem keep_v3_18 (c : Dev nD) : W18 m ρ c (Proc.devRef .tc main_v3) = W1 m ρ c (Proc.devRef .tc main_v3) :=
  (W18_of_ne m ρ c main_v3 (by decide) : W18 m ρ c (Proc.devRef .tc main_v3) = W17 m ρ c (Proc.devRef .tc main_v3)).trans (keep_v3_17 m ρ c)
theorem keep_v3_19 (c : Dev nD) : W19 m ρ c (Proc.devRef .tc main_v3) = W1 m ρ c (Proc.devRef .tc main_v3) :=
  (StableHlo.after_of_forall_not_mem (b := Proc.devRef .tc main_v3) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W19 m ρ c (Proc.devRef .tc main_v3) = W18 m ρ c (Proc.devRef .tc main_v3)).trans (keep_v3_18 m ρ c)
theorem keep_v3_20 (c : Dev nD) : W20 m ρ c (Proc.devRef .tc main_v3) = W1 m ρ c (Proc.devRef .tc main_v3) :=
  (W20_of_ne m ρ c main_v3 (by decide) : W20 m ρ c (Proc.devRef .tc main_v3) = W19 m ρ c (Proc.devRef .tc main_v3)).trans (keep_v3_19 m ρ c)
theorem keep_v3_21 (c : Dev nD) : W21 m ρ c (Proc.devRef .tc main_v3) = W1 m ρ c (Proc.devRef .tc main_v3) :=
  (StableHlo.after_of_forall_not_mem (b := Proc.devRef .tc main_v3) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W21 m ρ c (Proc.devRef .tc main_v3) = W20 m ρ c (Proc.devRef .tc main_v3)).trans (keep_v3_20 m ρ c)
theorem keep_v3_22 (c : Dev nD) : W22 m ρ c (Proc.devRef .tc main_v3) = W1 m ρ c (Proc.devRef .tc main_v3) :=
  (W22_of_ne m ρ c main_v3 (by decide) : W22 m ρ c (Proc.devRef .tc main_v3) = W21 m ρ c (Proc.devRef .tc main_v3)).trans (keep_v3_21 m ρ c)

/-! ### `main_v30`: written at boundary 1, untouched up to boundary 19 -/
theorem keep_v30_2 (c : Dev nD) : W2 m ρ c (Proc.devRef .tc main_v30) = W1 m ρ c (Proc.devRef .tc main_v30) :=
  (W2_arr m ρ c 0).trans (((dat0 (V1 m ρ) c).arrAt_in 0 rfl cfg0.N).trans (A_eq0 (V1 m ρ) c 0))
theorem keep_v30_3 (c : Dev nD) : W3 m ρ c (Proc.devRef .tc main_v30) = W1 m ρ c (Proc.devRef .tc main_v30) :=
  (StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_v30) = W2 m ρ c (Proc.devRef .tc main_v30)).trans (keep_v30_2 m ρ c)
theorem keep_v30_4 (c : Dev nD) : W4 m ρ c (Proc.devRef .tc main_v30) = W1 m ρ c (Proc.devRef .tc main_v30) :=
  (W4_of_ne m ρ c main_v30 (by decide) : W4 m ρ c (Proc.devRef .tc main_v30) = W3 m ρ c (Proc.devRef .tc main_v30)).trans (keep_v30_3 m ρ c)
theorem keep_v30_5 (c : Dev nD) : W5 m ρ c (Proc.devRef .tc main_v30) = W1 m ρ c (Proc.devRef .tc main_v30) :=
  (StableHlo.after_of_forall_not_mem (b := Proc.devRef .tc main_v30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_v30) = W4 m ρ c (Proc.devRef .tc main_v30)).trans (keep_v30_4 m ρ c)
theorem keep_v30_6 (c : Dev nD) : W6 m ρ c (Proc.devRef .tc main_v30) = W1 m ρ c (Proc.devRef .tc main_v30) :=
  (W6_of_ne m ρ c main_v30 (by decide) : W6 m ρ c (Proc.devRef .tc main_v30) = W5 m ρ c (Proc.devRef .tc main_v30)).trans (keep_v30_5 m ρ c)
theorem keep_v30_7 (c : Dev nD) : W7 m ρ c (Proc.devRef .tc main_v30) = W1 m ρ c (Proc.devRef .tc main_v30) :=
  (StableHlo.after_of_forall_not_mem (b := Proc.devRef .tc main_v30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W7 m ρ c (Proc.devRef .tc main_v30) = W6 m ρ c (Proc.devRef .tc main_v30)).trans (keep_v30_6 m ρ c)
theorem keep_v30_8 (c : Dev nD) : W8 m ρ c (Proc.devRef .tc main_v30) = W1 m ρ c (Proc.devRef .tc main_v30) :=
  ((W8_arr m ρ c 0).trans (((dat3 (V7 m ρ) c).arrAt_in 0 rfl cfg3.N).trans (A_eq3 (V7 m ρ) c 0)) : W8 m ρ c (Proc.devRef .tc main_v30) = W7 m ρ c (Proc.devRef .tc main_v30)).trans (keep_v30_7 m ρ c)
theorem keep_v30_9 (c : Dev nD) : W9 m ρ c (Proc.devRef .tc main_v30) = W1 m ρ c (Proc.devRef .tc main_v30) :=
  (StableHlo.after_of_forall_not_mem (b := Proc.devRef .tc main_v30) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_v30) = W8 m ρ c (Proc.devRef .tc main_v30)).trans (keep_v30_8 m ρ c)
theorem keep_v30_10 (c : Dev nD) : W10 m ρ c (Proc.devRef .tc main_v30) = W1 m ρ c (Proc.devRef .tc main_v30) :=
  (W10_of_ne m ρ c main_v30 (by decide) : W10 m ρ c (Proc.devRef .tc main_v30) = W9 m ρ c (Proc.devRef .tc main_v30)).trans (keep_v30_9 m ρ c)
theorem keep_v30_11 (c : Dev nD) : W11 m ρ c (Proc.devRef .tc main_v30) = W1 m ρ c (Proc.devRef .tc main_v30) :=
  (StableHlo.after_of_forall_not_mem (b := Proc.devRef .tc main_v30) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_v30) = W10 m ρ c (Proc.devRef .tc main_v30)).trans (keep_v30_10 m ρ c)
theorem keep_v30_12 (c : Dev nD) : W12 m ρ c (Proc.devRef .tc main_v30) = W1 m ρ c (Proc.devRef .tc main_v30) :=
  (W12_of_ne m ρ c main_v30 (by decide) : W12 m ρ c (Proc.devRef .tc main_v30) = W11 m ρ c (Proc.devRef .tc main_v30)).trans (keep_v30_11 m ρ c)
theorem keep_v30_13 (c : Dev nD) : W13 m ρ c (Proc.devRef .tc main_v30) = W1 m ρ c (Proc.devRef .tc main_v30) :=
  (StableHlo.after_of_forall_not_mem (b := Proc.devRef .tc main_v30) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W13 m ρ c (Proc.devRef .tc main_v30) = W12 m ρ c (Proc.devRef .tc main_v30)).trans (keep_v30_12 m ρ c)
theorem keep_v30_14 (c : Dev nD) : W14 m ρ c (Proc.devRef .tc main_v30) = W1 m ρ c (Proc.devRef .tc main_v30) :=
  ((W14_arr m ρ c 0).trans (((dat6 (V13 m ρ) c).arrAt_in 0 rfl cfg6.N).trans (A_eq6 (V13 m ρ) c 0)) : W14 m ρ c (Proc.devRef .tc main_v30) = W13 m ρ c (Proc.devRef .tc main_v30)).trans (keep_v30_13 m ρ c)
theorem keep_v30_15 (c : Dev nD) : W15 m ρ c (Proc.devRef .tc main_v30) = W1 m ρ c (Proc.devRef .tc main_v30) :=
  (StableHlo.after_of_forall_not_mem (b := Proc.devRef .tc main_v30) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_v30) = W14 m ρ c (Proc.devRef .tc main_v30)).trans (keep_v30_14 m ρ c)
theorem keep_v30_16 (c : Dev nD) : W16 m ρ c (Proc.devRef .tc main_v30) = W1 m ρ c (Proc.devRef .tc main_v30) :=
  (W16_of_ne m ρ c main_v30 (by decide) : W16 m ρ c (Proc.devRef .tc main_v30) = W15 m ρ c (Proc.devRef .tc main_v30)).trans (keep_v30_15 m ρ c)
theorem keep_v30_17 (c : Dev nD) : W17 m ρ c (Proc.devRef .tc main_v30) = W1 m ρ c (Proc.devRef .tc main_v30) :=
  (StableHlo.after_of_forall_not_mem (b := Proc.devRef .tc main_v30) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_v30) = W16 m ρ c (Proc.devRef .tc main_v30)).trans (keep_v30_16 m ρ c)
theorem keep_v30_18 (c : Dev nD) : W18 m ρ c (Proc.devRef .tc main_v30) = W1 m ρ c (Proc.devRef .tc main_v30) :=
  (W18_of_ne m ρ c main_v30 (by decide) : W18 m ρ c (Proc.devRef .tc main_v30) = W17 m ρ c (Proc.devRef .tc main_v30)).trans (keep_v30_17 m ρ c)
theorem keep_v30_19 (c : Dev nD) : W19 m ρ c (Proc.devRef .tc main_v30) = W1 m ρ c (Proc.devRef .tc main_v30) :=
  (StableHlo.after_of_forall_not_mem (b := Proc.devRef .tc main_v30) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W19 m ρ c (Proc.devRef .tc main_v30) = W18 m ρ c (Proc.devRef .tc main_v30)).trans (keep_v30_18 m ρ c)

/-! ### `main_v87`: written at boundary 6, untouched up to boundary 11 -/
theorem keep_v87_7 (c : Dev nD) : W7 m ρ c (Proc.devRef .tc main_v87) = W6 m ρ c (Proc.devRef .tc main_v87) :=
  StableHlo.after_of_forall_not_mem (b := Proc.devRef .tc main_v87) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_v87_8 (c : Dev nD) : W8 m ρ c (Proc.devRef .tc main_v87) = W6 m ρ c (Proc.devRef .tc main_v87) :=
  (W8_of_ne m ρ c main_v87 (by decide) : W8 m ρ c (Proc.devRef .tc main_v87) = W7 m ρ c (Proc.devRef .tc main_v87)).trans (keep_v87_7 m ρ c)
theorem keep_v87_9 (c : Dev nD) : W9 m ρ c (Proc.devRef .tc main_v87) = W6 m ρ c (Proc.devRef .tc main_v87) :=
  (StableHlo.after_of_forall_not_mem (b := Proc.devRef .tc main_v87) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W9 m ρ c (Proc.devRef .tc main_v87) = W8 m ρ c (Proc.devRef .tc main_v87)).trans (keep_v87_8 m ρ c)
theorem keep_v87_10 (c : Dev nD) : W10 m ρ c (Proc.devRef .tc main_v87) = W6 m ρ c (Proc.devRef .tc main_v87) :=
  (W10_of_ne m ρ c main_v87 (by decide) : W10 m ρ c (Proc.devRef .tc main_v87) = W9 m ρ c (Proc.devRef .tc main_v87)).trans (keep_v87_9 m ρ c)
theorem keep_v87_11 (c : Dev nD) : W11 m ρ c (Proc.devRef .tc main_v87) = W6 m ρ c (Proc.devRef .tc main_v87) :=
  (StableHlo.after_of_forall_not_mem (b := Proc.devRef .tc main_v87) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W11 m ρ c (Proc.devRef .tc main_v87) = W10 m ρ c (Proc.devRef .tc main_v87)).trans (keep_v87_10 m ρ c)

/-! ### `main_v97`: written at boundary 8, untouched up to boundary 10 -/
theorem keep_v97_9 (c : Dev nD) : W9 m ρ c (Proc.devRef .tc main_v97) = W8 m ρ c (Proc.devRef .tc main_v97) :=
  StableHlo.after_of_forall_not_mem (b := Proc.devRef .tc main_v97) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_v97_10 (c : Dev nD) : W10 m ρ c (Proc.devRef .tc main_v97) = W8 m ρ c (Proc.devRef .tc main_v97) :=
  (W10_of_ne m ρ c main_v97 (by decide) : W10 m ρ c (Proc.devRef .tc main_v97) = W9 m ρ c (Proc.devRef .tc main_v97)).trans (keep_v97_9 m ρ c)

/-! ### `main_v137`: written at boundary 12, untouched up to boundary 17 -/
theorem keep_v137_13 (c : Dev nD) : W13 m ρ c (Proc.devRef .tc main_v137) = W12 m ρ c (Proc.devRef .tc main_v137) :=
  StableHlo.after_of_forall_not_mem (b := Proc.devRef .tc main_v137) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_v137_14 (c : Dev nD) : W14 m ρ c (Proc.devRef .tc main_v137) = W12 m ρ c (Proc.devRef .tc main_v137) :=
  (W14_of_ne m ρ c main_v137 (by decide) : W14 m ρ c (Proc.devRef .tc main_v137) = W13 m ρ c (Proc.devRef .tc main_v137)).trans (keep_v137_13 m ρ c)
theorem keep_v137_15 (c : Dev nD) : W15 m ρ c (Proc.devRef .tc main_v137) = W12 m ρ c (Proc.devRef .tc main_v137) :=
  (StableHlo.after_of_forall_not_mem (b := Proc.devRef .tc main_v137) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W15 m ρ c (Proc.devRef .tc main_v137) = W14 m ρ c (Proc.devRef .tc main_v137)).trans (keep_v137_14 m ρ c)
theorem keep_v137_16 (c : Dev nD) : W16 m ρ c (Proc.devRef .tc main_v137) = W12 m ρ c (Proc.devRef .tc main_v137) :=
  (W16_of_ne m ρ c main_v137 (by decide) : W16 m ρ c (Proc.devRef .tc main_v137) = W15 m ρ c (Proc.devRef .tc main_v137)).trans (keep_v137_15 m ρ c)
theorem keep_v137_17 (c : Dev nD) : W17 m ρ c (Proc.devRef .tc main_v137) = W12 m ρ c (Proc.devRef .tc main_v137) :=
  (StableHlo.after_of_forall_not_mem (b := Proc.devRef .tc main_v137) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W17 m ρ c (Proc.devRef .tc main_v137) = W16 m ρ c (Proc.devRef .tc main_v137)).trans (keep_v137_16 m ρ c)

/-! ### `main_v147`: written at boundary 14, untouched up to boundary 16 -/
theorem keep_v147_15 (c : Dev nD) : W15 m ρ c (Proc.devRef .tc main_v147) = W14 m ρ c (Proc.devRef .tc main_v147) :=
  StableHlo.after_of_forall_not_mem (b := Proc.devRef .tc main_v147) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_v147_16 (c : Dev nD) : W16 m ρ c (Proc.devRef .tc main_v147) = W14 m ρ c (Proc.devRef .tc main_v147) :=
  (W16_of_ne m ρ c main_v147 (by decide) : W16 m ρ c (Proc.devRef .tc main_v147) = W15 m ρ c (Proc.devRef .tc main_v147)).trans (keep_v147_15 m ρ c)

/-! ### `main_v187`: written at boundary 18, untouched up to boundary 23 -/
theorem keep_v187_19 (c : Dev nD) : W19 m ρ c (Proc.devRef .tc main_v187) = W18 m ρ c (Proc.devRef .tc main_v187) :=
  StableHlo.after_of_forall_not_mem (b := Proc.devRef .tc main_v187) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_v187_20 (c : Dev nD) : W20 m ρ c (Proc.devRef .tc main_v187) = W18 m ρ c (Proc.devRef .tc main_v187) :=
  (W20_of_ne m ρ c main_v187 (by decide) : W20 m ρ c (Proc.devRef .tc main_v187) = W19 m ρ c (Proc.devRef .tc main_v187)).trans (keep_v187_19 m ρ c)
theorem keep_v187_21 (c : Dev nD) : W21 m ρ c (Proc.devRef .tc main_v187) = W18 m ρ c (Proc.devRef .tc main_v187) :=
  (StableHlo.after_of_forall_not_mem (b := Proc.devRef .tc main_v187) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W21 m ρ c (Proc.devRef .tc main_v187) = W20 m ρ c (Proc.devRef .tc main_v187)).trans (keep_v187_20 m ρ c)
theorem keep_v187_22 (c : Dev nD) : W22 m ρ c (Proc.devRef .tc main_v187) = W18 m ρ c (Proc.devRef .tc main_v187) :=
  (W22_of_ne m ρ c main_v187 (by decide) : W22 m ρ c (Proc.devRef .tc main_v187) = W21 m ρ c (Proc.devRef .tc main_v187)).trans (keep_v187_21 m ρ c)
theorem keep_v187_23 (c : Dev nD) : W23 m ρ c (Proc.devRef .tc main_v187) = W18 m ρ c (Proc.devRef .tc main_v187) :=
  (StableHlo.after_of_forall_not_mem (b := Proc.devRef .tc main_v187) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W23 m ρ c (Proc.devRef .tc main_v187) = W22 m ρ c (Proc.devRef .tc main_v187)).trans (keep_v187_22 m ρ c)

/-! ### `main_v197`: written at boundary 20, untouched up to boundary 22 -/
theorem keep_v197_21 (c : Dev nD) : W21 m ρ c (Proc.devRef .tc main_v197) = W20 m ρ c (Proc.devRef .tc main_v197) :=
  StableHlo.after_of_forall_not_mem (b := Proc.devRef .tc main_v197) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep_v197_22 (c : Dev nD) : W22 m ρ c (Proc.devRef .tc main_v197) = W20 m ρ c (Proc.devRef .tc main_v197) :=
  (W22_of_ne m ρ c main_v197 (by decide) : W22 m ρ c (Proc.devRef .tc main_v197) = W21 m ρ c (Proc.devRef .tc main_v197)).trans (keep_v197_21 m ρ c)

end Cert.MoNet.Keep

end
-- ==== Proof.KPrefix.lean ====
/-
  The part of @main that both programs compute with the same host operations before the first layer: the edge
  endpoints src = edge_index[0] and dst = edge_index[1], the pseudo-coordinates
  ps[e] = (rsqrt(deg[src e] + 1), rsqrt(deg[dst e] + 1)) with deg the in-degree (a scatter-add of ones at dst), and
  the node features h₀ = emb[h_idx].  The idealized kernel's buffers after its first host stretch hold exactly the
  reference's values of the same arguments: the two operation lists are the same, operation by operation.
-/
import proofs.«168295_j62088047231392_2_alg».proof.Proof.Gen.KernelIdeal.Frame
import proofs.«168295_j62088047231392_2_alg».proof.Proof.RefRead
import Idealize.ShloMosaic.Lib.StableHlo.Run

set_option maxRecDepth 16384

noncomputable section

namespace Cert.MoNet.Prefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The sources of the edges. -/
theorem src_eq (c : Dev nD) :
    W1 m ρ c (Proc.devRef .tc main_v1) = Cert.ReferenceIdeal.ReadP.val_main_v1 (F := Ideal) (m ((c : Thread nD τ).loc main_arg1)) := by
  show StableHlo.after hostOps0 (W0 m ρ c) (Proc.devRef .tc main_v1) = _
  after_results
  rfl

/-- The targets of the edges. -/
theorem dst_eq (c : Dev nD) :
    W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl

set_option maxHeartbeats 8000000 in
/-- The pseudo-coordinates of the edges. -/
theorem ps_eq (c : Dev nD) :
    W1 m ρ c (Proc.devRef .tc main_v30) = Cert.ReferenceIdeal.ReadP.val_main_v30 (F := Ideal) (m ((c : Thread nD τ).loc main_arg1)) := by
  show StableHlo.after hostOps0 (W0 m ρ c) (Proc.devRef .tc main_v30) = _
  after_results
  rfl

set_option maxHeartbeats 8000000 in
/-- The embedded node features. -/
theorem h0_eq (c : Dev nD) :
    W1 m ρ c (Proc.devRef .tc main_v37) = Cert.ReferenceIdeal.ReadP.val_main_v37 (F := Ideal) (m ((c : Thread nD τ).loc main_arg0)) (m ((c : Thread nD τ).loc main_arg2)) := by
  show StableHlo.after hostOps0 (W0 m ρ c) (Proc.devRef .tc main_v37) = _
  after_results
  rfl

end Cert.MoNet.Prefix

end
-- ==== Proof.FeatPayload.lean ====
import proofs.«168295_j62088047231392_2_alg».proof.Proof.Gen.KernelIdeal.Skeleton
import Idealize.ShloMosaic.Lib.ValueIdx
import Idealize.ShloMosaic.Lib.Pipeline.Value
import Idealize.ShloMosaic.PureOps.Ideal.Laws

/-! # The featurize stage at one entry

For an edge with pseudo-coordinates `(p0, p1)`, weights `w : 2 × 2`, bias `b : 1 × 2`, centres `mu : 3 × 2` and
inverse widths `isig : 3 × 2`, the stage forms `t_j = tanh (p0 · w[j,0] + p1 · w[j,1] + b[0,j])` for `j = 0, 1`
and, for each mixture component `k = 0, 1, 2`, the weight
`exp (-1/2 · ((d_0 · d_0 · s_0) · s_0 + (d_1 · d_1 · s_1) · s_1))` with `d_j = t_j - mu[k,j]` and `s_j = isig[k,j]`.
`featEntry` is that number, `FeatK` the whole `E × 3` array of them, and `featPay_apply` says the block the kernel body
stores holds `featEntry` of its row of pseudo-coordinates at every row and column. -/

noncomputable section

namespace Cert.MoNet

open Idealize.ShloMosaic Idealize.ShloMosaic.ValueIdx
open Cert.KernelIdeal Cert.KernelIdeal.Gen

/-- The factor `-1/2`, as the f32 word both programs carry. -/
abbrev negHalf : EReal := Ideal.ofBits .f32 0xBF000000#32

/-- One Gaussian weight: component `k` at an edge whose pseudo-coordinates are `(p0, p1)`. -/
def featEntry (p0 p1 : EReal) (w : S2x2.Idx → EReal) (b : S1x2.Idx → EReal) (mu isig : S3x2.Idx → EReal) (k : Fin 3) : EReal :=
  Ideal.exp (negHalf *
    ((Ideal.tanh (p0 * w (ix2 0 0) + p1 * w (ix2 0 1) + b (ix2 0 0)) - mu (ix2 k 0))
        * (Ideal.tanh (p0 * w (ix2 0 0) + p1 * w (ix2 0 1) + b (ix2 0 0)) - mu (ix2 k 0)) * isig (ix2 k 0) * isig (ix2 k 0)
      + (Ideal.tanh (p0 * w (ix2 1 0) + p1 * w (ix2 1 1) + b (ix2 0 1)) - mu (ix2 k 1))
        * (Ideal.tanh (p0 * w (ix2 1 0) + p1 * w (ix2 1 1) + b (ix2 0 1)) - mu (ix2 k 1)) * isig (ix2 k 1) * isig (ix2 k 1)))

/-- The stage's whole output: row `e`, column `k` is `featEntry` of row `e` of the pseudo-coordinates. -/
def FeatK (ps : (⟨S800000x2, .f32⟩ : BufTy).Contents (Elt Ideal)) (w : (⟨S2x2, .f32⟩ : BufTy).Contents (Elt Ideal))
    (b : (⟨S1x2, .f32⟩ : BufTy).Contents (Elt Ideal)) (mu isig : (⟨S3x2, .f32⟩ : BufTy).Contents (Elt Ideal)) :
    (⟨S800000x3, .f32⟩ : BufTy).Contents (Elt Ideal) :=
  fun i => featEntry (ps (ix2 (i 0) 0)) (ps (ix2 (i 0) 1)) w b mu isig (i 1)

/-- A one-element slice at `(i, j)` of a matrix, read as a scalar, is the matrix's entry `(i, j)`. -/
theorem extract_scalar {α : Type} {n0 n1 : Nat} (X : (⟨2, ![n0, n1]⟩ : Shape).Idx → α) (i j : Nat)
    (h : (⟨2, ![n0, n1]⟩ : Shape).Slices ![i, j] S1x1) (h' : ∀ a : Fin S1x1.rank, (![0, 0] : Fin 2 → Nat) a < S1x1.size a) :
    extractAt ![0, 0] (extractStridedSlice S1x1 ![i, j] X h) h' = X (ix2 ⟨i, h.2 0⟩ ⟨j, h.2 1⟩) := by
  unfold extractAt
  refine extractStridedSlice_apply _ X h _ (ix2 ⟨i, h.2 0⟩ ⟨j, h.2 1⟩) fun c => ?_
  match c with
  | ⟨0, _⟩ => rfl
  | ⟨1, _⟩ => rfl

/-- Column `c` of a block of pseudo-coordinates, as a one-column block, read at row `r`. -/
theorem extract_col {α : Type} (X : S2000x2.Idx → α) (c : Nat) (h : S2000x2.Slices ![0, c] S2000x1) (r : Fin 2000) :
    extractStridedSlice S2000x1 ![0, c] X h (ix2 r (0 : Fin 1)) = X (ix2 r ⟨c, h.2 1⟩) := by
  refine extractStridedSlice_apply _ X h _ (ix2 r ⟨c, h.2 1⟩) fun a => ?_
  match a with
  | ⟨0, _⟩ => show r.val = 0 + r.val; omega
  | ⟨1, _⟩ => rfl

/-- Three one-column blocks joined side by side: column `k` of the result is the `k`-th block. -/
theorem concat3_apply {α : Type} (c0 c1 c2 : S2000x1.Idx → α)
    (h : Shape.Concatenates [S2000x1, S2000x1, S2000x1] S2000x3 1)
    (r : Fin 2000) :
    concatenate S2000x3 1 [⟨S2000x1, c0⟩, ⟨S2000x1, c1⟩, ⟨S2000x1, c2⟩] h (ix2 r (0 : Fin 3)) = c0 (ix2 r 0)
    ∧ concatenate S2000x3 1 [⟨S2000x1, c0⟩, ⟨S2000x1, c1⟩, ⟨S2000x1, c2⟩] h (ix2 r (1 : Fin 3)) = c1 (ix2 r 0)
    ∧ concatenate S2000x3 1 [⟨S2000x1, c0⟩, ⟨S2000x1, c1⟩, ⟨S2000x1, c2⟩] h (ix2 r (2 : Fin 3)) = c2 (ix2 r 0) := by
  have hi : ∀ (q : Fin 3) (b : Fin S2000x1.rank), b.cast (rfl : S2000x1.rank = S2000x3.rank) ≠ (1 : Fin 2) →
      ((ix2 r (0 : Fin 1) : S2000x1.Idx) b).val = ((ix2 r q : S2000x3.Idx) (b.cast rfl)).val := fun q b hb => by
    match b with
    | ⟨0, _⟩ => rfl
    | ⟨1, _⟩ => exact absurd rfl hb
  refine ⟨?_, ?_, ?_⟩
  · exact concatenate_apply_piece (t := S2000x3) (1 : Fin 2) [⟨S2000x1, c0⟩, ⟨S2000x1, c1⟩, ⟨S2000x1, c2⟩] h (ix2 r (0 : Fin 3)) 0 (by show (0 : Nat) < 3; omega) S2000x1 c0 rfl rfl 0 rfl (ix2 r 0) (hi 0) rfl
  · exact concatenate_apply_piece (t := S2000x3) (1 : Fin 2) [⟨S2000x1, c0⟩, ⟨S2000x1, c1⟩, ⟨S2000x1, c2⟩] h (ix2 r (1 : Fin 3)) 1 (by show (1 : Nat) < 3; omega) S2000x1 c1 rfl rfl 1 rfl (ix2 r 0) (hi 1) rfl
  · exact concatenate_apply_piece (t := S2000x3) (1 : Fin 2) [⟨S2000x1, c0⟩, ⟨S2000x1, c1⟩, ⟨S2000x1, c2⟩] h (ix2 r (2 : Fin 3)) 2 (by show (2 : Nat) < 3; omega) S2000x1 c2 rfl rfl 2 rfl (ix2 r 0) (hi 2) rfl

/-- The exponential and the hyperbolic tangent of a block, read at an index. -/
theorem exp_apply {s : Shape} (a : FVec Ideal s .f32) (i : s.Idx) : exp a i = Ideal.exp (a i) := rfl
theorem tanh_apply {s : Shape} (a : FVec Ideal s .f32) (i : s.Idx) : tanh a i = Ideal.tanh (a i) := rfl

/-- THE BLOCK THE BODY STORES, read at row `r` and column `k`: `featEntry` of row `r` of the block of pseudo-coordinates. -/
theorem featPay_apply (x0 : Vec Ideal S2000x2 .f32) (x1 : Vec Ideal S2x2 .f32) (x2 : Vec Ideal S1x2 .f32) (x3 x4 : Vec Ideal S3x2 .f32)
    (r : Fin 2000) (k : Fin 3) :
    k0_pay1 (k0_pay14 (k0_pay10 x4) (k0_pay11 x0 x1 x2 x3) (k0_pay12 x0 x1 x2 x3) (k0_pay13 x4))
        (k0_pay15 (k0_pay7 x0 x1 x2) (k0_pay8 x0 x1 x2) (k0_pay9 x3) (k0_pay10 x4))
        (k0_pay16 (k0_pay8 x0 x1 x2) (k0_pay9 x3)) (k0_pay17 (k0_pay10 x4)) (k0_pay18 (k0_pay10 x4))
        (k0_pay19 (k0_pay7 x0 x1 x2) (k0_pay9 x3) (k0_pay10 x4)) (ix2 r k)
      = featEntry (x0 (ix2 r 0)) (x0 (ix2 r 1)) x1 x2 x3 x4 k := by
  unfold k0_pay1
  try dsimp only
  obtain ⟨e0, e1, e2⟩ := concat3_apply
    (k0_pay14 (k0_pay10 x4) (k0_pay11 x0 x1 x2 x3) (k0_pay12 x0 x1 x2 x3) (k0_pay13 x4))
    (k0_pay15 (k0_pay7 x0 x1 x2) (k0_pay8 x0 x1 x2) (k0_pay9 x3) (k0_pay10 x4))
    (exp (mulf (broadcast S2000x1 (Scalar.ofBits .f32 0xBF000000#32))
      (addf (mulf (k0_pay19 (k0_pay7 x0 x1 x2) (k0_pay9 x3) (k0_pay10 x4)) (broadcast S2000x1 (k0_pay17 (k0_pay10 x4))))
        (mulf (mulf (mulf (k0_pay16 (k0_pay8 x0 x1 x2) (k0_pay9 x3)) (k0_pay16 (k0_pay8 x0 x1 x2) (k0_pay9 x3))) (broadcast S2000x1 (k0_pay18 (k0_pay10 x4))))
          (broadcast S2000x1 (k0_pay18 (k0_pay10 x4)))))))
    concatenates_S2000x1_S2000x1_S2000x1_S2000x3_d1 r
  match k with
  | ⟨0, _⟩ =>
    refine e0.trans ?_
    unfold k0_pay14 k0_pay13 k0_pay12 k0_pay11 k0_pay10 k0_pay9 k0_pay8 k0_pay7 k0_pay6 k0_pay5 k0_pay4 k0_pay3 k0_pay2
    simp only [shapeCast_self, extract_scalar]
    simp only [exp_apply, tanh_apply, mulf_apply, addf_apply, subf_apply, broadcast_apply, extract_col]
    rfl
  | ⟨1, _⟩ =>
    refine e1.trans ?_
    unfold k0_pay15 k0_pay10 k0_pay9 k0_pay8 k0_pay7 k0_pay6 k0_pay5 k0_pay4 k0_pay3 k0_pay2
    simp only [shapeCast_self, extract_scalar]
    simp only [exp_apply, tanh_apply, mulf_apply, addf_apply, subf_apply, broadcast_apply, extract_col]
    rfl
  | ⟨2, _⟩ =>
    refine e2.trans ?_
    unfold k0_pay19 k0_pay18 k0_pay17 k0_pay16 k0_pay10 k0_pay9 k0_pay8 k0_pay7 k0_pay6 k0_pay5 k0_pay4 k0_pay3 k0_pay2
    simp only [shapeCast_self, extract_scalar]
    simp only [exp_apply, tanh_apply, mulf_apply, addf_apply, subf_apply, broadcast_apply, extract_col]
    rfl

end Cert.MoNet
-- ==== Proof.FeatRegion9.lean ====
import proofs.«168295_j62088047231392_2_alg».proof.Proof.Gen.KernelIdeal.Frame
import proofs.«168295_j62088047231392_2_alg».proof.Proof.FeatPayload
import Idealize.ShloMosaic.Lib.Pipeline.Value

/-! # The featurize region 9: from the blocks to the array

The region runs over 400 points; point `t` reads rows `2000 t … 2000 t + 1999` of the pseudo-coordinates and the four
small parameter arrays whole, and writes the same rows of the `E × 3` output. Each written block is the block of
`FeatK` of the arrays as the region finds them, and the 400 blocks cover the output, so the output array ends at `FeatK`. -/

set_option maxRecDepth 16384

noncomputable section

namespace Cert.MoNet

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz9 : (![0, 0] : Fin 2 → Nat) = fun _ => 0 := funext fun a => by fin_cases a <;> rfl

/-- What the body stores is the stored block of region 0's body: the two bodies are the same term. -/
theorem out9_5_apply (x0 : Vec Ideal S2000x2 .f32) (x1 : Vec Ideal S2x2 .f32) (x2 : Vec Ideal S1x2 .f32) (x3 x4 : Vec Ideal S3x2 .f32)
    (r : Fin 2000) (k : Fin 3) :
    out9_5 x0 x1 x2 x3 x4 (ix2 r k) = featEntry (x0 (ix2 r 0)) (x0 (ix2 r 1)) x1 x2 x3 x4 k := by
  unfold out9_5
  rw [View.canon_unit_zero hz9]
  simp only [View.ld_unit_zero (S := S2000x2) hz9, View.ld_unit_zero (S := S2x2) hz9, View.ld_unit_zero (S := S1x2) hz9,
    View.ld_unit_zero (S := S3x2) hz9]
  exact featPay_apply x0 x1 x2 x3 x4 r k

/-- The printed index maps over the grid: the row windows sit at block `t`, the parameter windows at block `0`. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- A parameter window's block at any point is its whole array. -/
theorem iblk9_1_eq (c : Dev nD) (t : Fin cfg9.N) : (iblk9 V c 1 t : S2x2.Idx → EReal) = V c (Pipeline.arrRef spec9 1) := by
  obtain ⟨-, -, e0, e1, -⟩ := idx_facts9 t
  unfold iblk9
  funext y
  rw [View.read_apply]
  refine congrArg (V c (Pipeline.arrRef spec9 1)) (funext fun a => Fin.ext ?_)
  match a with
  | ⟨0, _⟩ => show win9_1.index t (0 : Fin 2) * 2 + 1 * (y 0).val = (y 0).val; omega
  | ⟨1, _⟩ => show win9_1.index t (1 : Fin 2) * 2 + 1 * (y 1).val = (y 1).val; omega
theorem iblk9_2_eq (c : Dev nD) (t : Fin cfg9.N) : (iblk9 V c 2 t : S1x2.Idx → EReal) = V c (Pipeline.arrRef spec9 2) := by
  obtain ⟨-, -, -, -, e0, e1, -⟩ := idx_facts9 t
  unfold iblk9
  funext y
  rw [View.read_apply]
  refine congrArg (V c (Pipeline.arrRef spec9 2)) (funext fun a => Fin.ext ?_)
  match a with
  | ⟨0, _⟩ => show win9_2.index t (0 : Fin 2) * 1 + 1 * (y 0).val = (y 0).val; omega
  | ⟨1, _⟩ => show win9_2.index t (1 : Fin 2) * 2 + 1 * (y 1).val = (y 1).val; omega
theorem iblk9_3_eq (c : Dev nD) (t : Fin cfg9.N) : (iblk9 V c 3 t : S3x2.Idx → EReal) = V c (Pipeline.arrRef spec9 3) := by
  obtain ⟨-, -, -, -, -, -, e0, e1, -⟩ := idx_facts9 t
  unfold iblk9
  funext y
  rw [View.read_apply]
  refine congrArg (V c (Pipeline.arrRef spec9 3)) (funext fun a => Fin.ext ?_)
  match a with
  | ⟨0, _⟩ => show win9_3.index t (0 : Fin 2) * 3 + 1 * (y 0).val = (y 0).val; omega
  | ⟨1, _⟩ => show win9_3.index t (1 : Fin 2) * 2 + 1 * (y 1).val = (y 1).val; omega
theorem iblk9_4_eq (c : Dev nD) (t : Fin cfg9.N) : (iblk9 V c 4 t : S3x2.Idx → EReal) = V c (Pipeline.arrRef spec9 4) := by
  obtain ⟨-, -, -, -, -, -, -, -, e0, e1, -⟩ := idx_facts9 t
  unfold iblk9
  funext y
  rw [View.read_apply]
  refine congrArg (V c (Pipeline.arrRef spec9 4)) (funext fun a => Fin.ext ?_)
  match a with
  | ⟨0, _⟩ => show win9_4.index t (0 : Fin 2) * 3 + 1 * (y 0).val = (y 0).val; omega
  | ⟨1, _⟩ => show win9_4.index t (1 : Fin 2) * 2 + 1 * (y 1).val = (y 1).val; omega

/-- Row `p` of the pseudo-coordinate window's block at point `t` is row `2000 t + p` of the array. -/
theorem iblk9_0_apply (c : Dev nD) (t : Fin cfg9.N) (p : Fin 2000) (j : Fin 2) (e : Fin 800000) (he : e.val = t.val * 2000 + p.val) :
    (iblk9 V c 0 t : S2000x2.Idx → EReal) (ix2 p j) = (V c (Pipeline.arrRef spec9 0) : S800000x2.Idx → EReal) (ix2 e j) := by
  obtain ⟨e0, e1, -⟩ := idx_facts9 t
  unfold iblk9
  rw [View.read_apply]
  refine congrArg (V c (Pipeline.arrRef spec9 0)) (funext fun a => Fin.ext ?_)
  match a with
  | ⟨0, _⟩ => show win9_0.index t (0 : Fin 2) * 2000 + 1 * p.val = e.val; omega
  | ⟨1, _⟩ => show win9_0.index t (1 : Fin 2) * 2 + 1 * j.val = j.val; omega

/-- Row `p`, column `q` of the output window's block at point `t` sits at row `2000 t + p`, column `q` of the array. -/
theorem blk9_5_emb (t : Fin cfg9.N) (p : Fin 2000) (q : Fin 3) (hlt : t.val * 2000 + p.val < 800000) :
    ((cfg9.win 5).blk t).view.emb (ix2 p q) = (ix2 ⟨t.val * 2000 + p.val, hlt⟩ q : S800000x3.Idx) := by
  obtain ⟨-, -, -, -, -, -, -, -, -, -, e50, e51⟩ := idx_facts9 t
  funext a; apply Fin.ext
  match a with
  | ⟨0, _⟩ => show win9_5.index t (0 : Fin 2) * 2000 + 1 * p.val = t.val * 2000 + p.val; omega
  | ⟨1, _⟩ => show win9_5.index t (1 : Fin 2) * 3 + 1 * q.val = q.val; omega

/-- The body's block at point `t`, in terms of the arrays: `featEntry` of row `2000 t + p` of the pseudo-coordinates. -/
theorem out9_5_iblk (c : Dev nD) (t : Fin cfg9.N) (p : Fin 2000) (q : Fin 3) (hlt : t.val * 2000 + p.val < 800000) :
    out9_5 (iblk9 V c 0 t) (iblk9 V c 1 t) (iblk9 V c 2 t) (iblk9 V c 3 t) (iblk9 V c 4 t) (ix2 p q)
      = FeatK (V c (Pipeline.arrRef spec9 0)) (V c (Pipeline.arrRef spec9 1)) (V c (Pipeline.arrRef spec9 2))
          (V c (Pipeline.arrRef spec9 3)) (V c (Pipeline.arrRef spec9 4)) (ix2 ⟨t.val * 2000 + p.val, hlt⟩ q) := by
  refine (out9_5_apply (iblk9 V c 0 t) (iblk9 V c 1 t) (iblk9 V c 2 t) (iblk9 V c 3 t) (iblk9 V c 4 t) p q).trans ?_
  rw [iblk9_1_eq V c t, iblk9_2_eq V c t, iblk9_3_eq V c t, iblk9_4_eq V c t]
  exact congrArg₂ (fun a b => featEntry a b _ _ _ _ q) (iblk9_0_apply V c t p 0 ⟨t.val * 2000 + p.val, hlt⟩ rfl)
    (iblk9_0_apply V c t p 1 ⟨t.val * 2000 + p.val, hlt⟩ rfl)

/-- WHAT POINT `t` WRITES BACK is block `t` of `FeatK` of the arrays as the region finds them. -/
theorem flushed9_eq (c : Dev nD) (t : Fin cfg9.N) :
    (dat9 (F := Ideal) V c).flushed 5 t = ((cfg9.win 5).blk t).view.read (Elt Ideal)
      (FeatK (V c (Pipeline.arrRef spec9 0)) (V c (Pipeline.arrRef spec9 1)) (V c (Pipeline.arrRef spec9 2))
        (V c (Pipeline.arrRef spec9 3)) (V c (Pipeline.arrRef spec9 4))) := by
  show (cfg9.win 5).cut (grid9.coords t) ((dat9 V c).after 5 t) = _
  rw [after9_5]
  have hN : cfg9.N = 400 := N_9
  funext y
  obtain ⟨p, q, rfl⟩ : ∃ (p : Fin 2000) (q : Fin 3), y = ix2 p q := ⟨y 0, y 1, eq_ix2 y⟩
  have hp : p.val < 2000 := p.isLt
  have ht : t.val < 400 := hN ▸ t.isLt
  have hlt : t.val * 2000 + p.val < 800000 := by omega
  refine (out9_5_iblk V c t p q hlt).trans ?_
  show _ = FeatK (V c (Pipeline.arrRef spec9 0)) (V c (Pipeline.arrRef spec9 1)) (V c (Pipeline.arrRef spec9 2))
    (V c (Pipeline.arrRef spec9 3)) (V c (Pipeline.arrRef spec9 4)) (((cfg9.win 5).blk t).view.emb (ix2 p q))
  rw [blk9_5_emb t p q hlt]

/-- An index of the output is in point `t`'s block iff each coordinate is in the block's range on its axis. -/
theorem mem_blk9 (t : Fin cfg9.N) (i : S800000x3.Idx) :
    i ∈ ((cfg9.win 5).blk t).view.set ↔ ∀ a : Fin 2, win9_5.index t a * S2000x3.size a ≤ (i a).val ∧ (i a).val < win9_5.index t a * S2000x3.size a + S2000x3.size a := by
  show i ∈ ((View.whole main_v197).slice (win9_5.rect t)).set ↔ _
  rw [View.set_slice_whole, Rect.mem_set_unit]
  exact Iff.rfl

/-- THE ARRAY after the region: `FeatK` of the arrays as the region finds them. -/
theorem final9 (c : Dev nD) :
    (dat9 (F := Ideal) V c).arrAt 5 cfg9.N
      = FeatK (V c (Pipeline.arrRef spec9 0)) (V c (Pipeline.arrRef spec9 1)) (V c (Pipeline.arrRef spec9 2))
          (V c (Pipeline.arrRef spec9 3)) (V c (Pipeline.arrRef spec9 4)) :=
  (dat9 (F := Ideal) V c).arrAt_eq_of_cover 5 _ (fun t _ => flushed9_eq V c t) fun i => by
    have hN : cfg9.N = 400 := N_9
    have hi0 : (i 0).val < 800000 := (i 0).isLt
    have hi1 : (i 1).val < 3 := (i 1).isLt
    refine ⟨⟨(i 0).val / 2000, by omega⟩, flush9_5 _, ?_⟩
    rw [mem_blk9]
    obtain ⟨-, -, -, -, -, -, -, -, -, -, e50, e51⟩ := idx_facts9 ⟨(i 0).val / 2000, by omega⟩
    intro a
    match a with
    | ⟨0, _⟩ => show win9_5.index _ (0 : Fin 2) * 2000 ≤ (i 0).val ∧ (i 0).val < win9_5.index _ (0 : Fin 2) * 2000 + 2000; rw [e50]; show (i 0).val / 2000 * 2000 ≤ _ ∧ _ < (i 0).val / 2000 * 2000 + 2000; omega
    | ⟨1, _⟩ => show win9_5.index _ (1 : Fin 2) * 3 ≤ (i 1).val ∧ (i 1).val < win9_5.index _ (1 : Fin 2) * 3 + 3; rw [e51]; omega

end Cert.MoNet
-- ==== Proof.FeatStretch.lean ====
import proofs.«168295_j62088047231392_2_alg».proof.Proof.Gen.KernelIdeal.Launch
import Idealize.ShloMosaic.Lib.StableHlo.Run
import Idealize.ShloMosaic.PureOps.Ideal

/-! # The featurize regions' parameter arrays, as the host operations before each region make them

Before layer `l`'s featurize region the host slices row `l` off each of the four parameter arrays and reshapes it:
the `2 × 2` weights from `pp_w[l] : 1 × 2 × 2`, the `1 × 2` bias from `pp_b[l] : 1 × 2` through a vector of two, and the
`3 × 2` centres and inverse widths from `mu[l], inv_sigma[l] : 1 × 3 × 2`. Each lemma reads one of those arrays after the
stretch of host operations, from whatever contents `X` the stretch starts at. -/

noncomputable section

namespace Cert.MoNet

open Idealize.ShloMosaic Idealize.ShloMosaic.TcCoe Idealize.SL.Sem Idealize.ShloMosaic.StableHlo
open Cert.KernelIdeal Cert.KernelIdeal.Gen

variable (X : Valuation τ sig (Elt Ideal))

/-! ## Layer 0 -/

theorem feat_stretch_w_l0 :
    StableHlo.after (hostOps0 (F := Ideal)) X (Proc.devRef .tc main_v39)
      = shapeCast S2x2 (extractStridedSlice S1x2x2 ![0, 0, 0] (X (Proc.devRef .tc main_arg8)) slices_S4x2x2_S1x2x2_0_0_0) shapeCasts_S1x2x2_S2x2 := by
  after_results; rfl

theorem feat_stretch_b_l0 :
    StableHlo.after (hostOps0 (F := Ideal)) X (Proc.devRef .tc main_v42)
      = shapeCast S1x2 (shapeCast S2 (extractStridedSlice S1x2 ![0, 0] (X (Proc.devRef .tc main_arg9)) slices_S4x2_S1x2_0_0) shapeCasts_S1x2_S2) shapeCasts_S2_S1x2 := by
  after_results; rfl

theorem feat_stretch_mu_l0 :
    StableHlo.after (hostOps0 (F := Ideal)) X (Proc.devRef .tc main_v44)
      = shapeCast S3x2 (extractStridedSlice S1x3x2 ![0, 0, 0] (X (Proc.devRef .tc main_arg4)) slices_S4x3x2_S1x3x2_0_0_0) shapeCasts_S1x3x2_S3x2 := by
  after_results; rfl

theorem feat_stretch_isig_l0 :
    StableHlo.after (hostOps0 (F := Ideal)) X (Proc.devRef .tc main_v46)
      = shapeCast S3x2 (extractStridedSlice S1x3x2 ![0, 0, 0] (X (Proc.devRef .tc main_arg5)) slices_S4x3x2_S1x3x2_0_0_0) shapeCasts_S1x3x2_S3x2 := by
  after_results; rfl

/-! ## Layer 1 -/

theorem feat_stretch_w_l1 :
    StableHlo.after (hostOps3 (F := Ideal)) X (Proc.devRef .tc main_v89)
      = shapeCast S2x2 (extractStridedSlice S1x2x2 ![1, 0, 0] (X (Proc.devRef .tc main_arg8)) slices_S4x2x2_S1x2x2_1_0_0) shapeCasts_S1x2x2_S2x2 := by
  after_results; rfl

theorem feat_stretch_b_l1 :
    StableHlo.after (hostOps3 (F := Ideal)) X (Proc.devRef .tc main_v92)
      = shapeCast S1x2 (shapeCast S2 (extractStridedSlice S1x2 ![1, 0] (X (Proc.devRef .tc main_arg9)) slices_S4x2_S1x2_1_0) shapeCasts_S1x2_S2) shapeCasts_S2_S1x2 := by
  after_results; rfl

theorem feat_stretch_mu_l1 :
    StableHlo.after (hostOps3 (F := Ideal)) X (Proc.devRef .tc main_v94)
      = shapeCast S3x2 (extractStridedSlice S1x3x2 ![1, 0, 0] (X (Proc.devRef .tc main_arg4)) slices_S4x3x2_S1x3x2_1_0_0) shapeCasts_S1x3x2_S3x2 := by
  after_results; rfl

theorem feat_stretch_isig_l1 :
    StableHlo.after (hostOps3 (F := Ideal)) X (Proc.devRef .tc main_v96)
      = shapeCast S3x2 (extractStridedSlice S1x3x2 ![1, 0, 0] (X (Proc.devRef .tc main_arg5)) slices_S4x3x2_S1x3x2_1_0_0) shapeCasts_S1x3x2_S3x2 := by
  after_results; rfl

/-! ## Layer 2 -/

theorem feat_stretch_w_l2 :
    StableHlo.after (hostOps6 (F := Ideal)) X (Proc.devRef .tc main_v139)
      = shapeCast S2x2 (extractStridedSlice S1x2x2 ![2, 0, 0] (X (Proc.devRef .tc main_arg8)) slices_S4x2x2_S1x2x2_2_0_0) shapeCasts_S1x2x2_S2x2 := by
  after_results; rfl

theorem feat_stretch_b_l2 :
    StableHlo.after (hostOps6 (F := Ideal)) X (Proc.devRef .tc main_v142)
      = shapeCast S1x2 (shapeCast S2 (extractStridedSlice S1x2 ![2, 0] (X (Proc.devRef .tc main_arg9)) slices_S4x2_S1x2_2_0) shapeCasts_S1x2_S2) shapeCasts_S2_S1x2 := by
  after_results; rfl

theorem feat_stretch_mu_l2 :
    StableHlo.after (hostOps6 (F := Ideal)) X (Proc.devRef .tc main_v144)
      = shapeCast S3x2 (extractStridedSlice S1x3x2 ![2, 0, 0] (X (Proc.devRef .tc main_arg4)) slices_S4x3x2_S1x3x2_2_0_0) shapeCasts_S1x3x2_S3x2 := by
  after_results; rfl

theorem feat_stretch_isig_l2 :
    StableHlo.after (hostOps6 (F := Ideal)) X (Proc.devRef .tc main_v146)
      = shapeCast S3x2 (extractStridedSlice S1x3x2 ![2, 0, 0] (X (Proc.devRef .tc main_arg5)) slices_S4x3x2_S1x3x2_2_0_0) shapeCasts_S1x3x2_S3x2 := by
  after_results; rfl

/-! ## Layer 3 -/

theorem feat_stretch_w_l3 :
    StableHlo.after (hostOps9 (F := Ideal)) X (Proc.devRef .tc main_v189)
      = shapeCast S2x2 (extractStridedSlice S1x2x2 ![3, 0, 0] (X (Proc.devRef .tc main_arg8)) slices_S4x2x2_S1x2x2_3_0_0) shapeCasts_S1x2x2_S2x2 := by
  after_results; rfl

theorem feat_stretch_b_l3 :
    StableHlo.after (hostOps9 (F := Ideal)) X (Proc.devRef .tc main_v192)
      = shapeCast S1x2 (shapeCast S2 (extractStridedSlice S1x2 ![3, 0] (X (Proc.devRef .tc main_arg9)) slices_S4x2_S1x2_3_0) shapeCasts_S1x2_S2) shapeCasts_S2_S1x2 := by
  after_results; rfl

theorem feat_stretch_mu_l3 :
    StableHlo.after (hostOps9 (F := Ideal)) X (Proc.devRef .tc main_v194)
      = shapeCast S3x2 (extractStridedSlice S1x3x2 ![3, 0, 0] (X (Proc.devRef .tc main_arg4)) slices_S4x3x2_S1x3x2_3_0_0) shapeCasts_S1x3x2_S3x2 := by
  after_results; rfl

theorem feat_stretch_isig_l3 :
    StableHlo.after (hostOps9 (F := Ideal)) X (Proc.devRef .tc main_v196)
      = shapeCast S3x2 (extractStridedSlice S1x3x2 ![3, 0, 0] (X (Proc.devRef .tc main_arg5)) slices_S4x3x2_S1x3x2_3_0_0) shapeCasts_S1x3x2_S3x2 := by
  after_results; rfl

end Cert.MoNet
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«168295_j62088047231392_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.FeatRef.lean ====
import proofs.«168295_j62088047231392_2_alg».proof.Proof.RefRead
import proofs.«168295_j62088047231392_2_alg».proof.Proof.LibPlainDot
import proofs.«168295_j62088047231392_2_alg».proof.Proof.LibRowBias
import proofs.«168295_j62088047231392_2_alg».proof.Proof.FeatPayload
import Idealize.ShloMosaic.Lib.ValueIdx
import Idealize.ShloMosaic.Lib.Pipeline.Value
import Idealize.ShloMosaic.PureOps.Ideal.Laws

/-! # The featurize stage in the reference

The reference forms the same Gaussian weights with whole-array operations: `pseudo = tanh (ps · wᵀ + b)` by a
contraction over the two pseudo-coordinates and a broadcast bias, then `d = pseudo[:, None, :] - mu[None]`,
`d · d · (isig · isig)` summed over the last axis from `0`, times `-1/2`, exponentiated. `FeatR` is that chain as a
function of the pseudo-coordinates and of one layer's slices of the four parameter arrays; `feat_eq` says it is the
array of `featEntry`s (a sum of two terms from zero is their sum, and `(d · d) · (s · s) = (d · d · s) · s`). -/

noncomputable section

open scoped BigOperators

namespace Cert.MoNet

open Idealize.ShloMosaic Idealize.ShloMosaic.ValueIdx
open Cert.ReferenceIdeal Cert.ReferenceIdeal.Gen

section Chain
variable {F : FTy → Type} [FloatOps F]

/-- `pseudo = tanh (ps · wᵀ + b)`, from the layer's slices `w8 : 1×2×2` and `b9 : 1×2`. -/
def PseudoR (ps : (⟨S800000x2, .f32⟩ : BufTy).Contents (Elt F)) (w8 : (⟨S1x2x2, .f32⟩ : BufTy).Contents (Elt F))
    (b9 : (⟨S1x2, .f32⟩ : BufTy).Contents (Elt F)) : (⟨S800000x2, .f32⟩ : BufTy).Contents (Elt F) :=
  Host.tanh
    (addf
      ((Host.dotGeneral dot_S800000x2_S2x2_S800000x2_1_0_0_1_n_n none ps
        (transpose S2x2 [1, 0] (shapeCast S2x2 w8 shapeCasts_S1x2x2_S2x2 : (⟨S2x2, .f32⟩ : BufTy).Contents (Elt F)) transposes_S2x2_S2x2_1_0
          : (⟨S2x2, .f32⟩ : BufTy).Contents (Elt F))) : (⟨S800000x2, .f32⟩ : BufTy).Contents (Elt F))
      (broadcastInDim S800000x2 ![0, 1] bcast_S1x2_S800000x2_0_1
        (broadcastInDim S1x2 ![1] bcast_S2_S1x2_1 (shapeCast S2 b9 shapeCasts_S1x2_S2 : (⟨S2, .f32⟩ : BufTy).Contents (Elt F))
          : (⟨S1x2, .f32⟩ : BufTy).Contents (Elt F)) : (⟨S800000x2, .f32⟩ : BufTy).Contents (Elt F))
      : (⟨S800000x2, .f32⟩ : BufTy).Contents (Elt F))

/-- A `1 × 3 × 2` parameter slice as a `1 × 3 × 2` array again, through its `3 × 2` reshape. -/
def ParamR (x : (⟨S1x3x2, .f32⟩ : BufTy).Contents (Elt F)) : (⟨S1x3x2, .f32⟩ : BufTy).Contents (Elt F) :=
  broadcastInDim S1x3x2 ![1, 2] bcast_S3x2_S1x3x2_1_2 (shapeCast S3x2 x shapeCasts_S1x3x2_S3x2 : (⟨S3x2, .f32⟩ : BufTy).Contents (Elt F))

/-- `d = pseudo[:, None, :] - mu[None]`, from the layer's slice `mu4 : 1×3×2`. -/
def DiffR (ps : (⟨S800000x2, .f32⟩ : BufTy).Contents (Elt F)) (w8 : (⟨S1x2x2, .f32⟩ : BufTy).Contents (Elt F))
    (b9 : (⟨S1x2, .f32⟩ : BufTy).Contents (Elt F)) (mu4 : (⟨S1x3x2, .f32⟩ : BufTy).Contents (Elt F)) :
    (⟨S800000x3x2, .f32⟩ : BufTy).Contents (Elt F) :=
  subf
    (broadcastInDim S800000x3x2 ![0, 1, 2] bcast_S800000x1x2_S800000x3x2_0_1_2
      (broadcastInDim S800000x1x2 ![0, 2] bcast_S800000x2_S800000x1x2_0_2 (PseudoR ps w8 b9)
        : (⟨S800000x1x2, .f32⟩ : BufTy).Contents (Elt F)) : (⟨S800000x3x2, .f32⟩ : BufTy).Contents (Elt F))
    (broadcastInDim S800000x3x2 ![0, 1, 2] bcast_S1x3x2_S800000x3x2_0_1_2 (ParamR mu4)
      : (⟨S800000x3x2, .f32⟩ : BufTy).Contents (Elt F))

/-- `∑_j d · d · (isig · isig)` over the last axis, from zero. -/
def SumR (ps : (⟨S800000x2, .f32⟩ : BufTy).Contents (Elt F)) (w8 : (⟨S1x2x2, .f32⟩ : BufTy).Contents (Elt F))
    (b9 : (⟨S1x2, .f32⟩ : BufTy).Contents (Elt F)) (mu4 isig5 : (⟨S1x3x2, .f32⟩ : BufTy).Contents (Elt F)) :
    (⟨S800000x3, .f32⟩ : BufTy).Contents (Elt F) :=
  Host.reduceAdd
    (mulf (mulf (DiffR ps w8 b9 mu4) (DiffR ps w8 b9 mu4))
      (broadcastInDim S800000x3x2 ![0, 1, 2] bcast_S1x3x2_S800000x3x2_0_1_2
        (mulf (ParamR isig5) (ParamR isig5) : (⟨S1x3x2, .f32⟩ : BufTy).Contents (Elt F))
        : (⟨S800000x3x2, .f32⟩ : BufTy).Contents (Elt F)) : (⟨S800000x3x2, .f32⟩ : BufTy).Contents (Elt F))
    (constant S_ .f32 0x00000000#32 : (⟨S_, .f32⟩ : BufTy).Contents (Elt F)) reducesTo_S800000x3x2_S800000x3_d2 h_S_

/-- The reference's chain after its slices: `exp (-1/2 · ∑_j d · d · (isig · isig))`. -/
def FeatR (ps : (⟨S800000x2, .f32⟩ : BufTy).Contents (Elt F)) (w8 : (⟨S1x2x2, .f32⟩ : BufTy).Contents (Elt F))
    (b9 : (⟨S1x2, .f32⟩ : BufTy).Contents (Elt F)) (mu4 isig5 : (⟨S1x3x2, .f32⟩ : BufTy).Contents (Elt F)) :
    (⟨S800000x3, .f32⟩ : BufTy).Contents (Elt F) :=
  Host.exp
    (mulf
      (broadcastInDim S800000x3 ![] bcast_S_S800000x3 (constant S_ .f32 0xBF000000#32 : (⟨S_, .f32⟩ : BufTy).Contents (Elt F))
        : (⟨S800000x3, .f32⟩ : BufTy).Contents (Elt F))
      (SumR ps w8 b9 mu4 isig5) : (⟨S800000x3, .f32⟩ : BufTy).Contents (Elt F))

end Chain

/-! ## The reference's four layers are this chain of their slices -/

theorem ref_feat_l0 (x1 : (⟨S2x800000, .i32⟩ : BufTy).Contents (Elt Ideal)) (x4 x5 : (⟨S4x3x2, .f32⟩ : BufTy).Contents (Elt Ideal))
    (x8 : (⟨S4x2x2, .f32⟩ : BufTy).Contents (Elt Ideal)) (x9 : (⟨S4x2, .f32⟩ : BufTy).Contents (Elt Ideal)) :
    ReadP.val_main_v70 (F := Ideal) x1 x4 x5 x8 x9
      = FeatR (ReadP.val_main_v30 (F := Ideal) x1) (ReadP.val_main_v38 (F := Ideal) x8) (ReadP.val_main_v42 (F := Ideal) x9)
          (ReadP.val_main_v54 (F := Ideal) x4) (ReadP.val_main_v61 (F := Ideal) x5) := rfl

theorem ref_feat_l1 (x1 : (⟨S2x800000, .i32⟩ : BufTy).Contents (Elt Ideal)) (x4 x5 : (⟨S4x3x2, .f32⟩ : BufTy).Contents (Elt Ideal))
    (x8 : (⟨S4x2x2, .f32⟩ : BufTy).Contents (Elt Ideal)) (x9 : (⟨S4x2, .f32⟩ : BufTy).Contents (Elt Ideal)) :
    ReadP.val_main_v148 (F := Ideal) x1 x4 x5 x8 x9
      = FeatR (ReadP.val_main_v30 (F := Ideal) x1) (ReadP.val_main_v116 (F := Ideal) x8) (ReadP.val_main_v120 (F := Ideal) x9)
          (ReadP.val_main_v132 (F := Ideal) x4) (ReadP.val_main_v139 (F := Ideal) x5) := rfl

theorem ref_feat_l2 (x1 : (⟨S2x800000, .i32⟩ : BufTy).Contents (Elt Ideal)) (x4 x5 : (⟨S4x3x2, .f32⟩ : BufTy).Contents (Elt Ideal))
    (x8 : (⟨S4x2x2, .f32⟩ : BufTy).Contents (Elt Ideal)) (x9 : (⟨S4x2, .f32⟩ : BufTy).Contents (Elt Ideal)) :
    ReadP.val_main_v226 (F := Ideal) x1 x4 x5 x8 x9
      = FeatR (ReadP.val_main_v30 (F := Ideal) x1) (ReadP.val_main_v194 (F := Ideal) x8) (ReadP.val_main_v198 (F := Ideal) x9)
          (ReadP.val_main_v210 (F := Ideal) x4) (ReadP.val_main_v217 (F := Ideal) x5) := rfl

theorem ref_feat_l3 (x1 : (⟨S2x800000, .i32⟩ : BufTy).Contents (Elt Ideal)) (x4 x5 : (⟨S4x3x2, .f32⟩ : BufTy).Contents (Elt Ideal))
    (x8 : (⟨S4x2x2, .f32⟩ : BufTy).Contents (Elt Ideal)) (x9 : (⟨S4x2, .f32⟩ : BufTy).Contents (Elt Ideal)) :
    ReadP.val_main_v304 (F := Ideal) x1 x4 x5 x8 x9
      = FeatR (ReadP.val_main_v30 (F := Ideal) x1) (ReadP.val_main_v272 (F := Ideal) x8) (ReadP.val_main_v276 (F := Ideal) x9)
          (ReadP.val_main_v288 (F := Ideal) x4) (ReadP.val_main_v295 (F := Ideal) x5) := rfl

/-! ## The chain read at an index -/

/-- Dropping the leading unit axis of a `1 × m × n` array. -/
theorem dropUnit_apply {α : Type} {m n : Nat} (x : (⟨3, ![1, m, n]⟩ : Shape).Idx → α)
    (h : (⟨3, ![1, m, n]⟩ : Shape).ShapeCasts ⟨2, ![m, n]⟩) (a : Fin m) (b : Fin n) :
    shapeCast ⟨2, ![m, n]⟩ x h (ix2 a b) = x (ix3 (0 : Fin 1) a b) := by
  refine shapeCast_apply x h (ix2 a b) (ix3 (0 : Fin 1) a b) ?_
  rw [Shape.rowMajor_val_three, Shape.rowMajor_val_two]
  show (0 * m + a.val) * n + b.val = a.val * n + b.val
  rw [Nat.zero_mul, Nat.zero_add]

/-- Dropping the leading unit axis of a `1 × n` row. -/
theorem dropUnit_row_apply {α : Type} {n : Nat} (x : (⟨2, ![1, n]⟩ : Shape).Idx → α)
    (h : (⟨2, ![1, n]⟩ : Shape).ShapeCasts ⟨1, ![n]⟩) (b : Fin n) :
    shapeCast ⟨1, ![n]⟩ x h (ix1 b) = x (ix2 (0 : Fin 1) b) := by
  refine shapeCast_apply x h (ix1 b) (ix2 (0 : Fin 1) b) ?_
  rw [Shape.rowMajor_val_two, Shape.rowMajor_val_one]
  show 0 * n + b.val = b.val
  rw [Nat.zero_mul, Nat.zero_add]

/-- `pseudo` at edge `e`, coordinate `j`. -/
theorem pseudoR_apply (ps : (⟨S800000x2, .f32⟩ : BufTy).Contents (Elt Ideal)) (w8 : (⟨S1x2x2, .f32⟩ : BufTy).Contents (Elt Ideal))
    (b9 : (⟨S1x2, .f32⟩ : BufTy).Contents (Elt Ideal)) (e : Fin 800000) (j : Fin 2) :
    PseudoR ps w8 b9 (ix2 e j)
      = Ideal.tanh (ps (ix2 e 0) * w8 (ix3 (0 : Fin 1) j 0) + ps (ix2 e 1) * w8 (ix3 (0 : Fin 1) j 1) + b9 (ix2 (0 : Fin 1) j)) := by
  have ht : ∀ k : Fin 2, transpose S2x2 [1, 0] (shapeCast S2x2 w8 shapeCasts_S1x2x2_S2x2) transposes_S2x2_S2x2_1_0 (ix2 k j)
      = w8 (ix3 (0 : Fin 1) j k) := fun k => by
    refine (transpose_apply [1, 0] _ transposes_S2x2_S2x2_1_0 (ix2 k j) (ix2 j k) fun b => ?_).trans (dropUnit_apply w8 _ j k)
    match b with
    | ⟨0, _⟩ => rfl
    | ⟨1, _⟩ => rfl
  have hd := Cert.LibPlainDot.dot_plain_apply dot_S800000x2_S2x2_S800000x2_1_0_0_1_n_n rfl none (φ₁ := .f32) (φ₂ := .f32) ps
    (transpose S2x2 [1, 0] (shapeCast S2x2 w8 shapeCasts_S1x2x2_S2x2) transposes_S2x2_S2x2_1_0) e j
  rw [Fin.sum_univ_two, ht 0, ht 1] at hd
  have hb := (Cert.LibRowBias.bcast_rows_apply (M := 800000) (shapeCast S2 b9 shapeCasts_S1x2_S2) bcast_S2_S1x2_1 bcast_S1x2_S800000x2_0_1 e j).trans
    (dropUnit_row_apply b9 shapeCasts_S1x2_S2 j)
  unfold PseudoR
  show Ideal.tanh (_ + _) = _
  rw [hd, hb]

/-- A parameter slice, reshaped and broadcast back, is the slice. -/
theorem paramR_apply (x : (⟨S1x3x2, .f32⟩ : BufTy).Contents (Elt Ideal)) (k : Fin 3) (j : Fin 2) :
    ParamR x (ix3 (0 : Fin 1) k j) = x (ix3 (0 : Fin 1) k j) := by
  unfold ParamR
  refine (broadcastInDim_apply _ bcast_S3x2_S1x3x2_1_2 _ (ix3 (0 : Fin 1) k j) (ix2 k j) fun a => ?_).trans
    (dropUnit_apply x shapeCasts_S1x3x2_S3x2 k j)
  match a with
  | ⟨0, _⟩ => rfl
  | ⟨1, _⟩ => rfl

/-- A `1 × 3 × 2` array broadcast over the edges, at `(e, k, j)`. -/
theorem bcast_edges_apply (y : (⟨S1x3x2, .f32⟩ : BufTy).Contents (Elt Ideal)) (e : Fin 800000) (k : Fin 3) (j : Fin 2) :
    broadcastInDim S800000x3x2 ![0, 1, 2] bcast_S1x3x2_S800000x3x2_0_1_2 y (ix3 e k j) = y (ix3 (0 : Fin 1) k j) := by
  refine broadcastInDim_apply _ bcast_S1x3x2_S800000x3x2_0_1_2 y (ix3 e k j) (ix3 (0 : Fin 1) k j) fun a => ?_
  match a with
  | ⟨0, _⟩ => rfl
  | ⟨1, _⟩ => rfl
  | ⟨2, _⟩ => rfl

/-- `d` at edge `e`, component `k`, coordinate `j`. -/
theorem diffR_apply (ps : (⟨S800000x2, .f32⟩ : BufTy).Contents (Elt Ideal)) (w8 : (⟨S1x2x2, .f32⟩ : BufTy).Contents (Elt Ideal))
    (b9 : (⟨S1x2, .f32⟩ : BufTy).Contents (Elt Ideal)) (mu4 : (⟨S1x3x2, .f32⟩ : BufTy).Contents (Elt Ideal))
    (e : Fin 800000) (k : Fin 3) (j : Fin 2) :
    DiffR ps w8 b9 mu4 (ix3 e k j) = PseudoR ps w8 b9 (ix2 e j) - mu4 (ix3 (0 : Fin 1) k j) := by
  have h1 : broadcastInDim S800000x3x2 ![0, 1, 2] bcast_S800000x1x2_S800000x3x2_0_1_2
        (broadcastInDim S800000x1x2 ![0, 2] bcast_S800000x2_S800000x1x2_0_2 (PseudoR ps w8 b9)) (ix3 e k j)
      = PseudoR ps w8 b9 (ix2 e j) := by
    refine (broadcastInDim_apply _ bcast_S800000x1x2_S800000x3x2_0_1_2 _ (ix3 e k j) (ix3 e (0 : Fin 1) j) fun a => ?_).trans
      (broadcastInDim_apply _ bcast_S800000x2_S800000x1x2_0_2 _ (ix3 e (0 : Fin 1) j) (ix2 e j) fun a => ?_)
    · match a with
      | ⟨0, _⟩ => rfl
      | ⟨1, _⟩ => rfl
      | ⟨2, _⟩ => rfl
    · match a with
      | ⟨0, _⟩ => rfl
      | ⟨1, _⟩ => rfl
  have h2 := (bcast_edges_apply (ParamR mu4) e k j).trans (paramR_apply mu4 k j)
  unfold DiffR
  show _ - _ = _
  rw [h1, h2]

/-- The sum over the last axis, of extent two, from the zero word: the two terms added. -/
theorem reduce_last_apply (x : (⟨S800000x3x2, .f32⟩ : BufTy).Contents (Elt Ideal)) (e : Fin 800000) (k : Fin 3) :
    Host.reduceAdd (F := Ideal) x (constant (F := Ideal) S_ .f32 0x00000000#32) reducesTo_S800000x3x2_S800000x3_d2 h_S_ (ix2 e k)
      = x (ix3 e k 0) + x (ix3 e k 1) := by
  have hR : S800000x3x2.Reduces [2] S800000x3 := by decide
  simp only [Host.reduceAdd, Ideal.hostReduceAdd_def]
  rw [Ideal.hostReduceAdd_single reducesTo_S800000x3x2_S800000x3_d2 hR]
  show Ideal.ofBits .f32 0x00000000#32 + ∑ q : Fin 2, x (hR.lift (ix2 e k) q) = _
  rw [Fin.sum_univ_two, Ideal.ofBits_zero_f32, zero_add]
  congr 1 <;> exact congrArg x (funext fun a => Fin.ext (by match a with | ⟨0, _⟩ => rfl | ⟨1, _⟩ => rfl | ⟨2, _⟩ => rfl))

/-- The summed squares at edge `e`, component `k`. -/
theorem sumR_apply (ps : (⟨S800000x2, .f32⟩ : BufTy).Contents (Elt Ideal)) (w8 : (⟨S1x2x2, .f32⟩ : BufTy).Contents (Elt Ideal))
    (b9 : (⟨S1x2, .f32⟩ : BufTy).Contents (Elt Ideal)) (mu4 isig5 : (⟨S1x3x2, .f32⟩ : BufTy).Contents (Elt Ideal))
    (e : Fin 800000) (k : Fin 3) :
    SumR ps w8 b9 mu4 isig5 (ix2 e k)
      = (PseudoR ps w8 b9 (ix2 e 0) - mu4 (ix3 (0 : Fin 1) k 0)) * (PseudoR ps w8 b9 (ix2 e 0) - mu4 (ix3 (0 : Fin 1) k 0))
            * (isig5 (ix3 (0 : Fin 1) k 0) * isig5 (ix3 (0 : Fin 1) k 0))
          + (PseudoR ps w8 b9 (ix2 e 1) - mu4 (ix3 (0 : Fin 1) k 1)) * (PseudoR ps w8 b9 (ix2 e 1) - mu4 (ix3 (0 : Fin 1) k 1))
            * (isig5 (ix3 (0 : Fin 1) k 1) * isig5 (ix3 (0 : Fin 1) k 1)) := by
  have hs : ∀ j : Fin 2, broadcastInDim S800000x3x2 ![0, 1, 2] bcast_S1x3x2_S800000x3x2_0_1_2
        (mulf (φ := .f32) (ParamR isig5) (ParamR isig5)) (ix3 e k j) = isig5 (ix3 (0 : Fin 1) k j) * isig5 (ix3 (0 : Fin 1) k j) := fun j => by
    refine (bcast_edges_apply _ e k j).trans ?_
    show ParamR isig5 (ix3 (0 : Fin 1) k j) * ParamR isig5 (ix3 (0 : Fin 1) k j) = _
    rw [paramR_apply]
  unfold SumR
  rw [reduce_last_apply]
  show DiffR ps w8 b9 mu4 (ix3 e k 0) * DiffR ps w8 b9 mu4 (ix3 e k 0) * _ + DiffR ps w8 b9 mu4 (ix3 e k 1) * DiffR ps w8 b9 mu4 (ix3 e k 1) * _ = _
  rw [diffR_apply, diffR_apply, hs 0, hs 1]

/-- The host's exponential of an array, read at an index. -/
theorem host_exp_apply {s : Shape} (a : FVec Ideal s .f32) (i : s.Idx) : Host.exp a i = Ideal.exp (a i) := rfl

/-- The reference's chain at edge `e`, component `k`. -/
theorem featR_apply (ps : (⟨S800000x2, .f32⟩ : BufTy).Contents (Elt Ideal)) (w8 : (⟨S1x2x2, .f32⟩ : BufTy).Contents (Elt Ideal))
    (b9 : (⟨S1x2, .f32⟩ : BufTy).Contents (Elt Ideal)) (mu4 isig5 : (⟨S1x3x2, .f32⟩ : BufTy).Contents (Elt Ideal))
    (e : Fin 800000) (k : Fin 3) :
    FeatR ps w8 b9 mu4 isig5 (ix2 e k) = Ideal.exp (Ideal.ofBits .f32 0xBF000000#32 * SumR ps w8 b9 mu4 isig5 (ix2 e k)) := by
  have hc : broadcastInDim S800000x3 ![] bcast_S_S800000x3 (constant (F := Ideal) S_ .f32 0xBF000000#32) (ix2 e k)
      = Ideal.ofBits .f32 0xBF000000#32 :=
    broadcastInDim_apply _ bcast_S_S800000x3 _ (ix2 e k) (fun a => a.elim0) (fun a => a.elim0)
  unfold FeatR
  rw [host_exp_apply, mulf_apply, hc]

/-! ## The two sides agree -/

/-- THE STAGE'S TWO FORMS AGREE: the array of `featEntry`s, at the parameter arrays as the kernel's host operations
    reshape the layer's slices, is the reference's chain of the same slices. -/
theorem feat_eq (ps : (⟨S800000x2, .f32⟩ : BufTy).Contents (Elt Ideal)) (w8 : (⟨S1x2x2, .f32⟩ : BufTy).Contents (Elt Ideal))
    (b9 : (⟨S1x2, .f32⟩ : BufTy).Contents (Elt Ideal)) (mu4 isig5 : (⟨S1x3x2, .f32⟩ : BufTy).Contents (Elt Ideal))
    (hw : S1x2x2.ShapeCasts S2x2) (hb1 : S1x2.ShapeCasts S2) (hb2 : S2.ShapeCasts S1x2) (hmu his : S1x3x2.ShapeCasts S3x2) :
    FeatK ps (shapeCast S2x2 w8 hw) (shapeCast S1x2 (shapeCast S2 b9 hb1) hb2) (shapeCast S3x2 mu4 hmu) (shapeCast S3x2 isig5 his)
      = FeatR ps w8 b9 mu4 isig5 := by
  funext i
  obtain ⟨e, k, rfl⟩ : ∃ (e : Fin 800000) (k : Fin 3), i = ix2 e k := ⟨i 0, i 1, eq_ix2 i⟩
  rw [featR_apply, sumR_apply, pseudoR_apply, pseudoR_apply]
  show featEntry (ps (ix2 e 0)) (ps (ix2 e 1)) (shapeCast S2x2 w8 hw) (shapeCast S1x2 (shapeCast S2 b9 hb1) hb2)
    (shapeCast S3x2 mu4 hmu) (shapeCast S3x2 isig5 his) k = _
  unfold featEntry
  rw [shapeCast_shapeCast b9 hb1 hb2]
  simp only [dropUnit_apply]
  refine congrArg (fun z => Ideal.exp (negHalf * z)) ?_
  simp only [mul_assoc]

end Cert.MoNet
-- ==== Proof.HpPayload.lean ====
/-
  The hidden projection of one MoNet layer: hp = h · w, the node features h (100000 rows of 64 channels) times the layer's
  weight w (64 × 192), accumulated into zero. Entry (p, q) of the product is the sum over the 64 channels k of
  h (p, k) · w (k, q); on the extended reals the two operands' narrower float format is the same real numbers, so the
  product is stated on the operands as they are.

  Here: that product as one function of the two whole arrays (HpK), and what the kernel's body computes for one block of
  10000 rows — the same sum, over the block's rows (hp_block_apply).
-/
import proofs.«168295_j62088047231392_2_alg».proof.Proof.Gen.KernelIdeal.Skeleton
import proofs.«168295_j62088047231392_2_alg».proof.Proof.LibPlainMatmul
import Idealize.ShloMosaic.Lib.ValueIdx
import Idealize.ShloMosaic.Lib.Pipeline.Value
import Idealize.ShloMosaic.PureOps.Ideal.Laws

noncomputable section

open scoped BigOperators

namespace Cert.MoNet

open Idealize.ShloMosaic Idealize.ShloMosaic.ValueIdx Cert.KernelIdeal

/-- The two zero offsets of a rank-2 access, as a constant function. -/
theorem zero_offsets2 : (![0, 0] : Fin 2 → Nat) = fun _ => 0 := funext fun a => by fin_cases a <;> rfl

/-- Entry (p, q) of h · w: the sum over the 64 channels. -/
def hpEntry (h : (⟨S100000x64, .bf16⟩ : BufTy).Contents (Elt Ideal)) (w : (⟨S64x192, .bf16⟩ : BufTy).Contents (Elt Ideal))
    (p : Fin 100000) (q : Fin 192) : EReal :=
  ∑ k : Fin 64, h (ix2 p k) * w (ix2 k q)

/-- The whole product h · w, index by index. -/
def HpK (h : (⟨S100000x64, .bf16⟩ : BufTy).Contents (Elt Ideal)) (w : (⟨S64x192, .bf16⟩ : BufTy).Contents (Elt Ideal)) :
    (⟨S100000x192, .f32⟩ : BufTy).Contents (Elt Ideal) :=
  fun i => hpEntry h w (i 0) (i 1)

/-- The product read at (p, q). -/
theorem HpK_apply (h : (⟨S100000x64, .bf16⟩ : BufTy).Contents (Elt Ideal)) (w : (⟨S64x192, .bf16⟩ : BufTy).Contents (Elt Ideal))
    (p : Fin 100000) (q : Fin 192) : HpK h w (ix2 p q) = ∑ k : Fin 64, h (ix2 p k) * w (ix2 k q) := rfl

/-- A block's sum is the product's entry: when row p of a block of features is row n·10000 + p of h, and the block of
    the weight is w itself, the sum over the channels of the block's products is entry (n·10000 + p, q) of h · w. -/
theorem hp_block_eq (h : (⟨S100000x64, .bf16⟩ : BufTy).Contents (Elt Ideal)) (w : (⟨S64x192, .bf16⟩ : BufTy).Contents (Elt Ideal))
    (x0 : Vec Ideal S10000x64 .bf16) (x1 : Vec Ideal S64x192 .bf16) (n : Nat) (p : Fin 10000) (q : Fin 192)
    (hp : n * 10000 + p.val < 100000)
    (h0 : ∀ k : Fin 64, x0 (ix2 p k) = h (ix2 ⟨n * 10000 + p.val, hp⟩ k))
    (h1 : ∀ k : Fin 64, x1 (ix2 k q) = w (ix2 k q)) :
    (∑ k : Fin 64, x0 (ix2 p k) * x1 (ix2 k q)) = HpK h w (ix2 ⟨n * 10000 + p.val, hp⟩ q) := by
  rw [HpK_apply]
  exact Finset.sum_congr rfl fun k _ => by rw [h0 k, h1 k]

/-- What the body computes from one block of 10000 rows of h and the whole weight: at row p of the block and column q,
    the sum over the 64 channels of the block's (p, k) times the weight's (k, q). The two shape casts are between equal
    shapes, and the accumulator is zero. -/
theorem hp_block_apply (x0 : Vec Ideal S10000x64 .bf16) (x1 : Vec Ideal S64x192 .bf16) (p : Fin 10000) (q : Fin 192) :
    Cert.KernelIdeal.Gen.k1_pay1 (F := Ideal) x0 x1 (ix2 p q) = ∑ k : Fin 64, x0 (ix2 p k) * x1 (ix2 k q) := by
  unfold Cert.KernelIdeal.Gen.k1_pay1
  simp only [shapeCast_self]
  exact Cert.LibPlainMatmul.matmul_plain_zero_apply dot_S10000x64_S64x192_S10000x192_1_0_0_1_n_n rfl none x0 x1 p q

/-- The same for region 4's body (the later layers' bodies are the same operations). -/
theorem hp_block_apply4 (x0 : Vec Ideal S10000x64 .bf16) (x1 : Vec Ideal S64x192 .bf16) (p : Fin 10000) (q : Fin 192) :
    Cert.KernelIdeal.Gen.k4_pay1 (F := Ideal) x0 x1 (ix2 p q) = ∑ k : Fin 64, x0 (ix2 p k) * x1 (ix2 k q) := by
  unfold Cert.KernelIdeal.Gen.k4_pay1
  simp only [shapeCast_self]
  exact Cert.LibPlainMatmul.matmul_plain_zero_apply dot_S10000x64_S64x192_S10000x192_1_0_0_1_n_n rfl none x0 x1 p q

/-- The same for region 7's body (the later layers' bodies are the same operations). -/
theorem hp_block_apply7 (x0 : Vec Ideal S10000x64 .bf16) (x1 : Vec Ideal S64x192 .bf16) (p : Fin 10000) (q : Fin 192) :
    Cert.KernelIdeal.Gen.k7_pay1 (F := Ideal) x0 x1 (ix2 p q) = ∑ k : Fin 64, x0 (ix2 p k) * x1 (ix2 k q) := by
  unfold Cert.KernelIdeal.Gen.k7_pay1
  simp only [shapeCast_self]
  exact Cert.LibPlainMatmul.matmul_plain_zero_apply dot_S10000x64_S64x192_S10000x192_1_0_0_1_n_n rfl none x0 x1 p q

/-- The same for region 10's body (the later layers' bodies are the same operations). -/
theorem hp_block_apply10 (x0 : Vec Ideal S10000x64 .bf16) (x1 : Vec Ideal S64x192 .bf16) (p : Fin 10000) (q : Fin 192) :
    Cert.KernelIdeal.Gen.k10_pay1 (F := Ideal) x0 x1 (ix2 p q) = ∑ k : Fin 64, x0 (ix2 p k) * x1 (ix2 k q) := by
  unfold Cert.KernelIdeal.Gen.k10_pay1
  simp only [shapeCast_self]
  exact Cert.LibPlainMatmul.matmul_plain_zero_apply dot_S10000x64_S64x192_S10000x192_1_0_0_1_n_n rfl none x0 x1 p q

end Cert.MoNet

end
-- ==== Proof.HpRegion1.lean ====
/-
  Region 1 (a layer's hidden projection): the array the region leaves is the product of its two input arrays.

  The grid has 10 points. Point t reads rows 10000·t … 10000·t + 9999 of the features array and the whole weight array,
  multiplies them into zero, and writes the result back to the same rows of the output array. Each block of the output is
  therefore the matching block of the one whole-array product HpK, and the 10 blocks tile the 100000 rows: row r lies in
  the block of point r / 10000.
-/
import proofs.«168295_j62088047231392_2_alg».proof.Proof.Gen.KernelIdeal.Frame
import proofs.«168295_j62088047231392_2_alg».proof.Proof.HpPayload
import Idealize.ShloMosaic.Lib.Pipeline.Value
import Idealize.ShloMosaic.Lib.Tactic

noncomputable section

namespace Cert.MoNet

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The block indices at point t, decided over the 10 points: the features' and the output's block is block t of the
    rows, all columns; the weight's block is the whole array. -/
theorem hp_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p, channel k of the features block at point t is row 10000·t + p of the features array. -/
theorem hp_rows1 (c : Dev nD) (t : Fin cfg1.N) (p : Fin 10000) (k : Fin 64) (ht : t.val * 10000 + p.val < 100000) :
    (iblk1 V c 0 t : Vec Ideal S10000x64 .bf16) (ix2 p k)
      = (V c (Pipeline.arrRef spec1 0) : (⟨S100000x64, .bf16⟩ : BufTy).Contents (Elt Ideal)) (ix2 ⟨t.val * 10000 + p.val, ht⟩ k) := by
  obtain ⟨e0, e1, -, -, -, -⟩ := hp_index1 t
  unfold iblk1
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- The weight block at every point is the weight array. -/
theorem hp_weight1 (c : Dev nD) (t : Fin cfg1.N) (k : Fin 64) (q : Fin 192) :
    (iblk1 V c 1 t : Vec Ideal S64x192 .bf16) (ix2 k q)
      = (V c (Pipeline.arrRef spec1 1) : (⟨S64x192, .bf16⟩ : BufTy).Contents (Elt Ideal)) (ix2 k q) := by
  obtain ⟨-, -, e2, e3, -, -⟩ := hp_index1 t
  unfold iblk1
  show V c (Pipeline.arrRef spec1 1) (((cfg1.win 1).blk t).view.emb (ix2 k q)) = _
  refine congrArg (V c (Pipeline.arrRef spec1 1)) (funext fun a => Fin.ext ?_)
  match a with
  | ⟨0, _⟩ => show win1_1.index t (0 : Fin 2) * 64 + 1 * k.val = k.val; omega
  | ⟨1, _⟩ => show win1_1.index t (1 : Fin 2) * 192 + 1 * q.val = q.val; omega

set_option maxHeartbeats 1000000 in
/-- What point t writes back is block t of the whole-array product of the region's two input arrays. -/
theorem hp_flushed1 (c : Dev nD) (t : Fin cfg1.N) :
    (dat1 (F := Ideal) V c).flushed 2 t
      = ((cfg1.win 2).blk t).view.read (Elt Ideal) (HpK (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero zero_offsets2]
  simp only [View.ld_unit_zero (S := S10000x64) zero_offsets2, View.ld_unit_zero (S := S64x192) zero_offsets2]
  have hN : t.val < 10 := Nat.lt_of_lt_of_eq t.isLt N_1
  obtain ⟨-, -, -, -, e4, e5⟩ := hp_index1 t
  funext j
  obtain ⟨p, q, rfl⟩ : ∃ (p : Fin 10000) (q : Fin 192), j = ix2 p q := ⟨j 0, j 1, eq_ix2 j⟩
  have hp : t.val * 10000 + p.val < 100000 := by have := p.isLt; omega
  generalize hG : HpK (V c (Pipeline.arrRef spec1 0)) (V c (Pipeline.arrRef spec1 1)) = G
  show k1_pay1 (F := Ideal) (iblk1 V c 0 t) (iblk1 V c 1 t) (ix2 p q) = G (((cfg1.win 2).blk t).view.emb (ix2 p q))
  have hemb : ((cfg1.win 2).blk t).view.emb (ix2 p q) = (ix2 (⟨t.val * 10000 + p.val, hp⟩ : Fin 100000) q : S100000x192.Idx) := by
    funext a; apply Fin.ext
    match a with
    | ⟨0, _⟩ => show win1_2.index t (0 : Fin 2) * 10000 + 1 * p.val = t.val * 10000 + p.val; omega
    | ⟨1, _⟩ => show win1_2.index t (1 : Fin 2) * 192 + 1 * q.val = q.val; omega
  rw [hemb, ← hG]
  refine (hp_block_apply (iblk1 V c 0 t) (iblk1 V c 1 t) p q).trans ?_
  exact hp_block_eq (V c (Pipeline.arrRef spec1 0)) (V c (Pipeline.arrRef spec1 1)) (iblk1 V c 0 t) (iblk1 V c 1 t) t.val p q hp
    (fun k => hp_rows1 V c t p k hp) (fun k => hp_weight1 V c t k q)

/-- An index of the output array is in point t's block iff each coordinate is in the block's range on its axis. -/
theorem hp_mem_blk1 (t : Fin cfg1.N) (i : S100000x192.Idx) :
    i ∈ ((cfg1.win 2).blk t).view.set ↔ ∀ a : Fin 2, win1_2.index t a * S10000x192.size a ≤ (i a).val ∧ (i a).val < win1_2.index t a * S10000x192.size a + S10000x192.size a := by
  show i ∈ ((View.whole main_v53).slice (win1_2.rect t)).set ↔ _
  rw [View.set_slice_whole, Rect.mem_set_unit]
  exact Iff.rfl

/-- THE ARRAY the region leaves: the product of the features array and the weight array as the region found them. -/
theorem final1 (c : Dev nD) :
    (dat1 (F := Ideal) V c).arrAt 2 cfg1.N = HpK (V c (Pipeline.arrRef spec1 0)) (V c (Pipeline.arrRef spec1 1)) :=
  (dat1 (F := Ideal) V c).arrAt_eq_of_cover 2 _ (fun t _ => hp_flushed1 V c t) fun i => by
    have hi0 : (i 0).val < 100000 := (i 0).isLt
    have hi1 : (i 1).val < 192 := (i 1).isLt
    have hN : cfg1.N = 10 := N_1
    have ht : (i 0).val / 10000 < cfg1.N := by rw [hN]; omega
    obtain ⟨-, -, -, -, e4, e5⟩ := hp_index1 ⟨(i 0).val / 10000, ht⟩
    refine ⟨⟨(i 0).val / 10000, ht⟩, flush1_2 _, ?_⟩
    rw [hp_mem_blk1]
    intro a
    match a with
    | ⟨0, _⟩ =>
      show win1_2.index ⟨(i 0).val / 10000, ht⟩ (0 : Fin 2) * 10000 ≤ (i 0).val ∧ (i 0).val < win1_2.index ⟨(i 0).val / 10000, ht⟩ (0 : Fin 2) * 10000 + 10000
      rw [e4]; show (i 0).val / 10000 * 10000 ≤ (i 0).val ∧ (i 0).val < (i 0).val / 10000 * 10000 + 10000; omega
    | ⟨1, _⟩ =>
      show win1_2.index ⟨(i 0).val / 10000, ht⟩ (1 : Fin 2) * 192 ≤ (i 1).val ∧ (i 1).val < win1_2.index ⟨(i 0).val / 10000, ht⟩ (1 : Fin 2) * 192 + 192
      rw [e5]; omega

end Cert.MoNet

end
-- ==== Proof.HpRegion4.lean ====
/-
  Region 4 (a layer's hidden projection): the array the region leaves is the product of its two input arrays.

  The grid has 10 points. Point t reads rows 10000·t … 10000·t + 9999 of the features array and the whole weight array,
  multiplies them into zero, and writes the result back to the same rows of the output array. Each block of the output is
  therefore the matching block of the one whole-array product HpK, and the 10 blocks tile the 100000 rows: row r lies in
  the block of point r / 10000.
-/
import proofs.«168295_j62088047231392_2_alg».proof.Proof.Gen.KernelIdeal.Frame
import proofs.«168295_j62088047231392_2_alg».proof.Proof.HpPayload
import Idealize.ShloMosaic.Lib.Pipeline.Value
import Idealize.ShloMosaic.Lib.Tactic

noncomputable section

namespace Cert.MoNet

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The block indices at point t, decided over the 10 points: the features' and the output's block is block t of the
    rows, all columns; the weight's block is the whole array. -/
theorem hp_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p, channel k of the features block at point t is row 10000·t + p of the features array. -/
theorem hp_rows4 (c : Dev nD) (t : Fin cfg4.N) (p : Fin 10000) (k : Fin 64) (ht : t.val * 10000 + p.val < 100000) :
    (iblk4 V c 0 t : Vec Ideal S10000x64 .bf16) (ix2 p k)
      = (V c (Pipeline.arrRef spec4 0) : (⟨S100000x64, .bf16⟩ : BufTy).Contents (Elt Ideal)) (ix2 ⟨t.val * 10000 + p.val, ht⟩ k) := by
  obtain ⟨e0, e1, -, -, -, -⟩ := hp_index4 t
  unfold iblk4
  show V c (Pipeline.arrRef spec4 0) (((cfg4.win 0).blk t).view.emb (ix2 p k)) = _
  refine congrArg (V c (Pipeline.arrRef spec4 0)) (funext fun a => Fin.ext ?_)
  match a with
  | ⟨0, _⟩ => show win4_0.index t (0 : Fin 2) * 10000 + 1 * p.val = t.val * 10000 + p.val; omega
  | ⟨1, _⟩ => show win4_0.index t (1 : Fin 2) * 64 + 1 * k.val = k.val; omega

/-- The weight block at every point is the weight array. -/
theorem hp_weight4 (c : Dev nD) (t : Fin cfg4.N) (k : Fin 64) (q : Fin 192) :
    (iblk4 V c 1 t : Vec Ideal S64x192 .bf16) (ix2 k q)
      = (V c (Pipeline.arrRef spec4 1) : (⟨S64x192, .bf16⟩ : BufTy).Contents (Elt Ideal)) (ix2 k q) := by
  obtain ⟨-, -, e2, e3, -, -⟩ := hp_index4 t
  unfold iblk4
  show V c (Pipeline.arrRef spec4 1) (((cfg4.win 1).blk t).view.emb (ix2 k q)) = _
  refine congrArg (V c (Pipeline.arrRef spec4 1)) (funext fun a => Fin.ext ?_)
  match a with
  | ⟨0, _⟩ => show win4_1.index t (0 : Fin 2) * 64 + 1 * k.val = k.val; omega
  | ⟨1, _⟩ => show win4_1.index t (1 : Fin 2) * 192 + 1 * q.val = q.val; omega

set_option maxHeartbeats 1000000 in
/-- What point t writes back is block t of the whole-array product of the region's two input arrays. -/
theorem hp_flushed4 (c : Dev nD) (t : Fin cfg4.N) :
    (dat4 (F := Ideal) V c).flushed 2 t
      = ((cfg4.win 2).blk t).view.read (Elt Ideal) (HpK (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zero_offsets2]
  simp only [View.ld_unit_zero (S := S10000x64) zero_offsets2, View.ld_unit_zero (S := S64x192) zero_offsets2]
  have hN : t.val < 10 := Nat.lt_of_lt_of_eq t.isLt N_4
  obtain ⟨-, -, -, -, e4, e5⟩ := hp_index4 t
  funext j
  obtain ⟨p, q, rfl⟩ : ∃ (p : Fin 10000) (q : Fin 192), j = ix2 p q := ⟨j 0, j 1, eq_ix2 j⟩
  have hp : t.val * 10000 + p.val < 100000 := by have := p.isLt; omega
  generalize hG : HpK (V c (Pipeline.arrRef spec4 0)) (V c (Pipeline.arrRef spec4 1)) = G
  show k4_pay1 (F := Ideal) (iblk4 V c 0 t) (iblk4 V c 1 t) (ix2 p q) = G (((cfg4.win 2).blk t).view.emb (ix2 p q))
  have hemb : ((cfg4.win 2).blk t).view.emb (ix2 p q) = (ix2 (⟨t.val * 10000 + p.val, hp⟩ : Fin 100000) q : S100000x192.Idx) := by
    funext a; apply Fin.ext
    match a with
    | ⟨0, _⟩ => show win4_2.index t (0 : Fin 2) * 10000 + 1 * p.val = t.val * 10000 + p.val; omega
    | ⟨1, _⟩ => show win4_2.index t (1 : Fin 2) * 192 + 1 * q.val = q.val; omega
  rw [hemb, ← hG]
  refine (hp_block_apply4 (iblk4 V c 0 t) (iblk4 V c 1 t) p q).trans ?_
  exact hp_block_eq (V c (Pipeline.arrRef spec4 0)) (V c (Pipeline.arrRef spec4 1)) (iblk4 V c 0 t) (iblk4 V c 1 t) t.val p q hp
    (fun k => hp_rows4 V c t p k hp) (fun k => hp_weight4 V c t k q)

/-- An index of the output array is in point t's block iff each coordinate is in the block's range on its axis. -/
theorem hp_mem_blk4 (t : Fin cfg4.N) (i : S100000x192.Idx) :
    i ∈ ((cfg4.win 2).blk t).view.set ↔ ∀ a : Fin 2, win4_2.index t a * S10000x192.size a ≤ (i a).val ∧ (i a).val < win4_2.index t a * S10000x192.size a + S10000x192.size a := by
  show i ∈ ((View.whole main_v103).slice (win4_2.rect t)).set ↔ _
  rw [View.set_slice_whole, Rect.mem_set_unit]
  exact Iff.rfl

/-- THE ARRAY the region leaves: the product of the features array and the weight array as the region found them. -/
theorem final4 (c : Dev nD) :
    (dat4 (F := Ideal) V c).arrAt 2 cfg4.N = HpK (V c (Pipeline.arrRef spec4 0)) (V c (Pipeline.arrRef spec4 1)) :=
  (dat4 (F := Ideal) V c).arrAt_eq_of_cover 2 _ (fun t _ => hp_flushed4 V c t) fun i => by
    have hi0 : (i 0).val < 100000 := (i 0).isLt
    have hi1 : (i 1).val < 192 := (i 1).isLt
    have hN : cfg4.N = 10 := N_4
    have ht : (i 0).val / 10000 < cfg4.N := by rw [hN]; omega
    obtain ⟨-, -, -, -, e4, e5⟩ := hp_index4 ⟨(i 0).val / 10000, ht⟩
    refine ⟨⟨(i 0).val / 10000, ht⟩, flush4_2 _, ?_⟩
    rw [hp_mem_blk4]
    intro a
    match a with
    | ⟨0, _⟩ =>
      show win4_2.index ⟨(i 0).val / 10000, ht⟩ (0 : Fin 2) * 10000 ≤ (i 0).val ∧ (i 0).val < win4_2.index ⟨(i 0).val / 10000, ht⟩ (0 : Fin 2) * 10000 + 10000
      rw [e4]; show (i 0).val / 10000 * 10000 ≤ (i 0).val ∧ (i 0).val < (i 0).val / 10000 * 10000 + 10000; omega
    | ⟨1, _⟩ =>
      show win4_2.index ⟨(i 0).val / 10000, ht⟩ (1 : Fin 2) * 192 ≤ (i 1).val ∧ (i 1).val < win4_2.index ⟨(i 0).val / 10000, ht⟩ (1 : Fin 2) * 192 + 192
      rw [e5]; omega

end Cert.MoNet

end
-- ==== Proof.HpRegion7.lean ====
/-
  Region 7 (a layer's hidden projection): the array the region leaves is the product of its two input arrays.

  The grid has 10 points. Point t reads rows 10000·t … 10000·t + 9999 of the features array and the whole weight array,
  multiplies them into zero, and writes the result back to the same rows of the output array. Each block of the output is
  therefore the matching block of the one whole-array product HpK, and the 10 blocks tile the 100000 rows: row r lies in
  the block of point r / 10000.
-/
import proofs.«168295_j62088047231392_2_alg».proof.Proof.Gen.KernelIdeal.Frame
import proofs.«168295_j62088047231392_2_alg».proof.Proof.HpPayload
import Idealize.ShloMosaic.Lib.Pipeline.Value
import Idealize.ShloMosaic.Lib.Tactic

noncomputable section

namespace Cert.MoNet

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The block indices at point t, decided over the 10 points: the features' and the output's block is block t of the
    rows, all columns; the weight's block is the whole array. -/
theorem hp_index7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Row p, channel k of the features block at point t is row 10000·t + p of the features array. -/
theorem hp_rows7 (c : Dev nD) (t : Fin cfg7.N) (p : Fin 10000) (k : Fin 64) (ht : t.val * 10000 + p.val < 100000) :
    (iblk7 V c 0 t : Vec Ideal S10000x64 .bf16) (ix2 p k)
      = (V c (Pipeline.arrRef spec7 0) : (⟨S100000x64, .bf16⟩ : BufTy).Contents (Elt Ideal)) (ix2 ⟨t.val * 10000 + p.val, ht⟩ k) := by
  obtain ⟨e0, e1, -, -, -, -⟩ := hp_index7 t
  unfold iblk7
  show V c (Pipeline.arrRef spec7 0) (((cfg7.win 0).blk t).view.emb (ix2 p k)) = _
  refine congrArg (V c (Pipeline.arrRef spec7 0)) (funext fun a => Fin.ext ?_)
  match a with
  | ⟨0, _⟩ => show win7_0.index t (0 : Fin 2) * 10000 + 1 * p.val = t.val * 10000 + p.val; omega
  | ⟨1, _⟩ => show win7_0.index t (1 : Fin 2) * 64 + 1 * k.val = k.val; omega

/-- The weight block at every point is the weight array. -/
theorem hp_weight7 (c : Dev nD) (t : Fin cfg7.N) (k : Fin 64) (q : Fin 192) :
    (iblk7 V c 1 t : Vec Ideal S64x192 .bf16) (ix2 k q)
      = (V c (Pipeline.arrRef spec7 1) : (⟨S64x192, .bf16⟩ : BufTy).Contents (Elt Ideal)) (ix2 k q) := by
  obtain ⟨-, -, e2, e3, -, -⟩ := hp_index7 t
  unfold iblk7
  show V c (Pipeline.arrRef spec7 1) (((cfg7.win 1).blk t).view.emb (ix2 k q)) = _
  refine congrArg (V c (Pipeline.arrRef spec7 1)) (funext fun a => Fin.ext ?_)
  match a with
  | ⟨0, _⟩ => show win7_1.index t (0 : Fin 2) * 64 + 1 * k.val = k.val; omega
  | ⟨1, _⟩ => show win7_1.index t (1 : Fin 2) * 192 + 1 * q.val = q.val; omega

set_option maxHeartbeats 1000000 in
/-- What point t writes back is block t of the whole-array product of the region's two input arrays. -/
theorem hp_flushed7 (c : Dev nD) (t : Fin cfg7.N) :
    (dat7 (F := Ideal) V c).flushed 2 t
      = ((cfg7.win 2).blk t).view.read (Elt Ideal) (HpK (V c (Pipeline.arrRef spec7 0)) (V c (Pipeline.arrRef spec7 1))) := by
  show (cfg7.win 2).cut (grid7.coords t) ((dat7 (F := Ideal) V c).after 2 t) = _
  rw [after7_2]
  unfold out7_2
  rw [View.canon_unit_zero zero_offsets2]
  simp only [View.ld_unit_zero (S := S10000x64) zero_offsets2, View.ld_unit_zero (S := S64x192) zero_offsets2]
  have hN : t.val < 10 := Nat.lt_of_lt_of_eq t.isLt N_7
  obtain ⟨-, -, -, -, e4, e5⟩ := hp_index7 t
  funext j
  obtain ⟨p, q, rfl⟩ : ∃ (p : Fin 10000) (q : Fin 192), j = ix2 p q := ⟨j 0, j 1, eq_ix2 j⟩
  have hp : t.val * 10000 + p.val < 100000 := by have := p.isLt; omega
  generalize hG : HpK (V c (Pipeline.arrRef spec7 0)) (V c (Pipeline.arrRef spec7 1)) = G
  show k7_pay1 (F := Ideal) (iblk7 V c 0 t) (iblk7 V c 1 t) (ix2 p q) = G (((cfg7.win 2).blk t).view.emb (ix2 p q))
  have hemb : ((cfg7.win 2).blk t).view.emb (ix2 p q) = (ix2 (⟨t.val * 10000 + p.val, hp⟩ : Fin 100000) q : S100000x192.Idx) := by
    funext a; apply Fin.ext
    match a with
    | ⟨0, _⟩ => show win7_2.index t (0 : Fin 2) * 10000 + 1 * p.val = t.val * 10000 + p.val; omega
    | ⟨1, _⟩ => show win7_2.index t (1 : Fin 2) * 192 + 1 * q.val = q.val; omega
  rw [hemb, ← hG]
  refine (hp_block_apply7 (iblk7 V c 0 t) (iblk7 V c 1 t) p q).trans ?_
  exact hp_block_eq (V c (Pipeline.arrRef spec7 0)) (V c (Pipeline.arrRef spec7 1)) (iblk7 V c 0 t) (iblk7 V c 1 t) t.val p q hp
    (fun k => hp_rows7 V c t p k hp) (fun k => hp_weight7 V c t k q)

/-- An index of the output array is in point t's block iff each coordinate is in the block's range on its axis. -/
theorem hp_mem_blk7 (t : Fin cfg7.N) (i : S100000x192.Idx) :
    i ∈ ((cfg7.win 2).blk t).view.set ↔ ∀ a : Fin 2, win7_2.index t a * S10000x192.size a ≤ (i a).val ∧ (i a).val < win7_2.index t a * S10000x192.size a + S10000x192.size a := by
  show i ∈ ((View.whole main_v153).slice (win7_2.rect t)).set ↔ _
  rw [View.set_slice_whole, Rect.mem_set_unit]
  exact Iff.rfl

/-- THE ARRAY the region leaves: the product of the features array and the weight array as the region found them. -/
theorem final7 (c : Dev nD) :
    (dat7 (F := Ideal) V c).arrAt 2 cfg7.N = HpK (V c (Pipeline.arrRef spec7 0)) (V c (Pipeline.arrRef spec7 1)) :=
  (dat7 (F := Ideal) V c).arrAt_eq_of_cover 2 _ (fun t _ => hp_flushed7 V c t) fun i => by
    have hi0 : (i 0).val < 100000 := (i 0).isLt
    have hi1 : (i 1).val < 192 := (i 1).isLt
    have hN : cfg7.N = 10 := N_7
    have ht : (i 0).val / 10000 < cfg7.N := by rw [hN]; omega
    obtain ⟨-, -, -, -, e4, e5⟩ := hp_index7 ⟨(i 0).val / 10000, ht⟩
    refine ⟨⟨(i 0).val / 10000, ht⟩, flush7_2 _, ?_⟩
    rw [hp_mem_blk7]
    intro a
    match a with
    | ⟨0, _⟩ =>
      show win7_2.index ⟨(i 0).val / 10000, ht⟩ (0 : Fin 2) * 10000 ≤ (i 0).val ∧ (i 0).val < win7_2.index ⟨(i 0).val / 10000, ht⟩ (0 : Fin 2) * 10000 + 10000
      rw [e4]; show (i 0).val / 10000 * 10000 ≤ (i 0).val ∧ (i 0).val < (i 0).val / 10000 * 10000 + 10000; omega
    | ⟨1, _⟩ =>
      show win7_2.index ⟨(i 0).val / 10000, ht⟩ (1 : Fin 2) * 192 ≤ (i 1).val ∧ (i 1).val < win7_2.index ⟨(i 0).val / 10000, ht⟩ (1 : Fin 2) * 192 + 192
      rw [e5]; omega

end Cert.MoNet

end
-- ==== Proof.HpRegion10.lean ====
/-
  Region 10 (a layer's hidden projection): the array the region leaves is the product of its two input arrays.

  The grid has 10 points. Point t reads rows 10000·t … 10000·t + 9999 of the features array and the whole weight array,
  multiplies them into zero, and writes the result back to the same rows of the output array. Each block of the output is
  therefore the matching block of the one whole-array product HpK, and the 10 blocks tile the 100000 rows: row r lies in
  the block of point r / 10000.
-/
import proofs.«168295_j62088047231392_2_alg».proof.Proof.Gen.KernelIdeal.Frame
import proofs.«168295_j62088047231392_2_alg».proof.Proof.HpPayload
import Idealize.ShloMosaic.Lib.Pipeline.Value
import Idealize.ShloMosaic.Lib.Tactic

noncomputable section

namespace Cert.MoNet

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The block indices at point t, decided over the 10 points: the features' and the output's block is block t of the
    rows, all columns; the weight's block is the whole array. -/
theorem hp_index10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- Row p, channel k of the features block at point t is row 10000·t + p of the features array. -/
theorem hp_rows10 (c : Dev nD) (t : Fin cfg10.N) (p : Fin 10000) (k : Fin 64) (ht : t.val * 10000 + p.val < 100000) :
    (iblk10 V c 0 t : Vec Ideal S10000x64 .bf16) (ix2 p k)
      = (V c (Pipeline.arrRef spec10 0) : (⟨S100000x64, .bf16⟩ : BufTy).Contents (Elt Ideal)) (ix2 ⟨t.val * 10000 + p.val, ht⟩ k) := by
  obtain ⟨e0, e1, -, -, -, -⟩ := hp_index10 t
  unfold iblk10
  show V c (Pipeline.arrRef spec10 0) (((cfg10.win 0).blk t).view.emb (ix2 p k)) = _
  refine congrArg (V c (Pipeline.arrRef spec10 0)) (funext fun a => Fin.ext ?_)
  match a with
  | ⟨0, _⟩ => show win10_0.index t (0 : Fin 2) * 10000 + 1 * p.val = t.val * 10000 + p.val; omega
  | ⟨1, _⟩ => show win10_0.index t (1 : Fin 2) * 64 + 1 * k.val = k.val; omega

/-- The weight block at every point is the weight array. -/
theorem hp_weight10 (c : Dev nD) (t : Fin cfg10.N) (k : Fin 64) (q : Fin 192) :
    (iblk10 V c 1 t : Vec Ideal S64x192 .bf16) (ix2 k q)
      = (V c (Pipeline.arrRef spec10 1) : (⟨S64x192, .bf16⟩ : BufTy).Contents (Elt Ideal)) (ix2 k q) := by
  obtain ⟨-, -, e2, e3, -, -⟩ := hp_index10 t
  unfold iblk10
  show V c (Pipeline.arrRef spec10 1) (((cfg10.win 1).blk t).view.emb (ix2 k q)) = _
  refine congrArg (V c (Pipeline.arrRef spec10 1)) (funext fun a => Fin.ext ?_)
  match a with
  | ⟨0, _⟩ => show win10_1.index t (0 : Fin 2) * 64 + 1 * k.val = k.val; omega
  | ⟨1, _⟩ => show win10_1.index t (1 : Fin 2) * 192 + 1 * q.val = q.val; omega

set_option maxHeartbeats 1000000 in
/-- What point t writes back is block t of the whole-array product of the region's two input arrays. -/
theorem hp_flushed10 (c : Dev nD) (t : Fin cfg10.N) :
    (dat10 (F := Ideal) V c).flushed 2 t
      = ((cfg10.win 2).blk t).view.read (Elt Ideal) (HpK (V c (Pipeline.arrRef spec10 0)) (V c (Pipeline.arrRef spec10 1))) := by
  show (cfg10.win 2).cut (grid10.coords t) ((dat10 (F := Ideal) V c).after 2 t) = _
  rw [after10_2]
  unfold out10_2
  rw [View.canon_unit_zero zero_offsets2]
  simp only [View.ld_unit_zero (S := S10000x64) zero_offsets2, View.ld_unit_zero (S := S64x192) zero_offsets2]
  have hN : t.val < 10 := Nat.lt_of_lt_of_eq t.isLt N_10
  obtain ⟨-, -, -, -, e4, e5⟩ := hp_index10 t
  funext j
  obtain ⟨p, q, rfl⟩ : ∃ (p : Fin 10000) (q : Fin 192), j = ix2 p q := ⟨j 0, j 1, eq_ix2 j⟩
  have hp : t.val * 10000 + p.val < 100000 := by have := p.isLt; omega
  generalize hG : HpK (V c (Pipeline.arrRef spec10 0)) (V c (Pipeline.arrRef spec10 1)) = G
  show k10_pay1 (F := Ideal) (iblk10 V c 0 t) (iblk10 V c 1 t) (ix2 p q) = G (((cfg10.win 2).blk t).view.emb (ix2 p q))
  have hemb : ((cfg10.win 2).blk t).view.emb (ix2 p q) = (ix2 (⟨t.val * 10000 + p.val, hp⟩ : Fin 100000) q : S100000x192.Idx) := by
    funext a; apply Fin.ext
    match a with
    | ⟨0, _⟩ => show win10_2.index t (0 : Fin 2) * 10000 + 1 * p.val = t.val * 10000 + p.val; omega
    | ⟨1, _⟩ => show win10_2.index t (1 : Fin 2) * 192 + 1 * q.val = q.val; omega
  rw [hemb, ← hG]
  refine (hp_block_apply10 (iblk10 V c 0 t) (iblk10 V c 1 t) p q).trans ?_
  exact hp_block_eq (V c (Pipeline.arrRef spec10 0)) (V c (Pipeline.arrRef spec10 1)) (iblk10 V c 0 t) (iblk10 V c 1 t) t.val p q hp
    (fun k => hp_rows10 V c t p k hp) (fun k => hp_weight10 V c t k q)

/-- An index of the output array is in point t's block iff each coordinate is in the block's range on its axis. -/
theorem hp_mem_blk10 (t : Fin cfg10.N) (i : S100000x192.Idx) :
    i ∈ ((cfg10.win 2).blk t).view.set ↔ ∀ a : Fin 2, win10_2.index t a * S10000x192.size a ≤ (i a).val ∧ (i a).val < win10_2.index t a * S10000x192.size a + S10000x192.size a := by
  show i ∈ ((View.whole main_v203).slice (win10_2.rect t)).set ↔ _
  rw [View.set_slice_whole, Rect.mem_set_unit]
  exact Iff.rfl

/-- THE ARRAY the region leaves: the product of the features array and the weight array as the region found them. -/
theorem final10 (c : Dev nD) :
    (dat10 (F := Ideal) V c).arrAt 2 cfg10.N = HpK (V c (Pipeline.arrRef spec10 0)) (V c (Pipeline.arrRef spec10 1)) :=
  (dat10 (F := Ideal) V c).arrAt_eq_of_cover 2 _ (fun t _ => hp_flushed10 V c t) fun i => by
    have hi0 : (i 0).val < 100000 := (i 0).isLt
    have hi1 : (i 1).val < 192 := (i 1).isLt
    have hN : cfg10.N = 10 := N_10
    have ht : (i 0).val / 10000 < cfg10.N := by rw [hN]; omega
    obtain ⟨-, -, -, -, e4, e5⟩ := hp_index10 ⟨(i 0).val / 10000, ht⟩
    refine ⟨⟨(i 0).val / 10000, ht⟩, flush10_2 _, ?_⟩
    rw [hp_mem_blk10]
    intro a
    match a with
    | ⟨0, _⟩ =>
      show win10_2.index ⟨(i 0).val / 10000, ht⟩ (0 : Fin 2) * 10000 ≤ (i 0).val ∧ (i 0).val < win10_2.index ⟨(i 0).val / 10000, ht⟩ (0 : Fin 2) * 10000 + 10000
      rw [e4]; show (i 0).val / 10000 * 10000 ≤ (i 0).val ∧ (i 0).val < (i 0).val / 10000 * 10000 + 10000; omega
    | ⟨1, _⟩ =>
      show win10_2.index ⟨(i 0).val / 10000, ht⟩ (1 : Fin 2) * 192 ≤ (i 1).val ∧ (i 1).val < win10_2.index ⟨(i 0).val / 10000, ht⟩ (1 : Fin 2) * 192 + 192
      rw [e5]; omega

end Cert.MoNet

end
-- ==== Proof.HpStretch.lean ====
/-
  The host operations just before each layer's hidden-projection region, read at the region's two input arrays.

  Before layer l (l = 0 … 3) the host narrows the node features h to the shorter float format, and prepares the layer's
  weight from the raw 4 × 192 × 64 tensor: slice l (1 × 192 × 64), the unit axis dropped (192 × 64), transposed (64 × 192),
  narrowed. Each lemma says what one of the two arrays holds after those five operations, as that function of the buffers
  the operations started from; nothing else in the stretch writes either array.
-/
import proofs.«168295_j62088047231392_2_alg».proof.Proof.Gen.KernelIdeal.Launch
import Idealize.ShloMosaic.Lib.StableHlo.Run
import Idealize.ShloMosaic.PureOps.Ideal.Laws

noncomputable section

namespace Cert.MoNet

open Idealize.ShloMosaic Idealize.ShloMosaic.TcCoe Idealize.ShloMosaic.StableHlo
open Cert.KernelIdeal Cert.KernelIdeal.Gen

/-- A layer's weight as the host prepares it for the matrix unit from the layer's 1 × 192 × 64 slice: the unit axis
    dropped, transposed to 64 × 192, narrowed. -/
def hpWeightK (w3 : (⟨S1x192x64, .f32⟩ : BufTy).Contents (Elt Ideal)) : (⟨S64x192, .bf16⟩ : BufTy).Contents (Elt Ideal) :=
  truncf (F := Ideal) .bf16 (transpose S64x192 [1, 0] (shapeCast S192x64 w3 Facts₀.shapeCasts_S1x192x64_S192x64) Facts₀.transposes_S192x64_S64x192_1_0)
    Facts₀.bitsLt_bf16_f32

/-- Before layer 0's region the features array holds the narrowed features. -/
theorem hp_stretch1_h (X : Valuation τ sig (Elt Ideal)) :
    StableHlo.after (hostOps1 (F := Ideal)) X (Proc.devRef .tc main_v48)
      = (truncf (F := Ideal) .bf16 (X (Proc.devRef .tc main_v37)) Facts₀.bitsLt_bf16_f32 : FVec Ideal S100000x64 .bf16) := by
  after_results

/-- Before layer 0's region the weight array holds slice 0 of the raw weights, prepared. -/
theorem hp_stretch1_w (X : Valuation τ sig (Elt Ideal)) :
    StableHlo.after (hostOps1 (F := Ideal)) X (Proc.devRef .tc main_v52)
      = hpWeightK (extractStridedSlice S1x192x64 ![0, 0, 0]
          (X (Proc.devRef .tc main_arg3) : (⟨S4x192x64, .f32⟩ : BufTy).Contents (Elt Ideal)) Facts₀.slices_S4x192x64_S1x192x64_0_0_0) := by
  after_results; rfl

/-- Before layer 1's region the features array holds the narrowed features. -/
theorem hp_stretch4_h (X : Valuation τ sig (Elt Ideal)) :
    StableHlo.after (hostOps4 (F := Ideal)) X (Proc.devRef .tc main_v98)
      = (truncf (F := Ideal) .bf16 (X (Proc.devRef .tc main_v87)) Facts₀.bitsLt_bf16_f32 : FVec Ideal S100000x64 .bf16) := by
  after_results

/-- Before layer 1's region the weight array holds slice 1 of the raw weights, prepared. -/
theorem hp_stretch4_w (X : Valuation τ sig (Elt Ideal)) :
    StableHlo.after (hostOps4 (F := Ideal)) X (Proc.devRef .tc main_v102)
      = hpWeightK (extractStridedSlice S1x192x64 ![1, 0, 0]
          (X (Proc.devRef .tc main_arg3) : (⟨S4x192x64, .f32⟩ : BufTy).Contents (Elt Ideal)) Facts₀.slices_S4x192x64_S1x192x64_1_0_0) := by
  after_results; rfl

/-- Before layer 2's region the features array holds the narrowed features. -/
theorem hp_stretch7_h (X : Valuation τ sig (Elt Ideal)) :
    StableHlo.after (hostOps7 (F := Ideal)) X (Proc.devRef .tc main_v148)
      = (truncf (F := Ideal) .bf16 (X (Proc.devRef .tc main_v137)) Facts₀.bitsLt_bf16_f32 : FVec Ideal S100000x64 .bf16) := by
  after_results

/-- Before layer 2's region the weight array holds slice 2 of the raw weights, prepared. -/
theorem hp_stretch7_w (X : Valuation τ sig (Elt Ideal)) :
    StableHlo.after (hostOps7 (F := Ideal)) X (Proc.devRef .tc main_v152)
      = hpWeightK (extractStridedSlice S1x192x64 ![2, 0, 0]
          (X (Proc.devRef .tc main_arg3) : (⟨S4x192x64, .f32⟩ : BufTy).Contents (Elt Ideal)) Facts₀.slices_S4x192x64_S1x192x64_2_0_0) := by
  after_results; rfl

/-- Before layer 3's region the features array holds the narrowed features. -/
theorem hp_stretch10_h (X : Valuation τ sig (Elt Ideal)) :
    StableHlo.after (hostOps10 (F := Ideal)) X (Proc.devRef .tc main_v198)
      = (truncf (F := Ideal) .bf16 (X (Proc.devRef .tc main_v187)) Facts₀.bitsLt_bf16_f32 : FVec Ideal S100000x64 .bf16) := by
  after_results

/-- Before layer 3's region the weight array holds slice 3 of the raw weights, prepared. -/
theorem hp_stretch10_w (X : Valuation τ sig (Elt Ideal)) :
    StableHlo.after (hostOps10 (F := Ideal)) X (Proc.devRef .tc main_v202)
      = hpWeightK (extractStridedSlice S1x192x64 ![3, 0, 0]
          (X (Proc.devRef .tc main_arg3) : (⟨S4x192x64, .f32⟩ : BufTy).Contents (Elt Ideal)) Facts₀.slices_S4x192x64_S1x192x64_3_0_0) := by
  after_results; rfl

end Cert.MoNet

end
-- ==== Proof.HpRef.lean ====
/-
  The reference's hidden projection of one MoNet layer and its agreement with the kernel's.

  The reference takes the layer's slice of the weight tensor (1 × 192 × 64), drops the unit axis, transposes to 64 × 192,
  multiplies the node features h (100000 × 64) by it, and regroups the 192 output columns as 3 kernels of 64 channels
  (100000 × 3 × 64). The kernel prepares the weight the same way on the host, narrows both operands to the shorter float
  format — on the extended reals that is the identity —, multiplies block by block on the matrix unit into a zero
  accumulator, and regroups the columns the same way. Both products are, entry by entry, the sum over the 64 input
  channels k of h (p, k) · wᵀ (k, q); so the two regrouped arrays are equal.
-/
import proofs.«168295_j62088047231392_2_alg».proof.Proof.Gen.ReferenceIdeal
import proofs.«168295_j62088047231392_2_alg».proof.Proof.HpPayload
import proofs.«168295_j62088047231392_2_alg».proof.Proof.HpStretch
import proofs.«168295_j62088047231392_2_alg».proof.Proof.LibPlainDot
import Idealize.ShloMosaic.Lib.ValueIdx
import Idealize.ShloMosaic.PureOps.Ideal.Laws

noncomputable section

open scoped BigOperators

namespace Cert.MoNet

open Idealize.ShloMosaic Idealize.ShloMosaic.ValueIdx

/-- The layer's weight slice as the reference's 64 × 192 right operand: the unit axis dropped, then transposed. -/
def hpWeightR (w3 : (⟨Cert.ReferenceIdeal.S1x192x64, .f32⟩ : BufTy).Contents (Elt Ideal)) :
    (⟨Cert.ReferenceIdeal.S64x192, .f32⟩ : BufTy).Contents (Elt Ideal) :=
  transpose Cert.ReferenceIdeal.S64x192 [1, 0]
    (shapeCast Cert.ReferenceIdeal.S192x64 w3 Cert.ReferenceIdeal.Facts₀.shapeCasts_S1x192x64_S192x64)
    Cert.ReferenceIdeal.Facts₀.transposes_S192x64_S64x192_1_0

/-- The reference's chain after the slice: reshape, transpose, product with h, regroup the columns as 3 × 64. -/
def HpR (h : (⟨Cert.ReferenceIdeal.S100000x64, .f32⟩ : BufTy).Contents (Elt Ideal))
    (w3 : (⟨Cert.ReferenceIdeal.S1x192x64, .f32⟩ : BufTy).Contents (Elt Ideal)) :
    (⟨Cert.ReferenceIdeal.S100000x3x64, .f32⟩ : BufTy).Contents (Elt Ideal) :=
  shapeCast Cert.ReferenceIdeal.S100000x3x64
    (Host.dotGeneral (F := Ideal) (φ₁ := .f32) (φ₂ := .f32) Cert.ReferenceIdeal.dot_S100000x64_S64x192_S100000x192_1_0_0_1_n_n none h (hpWeightR w3))
    Cert.ReferenceIdeal.Facts₀.shapeCasts_S100000x192_S100000x3x64

/-- The kernel's prepared weight is the reference's: the same reshape and transpose, and narrowing is the identity. -/
theorem hpWeightK_eq (w3 : (⟨Cert.ReferenceIdeal.S1x192x64, .f32⟩ : BufTy).Contents (Elt Ideal)) :
    hpWeightK w3 = hpWeightR w3 := rfl

/-- The product on the matrix unit, block by block into zero, of the narrowed features and a weight is the host's
    product of the features and that weight: both are the sum over the 64 channels at every entry, and narrowing is
    the identity on the extended reals. -/
theorem HpK_eq_dot (h : (⟨Cert.ReferenceIdeal.S100000x64, .f32⟩ : BufTy).Contents (Elt Ideal))
    (w : (⟨Cert.ReferenceIdeal.S64x192, .f32⟩ : BufTy).Contents (Elt Ideal)) :
    HpK (truncf (F := Ideal) .bf16 h Cert.KernelIdeal.Facts₀.bitsLt_bf16_f32) w
      = Host.dotGeneral (F := Ideal) (φ₁ := .f32) (φ₂ := .f32) Cert.ReferenceIdeal.dot_S100000x64_S64x192_S100000x192_1_0_0_1_n_n none h w := by
  funext i
  obtain ⟨p, q, rfl⟩ : ∃ (p : Fin 100000) (q : Fin 192), i = ix2 p q := ⟨i 0, i 1, eq_ix2 i⟩
  rw [HpK_apply]
  exact (Cert.LibPlainDot.dot_plain_apply Cert.ReferenceIdeal.dot_S100000x64_S64x192_S100000x192_1_0_0_1_n_n rfl none h w p q).symm

/-- The kernel's regrouped product is the reference's: the features narrowed, the weight prepared on the host from the
    same slice, the product taken on the matrix unit, the 192 columns regrouped as 3 × 64. -/
theorem hp_eq (h : (⟨Cert.ReferenceIdeal.S100000x64, .f32⟩ : BufTy).Contents (Elt Ideal))
    (w3 : (⟨Cert.ReferenceIdeal.S1x192x64, .f32⟩ : BufTy).Contents (Elt Ideal)) :
    shapeCast Cert.KernelIdeal.S100000x3x64
        (HpK (truncf (F := Ideal) .bf16 h Cert.KernelIdeal.Facts₀.bitsLt_bf16_f32) (hpWeightK w3))
        Cert.KernelIdeal.Facts₀.shapeCasts_S100000x192_S100000x3x64
      = HpR h w3 := by
  unfold HpR
  rw [hpWeightK_eq]
  exact congrArg (fun y => shapeCast Cert.ReferenceIdeal.S100000x3x64 y Cert.ReferenceIdeal.Facts₀.shapeCasts_S100000x192_S100000x3x64)
    (HpK_eq_dot h (hpWeightR w3))

end Cert.MoNet

end
-- ==== Proof.HpLayer.lean ====
/-
  One layer's hidden projection, from the host operations before its region to the regrouped product after it.

  Whatever the buffers hold when the stretch before the region starts, the stretch narrows the features and prepares
  the layer's weight, the region multiplies them block by block, and the product regrouped as 100000 × 3 × 64 is the
  reference's chain (reshape, transpose, product, regroup) on the same features and the same slice of the raw weights.
-/
import proofs.«168295_j62088047231392_2_alg».proof.Proof.HpRegion1
import proofs.«168295_j62088047231392_2_alg».proof.Proof.HpRegion4
import proofs.«168295_j62088047231392_2_alg».proof.Proof.HpRegion7
import proofs.«168295_j62088047231392_2_alg».proof.Proof.HpRegion10
import proofs.«168295_j62088047231392_2_alg».proof.Proof.HpStretch
import proofs.«168295_j62088047231392_2_alg».proof.Proof.HpRef

noncomputable section

namespace Cert.MoNet

open Idealize.ShloMosaic Idealize.ShloMosaic.TcCoe Idealize.SL.Sem Idealize.ShloMosaic.StableHlo
open Idealize.ShloMosaic.Pipeline (Dat)
open Cert.KernelIdeal Cert.KernelIdeal.Gen

/-- Layer 0: from any buffer contents X the stretch before region 1 starts from, the array region 1 leaves, with its 192 columns
    regrouped as 3 × 64, is the reference's chain on X's features array and slice 0 of X's raw weights. -/
theorem hp_layer1 (X : Dev nD → Valuation τ sig (Elt Ideal)) (c : Dev nD) :
    shapeCast S100000x3x64
        ((dat1 (F := Ideal) (fun c b => StableHlo.after (hostOps1 (F := Ideal)) (X c) (Proc.devRef .tc b)) c).arrAt 2 cfg1.N)
        Facts₀.shapeCasts_S100000x192_S100000x3x64
      = HpR (X c (Proc.devRef .tc main_v37))
          (extractStridedSlice S1x192x64 ![0, 0, 0] (X c (Proc.devRef .tc main_arg3)) Facts₀.slices_S4x192x64_S1x192x64_0_0_0) := by
  rw [final1]
  show shapeCast S100000x3x64
      (HpK (StableHlo.after (hostOps1 (F := Ideal)) (X c) (Proc.devRef .tc main_v48))
        (StableHlo.after (hostOps1 (F := Ideal)) (X c) (Proc.devRef .tc main_v52))) Facts₀.shapeCasts_S100000x192_S100000x3x64 = _
  rw [hp_stretch1_h, hp_stretch1_w]
  exact hp_eq _ _

/-- Layer 1: from any buffer contents X the stretch before region 4 starts from, the array region 4 leaves, with its 192 columns
    regrouped as 3 × 64, is the reference's chain on X's features array and slice 1 of X's raw weights. -/
theorem hp_layer4 (X : Dev nD → Valuation τ sig (Elt Ideal)) (c : Dev nD) :
    shapeCast S100000x3x64
        ((dat4 (F := Ideal) (fun c b => StableHlo.after (hostOps4 (F := Ideal)) (X c) (Proc.devRef .tc b)) c).arrAt 2 cfg4.N)
        Facts₀.shapeCasts_S100000x192_S100000x3x64
      = HpR (X c (Proc.devRef .tc main_v87))
          (extractStridedSlice S1x192x64 ![1, 0, 0] (X c (Proc.devRef .tc main_arg3)) Facts₀.slices_S4x192x64_S1x192x64_1_0_0) := by
  rw [final4]
  show shapeCast S100000x3x64
      (HpK (StableHlo.after (hostOps4 (F := Ideal)) (X c) (Proc.devRef .tc main_v98))
        (StableHlo.after (hostOps4 (F := Ideal)) (X c) (Proc.devRef .tc main_v102))) Facts₀.shapeCasts_S100000x192_S100000x3x64 = _
  rw [hp_stretch4_h, hp_stretch4_w]
  exact hp_eq _ _

/-- Layer 2: from any buffer contents X the stretch before region 7 starts from, the array region 7 leaves, with its 192 columns
    regrouped as 3 × 64, is the reference's chain on X's features array and slice 2 of X's raw weights. -/
theorem hp_layer7 (X : Dev nD → Valuation τ sig (Elt Ideal)) (c : Dev nD) :
    shapeCast S100000x3x64
        ((dat7 (F := Ideal) (fun c b => StableHlo.after (hostOps7 (F := Ideal)) (X c) (Proc.devRef .tc b)) c).arrAt 2 cfg7.N)
        Facts₀.shapeCasts_S100000x192_S100000x3x64
      = HpR (X c (Proc.devRef .tc main_v137))
          (extractStridedSlice S1x192x64 ![2, 0, 0] (X c (Proc.devRef .tc main_arg3)) Facts₀.slices_S4x192x64_S1x192x64_2_0_0) := by
  rw [final7]
  show shapeCast S100000x3x64
      (HpK (StableHlo.after (hostOps7 (F := Ideal)) (X c) (Proc.devRef .tc main_v148))
        (StableHlo.after (hostOps7 (F := Ideal)) (X c) (Proc.devRef .tc main_v152))) Facts₀.shapeCasts_S100000x192_S100000x3x64 = _
  rw [hp_stretch7_h, hp_stretch7_w]
  exact hp_eq _ _

/-- Layer 3: from any buffer contents X the stretch before region 10 starts from, the array region 10 leaves, with its 192 columns
    regrouped as 3 × 64, is the reference's chain on X's features array and slice 3 of X's raw weights. -/
theorem hp_layer10 (X : Dev nD → Valuation τ sig (Elt Ideal)) (c : Dev nD) :
    shapeCast S100000x3x64
        ((dat10 (F := Ideal) (fun c b => StableHlo.after (hostOps10 (F := Ideal)) (X c) (Proc.devRef .tc b)) c).arrAt 2 cfg10.N)
        Facts₀.shapeCasts_S100000x192_S100000x3x64
      = HpR (X c (Proc.devRef .tc main_v187))
          (extractStridedSlice S1x192x64 ![3, 0, 0] (X c (Proc.devRef .tc main_arg3)) Facts₀.slices_S4x192x64_S1x192x64_3_0_0) := by
  rw [final10]
  show shapeCast S100000x3x64
      (HpK (StableHlo.after (hostOps10 (F := Ideal)) (X c) (Proc.devRef .tc main_v198))
        (StableHlo.after (hostOps10 (F := Ideal)) (X c) (Proc.devRef .tc main_v202))) Facts₀.shapeCasts_S100000x192_S100000x3x64 = _
  rw [hp_stretch10_h, hp_stretch10_w]
  exact hp_eq _ _

end Cert.MoNet

end
-- ==== Proof.HpRefLayers.lean ====
/-
  The reference's hidden projection, layer by layer: each layer's regrouped product, as the reference computes it, is the
  one chain HpR applied to that layer's node features and that layer's slice of the weight tensor. The reference repeats
  the same four operations (reshape, transpose, product, regroup) per layer on other buffers, so each equation holds by
  unfolding the layer's operations.
-/
import proofs.«168295_j62088047231392_2_alg».proof.Proof.RefRead
import proofs.«168295_j62088047231392_2_alg».proof.Proof.HpRef

noncomputable section

namespace Cert.MoNet

open Idealize.ShloMosaic

/-- Layer 0: the features are the embedded atom types, the weight slice is slice 0. -/
theorem ref_hp_l0 (x0 : (⟨Cert.ReferenceIdeal.S100000, .i32⟩ : BufTy).Contents (Elt Ideal))
    (x2 : (⟨Cert.ReferenceIdeal.S32x64, .f32⟩ : BufTy).Contents (Elt Ideal)) (x3 : (⟨Cert.ReferenceIdeal.S4x192x64, .f32⟩ : BufTy).Contents (Elt Ideal)) :
    Cert.ReferenceIdeal.ReadP.val_main_v52 (F := Ideal) x0 x2 x3
      = HpR (Cert.ReferenceIdeal.ReadP.val_main_v37 (F := Ideal) x0 x2) (Cert.ReferenceIdeal.ReadP.val_main_v48 (F := Ideal) x3) := rfl

/-- Layer 1: the features are the previous layer's output, the weight slice is slice 1. -/
theorem ref_hp_l1 (x0 : (⟨Cert.ReferenceIdeal.S100000, .i32⟩ : BufTy).Contents (Elt Ideal)) (x1 : (⟨Cert.ReferenceIdeal.S2x800000, .i32⟩ : BufTy).Contents (Elt Ideal))
    (x2 : (⟨Cert.ReferenceIdeal.S32x64, .f32⟩ : BufTy).Contents (Elt Ideal)) (x3 : (⟨Cert.ReferenceIdeal.S4x192x64, .f32⟩ : BufTy).Contents (Elt Ideal))
    (x4 x5 : (⟨Cert.ReferenceIdeal.S4x3x2, .f32⟩ : BufTy).Contents (Elt Ideal)) (x6 x7 : (⟨Cert.ReferenceIdeal.S4x64, .f32⟩ : BufTy).Contents (Elt Ideal))
    (x8 : (⟨Cert.ReferenceIdeal.S4x2x2, .f32⟩ : BufTy).Contents (Elt Ideal)) (x9 : (⟨Cert.ReferenceIdeal.S4x2, .f32⟩ : BufTy).Contents (Elt Ideal)) :
    Cert.ReferenceIdeal.ReadP.val_main_v130 (F := Ideal) x0 x1 x2 x3 x4 x5 x6 x7 x8 x9
      = HpR (Cert.ReferenceIdeal.ReadP.val_main_v115 (F := Ideal) x0 x1 x2 x3 x4 x5 x6 x7 x8 x9) (Cert.ReferenceIdeal.ReadP.val_main_v126 (F := Ideal) x3) := rfl

/-- Layer 2: the features are the previous layer's output, the weight slice is slice 2. -/
theorem ref_hp_l2 (x0 : (⟨Cert.ReferenceIdeal.S100000, .i32⟩ : BufTy).Contents (Elt Ideal)) (x1 : (⟨Cert.ReferenceIdeal.S2x800000, .i32⟩ : BufTy).Contents (Elt Ideal))
    (x2 : (⟨Cert.ReferenceIdeal.S32x64, .f32⟩ : BufTy).Contents (Elt Ideal)) (x3 : (⟨Cert.ReferenceIdeal.S4x192x64, .f32⟩ : BufTy).Contents (Elt Ideal))
    (x4 x5 : (⟨Cert.ReferenceIdeal.S4x3x2, .f32⟩ : BufTy).Contents (Elt Ideal)) (x6 x7 : (⟨Cert.ReferenceIdeal.S4x64, .f32⟩ : BufTy).Contents (Elt Ideal))
    (x8 : (⟨Cert.ReferenceIdeal.S4x2x2, .f32⟩ : BufTy).Contents (Elt Ideal)) (x9 : (⟨Cert.ReferenceIdeal.S4x2, .f32⟩ : BufTy).Contents (Elt Ideal)) :
    Cert.ReferenceIdeal.ReadP.val_main_v208 (F := Ideal) x0 x1 x2 x3 x4 x5 x6 x7 x8 x9
      = HpR (Cert.ReferenceIdeal.ReadP.val_main_v193 (F := Ideal) x0 x1 x2 x3 x4 x5 x6 x7 x8 x9) (Cert.ReferenceIdeal.ReadP.val_main_v204 (F := Ideal) x3) := rfl

/-- Layer 3: the features are the previous layer's output, the weight slice is slice 3. -/
theorem ref_hp_l3 (x0 : (⟨Cert.ReferenceIdeal.S100000, .i32⟩ : BufTy).Contents (Elt Ideal)) (x1 : (⟨Cert.ReferenceIdeal.S2x800000, .i32⟩ : BufTy).Contents (Elt Ideal))
    (x2 : (⟨Cert.ReferenceIdeal.S32x64, .f32⟩ : BufTy).Contents (Elt Ideal)) (x3 : (⟨Cert.ReferenceIdeal.S4x192x64, .f32⟩ : BufTy).Contents (Elt Ideal))
    (x4 x5 : (⟨Cert.ReferenceIdeal.S4x3x2, .f32⟩ : BufTy).Contents (Elt Ideal)) (x6 x7 : (⟨Cert.ReferenceIdeal.S4x64, .f32⟩ : BufTy).Contents (Elt Ideal))
    (x8 : (⟨Cert.ReferenceIdeal.S4x2x2, .f32⟩ : BufTy).Contents (Elt Ideal)) (x9 : (⟨Cert.ReferenceIdeal.S4x2, .f32⟩ : BufTy).Contents (Elt Ideal)) :
    Cert.ReferenceIdeal.ReadP.val_main_v286 (F := Ideal) x0 x1 x2 x3 x4 x5 x6 x7 x8 x9
      = HpR (Cert.ReferenceIdeal.ReadP.val_main_v271 (F := Ideal) x0 x1 x2 x3 x4 x5 x6 x7 x8 x9) (Cert.ReferenceIdeal.ReadP.val_main_v282 (F := Ideal) x3) := rfl

end Cert.MoNet

end
-- ==== Proof.AggKernel.lean ====
/-
  The aggregation stage of one layer as the kernel's host operations state it: from the per-node features `hp3 : [N, 3, C]`
  (one `C`-vector per mixture component), the per-edge mixture weights `g : [E, 3]`, and the edges' source and target
  node vectors `s, d : [E]`,

    * a negative source index is shifted up by `N` (the usual reading of a negative index);
    * each edge gathers its source node's slab `hp3[s e] : [3, C]` and multiplies it by its weights, broadcast along `C`;
    * the product is summed over the three components, a row `[C]` per edge;
    * the rows are added into a zero table `[N, C]` at the edges' target nodes.

  The definition is the literal composition of those operations, in their order.
-/
import proofs.«168295_j62088047231392_2_alg».proof.Proof.Gen.KernelIdeal
import Idealize.ShloMosaic.PureOps.Ideal.Laws

noncomputable section

namespace Cert.MoNet

open Idealize.ShloMosaic Idealize.SL.Sem
open Cert.KernelIdeal Cert.KernelIdeal.Facts₀

/-- The kernel's aggregation: shift negative sources, gather, weigh, sum over the components, scatter-add the rows. -/
def AggK (hp3 : (⟨S100000x3x64, .f32⟩ : BufTy).Contents (Elt Ideal)) (g : (⟨S800000x3, .f32⟩ : BufTy).Contents (Elt Ideal))
    (s d : (⟨S800000, .i32⟩ : BufTy).Contents (Elt Ideal)) : (⟨S100000x64, .f32⟩ : BufTy).Contents (Elt Ideal) :=
  Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0 d)
    (Host.reduceAdd (F := Ideal)
      (mulf (F := Ideal)
        (Host.gather gather_S100000x3x64_S800000x1_S800000x3x64_12_0_n_n_0_1_1364 hp3
          (broadcastInDim S800000x1 ![0] bcast_S800000_S800000x1_0
            (select
              (cmpi .slt s (broadcastInDim S800000 ![] bcast_S_S800000 (constantI S_ 32 0#32)))
              (addi s (broadcastInDim S800000 ![] bcast_S_S800000 (constantI S_ 32 100000#32)))
              s)))
        (broadcastInDim S800000x3x64 ![0, 1, 2] bcast_S800000x3x1_S800000x3x64_0_1_2
          (broadcastInDim S800000x3x1 ![0, 1] bcast_S800000x3_S800000x3x1_0_1 g)))
      (constant (F := Ideal) S_ .f32 0x00000000#32) reducesTo_S800000x3x64_S800000x64_d1 h_S_)

end Cert.MoNet

end
-- ==== Proof.AggStretch.lean ====
/-
  The kernel's four aggregation stretches, one per layer: whatever the buffers hold when the stretch starts, its
  scatter's result buffer ends holding the aggregation `AggK` of the layer's matmul result (read as `[N, 3, C]`), the
  layer's mixture weights and the two node vectors.
-/
import proofs.«168295_j62088047231392_2_alg».proof.Proof.Gen.KernelIdeal.Launch
import proofs.«168295_j62088047231392_2_alg».proof.Proof.AggKernel
import Idealize.ShloMosaic.Lib.StableHlo.Run
import Idealize.ShloMosaic.PureOps.Ideal.Laws

noncomputable section

namespace Cert.MoNet

open Idealize.ShloMosaic Idealize.SL.Sem Idealize.ShloMosaic.StableHlo
open Cert.KernelIdeal Cert.KernelIdeal.Facts₀

/-- The aggregation stretch of this layer leaves `AggK` of the matmul's result read as `[N, 3, C]`, the layer's
    weights and the two node vectors in its result buffer, from any contents. -/
theorem stretch2 (X : Valuation τ sig (Elt Ideal)) :
    StableHlo.after (Cert.KernelIdeal.Gen.hostOps2 (F := Ideal)) X (Proc.devRef .tc main_v68)
      = AggK (fun i => shapeCast S100000x3x64 (X (Proc.devRef .tc main_v53)) shapeCasts_S100000x192_S100000x3x64 i)
          (X (Proc.devRef .tc main_v47)) (X (Proc.devRef .tc main_v1)) (X (Proc.devRef .tc main_v3)) := by
  after_results_simp
  rfl

/-- The aggregation stretch of this layer leaves `AggK` of the matmul's result read as `[N, 3, C]`, the layer's
    weights and the two node vectors in its result buffer, from any contents. -/
theorem stretch5 (X : Valuation τ sig (Elt Ideal)) :
    StableHlo.after (Cert.KernelIdeal.Gen.hostOps5 (F := Ideal)) X (Proc.devRef .tc main_v118)
      = AggK (fun i => shapeCast S100000x3x64 (X (Proc.devRef .tc main_v103)) shapeCasts_S100000x192_S100000x3x64 i)
          (X (Proc.devRef .tc main_v97)) (X (Proc.devRef .tc main_v1)) (X (Proc.devRef .tc main_v3)) := by
  after_results_simp
  rfl

/-- The aggregation stretch of this layer leaves `AggK` of the matmul's result read as `[N, 3, C]`, the layer's
    weights and the two node vectors in its result buffer, from any contents. -/
theorem stretch8 (X : Valuation τ sig (Elt Ideal)) :
    StableHlo.after (Cert.KernelIdeal.Gen.hostOps8 (F := Ideal)) X (Proc.devRef .tc main_v168)
      = AggK (fun i => shapeCast S100000x3x64 (X (Proc.devRef .tc main_v153)) shapeCasts_S100000x192_S100000x3x64 i)
          (X (Proc.devRef .tc main_v147)) (X (Proc.devRef .tc main_v1)) (X (Proc.devRef .tc main_v3)) := by
  after_results_simp
  rfl

/-- The aggregation stretch of this layer leaves `AggK` of the matmul's result read as `[N, 3, C]`, the layer's
    weights and the two node vectors in its result buffer, from any contents. -/
theorem stretch11 (X : Valuation τ sig (Elt Ideal)) :
    StableHlo.after (Cert.KernelIdeal.Gen.hostOps11 (F := Ideal)) X (Proc.devRef .tc main_v218)
      = AggK (fun i => shapeCast S100000x3x64 (X (Proc.devRef .tc main_v203)) shapeCasts_S100000x192_S100000x3x64 i)
          (X (Proc.devRef .tc main_v197)) (X (Proc.devRef .tc main_v1)) (X (Proc.devRef .tc main_v3)) := by
  after_results_simp
  rfl

end Cert.MoNet

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.LibScatterAddSlabs.lean ====
/-
  An accumulating scatter of slabs `x.at[idx].add(u)` of a table `x : [N, K, C]` on the host, on the extended reals,
  read at an index.

  Summing slabs `u : [E, K, C]` into the slabs of `x` that an integer vector `idx` names lowers to a scatter whose
  body is an addition, with one inserted window axis (the table's first axis), two update window axes (a whole
  `K × C` slab per scatter index) and a trailing index-vector axis of extent one on the scatter indices. Update entry
  `(e, k, c)` lands on table entry `(i, k, c)` exactly when the scatter index `idx (e, 0)`, read as a signed integer,
  is `i`; an index outside `[0, N)` lands nowhere and its slab is dropped. So entry `(i, k, c)` of the result is

      x (i, k, c) + ∑ over the edges e with idx (e, 0) = i of u (e, k, c),

  over the same set of edges as for a scatter of rows: the set does not depend on what is carried along an edge.
  The statement takes the dimension numbers as a record built from the literal lists; a printed record with the same
  lists is equal to it by `rfl`.
-/
import Idealize.ShloMosaic.PureOps.Ideal.Laws
import Idealize.ShloMosaic.Lib.ValueIdx
import proofs.«168295_j62088047231392_2_alg».proof.Proof.LibScatterAddRows

noncomputable section

open scoped BigOperators

namespace Cert.LibScatterAddSlabs

open Idealize.ShloMosaic Idealize.ShloMosaic.ValueIdx Cert.LibScatterAddRows

/-- The dimension numbers of `x.at[idx].add(u)` for a table `[N, K, C]`, scatter indices `[E, 1]`, updates
    `[E, K, C]`. -/
abbrev slabDims (N K C E : ℕ)
    (wf : ScatterDims.WF ⟨3, ![N, K, C]⟩ ⟨2, ![E, 1]⟩ ⟨3, ![E, K, C]⟩ [1, 2] [0] [0] 1) :
    ScatterDims ⟨3, ![N, K, C]⟩ ⟨2, ![E, 1]⟩ ⟨3, ![E, K, C]⟩ where
  updateWindowDims := [1, 2]
  insertedWindowDims := [0]
  scatterDimsToOperandDims := [0]
  indexVectorDim := 1
  wf := wf

theorem one_not_mem_zero : (1 : Fin 3) ∉ ([0] : List (Fin 3)) :=
  fun h => absurd (List.mem_singleton.mp h) (by decide)

theorem two_not_mem_zero : (2 : Fin 3) ∉ ([0] : List (Fin 3)) :=
  fun h => absurd (List.mem_singleton.mp h) (by decide)

section Coordinates
variable {N K C E w : ℕ} (wf : ScatterDims.WF ⟨3, ![N, K, C]⟩ ⟨2, ![E, 1]⟩ ⟨3, ![E, K, C]⟩ [1, 2] [0] [0] 1)
  (idx : IVec ⟨2, ![E, 1]⟩ w) (e : Fin E) (k : Fin K) (c : Fin C)

/-- On the table's first axis the window starts at the scatter index `idx (e, 0)`, read signed. -/
theorem start_row : (slabDims N K C E wf).start (ix3 e k c) idx 0 = (idx (ix2 e (0 : Fin 1))).toInt := by
  unfold ScatterDims.start
  rw [dif_pos (show (0 : Fin 3) ∈ (slabDims N K C E wf).scatterDimsToOperandDims from List.mem_singleton.mpr rfl)]
  have hsi : (slabDims N K C E wf).siIdx (ix3 e k c) ⟨List.idxOf (0 : Fin 3) (slabDims N K C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the two slab axes it starts at zero: the scatter index does not name them. -/
theorem start_mid : (slabDims N K C E wf).start (ix3 e k c) idx 1 = 0 := by
  unfold ScatterDims.start
  rw [dif_neg (show (1 : Fin 3) ∉ (slabDims N K C E wf).scatterDimsToOperandDims from one_not_mem_zero)]

theorem start_col : (slabDims N K C E wf).start (ix3 e k c) idx 2 = 0 := by
  unfold ScatterDims.start
  rw [dif_neg (show (2 : Fin 3) ∉ (slabDims N K C E wf).scatterDimsToOperandDims from two_not_mem_zero)]

theorem zero_not_mem_sKept : (0 : Fin 3) ∉ (slabDims N K C E wf).sKept := by
  simp [ScatterDims.sKept, Shape.kept]

theorem one_mem_sKept : (1 : Fin 3) ∈ (slabDims N K C E wf).sKept := by
  simp [ScatterDims.sKept, Shape.kept]

theorem two_mem_sKept : (2 : Fin 3) ∈ (slabDims N K C E wf).sKept := by
  simp [ScatterDims.sKept, Shape.kept]

/-- The first axis is inserted: the window coordinate there is zero. -/
theorem window_row : (slabDims N K C E wf).window (ix3 e k c) 0 = 0 := by
  unfold ScatterDims.window
  rw [dif_neg (zero_not_mem_sKept wf)]

/-- The two slab axes are the window axes: the window coordinates there are the update's. -/
theorem window_mid : (slabDims N K C E wf).window (ix3 e k c) 1 = k.val := by
  unfold ScatterDims.window
  rw [dif_pos (one_mem_sKept wf)]
  rfl

theorem window_col : (slabDims N K C E wf).window (ix3 e k c) 2 = c.val := by
  unfold ScatterDims.window
  rw [dif_pos (two_mem_sKept wf)]
  rfl

end Coordinates

section Landing
variable {N K C E w : ℕ} (wf : ScatterDims.WF ⟨3, ![N, K, C]⟩ ⟨2, ![E, 1]⟩ ⟨3, ![E, K, C]⟩ [1, 2] [0] [0] 1)
  (idx : IVec ⟨2, ![E, 1]⟩ w)

/-- Update entry `(e, k, c)` lands on table entry `(i, k', c')` exactly when the scatter index of slab `e` is `i`
    and the two slab coordinates are kept. -/
theorem resultIdx?_slab (e : Fin E) (k : Fin K) (c : Fin C) (i : Fin N) (k' : Fin K) (c' : Fin C) :
    (slabDims N K C E wf).resultIdx? (ix3 e k c) idx = some (ix3 i k' c')
      ↔ (idx (ix2 e (0 : Fin 1))).toInt = (i.val : ℤ) ∧ k = k' ∧ c = c' := by
  unfold ScatterDims.resultIdx?
  split
  · rename_i h
    rw [Option.some.injEq]
    constructor
    · intro hf
      have h0 : ((slabDims N K C E wf).start (ix3 e k c) idx 0
          + ((slabDims N K C E wf).window (ix3 e k c) 0 : ℕ)).toNat = i.val := congrArg (fun f => (f 0).val) hf
      have h1 : ((slabDims N K C E wf).start (ix3 e k c) idx 1
          + ((slabDims N K C E wf).window (ix3 e k c) 1 : ℕ)).toNat = k'.val := congrArg (fun f => (f 1).val) hf
      have h2 : ((slabDims N K C E wf).start (ix3 e k c) idx 2
          + ((slabDims N K C E wf).window (ix3 e k c) 2 : ℕ)).toNat = c'.val := congrArg (fun f => (f 2).val) hf
      have hr := h 0
      rw [start_row, window_row] at hr
      rw [start_row, window_row] at h0
      rw [start_mid, window_mid] at h1
      rw [start_col, window_col] at h2
      refine ⟨by omega, Fin.ext (by omega), Fin.ext (by omega)⟩
    · rintro ⟨h0, rfl, rfl⟩
      funext a
      refine Fin.ext ?_
      match a with
      | ⟨0, _⟩ =>
        show ((slabDims N K C E wf).start (ix3 e k c) idx 0
          + ((slabDims N K C E wf).window (ix3 e k c) 0 : ℕ)).toNat = i.val
        rw [start_row, window_row]; omega
      | ⟨1, _⟩ =>
        show ((slabDims N K C E wf).start (ix3 e k c) idx 1
          + ((slabDims N K C E wf).window (ix3 e k c) 1 : ℕ)).toNat = k.val
        rw [start_mid, window_mid]; omega
      | ⟨2, _⟩ =>
        show ((slabDims N K C E wf).start (ix3 e k c) idx 2
          + ((slabDims N K C E wf).window (ix3 e k c) 2 : ℕ)).toNat = c.val
        rw [start_col, window_col]; omega
  · rename_i h
    constructor
    · intro hf; exact absurd hf (by simp)
    · rintro ⟨h0, rfl, rfl⟩
      exfalso
      apply h
      intro a
      match a with
      | ⟨0, _⟩ =>
        show 0 ≤ (slabDims N K C E wf).start (ix3 e k c) idx 0 + ((slabDims N K C E wf).window (ix3 e k c) 0 : ℕ)
          ∧ (slabDims N K C E wf).start (ix3 e k c) idx 0 + ((slabDims N K C E wf).window (ix3 e k c) 0 : ℕ) < (N : ℤ)
        rw [start_row, window_row, h0]
        have := i.isLt
        constructor <;> omega
      | ⟨1, _⟩ =>
        show 0 ≤ (slabDims N K C E wf).start (ix3 e k c) idx 1 + ((slabDims N K C E wf).window (ix3 e k c) 1 : ℕ)
          ∧ (slabDims N K C E wf).start (ix3 e k c) idx 1 + ((slabDims N K C E wf).window (ix3 e k c) 1 : ℕ) < (K : ℤ)
        rw [start_mid, window_mid]
        have := k.isLt
        constructor <;> omega
      | ⟨2, _⟩ =>
        show 0 ≤ (slabDims N K C E wf).start (ix3 e k c) idx 2 + ((slabDims N K C E wf).window (ix3 e k c) 2 : ℕ)
          ∧ (slabDims N K C E wf).start (ix3 e k c) idx 2 + ((slabDims N K C E wf).window (ix3 e k c) 2 : ℕ) < (C : ℤ)
        rw [start_col, window_col]
        have := c.isLt
        constructor <;> omega

/-- THE ACCUMULATING SCATTER OF SLABS READ AT `(i, k, c)`: the table's entry plus the updates' entry `(k, c)` summed
    over the edges whose scatter index is `i`. -/
theorem hostScatterAdd_slabs_apply (x : (⟨3, ![N, K, C]⟩ : Shape).Idx → EReal)
    (upd : (⟨3, ![E, K, C]⟩ : Shape).Idx → EReal) (i : Fin N) (k : Fin K) (c : Fin C) :
    Ideal.hostScatterAdd (slabDims N K C E wf) x idx upd (ix3 i k c)
      = x (ix3 i k c) + ∑ e ∈ landing idx i.val, upd (ix3 e k c) := by
  unfold Ideal.hostScatterAdd
  congr 1
  refine Finset.sum_nbij' (fun j => (j 0 : Fin E)) (fun e => ix3 e k c) ?_ ?_ ?_ ?_ ?_
  · intro j hj
    obtain ⟨e, k', c', rfl⟩ : ∃ (e : Fin E) (k' : Fin K) (c' : Fin C), j = ix3 e k' c' := ⟨j 0, j 1, j 2, eq_ix3 j⟩
    have := (resultIdx?_slab wf idx e k' c' i k c).mp (Finset.mem_filter.mp hj).2
    exact Finset.mem_filter.mpr ⟨Finset.mem_univ _, this.1⟩
  · intro e he
    exact Finset.mem_filter.mpr ⟨Finset.mem_univ _,
      (resultIdx?_slab wf idx e k c i k c).mpr ⟨(Finset.mem_filter.mp he).2, rfl, rfl⟩⟩
  · intro j hj
    obtain ⟨e, k', c', rfl⟩ : ∃ (e : Fin E) (k' : Fin K) (c' : Fin C), j = ix3 e k' c' := ⟨j 0, j 1, j 2, eq_ix3 j⟩
    have := (resultIdx?_slab wf idx e k' c' i k c).mp (Finset.mem_filter.mp hj).2
    rw [this.2.1, this.2.2]
    rfl
  · intro e _
    rfl
  · intro j hj
    obtain ⟨e, k', c', rfl⟩ : ∃ (e : Fin E) (k' : Fin K) (c' : Fin C), j = ix3 e k' c' := ⟨j 0, j 1, j 2, eq_ix3 j⟩
    have := (resultIdx?_slab wf idx e k' c' i k c).mp (Finset.mem_filter.mp hj).2
    rw [this.2.1, this.2.2]
    rfl

/-- The same for a printed `stablehlo.scatter` with an `add` body whose dimension numbers are these lists. -/
theorem scatterAdd_slabs_apply {φ : FTy} (d : ScatterDims ⟨3, ![N, K, C]⟩ ⟨2, ![E, 1]⟩ ⟨3, ![E, K, C]⟩)
    (hd : d = slabDims N K C E wf) (x : FVec Ideal ⟨3, ![N, K, C]⟩ φ) (upd : FVec Ideal ⟨3, ![E, K, C]⟩ φ)
    (i : Fin N) (k : Fin K) (c : Fin C) :
    Host.scatterAdd d x idx upd (ix3 i k c) = x (ix3 i k c) + ∑ e ∈ landing idx i.val, upd (ix3 e k c) := by
  subst hd
  exact hostScatterAdd_slabs_apply wf idx x upd i k c

end Landing

end Cert.LibScatterAddSlabs

end
-- ==== Proof.AggSwap.lean ====
/-
  The aggregation of edge messages, with the two sums in either order.

  For a product array `P : [E, K, C]` of per-edge, per-kernel messages and an integer vector `idx` naming each edge's
  target node, one program first sums `P` over the kernel axis `k` and then adds the resulting rows `[E, C]` into the
  nodes' rows `[N, C]`; the other first adds the slabs `[E, K, C]` into the nodes' slabs `[N, K, C]` and then sums over
  `k`. Both start from zero. At node `n` and channel `c` the first is

      ∑ over the edges e landing on n of ∑ k, P (e, k, c)

  and the second is the same double sum with the two summations exchanged: equal in any commutative additive monoid,
  the extended reals included, with no finiteness needed.
-/
import Idealize.ShloMosaic.PureOps.Ideal.Laws
import Idealize.ShloMosaic.Lib.ValueIdx
import proofs.«168295_j62088047231392_2_alg».proof.Proof.LibScatterAddRows
import proofs.«168295_j62088047231392_2_alg».proof.Proof.LibScatterAddSlabs

noncomputable section

open scoped BigOperators

namespace Cert.MoNet

open Idealize.ShloMosaic Idealize.ShloMosaic.ValueIdx Cert.LibScatterAddRows Cert.LibScatterAddSlabs

section Swap
variable {N K C E w : ℕ} {φ : FTy}

/-- The host's sum over the middle axis of a rank-3 array, read at `(a, c)`: the initial value plus the sum over the
    middle coordinate. -/
theorem reduceAdd_mid_apply {M : ℕ} (h' : (⟨3, ![M, K, C]⟩ : Shape).ReducesTo [1] ⟨2, ![M, C]⟩)
    (h : (⟨3, ![M, K, C]⟩ : Shape).Reduces [1] ⟨2, ![M, C]⟩) {u : Shape} (hu : 0 < u.numel)
    (x : FVec Ideal ⟨3, ![M, K, C]⟩ φ) (z : FVec Ideal u φ) (a : Fin M) (c : Fin C) :
    Host.reduceAdd x z h' hu (ix2 a c) = z (Shape.Idx.first hu) + ∑ k : Fin K, x (ix3 a k c) := by
  simp only [Host.reduceAdd, Ideal.hostReduceAdd_def]
  rw [Ideal.hostReduceAdd_single h' h]
  refine congrArg (_ + ·) (Finset.sum_congr rfl fun k _ => ?_)
  exact congrArg x (funext fun b => Fin.ext (by match b with | ⟨0, _⟩ => rfl | ⟨1, _⟩ => rfl | ⟨2, _⟩ => rfl))

/-- SUM OVER `k` THEN SCATTER ROWS = SCATTER SLABS THEN SUM OVER `k`, from zero tables and zero initial values, for any
    product array and any index vector. -/
theorem agg_swap
    (wfR : ScatterDims.WF ⟨2, ![N, C]⟩ ⟨2, ![E, 1]⟩ ⟨2, ![E, C]⟩ [1] [0] [0] 1)
    (wfS : ScatterDims.WF ⟨3, ![N, K, C]⟩ ⟨2, ![E, 1]⟩ ⟨3, ![E, K, C]⟩ [1, 2] [0] [0] 1)
    (dR : ScatterDims ⟨2, ![N, C]⟩ ⟨2, ![E, 1]⟩ ⟨2, ![E, C]⟩) (hdR : dR = rowDims N C E wfR)
    (dS : ScatterDims ⟨3, ![N, K, C]⟩ ⟨2, ![E, 1]⟩ ⟨3, ![E, K, C]⟩) (hdS : dS = slabDims N K C E wfS)
    (hE' : (⟨3, ![E, K, C]⟩ : Shape).ReducesTo [1] ⟨2, ![E, C]⟩) (hE : (⟨3, ![E, K, C]⟩ : Shape).Reduces [1] ⟨2, ![E, C]⟩)
    (hN' : (⟨3, ![N, K, C]⟩ : Shape).ReducesTo [1] ⟨2, ![N, C]⟩) (hN : (⟨3, ![N, K, C]⟩ : Shape).Reduces [1] ⟨2, ![N, C]⟩)
    {u : Shape} (hu : 0 < u.numel) (zK zR : FVec Ideal u φ)
    (hzK : zK (Shape.Idx.first hu) = 0) (hzR : zR (Shape.Idx.first hu) = 0)
    (x2 : FVec Ideal ⟨2, ![N, C]⟩ φ) (hx2 : ∀ i, x2 i = 0)
    (x3 : FVec Ideal ⟨3, ![N, K, C]⟩ φ) (hx3 : ∀ i, x3 i = 0)
    (idx : IVec ⟨2, ![E, 1]⟩ w) (P : FVec Ideal ⟨3, ![E, K, C]⟩ φ) :
    Host.scatterAdd dR x2 idx (Host.reduceAdd P zK hE' hu)
      = Host.reduceAdd (Host.scatterAdd dS x3 idx P) zR hN' hu := by
  funext j
  obtain ⟨n, c, rfl⟩ : ∃ (n : Fin N) (c : Fin C), j = ix2 n c := ⟨j 0, j 1, eq_ix2 j⟩
  rw [scatterAdd_rows_apply wfR idx dR hdR, reduceAdd_mid_apply hN' hN hu, hx2, hzR, zero_add, zero_add]
  simp only [reduceAdd_mid_apply hE' hE hu, hzK, zero_add, scatterAdd_slabs_apply wfS idx dS hdS, hx3]
  exact Finset.sum_comm

end Swap

end Cert.MoNet

end
-- ==== Proof.AggRef.lean ====
/-
  The aggregation stage of one layer as the reference states it, and its agreement with the kernel's.

  The reference gathers and weighs exactly as the kernel does, a product array `P : [E, 3, C]`; it then adds the slabs
  `[3, C]` into a zero table `[N, 3, C]` at the edges' target nodes and only then sums over the three components. The
  kernel sums first and adds rows. Both read, at node `n` and channel `c`, the double sum of `P (e, k, c)` over the
  components `k` and the edges `e` whose target is `n`, in the two orders.
-/
import proofs.«168295_j62088047231392_2_alg».proof.Proof.RefRead
import proofs.«168295_j62088047231392_2_alg».proof.Proof.AggKernel
import proofs.«168295_j62088047231392_2_alg».proof.Proof.AggSwap

noncomputable section

namespace Cert.MoNet

open Idealize.ShloMosaic Idealize.SL.Sem
open Cert.ReferenceIdeal Cert.ReferenceIdeal.Facts₀

/-- The reference's aggregation: shift negative sources, gather, weigh, scatter-add the slabs, sum over the components. -/
def AggR (hp3 : (⟨S100000x3x64, .f32⟩ : BufTy).Contents (Elt Ideal)) (g : (⟨S800000x3, .f32⟩ : BufTy).Contents (Elt Ideal))
    (s d : (⟨S800000, .i32⟩ : BufTy).Contents (Elt Ideal)) : (⟨S100000x64, .f32⟩ : BufTy).Contents (Elt Ideal) :=
  Host.reduceAdd (F := Ideal)
    (Host.scatterAdd scatter_S100000x3x64_S800000x1_S800000x3x64_12_0_0_1
      (broadcastInDim S100000x3x64 ![] bcast_S_S100000x3x64 (constant (F := Ideal) S_ .f32 0x00000000#32))
      (broadcastInDim S800000x1 ![0] bcast_S800000_S800000x1_0 d)
      (mulf (F := Ideal)
        (Host.gather gather_S100000x3x64_S800000x1_S800000x3x64_12_0_n_n_0_1_1364 hp3
          (broadcastInDim S800000x1 ![0] bcast_S800000_S800000x1_0
            (select
              (cmpi .slt s (broadcastInDim S800000 ![] bcast_S_S800000 (constantI S_ 32 0#32)))
              (addi s (broadcastInDim S800000 ![] bcast_S_S800000 (constantI S_ 32 100000#32)))
              s)))
        (broadcastInDim S800000x3x64 ![0, 1, 2] bcast_S800000x3x1_S800000x3x64_0_1_2
          (broadcastInDim S800000x3x1 ![0, 1] bcast_S800000x3_S800000x3x1_0_1 g))))
    (constant (F := Ideal) S_ .f32 0x00000000#32) reducesTo_S100000x3x64_S100000x64_d1 h_S_

/-- THE TWO AGGREGATIONS AGREE, on any features, weights and node vectors. -/
theorem agg_eq (hp3 : (⟨S100000x3x64, .f32⟩ : BufTy).Contents (Elt Ideal)) (g : (⟨S800000x3, .f32⟩ : BufTy).Contents (Elt Ideal))
    (s d : (⟨S800000, .i32⟩ : BufTy).Contents (Elt Ideal)) : AggK hp3 g s d = AggR hp3 g s d := by
  unfold AggK AggR
  exact agg_swap (N := 100000) (K := 3) (C := 64) (E := 800000)
    Cert.KernelIdeal.Facts₀.scatter_S100000x64_S800000x1_S800000x64_1_0_0_1_wf
    Cert.ReferenceIdeal.Facts₀.scatter_S100000x3x64_S800000x1_S800000x3x64_12_0_0_1_wf
    _ rfl _ rfl
    Cert.KernelIdeal.Facts₀.reducesTo_S800000x3x64_S800000x64_d1 (by decide)
    Cert.ReferenceIdeal.Facts₀.reducesTo_S100000x3x64_S100000x64_d1 (by decide)
    Cert.KernelIdeal.Facts₀.h_S_ _ _ Ideal.ofBits_zero_f32 Ideal.ofBits_zero_f32
    _ (fun _ => Ideal.ofBits_zero_f32) _ (fun _ => Ideal.ofBits_zero_f32) _ _

/-- Layer 0 of the reference: its aggregated array is `AggR` of that layer's features and weights. -/
theorem ref_agg_l0 (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 x5 : (⟨S4x3x2, .f32⟩ : BufTy).Contents (Elt Ideal)) (x8 : (⟨S4x2x2, .f32⟩ : BufTy).Contents (Elt Ideal)) (x9 : (⟨S4x2, .f32⟩ : BufTy).Contents (Elt Ideal)) :
    Cert.ReferenceIdeal.ReadP.val_main_v84 (F := Ideal) x0 x1 x2 x3 x4 x5 x8 x9
      = AggR (Cert.ReferenceIdeal.ReadP.val_main_v52 (F := Ideal) x0 x2 x3)
          (Cert.ReferenceIdeal.ReadP.val_main_v70 (F := Ideal) x1 x4 x5 x8 x9)
          (Cert.ReferenceIdeal.ReadP.val_main_v1 (F := Ideal) x1) (Cert.ReferenceIdeal.ReadP.val_main_v3 (F := Ideal) x1) :=
  rfl

/-- Layer 1 of the reference: its aggregated array is `AggR` of that layer's features and weights. -/
theorem ref_agg_l1 (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 x5 : (⟨S4x3x2, .f32⟩ : BufTy).Contents (Elt Ideal)) (x6 x7 : (⟨S4x64, .f32⟩ : BufTy).Contents (Elt Ideal)) (x8 : (⟨S4x2x2, .f32⟩ : BufTy).Contents (Elt Ideal)) (x9 : (⟨S4x2, .f32⟩ : BufTy).Contents (Elt Ideal)) :
    Cert.ReferenceIdeal.ReadP.val_main_v162 (F := Ideal) x0 x1 x2 x3 x4 x5 x6 x7 x8 x9
      = AggR (Cert.ReferenceIdeal.ReadP.val_main_v130 (F := Ideal) x0 x1 x2 x3 x4 x5 x6 x7 x8 x9)
          (Cert.ReferenceIdeal.ReadP.val_main_v148 (F := Ideal) x1 x4 x5 x8 x9)
          (Cert.ReferenceIdeal.ReadP.val_main_v1 (F := Ideal) x1) (Cert.ReferenceIdeal.ReadP.val_main_v3 (F := Ideal) x1) :=
  rfl

/-- Layer 2 of the reference: its aggregated array is `AggR` of that layer's features and weights. -/
theorem ref_agg_l2 (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 x5 : (⟨S4x3x2, .f32⟩ : BufTy).Contents (Elt Ideal)) (x6 x7 : (⟨S4x64, .f32⟩ : BufTy).Contents (Elt Ideal)) (x8 : (⟨S4x2x2, .f32⟩ : BufTy).Contents (Elt Ideal)) (x9 : (⟨S4x2, .f32⟩ : BufTy).Contents (Elt Ideal)) :
    Cert.ReferenceIdeal.ReadP.val_main_v240 (F := Ideal) x0 x1 x2 x3 x4 x5 x6 x7 x8 x9
      = AggR (Cert.ReferenceIdeal.ReadP.val_main_v208 (F := Ideal) x0 x1 x2 x3 x4 x5 x6 x7 x8 x9)
          (Cert.ReferenceIdeal.ReadP.val_main_v226 (F := Ideal) x1 x4 x5 x8 x9)
          (Cert.ReferenceIdeal.ReadP.val_main_v1 (F := Ideal) x1) (Cert.ReferenceIdeal.ReadP.val_main_v3 (F := Ideal) x1) :=
  rfl

/-- Layer 3 of the reference: its aggregated array is `AggR` of that layer's features and weights. -/
theorem ref_agg_l3 (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 x5 : (⟨S4x3x2, .f32⟩ : BufTy).Contents (Elt Ideal)) (x6 x7 : (⟨S4x64, .f32⟩ : BufTy).Contents (Elt Ideal)) (x8 : (⟨S4x2x2, .f32⟩ : BufTy).Contents (Elt Ideal)) (x9 : (⟨S4x2, .f32⟩ : BufTy).Contents (Elt Ideal)) :
    Cert.ReferenceIdeal.ReadP.val_main_v318 (F := Ideal) x0 x1 x2 x3 x4 x5 x6 x7 x8 x9
      = AggR (Cert.ReferenceIdeal.ReadP.val_main_v286 (F := Ideal) x0 x1 x2 x3 x4 x5 x6 x7 x8 x9)
          (Cert.ReferenceIdeal.ReadP.val_main_v304 (F := Ideal) x1 x4 x5 x8 x9)
          (Cert.ReferenceIdeal.ReadP.val_main_v1 (F := Ideal) x1) (Cert.ReferenceIdeal.ReadP.val_main_v3 (F := Ideal) x1) :=
  rfl

end Cert.MoNet

end
-- ==== Proof.AggLayer.lean ====
/-
  One layer's aggregation, kernel against reference: started from the reference's features, weights and node vectors, the
  kernel's aggregation stretch ends with the reference's aggregated array.
-/
import proofs.«168295_j62088047231392_2_alg».proof.Proof.AggStretch
import proofs.«168295_j62088047231392_2_alg».proof.Proof.AggRef

noncomputable section

namespace Cert.MoNet

open Idealize.ShloMosaic Idealize.SL.Sem Idealize.ShloMosaic.StableHlo
open Cert.ReferenceIdeal

/-- Layer 0: if the stretch starts from the reference's features (read as `[N, 3, C]`), weights and node vectors, it
    ends with the reference's aggregated array. -/
theorem agg_layer0 (X : Valuation Cert.KernelIdeal.τ Cert.KernelIdeal.sig (Elt Ideal)) (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 x5 : (⟨S4x3x2, .f32⟩ : BufTy).Contents (Elt Ideal)) (x8 : (⟨S4x2x2, .f32⟩ : BufTy).Contents (Elt Ideal)) (x9 : (⟨S4x2, .f32⟩ : BufTy).Contents (Elt Ideal))
    (hhp : (fun i => shapeCast Cert.KernelIdeal.S100000x3x64 (X (Proc.devRef .tc Cert.KernelIdeal.main_v53))
        Cert.KernelIdeal.Facts₀.shapeCasts_S100000x192_S100000x3x64 i)
      = Cert.ReferenceIdeal.ReadP.val_main_v52 (F := Ideal) x0 x2 x3)
    (hg : X (Proc.devRef .tc Cert.KernelIdeal.main_v47) = Cert.ReferenceIdeal.ReadP.val_main_v70 (F := Ideal) x1 x4 x5 x8 x9)
    (hs : X (Proc.devRef .tc Cert.KernelIdeal.main_v1) = Cert.ReferenceIdeal.ReadP.val_main_v1 (F := Ideal) x1)
    (hd : X (Proc.devRef .tc Cert.KernelIdeal.main_v3) = Cert.ReferenceIdeal.ReadP.val_main_v3 (F := Ideal) x1) :
    StableHlo.after (Cert.KernelIdeal.Gen.hostOps2 (F := Ideal)) X (Proc.devRef .tc Cert.KernelIdeal.main_v68)
      = Cert.ReferenceIdeal.ReadP.val_main_v84 (F := Ideal) x0 x1 x2 x3 x4 x5 x8 x9 := by
  rw [stretch2, hhp, hg, hs, hd, agg_eq, ← ref_agg_l0]

/-- Layer 1: if the stretch starts from the reference's features (read as `[N, 3, C]`), weights and node vectors, it
    ends with the reference's aggregated array. -/
theorem agg_layer1 (X : Valuation Cert.KernelIdeal.τ Cert.KernelIdeal.sig (Elt Ideal)) (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 x5 : (⟨S4x3x2, .f32⟩ : BufTy).Contents (Elt Ideal)) (x6 x7 : (⟨S4x64, .f32⟩ : BufTy).Contents (Elt Ideal)) (x8 : (⟨S4x2x2, .f32⟩ : BufTy).Contents (Elt Ideal)) (x9 : (⟨S4x2, .f32⟩ : BufTy).Contents (Elt Ideal))
    (hhp : (fun i => shapeCast Cert.KernelIdeal.S100000x3x64 (X (Proc.devRef .tc Cert.KernelIdeal.main_v103))
        Cert.KernelIdeal.Facts₀.shapeCasts_S100000x192_S100000x3x64 i)
      = Cert.ReferenceIdeal.ReadP.val_main_v130 (F := Ideal) x0 x1 x2 x3 x4 x5 x6 x7 x8 x9)
    (hg : X (Proc.devRef .tc Cert.KernelIdeal.main_v97) = Cert.ReferenceIdeal.ReadP.val_main_v148 (F := Ideal) x1 x4 x5 x8 x9)
    (hs : X (Proc.devRef .tc Cert.KernelIdeal.main_v1) = Cert.ReferenceIdeal.ReadP.val_main_v1 (F := Ideal) x1)
    (hd : X (Proc.devRef .tc Cert.KernelIdeal.main_v3) = Cert.ReferenceIdeal.ReadP.val_main_v3 (F := Ideal) x1) :
    StableHlo.after (Cert.KernelIdeal.Gen.hostOps5 (F := Ideal)) X (Proc.devRef .tc Cert.KernelIdeal.main_v118)
      = Cert.ReferenceIdeal.ReadP.val_main_v162 (F := Ideal) x0 x1 x2 x3 x4 x5 x6 x7 x8 x9 := by
  rw [stretch5, hhp, hg, hs, hd, agg_eq, ← ref_agg_l1]

/-- Layer 2: if the stretch starts from the reference's features (read as `[N, 3, C]`), weights and node vectors, it
    ends with the reference's aggregated array. -/
theorem agg_layer2 (X : Valuation Cert.KernelIdeal.τ Cert.KernelIdeal.sig (Elt Ideal)) (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 x5 : (⟨S4x3x2, .f32⟩ : BufTy).Contents (Elt Ideal)) (x6 x7 : (⟨S4x64, .f32⟩ : BufTy).Contents (Elt Ideal)) (x8 : (⟨S4x2x2, .f32⟩ : BufTy).Contents (Elt Ideal)) (x9 : (⟨S4x2, .f32⟩ : BufTy).Contents (Elt Ideal))
    (hhp : (fun i => shapeCast Cert.KernelIdeal.S100000x3x64 (X (Proc.devRef .tc Cert.KernelIdeal.main_v153))
        Cert.KernelIdeal.Facts₀.shapeCasts_S100000x192_S100000x3x64 i)
      = Cert.ReferenceIdeal.ReadP.val_main_v208 (F := Ideal) x0 x1 x2 x3 x4 x5 x6 x7 x8 x9)
    (hg : X (Proc.devRef .tc Cert.KernelIdeal.main_v147) = Cert.ReferenceIdeal.ReadP.val_main_v226 (F := Ideal) x1 x4 x5 x8 x9)
    (hs : X (Proc.devRef .tc Cert.KernelIdeal.main_v1) = Cert.ReferenceIdeal.ReadP.val_main_v1 (F := Ideal) x1)
    (hd : X (Proc.devRef .tc Cert.KernelIdeal.main_v3) = Cert.ReferenceIdeal.ReadP.val_main_v3 (F := Ideal) x1) :
    StableHlo.after (Cert.KernelIdeal.Gen.hostOps8 (F := Ideal)) X (Proc.devRef .tc Cert.KernelIdeal.main_v168)
      = Cert.ReferenceIdeal.ReadP.val_main_v240 (F := Ideal) x0 x1 x2 x3 x4 x5 x6 x7 x8 x9 := by
  rw [stretch8, hhp, hg, hs, hd, agg_eq, ← ref_agg_l2]

/-- Layer 3: if the stretch starts from the reference's features (read as `[N, 3, C]`), weights and node vectors, it
    ends with the reference's aggregated array. -/
theorem agg_layer3 (X : Valuation Cert.KernelIdeal.τ Cert.KernelIdeal.sig (Elt Ideal)) (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 x5 : (⟨S4x3x2, .f32⟩ : BufTy).Contents (Elt Ideal)) (x6 x7 : (⟨S4x64, .f32⟩ : BufTy).Contents (Elt Ideal)) (x8 : (⟨S4x2x2, .f32⟩ : BufTy).Contents (Elt Ideal)) (x9 : (⟨S4x2, .f32⟩ : BufTy).Contents (Elt Ideal))
    (hhp : (fun i => shapeCast Cert.KernelIdeal.S100000x3x64 (X (Proc.devRef .tc Cert.KernelIdeal.main_v203))
        Cert.KernelIdeal.Facts₀.shapeCasts_S100000x192_S100000x3x64 i)
      = Cert.ReferenceIdeal.ReadP.val_main_v286 (F := Ideal) x0 x1 x2 x3 x4 x5 x6 x7 x8 x9)
    (hg : X (Proc.devRef .tc Cert.KernelIdeal.main_v197) = Cert.ReferenceIdeal.ReadP.val_main_v304 (F := Ideal) x1 x4 x5 x8 x9)
    (hs : X (Proc.devRef .tc Cert.KernelIdeal.main_v1) = Cert.ReferenceIdeal.ReadP.val_main_v1 (F := Ideal) x1)
    (hd : X (Proc.devRef .tc Cert.KernelIdeal.main_v3) = Cert.ReferenceIdeal.ReadP.val_main_v3 (F := Ideal) x1) :
    StableHlo.after (Cert.KernelIdeal.Gen.hostOps11 (F := Ideal)) X (Proc.devRef .tc Cert.KernelIdeal.main_v218)
      = Cert.ReferenceIdeal.ReadP.val_main_v318 (F := Ideal) x0 x1 x2 x3 x4 x5 x6 x7 x8 x9 := by
  rw [stretch11, hhp, hg, hs, hd, agg_eq, ← ref_agg_l3]

end Cert.MoNet

end
-- ==== Proof.BnPayload.lean ====
/-
  Batch normalisation, rectifier and residual sum of one layer, index by index:

    out[n, c] = h[n, c] + max(((agg[n, c] − mean[c]) · rsqrt(var[c] + ε)) · g[c] + b[c], 0)

  with the four per-channel vectors held as 1×64 arrays and ε the f32 word 0x3727C5AC. `BnK` is that function of six whole
  arrays. `bn_pay` reads the body's arithmetic on a block of 10000 rows at an index (a row broadcast over the block reads
  the row at the column; the casts of a shape to itself are identities; the rest is pointwise). `bn_block` restates it
  for a block cut out of whole arrays: where the two 10000×64 blocks are rows `k 0` of the arrays and the four rows are
  the arrays' rows, the body's value at the block's index is `BnK` at `k`.
-/
import proofs.«168295_j62088047231392_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.MoNet

open Idealize.ShloMosaic Idealize.ShloMosaic.ValueIdx
open Cert.KernelIdeal Cert.KernelIdeal.Gen

/-- The zero offsets of a rank-2 access, as the constant function. -/
theorem zero_offsets : (![0, 0] : Fin 2 → Nat) = fun _ => 0 := funext fun a => by fin_cases a <;> rfl

/-- The layer's output as a function of the aggregated messages `agg`, the per-channel mean, variance, scale and shift
    rows, and the layer's input `h`. -/
def BnK (agg : (⟨S100000x64, .f32⟩ : BufTy).Contents (Elt Ideal)) (mean var g b : (⟨S1x64, .f32⟩ : BufTy).Contents (Elt Ideal))
    (h : (⟨S100000x64, .f32⟩ : BufTy).Contents (Elt Ideal)) : (⟨S100000x64, .f32⟩ : BufTy).Contents (Elt Ideal) :=
  fun k => h k + max (((agg k - mean (ix2 (0 : Fin 1) (⟨(k 1).val, (k 1).isLt⟩ : Fin 64)))
      * Ideal.rsqrt (var (ix2 (0 : Fin 1) (⟨(k 1).val, (k 1).isLt⟩ : Fin 64)) + Ideal.ofBits .f32 0x3727C5AC#32))
      * g (ix2 (0 : Fin 1) (⟨(k 1).val, (k 1).isLt⟩ : Fin 64)) + b (ix2 (0 : Fin 1) (⟨(k 1).val, (k 1).isLt⟩ : Fin 64)))
    (Ideal.ofBits .f32 0x00000000#32)

/-- `BnK` at an index given by its two coordinates. -/
theorem BnK_ix2 (agg : (⟨S100000x64, .f32⟩ : BufTy).Contents (Elt Ideal)) (mean var g b : (⟨S1x64, .f32⟩ : BufTy).Contents (Elt Ideal))
    (h : (⟨S100000x64, .f32⟩ : BufTy).Contents (Elt Ideal)) (n : Fin 100000) (q : Fin 64) :
    BnK agg mean var g b h (ix2 n q)
      = h (ix2 n q) + max (((agg (ix2 n q) - mean (ix2 (0 : Fin 1) q)) * Ideal.rsqrt (var (ix2 (0 : Fin 1) q) + Ideal.ofBits .f32 0x3727C5AC#32))
          * g (ix2 (0 : Fin 1) q) + b (ix2 (0 : Fin 1) q)) (Ideal.ofBits .f32 0x00000000#32) := rfl

/-- The body's arithmetic on one block, at the index `(p, q)` of the block. -/
theorem bn_pay (mean var g b : Vec Ideal S1x64 .f32) (x h : Vec Ideal S10000x64 .f32) (p : Fin 10000) (q : Fin 64) :
    k2_pay1 (F := Ideal) mean var g b x h (ix2 p q)
      = h (ix2 p q) + max (((x (ix2 p q) - mean (ix2 (0 : Fin 1) q)) * Ideal.rsqrt (var (ix2 (0 : Fin 1) q) + Ideal.ofBits .f32 0x3727C5AC#32))
          * g (ix2 (0 : Fin 1) q) + b (ix2 (0 : Fin 1) q)) (Ideal.ofBits .f32 0x00000000#32) := by
  unfold k2_pay1
  simp only [shapeCast_self]
  simp only [addf_apply, maximumf_apply, mulf_apply, subf_apply, broadcastTo_1b_ab_apply, broadcast_apply]
  rfl

/-- A block of the layer's output: if the body's two 10000×64 operands are the arrays `agg` and `h` read at the array
    index `k` that the block's index `y` stands for (same column), and its four rows are the arrays' rows, then the body's
    value at `y` is `BnK` at `k`. -/
theorem bn_block (agg : (⟨S100000x64, .f32⟩ : BufTy).Contents (Elt Ideal)) (mean var g b : (⟨S1x64, .f32⟩ : BufTy).Contents (Elt Ideal))
    (h : (⟨S100000x64, .f32⟩ : BufTy).Contents (Elt Ideal))
    (x1 x2 x3 x4 : Vec Ideal S1x64 .f32) (x0 x5 : Vec Ideal S10000x64 .f32) (y : S10000x64.Idx) (k : S100000x64.Idx)
    (hcol : (k 1).val = (y 1).val) (h0 : x0 y = agg k) (h5 : x5 y = h k)
    (h1 : x1 = mean) (h2 : x2 = var) (h3 : x3 = g) (h4 : x4 = b) :
    k2_pay1 (F := Ideal) x1 x2 x3 x4 x0 x5 y = BnK agg mean var g b h k := by
  subst h1 h2 h3 h4
  obtain ⟨p, q, rfl⟩ : ∃ (p : Fin 10000) (q : Fin 64), y = ix2 p q := ⟨y 0, y 1, eq_ix2 y⟩
  obtain ⟨n, q', rfl⟩ : ∃ (n : Fin 100000) (q' : Fin 64), k = ix2 n q' := ⟨k 0, k 1, eq_ix2 k⟩
  obtain rfl : q' = q := Fin.ext hcol
  rw [bn_pay, BnK_ix2, h0, h5]

end Cert.MoNet

end
-- ==== Proof.BnRegion11.lean ====
/-
  The array the batch-normalisation region of layer 3 leaves. Its ten grid points each write back one block of 10000 rows
  and the blocks tile the 100000 rows. At point `t` the body's one store fills the output block with the body's arithmetic
  of the six input blocks; the two big inputs' blocks and the output's block are rows `10000·t …` of their arrays, and the
  four per-channel rows are whole at every point. So block `t` of the result is block `t` of `BnK` of the six arrays the
  region finds, and the array ends as `BnK` of them.
-/
import proofs.«168295_j62088047231392_2_alg».proof.Proof.Gen.KernelIdeal.Frame
import proofs.«168295_j62088047231392_2_alg».proof.Proof.BnPayload
import Idealize.ShloMosaic.Lib.Pipeline.Value
import Idealize.ShloMosaic.Lib.Tactic

noncomputable section

namespace Cert.MoNet

open Idealize.ShloMosaic Idealize.ShloMosaic.TcCoe Idealize.ShloMosaic.ValueIdx Idealize.SL.Sem
open Idealize.ShloMosaic.Pipeline (Dat)
open Cert.KernelIdeal Cert.KernelIdeal.Gen

namespace Bn11

variable (V : (c : Dev nD) → (b : Ref sig .tc) → Buf (Elt Ideal) ((c : Thread nD τ).loc b))

/-- Block indices over the grid: point `t` takes block `t` of rows of the two big inputs and of the output, and block
    `(0, 0)` of each per-channel row. -/
theorem block_indices : ∀ t : Fin cfg11.N,
    win11_0.index t (0 : Fin 2) = t.val ∧ win11_0.index t (1 : Fin 2) = 0
    ∧ win11_5.index t (0 : Fin 2) = t.val ∧ win11_5.index t (1 : Fin 2) = 0
    ∧ win11_6.index t (0 : Fin 2) = t.val ∧ win11_6.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- The body's one store fills the output block: what the body leaves there is its arithmetic of the six blocks. -/
theorem out_eq (x0 x5 : Vec Ideal S10000x64 .f32) (x1 x2 x3 x4 : Vec Ideal S1x64 .f32) :
    out11_6 (F := Ideal) x0 x1 x2 x3 x4 x5 = k2_pay1 (F := Ideal) x1 x2 x3 x4 x0 x5 := by
  unfold out11_6
  rw [View.canon_unit_zero zero_offsets]
  simp only [View.ld_unit_zero (S := S1x64) zero_offsets, View.ld_unit_zero (S := S10000x64) zero_offsets]
  rfl

set_option maxHeartbeats 4000000 in
/-- What point `t` writes back is block `t` of `BnK` of the arrays the region finds. -/
theorem flushed_eq (c : Dev nD) (t : Fin cfg11.N) :
    (dat11 (F := Ideal) V c).flushed 6 t = ((cfg11.win 6).blk t).view.read (Elt Ideal)
      (BnK (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5))) := by
  obtain ⟨e00, e01, e50, e51, e60, e61, e10, e11, e20, e21, e30, e31, e40, e41⟩ := block_indices t
  funext j
  refine (congrFun (after11_6 (F := Ideal) V c t) ((cfg11.win 6).xinj (grid11.coords t) j)).trans ?_
  refine (congrFun (out_eq (iblk11 (F := Ideal) V c 0 t) (iblk11 (F := Ideal) V c 5 t) (iblk11 (F := Ideal) V c 1 t) (iblk11 (F := Ideal) V c 2 t) (iblk11 (F := Ideal) V c 3 t) (iblk11 (F := Ideal) V c 4 t)) ((cfg11.win 6).xinj (grid11.coords t) j)).trans ?_
  show k2_pay1 (F := Ideal) (iblk11 (F := Ideal) V c 1 t) (iblk11 (F := Ideal) V c 2 t) (iblk11 (F := Ideal) V c 3 t) (iblk11 (F := Ideal) V c 4 t) (iblk11 (F := Ideal) V c 0 t) (iblk11 (F := Ideal) V c 5 t) j
    = BnK (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5)) (((cfg11.win 6).blk t).view.emb j)
  have hj0 : (j 0).val < 10000 := (j 0).isLt
  have hj1 : (j 1).val < 64 := (j 1).isLt
  have b0 : ((cfg11.win 0).blk t).view.emb j = ((cfg11.win 6).blk t).view.emb j := by
    funext a; apply Fin.ext
    match a with
    | ⟨0, _⟩ => show win11_0.index t (0 : Fin 2) * 10000 + 1 * (j 0).val = win11_6.index t (0 : Fin 2) * 10000 + 1 * (j 0).val; rw [e00, e60]
    | ⟨1, _⟩ => show win11_0.index t (1 : Fin 2) * 64 + 1 * (j 1).val = win11_6.index t (1 : Fin 2) * 64 + 1 * (j 1).val; rw [e01, e61]
  have b5 : ((cfg11.win 5).blk t).view.emb j = ((cfg11.win 6).blk t).view.emb j := by
    funext a; apply Fin.ext
    match a with
    | ⟨0, _⟩ => show win11_5.index t (0 : Fin 2) * 10000 + 1 * (j 0).val = win11_6.index t (0 : Fin 2) * 10000 + 1 * (j 0).val; rw [e50, e60]
    | ⟨1, _⟩ => show win11_5.index t (1 : Fin 2) * 64 + 1 * (j 1).val = win11_6.index t (1 : Fin 2) * 64 + 1 * (j 1).val; rw [e51, e61]
  refine bn_block (V c (Pipeline.arrRef spec11 0)) (V c (Pipeline.arrRef spec11 1)) (V c (Pipeline.arrRef spec11 2))
    (V c (Pipeline.arrRef spec11 3)) (V c (Pipeline.arrRef spec11 4)) (V c (Pipeline.arrRef spec11 5))
    (iblk11 (F := Ideal) V c 1 t) (iblk11 (F := Ideal) V c 2 t) (iblk11 (F := Ideal) V c 3 t) (iblk11 (F := Ideal) V c 4 t) (iblk11 (F := Ideal) V c 0 t) (iblk11 (F := Ideal) V c 5 t) j
    (((cfg11.win 6).blk t).view.emb j) ?_ ?_ ?_ ?_ ?_ ?_ ?_
  · show win11_6.index t (1 : Fin 2) * 64 + 1 * (j 1).val = (j 1).val
    rw [e61]; omega
  · show V c (Pipeline.arrRef spec11 0) (((cfg11.win 0).blk t).view.emb j) = V c (Pipeline.arrRef spec11 0) (((cfg11.win 6).blk t).view.emb j)
    rw [b0]
  · show V c (Pipeline.arrRef spec11 5) (((cfg11.win 5).blk t).view.emb j) = V c (Pipeline.arrRef spec11 5) (((cfg11.win 6).blk t).view.emb j)
    rw [b5]
  · funext z
    show V c (Pipeline.arrRef spec11 1) (((cfg11.win 1).blk t).view.emb z) = V c (Pipeline.arrRef spec11 1) z
    refine congrArg (V c (Pipeline.arrRef spec11 1)) (funext fun a => Fin.ext ?_)
    match a with
    | ⟨0, _⟩ => show win11_1.index t (0 : Fin 2) * 1 + 1 * (z 0).val = (z 0).val; rw [e10]; omega
    | ⟨1, _⟩ => show win11_1.index t (1 : Fin 2) * 64 + 1 * (z 1).val = (z 1).val; rw [e11]; omega
  · funext z
    show V c (Pipeline.arrRef spec11 2) (((cfg11.win 2).blk t).view.emb z) = V c (Pipeline.arrRef spec11 2) z
    refine congrArg (V c (Pipeline.arrRef spec11 2)) (funext fun a => Fin.ext ?_)
    match a with
    | ⟨0, _⟩ => show win11_2.index t (0 : Fin 2) * 1 + 1 * (z 0).val = (z 0).val; rw [e20]; omega
    | ⟨1, _⟩ => show win11_2.index t (1 : Fin 2) * 64 + 1 * (z 1).val = (z 1).val; rw [e21]; omega
  · funext z
    show V c (Pipeline.arrRef spec11 3) (((cfg11.win 3).blk t).view.emb z) = V c (Pipeline.arrRef spec11 3) z
    refine congrArg (V c (Pipeline.arrRef spec11 3)) (funext fun a => Fin.ext ?_)
    match a with
    | ⟨0, _⟩ => show win11_3.index t (0 : Fin 2) * 1 + 1 * (z 0).val = (z 0).val; rw [e30]; omega
    | ⟨1, _⟩ => show win11_3.index t (1 : Fin 2) * 64 + 1 * (z 1).val = (z 1).val; rw [e31]; omega
  · funext z
    show V c (Pipeline.arrRef spec11 4) (((cfg11.win 4).blk t).view.emb z) = V c (Pipeline.arrRef spec11 4) z
    refine congrArg (V c (Pipeline.arrRef spec11 4)) (funext fun a => Fin.ext ?_)
    match a with
    | ⟨0, _⟩ => show win11_4.index t (0 : Fin 2) * 1 + 1 * (z 0).val = (z 0).val; rw [e40]; omega
    | ⟨1, _⟩ => show win11_4.index t (1 : Fin 2) * 64 + 1 * (z 1).val = (z 1).val; rw [e41]; omega

/-- An index of the output array is in point `t`'s block iff each coordinate is in the block's range on its axis. -/
theorem mem_blk (t : Fin cfg11.N) (i : S100000x64.Idx) :
    i ∈ ((cfg11.win 6).blk t).view.set ↔ ∀ a : Fin 2, win11_6.index t a * S10000x64.size a ≤ (i a).val ∧ (i a).val < win11_6.index t a * S10000x64.size a + S10000x64.size a := by
  show i ∈ ((View.whole main_v237).slice (win11_6.rect t)).set ↔ _
  rw [View.set_slice_whole, Rect.mem_set_unit]
  exact Iff.rfl

/-- Every row of the output is in the block of the point `row / 10000`. -/
theorem cover (i : S100000x64.Idx) : ∃ t : Fin cfg11.N, (cfg11.win 6).flush t = true ∧ i ∈ ((cfg11.win 6).blk t).view.set := by
  have hi0 : (i 0).val < 100000 := (i 0).isLt
  have hi1 : (i 1).val < 64 := (i 1).isLt
  have hN : grid11.N = 10 := N_11
  have ht : (i 0).val / 10000 < cfg11.N := by show _ < grid11.N; rw [hN]; omega
  obtain ⟨-, -, -, -, e60, e61, -⟩ := block_indices ⟨(i 0).val / 10000, ht⟩
  refine ⟨⟨(i 0).val / 10000, ht⟩, flush11_6 _, ?_⟩
  rw [mem_blk]
  intro a
  match a with
  | ⟨0, _⟩ =>
    show win11_6.index ⟨(i 0).val / 10000, ht⟩ (0 : Fin 2) * 10000 ≤ (i 0).val ∧ (i 0).val < win11_6.index ⟨(i 0).val / 10000, ht⟩ (0 : Fin 2) * 10000 + 10000
    rw [e60]; show (i 0).val / 10000 * 10000 ≤ (i 0).val ∧ (i 0).val < (i 0).val / 10000 * 10000 + 10000; omega
  | ⟨1, _⟩ =>
    show win11_6.index ⟨(i 0).val / 10000, ht⟩ (1 : Fin 2) * 64 ≤ (i 1).val ∧ (i 1).val < win11_6.index ⟨(i 0).val / 10000, ht⟩ (1 : Fin 2) * 64 + 64
    rw [e61]; omega

end Bn11

set_option maxHeartbeats 4000000 in
/-- The array after the region: `BnK` of the arrays the region finds (aggregated messages, mean, variance, scale, shift,
    the layer's input, in the windows' order). -/
theorem final11 (V : (c : Dev nD) → (b : Ref sig .tc) → Buf (Elt Ideal) ((c : Thread nD τ).loc b)) (c : Dev nD) :
    (dat11 (F := Ideal) V c).arrAt 6 cfg11.N
      = BnK (V c (Pipeline.arrRef spec11 0)) (V c (Pipeline.arrRef spec11 1)) (V c (Pipeline.arrRef spec11 2))
          (V c (Pipeline.arrRef spec11 3)) (V c (Pipeline.arrRef spec11 4)) (V c (Pipeline.arrRef spec11 5)) :=
  (dat11 (F := Ideal) V c).arrAt_eq_of_cover 6 _ (fun t _ => Bn11.flushed_eq V c t) Bn11.cover

end Cert.MoNet

end
-- ==== Proof.BnRef.lean ====
/-
  The statistics and the reference's form of one layer's batch normalisation.

  `Mean64 agg` and `Var64 agg` are the per-channel mean and (biased) variance of the 100000 rows of `agg`, as the chain of
  host operations both programs apply: a sum over the rows from zero, a division by the word of 100000.0; for the variance the
  squares of the differences from the mean broadcast back over the rows. They are never opened here: every statement below
  holds for any two 64-vectors in their place. `MeanK`, `VarK` are those vectors laid out as 1×64 rows; `RowK` is a sliced
  1×64 row flattened to 64 and laid out as 1×64 again (the identity, index by index).

  `BnR` is the reference's chain for one layer: the vectors broadcast 64 → 1×64 → 100000×64, the difference from the mean
  times `rsqrt (var + ε)` times the scale plus the shift, the maximum with the zero splat, the sum with the layer's input.
  `bn_eq`: read at an index `(n, q)` every broadcast reads its vector at `q`, the host's and the kernel's reciprocal square
  root are one function on the extended reals, so `BnK` of the rows is `BnR`. `ref_bn_l0 … l3`: each layer of the reference
  is that chain of its own buffers, operation by operation.
-/
import proofs.«168295_j62088047231392_2_alg».proof.Proof.BnPayload
import proofs.«168295_j62088047231392_2_alg».proof.Proof.RefRead
import Idealize.ShloMosaic.Lib.ValueIdx
import Idealize.ShloMosaic.Lib.Pipeline.Value
import Idealize.ShloMosaic.Lib.ValueLayout
import Idealize.ShloMosaic.PureOps.Ideal.Laws

noncomputable section

namespace Cert.MoNet

open Idealize.ShloMosaic Idealize.ShloMosaic.ValueIdx
open Cert.KernelIdeal Cert.KernelIdeal.Gen

/-- The per-channel mean of the rows: `(0 + Σ_n agg[n, c]) / 100000`. -/
def Mean64 (agg : (⟨S100000x64, .f32⟩ : BufTy).Contents (Elt Ideal)) : (⟨S64, .f32⟩ : BufTy).Contents (Elt Ideal) :=
  Host.divf (Host.reduceAdd agg (constant (F := Ideal) S_ .f32 0x00000000#32) reducesTo_S100000x64_S64_d0 h_S_)
    (broadcastInDim S64 ![] bcast_S_S64 (constant (F := Ideal) S_ .f32 0x47C35000#32))

/-- The per-channel variance of the rows: `(0 + Σ_n (agg[n, c] − mean[c])²) / 100000`. -/
def Var64 (agg : (⟨S100000x64, .f32⟩ : BufTy).Contents (Elt Ideal)) : (⟨S64, .f32⟩ : BufTy).Contents (Elt Ideal) :=
  Host.divf (Host.reduceAdd
      (mulf (subf agg (broadcastInDim S100000x64 ![0, 1] bcast_S1x64_S100000x64_0_1 (broadcastInDim S1x64 ![1] bcast_S64_S1x64_1 (Mean64 agg))))
        (subf agg (broadcastInDim S100000x64 ![0, 1] bcast_S1x64_S100000x64_0_1 (broadcastInDim S1x64 ![1] bcast_S64_S1x64_1 (Mean64 agg)))))
      (constant (F := Ideal) S_ .f32 0x00000000#32) reducesTo_S100000x64_S64_d0 h_S_)
    (broadcastInDim S64 ![] bcast_S_S64 (constant (F := Ideal) S_ .f32 0x47C35000#32))

/-- A 64-vector laid out as a 1×64 row. -/
def Row64 (v : (⟨S64, .f32⟩ : BufTy).Contents (Elt Ideal)) : (⟨S1x64, .f32⟩ : BufTy).Contents (Elt Ideal) := shapeCast S1x64 v shapeCasts_S64_S1x64

/-- The mean as the 1×64 row the kernel's region reads. -/
def MeanK (agg : (⟨S100000x64, .f32⟩ : BufTy).Contents (Elt Ideal)) : (⟨S1x64, .f32⟩ : BufTy).Contents (Elt Ideal) := Row64 (Mean64 agg)

/-- The variance as the 1×64 row the kernel's region reads. -/
def VarK (agg : (⟨S100000x64, .f32⟩ : BufTy).Contents (Elt Ideal)) : (⟨S1x64, .f32⟩ : BufTy).Contents (Elt Ideal) := Row64 (Var64 agg)

/-- A sliced 1×64 row flattened to a 64-vector and laid out as a 1×64 row again. -/
def RowK (sl : (⟨S1x64, .f32⟩ : BufTy).Contents (Elt Ideal)) : (⟨S1x64, .f32⟩ : BufTy).Contents (Elt Ideal) := Row64 (shapeCast S64 sl shapeCasts_S1x64_S64)

/-- The reference's chain for one layer over ANY mean and variance vectors. -/
def BnRof (m64 v64 : (⟨S64, .f32⟩ : BufTy).Contents (Elt Ideal)) (agg : (⟨S100000x64, .f32⟩ : BufTy).Contents (Elt Ideal)) (gsl bsl : (⟨S1x64, .f32⟩ : BufTy).Contents (Elt Ideal)) (h : (⟨S100000x64, .f32⟩ : BufTy).Contents (Elt Ideal)) : (⟨S100000x64, .f32⟩ : BufTy).Contents (Elt Ideal) :=
  addf h (maximumf
    (addf
      (mulf
        (mulf (subf agg (broadcastInDim S100000x64 ![0, 1] bcast_S1x64_S100000x64_0_1 (broadcastInDim S1x64 ![1] bcast_S64_S1x64_1 m64)))
          (broadcastInDim S100000x64 ![0, 1] bcast_S1x64_S100000x64_0_1 (broadcastInDim S1x64 ![1] bcast_S64_S1x64_1 (Host.rsqrt (addf v64 (broadcastInDim S64 ![] bcast_S_S64 (constant (F := Ideal) S_ .f32 0x3727C5AC#32)))))))
        (broadcastInDim S100000x64 ![0, 1] bcast_S1x64_S100000x64_0_1 (broadcastInDim S1x64 ![1] bcast_S64_S1x64_1 (shapeCast S64 gsl shapeCasts_S1x64_S64))))
      (broadcastInDim S100000x64 ![0, 1] bcast_S1x64_S100000x64_0_1 (broadcastInDim S1x64 ![1] bcast_S64_S1x64_1 (shapeCast S64 bsl shapeCasts_S1x64_S64))))
    (broadcastInDim S100000x64 ![] bcast_S_S100000x64 (constant (F := Ideal) S_ .f32 0x00000000#32)))

/-- The reference's chain for one layer, from the aggregated messages `agg`, the sliced scale and shift rows and the
    layer's input `h`. -/
def BnR (agg : (⟨S100000x64, .f32⟩ : BufTy).Contents (Elt Ideal)) (gsl bsl : (⟨S1x64, .f32⟩ : BufTy).Contents (Elt Ideal)) (h : (⟨S100000x64, .f32⟩ : BufTy).Contents (Elt Ideal)) : (⟨S100000x64, .f32⟩ : BufTy).Contents (Elt Ideal) :=
  BnRof (Mean64 agg) (Var64 agg) agg gsl bsl h

/-- A 64-vector broadcast to a row and then over all rows reads, at `(n, q)`, the vector at `q`. -/
theorem bcast_rows_at (v : (⟨S64, .f32⟩ : BufTy).Contents (Elt Ideal)) (n : Fin 100000) (q : Fin 64) :
    (broadcastInDim S100000x64 ![0, 1] bcast_S1x64_S100000x64_0_1 (broadcastInDim S1x64 ![1] bcast_S64_S1x64_1 v)) (ix2 n q) = v (ix1 q) :=
  (broadcastInDim_apply _ bcast_S1x64_S100000x64_0_1 _ (ix2 n q) (ix2 (0 : Fin 1) q) (fun a => match a with
    | ⟨0, _⟩ => by show 0 = if (1 : Nat) = 1 then 0 else n.val; rw [if_pos rfl]
    | ⟨1, _⟩ => by show q.val = if (64 : Nat) = 1 then 0 else q.val; rw [if_neg (by decide)])).trans
  (broadcastInDim_apply _ bcast_S64_S1x64_1 v (ix2 (0 : Fin 1) q) (ix1 q) (fun a => match a with
    | ⟨0, _⟩ => by show q.val = if (64 : Nat) = 1 then 0 else q.val; rw [if_neg (by decide)]))

/-- A 64-vector laid out as a row reads, at `(0, q)`, the vector at `q`. -/
theorem row64_at (v : (⟨S64, .f32⟩ : BufTy).Contents (Elt Ideal)) (q : Fin 64) : Row64 v (ix2 (0 : Fin 1) q) = v (ix1 q) :=
  shapeCast_a_1a_apply v shapeCasts_S64_S1x64 0 q

/-- Flattening a row and laying it out again changes nothing at `(0, q)`. -/
theorem rowK_at (sl : (⟨S1x64, .f32⟩ : BufTy).Contents (Elt Ideal)) (q : Fin 64) : RowK sl (ix2 (0 : Fin 1) q) = sl (ix2 (0 : Fin 1) q) :=
  (row64_at _ q).trans (shapeCast_1a_a_apply sl shapeCasts_S1x64_S64 q)

/-- The kernel's function of the rows is the reference's chain, for any mean and variance vectors. -/
theorem bn_eq_of (m64 v64 : (⟨S64, .f32⟩ : BufTy).Contents (Elt Ideal)) (agg : (⟨S100000x64, .f32⟩ : BufTy).Contents (Elt Ideal)) (gsl bsl : (⟨S1x64, .f32⟩ : BufTy).Contents (Elt Ideal)) (h : (⟨S100000x64, .f32⟩ : BufTy).Contents (Elt Ideal)) :
    BnK agg (Row64 m64) (Row64 v64) (RowK gsl) (RowK bsl) h = BnRof m64 v64 agg gsl bsl h := by
  funext k
  obtain ⟨n, q, rfl⟩ : ∃ (n : Fin 100000) (q : Fin 64), k = ix2 n q := ⟨k 0, k 1, eq_ix2 k⟩
  rw [BnK_ix2, row64_at, row64_at, rowK_at, rowK_at]
  unfold BnRof
  simp only [addf_apply, maximumf_apply, mulf_apply, subf_apply]
  rw [bcast_rows_at m64 n q]
  rw [bcast_rows_at, bcast_rows_at, bcast_rows_at, shapeCast_1a_a_apply, shapeCast_1a_a_apply]
  rfl

/-- The kernel's function of its region's inputs is the reference's chain of the same aggregated messages, sliced rows
    and layer input. -/
theorem bn_eq (agg : (⟨S100000x64, .f32⟩ : BufTy).Contents (Elt Ideal)) (gsl bsl : (⟨S1x64, .f32⟩ : BufTy).Contents (Elt Ideal)) (h : (⟨S100000x64, .f32⟩ : BufTy).Contents (Elt Ideal)) :
    BnK agg (MeanK agg) (VarK agg) (RowK gsl) (RowK bsl) h = BnR agg gsl bsl h :=
  bn_eq_of (Mean64 agg) (Var64 agg) agg gsl bsl h

/-- Layer 0 of the reference: its output is `BnR` of its aggregated messages, its sliced scale and shift rows and its input. -/
theorem ref_bn_l0 (x0 : (⟨Cert.ReferenceIdeal.S100000, .i32⟩ : BufTy).Contents (Elt Ideal)) (x1 : (⟨Cert.ReferenceIdeal.S2x800000, .i32⟩ : BufTy).Contents (Elt Ideal))
    (x2 : (⟨Cert.ReferenceIdeal.S32x64, .f32⟩ : BufTy).Contents (Elt Ideal)) (x3 : (⟨Cert.ReferenceIdeal.S4x192x64, .f32⟩ : BufTy).Contents (Elt Ideal))
    (x4 x5 : (⟨Cert.ReferenceIdeal.S4x3x2, .f32⟩ : BufTy).Contents (Elt Ideal)) (x6 x7 : (⟨Cert.ReferenceIdeal.S4x64, .f32⟩ : BufTy).Contents (Elt Ideal))
    (x8 : (⟨Cert.ReferenceIdeal.S4x2x2, .f32⟩ : BufTy).Contents (Elt Ideal)) (x9 : (⟨Cert.ReferenceIdeal.S4x2, .f32⟩ : BufTy).Contents (Elt Ideal)) :
    Cert.ReferenceIdeal.ReadP.val_main_v115 (F := Ideal) x0 x1 x2 x3 x4 x5 x6 x7 x8 x9
      = BnR (Cert.ReferenceIdeal.ReadP.val_main_v84 (F := Ideal) x0 x1 x2 x3 x4 x5 x8 x9) (Cert.ReferenceIdeal.ReadP.val_main_v104 (F := Ideal) x6)
          (Cert.ReferenceIdeal.ReadP.val_main_v109 (F := Ideal) x7) (Cert.ReferenceIdeal.ReadP.val_main_v37 (F := Ideal) x0 x2) := by
  unfold Cert.ReferenceIdeal.ReadP.val_main_v115
    Cert.ReferenceIdeal.ReadP.val_main_v114
    Cert.ReferenceIdeal.ReadP.val_main_call0_v0
    Cert.ReferenceIdeal.ReadP.val_main_call0_cst
    Cert.ReferenceIdeal.ReadP.val_main_v113
    Cert.ReferenceIdeal.ReadP.val_main_v112
    Cert.ReferenceIdeal.ReadP.val_main_v111
    Cert.ReferenceIdeal.ReadP.val_main_v110
    Cert.ReferenceIdeal.ReadP.val_main_v108
    Cert.ReferenceIdeal.ReadP.val_main_v107
    Cert.ReferenceIdeal.ReadP.val_main_v106
    Cert.ReferenceIdeal.ReadP.val_main_v105
    Cert.ReferenceIdeal.ReadP.val_main_v103
    Cert.ReferenceIdeal.ReadP.val_main_v102
    Cert.ReferenceIdeal.ReadP.val_main_v101
    Cert.ReferenceIdeal.ReadP.val_main_v100
    Cert.ReferenceIdeal.ReadP.val_main_v99
    Cert.ReferenceIdeal.ReadP.val_main_v98
    Cert.ReferenceIdeal.ReadP.val_main_cst_18
    Cert.ReferenceIdeal.ReadP.val_main_v97
    Cert.ReferenceIdeal.ReadP.val_main_v96
    Cert.ReferenceIdeal.ReadP.val_main_v95
    Cert.ReferenceIdeal.ReadP.val_main_v94
    Cert.ReferenceIdeal.ReadP.val_main_v93
    Cert.ReferenceIdeal.ReadP.val_main_cst_17
    Cert.ReferenceIdeal.ReadP.val_main_v92
    Cert.ReferenceIdeal.ReadP.val_main_cst_16
    Cert.ReferenceIdeal.ReadP.val_main_v91
    Cert.ReferenceIdeal.ReadP.val_main_v90
    Cert.ReferenceIdeal.ReadP.val_main_v89
    Cert.ReferenceIdeal.ReadP.val_main_v88
    Cert.ReferenceIdeal.ReadP.val_main_v87
    Cert.ReferenceIdeal.ReadP.val_main_v86
    Cert.ReferenceIdeal.ReadP.val_main_cst_15
    Cert.ReferenceIdeal.ReadP.val_main_v85
    Cert.ReferenceIdeal.ReadP.val_main_cst_14
  generalize Cert.ReferenceIdeal.ReadP.val_main_v84 (F := Ideal) x0 x1 x2 x3 x4 x5 x8 x9 = agg
  generalize Cert.ReferenceIdeal.ReadP.val_main_v104 (F := Ideal) x6 = gsl
  generalize Cert.ReferenceIdeal.ReadP.val_main_v109 (F := Ideal) x7 = bsl
  generalize Cert.ReferenceIdeal.ReadP.val_main_v37 (F := Ideal) x0 x2 = h
  rfl

/-- Layer 1 of the reference: its output is `BnR` of its aggregated messages, its sliced scale and shift rows and its input. -/
theorem ref_bn_l1 (x0 : (⟨Cert.ReferenceIdeal.S100000, .i32⟩ : BufTy).Contents (Elt Ideal)) (x1 : (⟨Cert.ReferenceIdeal.S2x800000, .i32⟩ : BufTy).Contents (Elt Ideal))
    (x2 : (⟨Cert.ReferenceIdeal.S32x64, .f32⟩ : BufTy).Contents (Elt Ideal)) (x3 : (⟨Cert.ReferenceIdeal.S4x192x64, .f32⟩ : BufTy).Contents (Elt Ideal))
    (x4 x5 : (⟨Cert.ReferenceIdeal.S4x3x2, .f32⟩ : BufTy).Contents (Elt Ideal)) (x6 x7 : (⟨Cert.ReferenceIdeal.S4x64, .f32⟩ : BufTy).Contents (Elt Ideal))
    (x8 : (⟨Cert.ReferenceIdeal.S4x2x2, .f32⟩ : BufTy).Contents (Elt Ideal)) (x9 : (⟨Cert.ReferenceIdeal.S4x2, .f32⟩ : BufTy).Contents (Elt Ideal)) :
    Cert.ReferenceIdeal.ReadP.val_main_v193 (F := Ideal) x0 x1 x2 x3 x4 x5 x6 x7 x8 x9
      = BnR (Cert.ReferenceIdeal.ReadP.val_main_v162 (F := Ideal) x0 x1 x2 x3 x4 x5 x6 x7 x8 x9) (Cert.ReferenceIdeal.ReadP.val_main_v182 (F := Ideal) x6)
          (Cert.ReferenceIdeal.ReadP.val_main_v187 (F := Ideal) x7) (Cert.ReferenceIdeal.ReadP.val_main_v115 (F := Ideal) x0 x1 x2 x3 x4 x5 x6 x7 x8 x9) := by
  unfold Cert.ReferenceIdeal.ReadP.val_main_v193
    Cert.ReferenceIdeal.ReadP.val_main_v192
    Cert.ReferenceIdeal.ReadP.val_main_call1_v0
    Cert.ReferenceIdeal.ReadP.val_main_call1_cst
    Cert.ReferenceIdeal.ReadP.val_main_v191
    Cert.ReferenceIdeal.ReadP.val_main_v190
    Cert.ReferenceIdeal.ReadP.val_main_v189
    Cert.ReferenceIdeal.ReadP.val_main_v188
    Cert.ReferenceIdeal.ReadP.val_main_v186
    Cert.ReferenceIdeal.ReadP.val_main_v185
    Cert.ReferenceIdeal.ReadP.val_main_v184
    Cert.ReferenceIdeal.ReadP.val_main_v183
    Cert.ReferenceIdeal.ReadP.val_main_v181
    Cert.ReferenceIdeal.ReadP.val_main_v180
    Cert.ReferenceIdeal.ReadP.val_main_v179
    Cert.ReferenceIdeal.ReadP.val_main_v178
    Cert.ReferenceIdeal.ReadP.val_main_v177
    Cert.ReferenceIdeal.ReadP.val_main_v176
    Cert.ReferenceIdeal.ReadP.val_main_cst_29
    Cert.ReferenceIdeal.ReadP.val_main_v175
    Cert.ReferenceIdeal.ReadP.val_main_v174
    Cert.ReferenceIdeal.ReadP.val_main_v173
    Cert.ReferenceIdeal.ReadP.val_main_v172
    Cert.ReferenceIdeal.ReadP.val_main_v171
    Cert.ReferenceIdeal.ReadP.val_main_cst_28
    Cert.ReferenceIdeal.ReadP.val_main_v170
    Cert.ReferenceIdeal.ReadP.val_main_cst_27
    Cert.ReferenceIdeal.ReadP.val_main_v169
    Cert.ReferenceIdeal.ReadP.val_main_v168
    Cert.ReferenceIdeal.ReadP.val_main_v167
    Cert.ReferenceIdeal.ReadP.val_main_v166
    Cert.ReferenceIdeal.ReadP.val_main_v165
    Cert.ReferenceIdeal.ReadP.val_main_v164
    Cert.ReferenceIdeal.ReadP.val_main_cst_26
    Cert.ReferenceIdeal.ReadP.val_main_v163
    Cert.ReferenceIdeal.ReadP.val_main_cst_25
  generalize Cert.ReferenceIdeal.ReadP.val_main_v162 (F := Ideal) x0 x1 x2 x3 x4 x5 x6 x7 x8 x9 = agg
  generalize Cert.ReferenceIdeal.ReadP.val_main_v182 (F := Ideal) x6 = gsl
  generalize Cert.ReferenceIdeal.ReadP.val_main_v187 (F := Ideal) x7 = bsl
  generalize Cert.ReferenceIdeal.ReadP.val_main_v115 (F := Ideal) x0 x1 x2 x3 x4 x5 x6 x7 x8 x9 = h
  rfl

/-- Layer 2 of the reference: its output is `BnR` of its aggregated messages, its sliced scale and shift rows and its input. -/
theorem ref_bn_l2 (x0 : (⟨Cert.ReferenceIdeal.S100000, .i32⟩ : BufTy).Contents (Elt Ideal)) (x1 : (⟨Cert.ReferenceIdeal.S2x800000, .i32⟩ : BufTy).Contents (Elt Ideal))
    (x2 : (⟨Cert.ReferenceIdeal.S32x64, .f32⟩ : BufTy).Contents (Elt Ideal)) (x3 : (⟨Cert.ReferenceIdeal.S4x192x64, .f32⟩ : BufTy).Contents (Elt Ideal))
    (x4 x5 : (⟨Cert.ReferenceIdeal.S4x3x2, .f32⟩ : BufTy).Contents (Elt Ideal)) (x6 x7 : (⟨Cert.ReferenceIdeal.S4x64, .f32⟩ : BufTy).Contents (Elt Ideal))
    (x8 : (⟨Cert.ReferenceIdeal.S4x2x2, .f32⟩ : BufTy).Contents (Elt Ideal)) (x9 : (⟨Cert.ReferenceIdeal.S4x2, .f32⟩ : BufTy).Contents (Elt Ideal)) :
    Cert.ReferenceIdeal.ReadP.val_main_v271 (F := Ideal) x0 x1 x2 x3 x4 x5 x6 x7 x8 x9
      = BnR (Cert.ReferenceIdeal.ReadP.val_main_v240 (F := Ideal) x0 x1 x2 x3 x4 x5 x6 x7 x8 x9) (Cert.ReferenceIdeal.ReadP.val_main_v260 (F := Ideal) x6)
          (Cert.ReferenceIdeal.ReadP.val_main_v265 (F := Ideal) x7) (Cert.ReferenceIdeal.ReadP.val_main_v193 (F := Ideal) x0 x1 x2 x3 x4 x5 x6 x7 x8 x9) := by
  unfold Cert.ReferenceIdeal.ReadP.val_main_v271
    Cert.ReferenceIdeal.ReadP.val_main_v270
    Cert.ReferenceIdeal.ReadP.val_main_call2_v0
    Cert.ReferenceIdeal.ReadP.val_main_call2_cst
    Cert.ReferenceIdeal.ReadP.val_main_v269
    Cert.ReferenceIdeal.ReadP.val_main_v268
    Cert.ReferenceIdeal.ReadP.val_main_v267
    Cert.ReferenceIdeal.ReadP.val_main_v266
    Cert.ReferenceIdeal.ReadP.val_main_v264
    Cert.ReferenceIdeal.ReadP.val_main_v263
    Cert.ReferenceIdeal.ReadP.val_main_v262
    Cert.ReferenceIdeal.ReadP.val_main_v261
    Cert.ReferenceIdeal.ReadP.val_main_v259
    Cert.ReferenceIdeal.ReadP.val_main_v258
    Cert.ReferenceIdeal.ReadP.val_main_v257
    Cert.ReferenceIdeal.ReadP.val_main_v256
    Cert.ReferenceIdeal.ReadP.val_main_v255
    Cert.ReferenceIdeal.ReadP.val_main_v254
    Cert.ReferenceIdeal.ReadP.val_main_cst_40
    Cert.ReferenceIdeal.ReadP.val_main_v253
    Cert.ReferenceIdeal.ReadP.val_main_v252
    Cert.ReferenceIdeal.ReadP.val_main_v251
    Cert.ReferenceIdeal.ReadP.val_main_v250
    Cert.ReferenceIdeal.ReadP.val_main_v249
    Cert.ReferenceIdeal.ReadP.val_main_cst_39
    Cert.ReferenceIdeal.ReadP.val_main_v248
    Cert.ReferenceIdeal.ReadP.val_main_cst_38
    Cert.ReferenceIdeal.ReadP.val_main_v247
    Cert.ReferenceIdeal.ReadP.val_main_v246
    Cert.ReferenceIdeal.ReadP.val_main_v245
    Cert.ReferenceIdeal.ReadP.val_main_v244
    Cert.ReferenceIdeal.ReadP.val_main_v243
    Cert.ReferenceIdeal.ReadP.val_main_v242
    Cert.ReferenceIdeal.ReadP.val_main_cst_37
    Cert.ReferenceIdeal.ReadP.val_main_v241
    Cert.ReferenceIdeal.ReadP.val_main_cst_36
  generalize Cert.ReferenceIdeal.ReadP.val_main_v240 (F := Ideal) x0 x1 x2 x3 x4 x5 x6 x7 x8 x9 = agg
  generalize Cert.ReferenceIdeal.ReadP.val_main_v260 (F := Ideal) x6 = gsl
  generalize Cert.ReferenceIdeal.ReadP.val_main_v265 (F := Ideal) x7 = bsl
  generalize Cert.ReferenceIdeal.ReadP.val_main_v193 (F := Ideal) x0 x1 x2 x3 x4 x5 x6 x7 x8 x9 = h
  rfl

/-- Layer 3 of the reference: its output is `BnR` of its aggregated messages, its sliced scale and shift rows and its input. -/
theorem ref_bn_l3 (x0 : (⟨Cert.ReferenceIdeal.S100000, .i32⟩ : BufTy).Contents (Elt Ideal)) (x1 : (⟨Cert.ReferenceIdeal.S2x800000, .i32⟩ : BufTy).Contents (Elt Ideal))
    (x2 : (⟨Cert.ReferenceIdeal.S32x64, .f32⟩ : BufTy).Contents (Elt Ideal)) (x3 : (⟨Cert.ReferenceIdeal.S4x192x64, .f32⟩ : BufTy).Contents (Elt Ideal))
    (x4 x5 : (⟨Cert.ReferenceIdeal.S4x3x2, .f32⟩ : BufTy).Contents (Elt Ideal)) (x6 x7 : (⟨Cert.ReferenceIdeal.S4x64, .f32⟩ : BufTy).Contents (Elt Ideal))
    (x8 : (⟨Cert.ReferenceIdeal.S4x2x2, .f32⟩ : BufTy).Contents (Elt Ideal)) (x9 : (⟨Cert.ReferenceIdeal.S4x2, .f32⟩ : BufTy).Contents (Elt Ideal)) :
    Cert.ReferenceIdeal.ReadP.val_main_v349 (F := Ideal) x0 x1 x2 x3 x4 x5 x6 x7 x8 x9
      = BnR (Cert.ReferenceIdeal.ReadP.val_main_v318 (F := Ideal) x0 x1 x2 x3 x4 x5 x6 x7 x8 x9) (Cert.ReferenceIdeal.ReadP.val_main_v338 (F := Ideal) x6)
          (Cert.ReferenceIdeal.ReadP.val_main_v343 (F := Ideal) x7) (Cert.ReferenceIdeal.ReadP.val_main_v271 (F := Ideal) x0 x1 x2 x3 x4 x5 x6 x7 x8 x9) := by
  unfold Cert.ReferenceIdeal.ReadP.val_main_v349
    Cert.ReferenceIdeal.ReadP.val_main_v348
    Cert.ReferenceIdeal.ReadP.val_main_call3_v0
    Cert.ReferenceIdeal.ReadP.val_main_call3_cst
    Cert.ReferenceIdeal.ReadP.val_main_v347
    Cert.ReferenceIdeal.ReadP.val_main_v346
    Cert.ReferenceIdeal.ReadP.val_main_v345
    Cert.ReferenceIdeal.ReadP.val_main_v344
    Cert.ReferenceIdeal.ReadP.val_main_v342
    Cert.ReferenceIdeal.ReadP.val_main_v341
    Cert.ReferenceIdeal.ReadP.val_main_v340
    Cert.ReferenceIdeal.ReadP.val_main_v339
    Cert.ReferenceIdeal.ReadP.val_main_v337
    Cert.ReferenceIdeal.ReadP.val_main_v336
    Cert.ReferenceIdeal.ReadP.val_main_v335
    Cert.ReferenceIdeal.ReadP.val_main_v334
    Cert.ReferenceIdeal.ReadP.val_main_v333
    Cert.ReferenceIdeal.ReadP.val_main_v332
    Cert.ReferenceIdeal.ReadP.val_main_cst_51
    Cert.ReferenceIdeal.ReadP.val_main_v331
    Cert.ReferenceIdeal.ReadP.val_main_v330
    Cert.ReferenceIdeal.ReadP.val_main_v329
    Cert.ReferenceIdeal.ReadP.val_main_v328
    Cert.ReferenceIdeal.ReadP.val_main_v327
    Cert.ReferenceIdeal.ReadP.val_main_cst_50
    Cert.ReferenceIdeal.ReadP.val_main_v326
    Cert.ReferenceIdeal.ReadP.val_main_cst_49
    Cert.ReferenceIdeal.ReadP.val_main_v325
    Cert.ReferenceIdeal.ReadP.val_main_v324
    Cert.ReferenceIdeal.ReadP.val_main_v323
    Cert.ReferenceIdeal.ReadP.val_main_v322
    Cert.ReferenceIdeal.ReadP.val_main_v321
    Cert.ReferenceIdeal.ReadP.val_main_v320
    Cert.ReferenceIdeal.ReadP.val_main_cst_48
    Cert.ReferenceIdeal.ReadP.val_main_v319
    Cert.ReferenceIdeal.ReadP.val_main_cst_47
  generalize Cert.ReferenceIdeal.ReadP.val_main_v318 (F := Ideal) x0 x1 x2 x3 x4 x5 x6 x7 x8 x9 = agg
  generalize Cert.ReferenceIdeal.ReadP.val_main_v338 (F := Ideal) x6 = gsl
  generalize Cert.ReferenceIdeal.ReadP.val_main_v343 (F := Ideal) x7 = bsl
  generalize Cert.ReferenceIdeal.ReadP.val_main_v271 (F := Ideal) x0 x1 x2 x3 x4 x5 x6 x7 x8 x9 = h
  rfl

end Cert.MoNet

end
-- ==== Proof.BnStretch11.lean ====
/-
  The host operations before the batch-normalisation region of layer 3, read at the four per-channel rows the region
  takes: the mean and the variance rows are `MeanK`, `VarK` of the aggregated messages the same operations leave, the scale
  and the shift rows are row 3 of the two parameter tables, sliced, flattened and laid out as 1×64 (`RowK`). Each is the
  operations' own composition, whatever the buffers held before.
-/
import proofs.«168295_j62088047231392_2_alg».proof.Proof.Gen.KernelIdeal.Launch
import proofs.«168295_j62088047231392_2_alg».proof.Proof.BnRef
import Idealize.ShloMosaic.Lib.StableHlo.Run

noncomputable section

namespace Cert.MoNet

open Idealize.ShloMosaic Idealize.ShloMosaic.TcCoe Idealize.ShloMosaic.StableHlo
open Cert.KernelIdeal Cert.KernelIdeal.Gen

/-- The mean row the region of layer 3 reads. -/
theorem stretch11_mean (X : Valuation τ sig (Elt Ideal)) :
    StableHlo.after (hostOps11 (F := Ideal)) X (Proc.devRef .tc main_v229)
      = MeanK (StableHlo.after (hostOps11 (F := Ideal)) X (Proc.devRef .tc main_v218)) := by
  after_results_simp
  rfl

/-- The variance row the region of layer 3 reads. -/
theorem stretch11_var (X : Valuation τ sig (Elt Ideal)) :
    StableHlo.after (hostOps11 (F := Ideal)) X (Proc.devRef .tc main_v230)
      = VarK (StableHlo.after (hostOps11 (F := Ideal)) X (Proc.devRef .tc main_v218)) := by
  after_results_simp
  rfl

/-- The scale row the region of layer 3 reads. -/
theorem stretch11_scale (X : Valuation τ sig (Elt Ideal)) :
    StableHlo.after (hostOps11 (F := Ideal)) X (Proc.devRef .tc main_v233)
      = RowK (extractStridedSlice S1x64 ![3, 0] (X (Proc.devRef .tc main_arg6)) slices_S4x64_S1x64_3_0) := by
  after_results_simp
  rfl

/-- The shift row the region of layer 3 reads. -/
theorem stretch11_shift (X : Valuation τ sig (Elt Ideal)) :
    StableHlo.after (hostOps11 (F := Ideal)) X (Proc.devRef .tc main_v236)
      = RowK (extractStridedSlice S1x64 ![3, 0] (X (Proc.devRef .tc main_arg7)) slices_S4x64_S1x64_3_0) := by
  after_results_simp
  rfl

end Cert.MoNet

end
-- ==== Proof.FeatRegion6.lean ====
import proofs.«168295_j62088047231392_2_alg».proof.Proof.Gen.KernelIdeal.Frame
import proofs.«168295_j62088047231392_2_alg».proof.Proof.FeatPayload
import Idealize.ShloMosaic.Lib.Pipeline.Value

/-! # The featurize region 6: from the blocks to the array

The region runs over 400 points; point `t` reads rows `2000 t … 2000 t + 1999` of the pseudo-coordinates and the four
small parameter arrays whole, and writes the same rows of the `E × 3` output. Each written block is the block of
`FeatK` of the arrays as the region finds them, and the 400 blocks cover the output, so the output array ends at `FeatK`. -/

set_option maxRecDepth 16384

noncomputable section

namespace Cert.MoNet

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz6 : (![0, 0] : Fin 2 → Nat) = fun _ => 0 := funext fun a => by fin_cases a <;> rfl

/-- What the body stores is the stored block of region 0's body: the two bodies are the same term. -/
theorem out6_5_apply (x0 : Vec Ideal S2000x2 .f32) (x1 : Vec Ideal S2x2 .f32) (x2 : Vec Ideal S1x2 .f32) (x3 x4 : Vec Ideal S3x2 .f32)
    (r : Fin 2000) (k : Fin 3) :
    out6_5 x0 x1 x2 x3 x4 (ix2 r k) = featEntry (x0 (ix2 r 0)) (x0 (ix2 r 1)) x1 x2 x3 x4 k := by
  unfold out6_5
  rw [View.canon_unit_zero hz6]
  simp only [View.ld_unit_zero (S := S2000x2) hz6, View.ld_unit_zero (S := S2x2) hz6, View.ld_unit_zero (S := S1x2) hz6,
    View.ld_unit_zero (S := S3x2) hz6]
  exact featPay_apply x0 x1 x2 x3 x4 r k

/-- The printed index maps over the grid: the row windows sit at block `t`, the parameter windows at block `0`. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- A parameter window's block at any point is its whole array. -/
theorem iblk6_1_eq (c : Dev nD) (t : Fin cfg6.N) : (iblk6 V c 1 t : S2x2.Idx → EReal) = V c (Pipeline.arrRef spec6 1) := by
  obtain ⟨-, -, e0, e1, -⟩ := idx_facts6 t
  unfold iblk6
  funext y
  rw [View.read_apply]
  refine congrArg (V c (Pipeline.arrRef spec6 1)) (funext fun a => Fin.ext ?_)
  match a with
  | ⟨0, _⟩ => show win6_1.index t (0 : Fin 2) * 2 + 1 * (y 0).val = (y 0).val; omega
  | ⟨1, _⟩ => show win6_1.index t (1 : Fin 2) * 2 + 1 * (y 1).val = (y 1).val; omega
theorem iblk6_2_eq (c : Dev nD) (t : Fin cfg6.N) : (iblk6 V c 2 t : S1x2.Idx → EReal) = V c (Pipeline.arrRef spec6 2) := by
  obtain ⟨-, -, -, -, e0, e1, -⟩ := idx_facts6 t
  unfold iblk6
  funext y
  rw [View.read_apply]
  refine congrArg (V c (Pipeline.arrRef spec6 2)) (funext fun a => Fin.ext ?_)
  match a with
  | ⟨0, _⟩ => show win6_2.index t (0 : Fin 2) * 1 + 1 * (y 0).val = (y 0).val; omega
  | ⟨1, _⟩ => show win6_2.index t (1 : Fin 2) * 2 + 1 * (y 1).val = (y 1).val; omega
theorem iblk6_3_eq (c : Dev nD) (t : Fin cfg6.N) : (iblk6 V c 3 t : S3x2.Idx → EReal) = V c (Pipeline.arrRef spec6 3) := by
  obtain ⟨-, -, -, -, -, -, e0, e1, -⟩ := idx_facts6 t
  unfold iblk6
  funext y
  rw [View.read_apply]
  refine congrArg (V c (Pipeline.arrRef spec6 3)) (funext fun a => Fin.ext ?_)
  match a with
  | ⟨0, _⟩ => show win6_3.index t (0 : Fin 2) * 3 + 1 * (y 0).val = (y 0).val; omega
  | ⟨1, _⟩ => show win6_3.index t (1 : Fin 2) * 2 + 1 * (y 1).val = (y 1).val; omega
theorem iblk6_4_eq (c : Dev nD) (t : Fin cfg6.N) : (iblk6 V c 4 t : S3x2.Idx → EReal) = V c (Pipeline.arrRef spec6 4) := by
  obtain ⟨-, -, -, -, -, -, -, -, e0, e1, -⟩ := idx_facts6 t
  unfold iblk6
  funext y
  rw [View.read_apply]
  refine congrArg (V c (Pipeline.arrRef spec6 4)) (funext fun a => Fin.ext ?_)
  match a with
  | ⟨0, _⟩ => show win6_4.index t (0 : Fin 2) * 3 + 1 * (y 0).val = (y 0).val; omega
  | ⟨1, _⟩ => show win6_4.index t (1 : Fin 2) * 2 + 1 * (y 1).val = (y 1).val; omega

/-- Row `p` of the pseudo-coordinate window's block at point `t` is row `2000 t + p` of the array. -/
theorem iblk6_0_apply (c : Dev nD) (t : Fin cfg6.N) (p : Fin 2000) (j : Fin 2) (e : Fin 800000) (he : e.val = t.val * 2000 + p.val) :
    (iblk6 V c 0 t : S2000x2.Idx → EReal) (ix2 p j) = (V c (Pipeline.arrRef spec6 0) : S800000x2.Idx → EReal) (ix2 e j) := by
  obtain ⟨e0, e1, -⟩ := idx_facts6 t
  unfold iblk6
  rw [View.read_apply]
  refine congrArg (V c (Pipeline.arrRef spec6 0)) (funext fun a => Fin.ext ?_)
  match a with
  | ⟨0, _⟩ => show win6_0.index t (0 : Fin 2) * 2000 + 1 * p.val = e.val; omega
  | ⟨1, _⟩ => show win6_0.index t (1 : Fin 2) * 2 + 1 * j.val = j.val; omega

/-- Row `p`, column `q` of the output window's block at point `t` sits at row `2000 t + p`, column `q` of the array. -/
theorem blk6_5_emb (t : Fin cfg6.N) (p : Fin 2000) (q : Fin 3) (hlt : t.val * 2000 + p.val < 800000) :
    ((cfg6.win 5).blk t).view.emb (ix2 p q) = (ix2 ⟨t.val * 2000 + p.val, hlt⟩ q : S800000x3.Idx) := by
  obtain ⟨-, -, -, -, -, -, -, -, -, -, e50, e51⟩ := idx_facts6 t
  funext a; apply Fin.ext
  match a with
  | ⟨0, _⟩ => show win6_5.index t (0 : Fin 2) * 2000 + 1 * p.val = t.val * 2000 + p.val; omega
  | ⟨1, _⟩ => show win6_5.index t (1 : Fin 2) * 3 + 1 * q.val = q.val; omega

/-- The body's block at point `t`, in terms of the arrays: `featEntry` of row `2000 t + p` of the pseudo-coordinates. -/
theorem out6_5_iblk (c : Dev nD) (t : Fin cfg6.N) (p : Fin 2000) (q : Fin 3) (hlt : t.val * 2000 + p.val < 800000) :
    out6_5 (iblk6 V c 0 t) (iblk6 V c 1 t) (iblk6 V c 2 t) (iblk6 V c 3 t) (iblk6 V c 4 t) (ix2 p q)
      = FeatK (V c (Pipeline.arrRef spec6 0)) (V c (Pipeline.arrRef spec6 1)) (V c (Pipeline.arrRef spec6 2))
          (V c (Pipeline.arrRef spec6 3)) (V c (Pipeline.arrRef spec6 4)) (ix2 ⟨t.val * 2000 + p.val, hlt⟩ q) := by
  refine (out6_5_apply (iblk6 V c 0 t) (iblk6 V c 1 t) (iblk6 V c 2 t) (iblk6 V c 3 t) (iblk6 V c 4 t) p q).trans ?_
  rw [iblk6_1_eq V c t, iblk6_2_eq V c t, iblk6_3_eq V c t, iblk6_4_eq V c t]
  exact congrArg₂ (fun a b => featEntry a b _ _ _ _ q) (iblk6_0_apply V c t p 0 ⟨t.val * 2000 + p.val, hlt⟩ rfl)
    (iblk6_0_apply V c t p 1 ⟨t.val * 2000 + p.val, hlt⟩ rfl)

/-- WHAT POINT `t` WRITES BACK is block `t` of `FeatK` of the arrays as the region finds them. -/
theorem flushed6_eq (c : Dev nD) (t : Fin cfg6.N) :
    (dat6 (F := Ideal) V c).flushed 5 t = ((cfg6.win 5).blk t).view.read (Elt Ideal)
      (FeatK (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  have hN : cfg6.N = 400 := N_6
  funext y
  obtain ⟨p, q, rfl⟩ : ∃ (p : Fin 2000) (q : Fin 3), y = ix2 p q := ⟨y 0, y 1, eq_ix2 y⟩
  have hp : p.val < 2000 := p.isLt
  have ht : t.val < 400 := hN ▸ t.isLt
  have hlt : t.val * 2000 + p.val < 800000 := by omega
  refine (out6_5_iblk V c t p q hlt).trans ?_
  show _ = FeatK (V c (Pipeline.arrRef spec6 0)) (V c (Pipeline.arrRef spec6 1)) (V c (Pipeline.arrRef spec6 2))
    (V c (Pipeline.arrRef spec6 3)) (V c (Pipeline.arrRef spec6 4)) (((cfg6.win 5).blk t).view.emb (ix2 p q))
  rw [blk6_5_emb t p q hlt]

/-- An index of the output is in point `t`'s block iff each coordinate is in the block's range on its axis. -/
theorem mem_blk6 (t : Fin cfg6.N) (i : S800000x3.Idx) :
    i ∈ ((cfg6.win 5).blk t).view.set ↔ ∀ a : Fin 2, win6_5.index t a * S2000x3.size a ≤ (i a).val ∧ (i a).val < win6_5.index t a * S2000x3.size a + S2000x3.size a := by
  show i ∈ ((View.whole main_v147).slice (win6_5.rect t)).set ↔ _
  rw [View.set_slice_whole, Rect.mem_set_unit]
  exact Iff.rfl

/-- THE ARRAY after the region: `FeatK` of the arrays as the region finds them. -/
theorem final6 (c : Dev nD) :
    (dat6 (F := Ideal) V c).arrAt 5 cfg6.N
      = FeatK (V c (Pipeline.arrRef spec6 0)) (V c (Pipeline.arrRef spec6 1)) (V c (Pipeline.arrRef spec6 2))
          (V c (Pipeline.arrRef spec6 3)) (V c (Pipeline.arrRef spec6 4)) :=
  (dat6 (F := Ideal) V c).arrAt_eq_of_cover 5 _ (fun t _ => flushed6_eq V c t) fun i => by
    have hN : cfg6.N = 400 := N_6
    have hi0 : (i 0).val < 800000 := (i 0).isLt
    have hi1 : (i 1).val < 3 := (i 1).isLt
    refine ⟨⟨(i 0).val / 2000, by omega⟩, flush6_5 _, ?_⟩
    rw [mem_blk6]
    obtain ⟨-, -, -, -, -, -, -, -, -, -, e50, e51⟩ := idx_facts6 ⟨(i 0).val / 2000, by omega⟩
    intro a
    match a with
    | ⟨0, _⟩ => show win6_5.index _ (0 : Fin 2) * 2000 ≤ (i 0).val ∧ (i 0).val < win6_5.index _ (0 : Fin 2) * 2000 + 2000; rw [e50]; show (i 0).val / 2000 * 2000 ≤ _ ∧ _ < (i 0).val / 2000 * 2000 + 2000; omega
    | ⟨1, _⟩ => show win6_5.index _ (1 : Fin 2) * 3 ≤ (i 1).val ∧ (i 1).val < win6_5.index _ (1 : Fin 2) * 3 + 3; rw [e51]; omega

end Cert.MoNet
-- ==== Proof.BnRegion8.lean ====
/-
  The array the batch-normalisation region of layer 2 leaves. Its ten grid points each write back one block of 10000 rows
  and the blocks tile the 100000 rows. At point `t` the body's one store fills the output block with the body's arithmetic
  of the six input blocks; the two big inputs' blocks and the output's block are rows `10000·t …` of their arrays, and the
  four per-channel rows are whole at every point. So block `t` of the result is block `t` of `BnK` of the six arrays the
  region finds, and the array ends as `BnK` of them.
-/
import proofs.«168295_j62088047231392_2_alg».proof.Proof.Gen.KernelIdeal.Frame
import proofs.«168295_j62088047231392_2_alg».proof.Proof.BnPayload
import Idealize.ShloMosaic.Lib.Pipeline.Value
import Idealize.ShloMosaic.Lib.Tactic

noncomputable section

namespace Cert.MoNet

open Idealize.ShloMosaic Idealize.ShloMosaic.TcCoe Idealize.ShloMosaic.ValueIdx Idealize.SL.Sem
open Idealize.ShloMosaic.Pipeline (Dat)
open Cert.KernelIdeal Cert.KernelIdeal.Gen

namespace Bn8

variable (V : (c : Dev nD) → (b : Ref sig .tc) → Buf (Elt Ideal) ((c : Thread nD τ).loc b))

/-- Block indices over the grid: point `t` takes block `t` of rows of the two big inputs and of the output, and block
    `(0, 0)` of each per-channel row. -/
theorem block_indices : ∀ t : Fin cfg8.N,
    win8_0.index t (0 : Fin 2) = t.val ∧ win8_0.index t (1 : Fin 2) = 0
    ∧ win8_5.index t (0 : Fin 2) = t.val ∧ win8_5.index t (1 : Fin 2) = 0
    ∧ win8_6.index t (0 : Fin 2) = t.val ∧ win8_6.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- The body's one store fills the output block: what the body leaves there is its arithmetic of the six blocks. -/
theorem out_eq (x0 x5 : Vec Ideal S10000x64 .f32) (x1 x2 x3 x4 : Vec Ideal S1x64 .f32) :
    out8_6 (F := Ideal) x0 x1 x2 x3 x4 x5 = k2_pay1 (F := Ideal) x1 x2 x3 x4 x0 x5 := by
  unfold out8_6
  rw [View.canon_unit_zero zero_offsets]
  simp only [View.ld_unit_zero (S := S1x64) zero_offsets, View.ld_unit_zero (S := S10000x64) zero_offsets]
  rfl

set_option maxHeartbeats 4000000 in
/-- What point `t` writes back is block `t` of `BnK` of the arrays the region finds. -/
theorem flushed_eq (c : Dev nD) (t : Fin cfg8.N) :
    (dat8 (F := Ideal) V c).flushed 6 t = ((cfg8.win 6).blk t).view.read (Elt Ideal)
      (BnK (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  obtain ⟨e00, e01, e50, e51, e60, e61, e10, e11, e20, e21, e30, e31, e40, e41⟩ := block_indices t
  funext j
  refine (congrFun (after8_6 (F := Ideal) V c t) ((cfg8.win 6).xinj (grid8.coords t) j)).trans ?_
  refine (congrFun (out_eq (iblk8 (F := Ideal) V c 0 t) (iblk8 (F := Ideal) V c 5 t) (iblk8 (F := Ideal) V c 1 t) (iblk8 (F := Ideal) V c 2 t) (iblk8 (F := Ideal) V c 3 t) (iblk8 (F := Ideal) V c 4 t)) ((cfg8.win 6).xinj (grid8.coords t) j)).trans ?_
  show k2_pay1 (F := Ideal) (iblk8 (F := Ideal) V c 1 t) (iblk8 (F := Ideal) V c 2 t) (iblk8 (F := Ideal) V c 3 t) (iblk8 (F := Ideal) V c 4 t) (iblk8 (F := Ideal) V c 0 t) (iblk8 (F := Ideal) V c 5 t) j
    = BnK (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) (((cfg8.win 6).blk t).view.emb j)
  have hj0 : (j 0).val < 10000 := (j 0).isLt
  have hj1 : (j 1).val < 64 := (j 1).isLt
  have b0 : ((cfg8.win 0).blk t).view.emb j = ((cfg8.win 6).blk t).view.emb j := by
    funext a; apply Fin.ext
    match a with
    | ⟨0, _⟩ => show win8_0.index t (0 : Fin 2) * 10000 + 1 * (j 0).val = win8_6.index t (0 : Fin 2) * 10000 + 1 * (j 0).val; rw [e00, e60]
    | ⟨1, _⟩ => show win8_0.index t (1 : Fin 2) * 64 + 1 * (j 1).val = win8_6.index t (1 : Fin 2) * 64 + 1 * (j 1).val; rw [e01, e61]
  have b5 : ((cfg8.win 5).blk t).view.emb j = ((cfg8.win 6).blk t).view.emb j := by
    funext a; apply Fin.ext
    match a with
    | ⟨0, _⟩ => show win8_5.index t (0 : Fin 2) * 10000 + 1 * (j 0).val = win8_6.index t (0 : Fin 2) * 10000 + 1 * (j 0).val; rw [e50, e60]
    | ⟨1, _⟩ => show win8_5.index t (1 : Fin 2) * 64 + 1 * (j 1).val = win8_6.index t (1 : Fin 2) * 64 + 1 * (j 1).val; rw [e51, e61]
  refine bn_block (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))
    (iblk8 (F := Ideal) V c 1 t) (iblk8 (F := Ideal) V c 2 t) (iblk8 (F := Ideal) V c 3 t) (iblk8 (F := Ideal) V c 4 t) (iblk8 (F := Ideal) V c 0 t) (iblk8 (F := Ideal) V c 5 t) j
    (((cfg8.win 6).blk t).view.emb j) ?_ ?_ ?_ ?_ ?_ ?_ ?_
  · show win8_6.index t (1 : Fin 2) * 64 + 1 * (j 1).val = (j 1).val
    rw [e61]; omega
  · show V c (Pipeline.arrRef spec8 0) (((cfg8.win 0).blk t).view.emb j) = V c (Pipeline.arrRef spec8 0) (((cfg8.win 6).blk t).view.emb j)
    rw [b0]
  · show V c (Pipeline.arrRef spec8 5) (((cfg8.win 5).blk t).view.emb j) = V c (Pipeline.arrRef spec8 5) (((cfg8.win 6).blk t).view.emb j)
    rw [b5]
  · funext z
    show V c (Pipeline.arrRef spec8 1) (((cfg8.win 1).blk t).view.emb z) = V c (Pipeline.arrRef spec8 1) z
    refine congrArg (V c (Pipeline.arrRef spec8 1)) (funext fun a => Fin.ext ?_)
    match a with
    | ⟨0, _⟩ => show win8_1.index t (0 : Fin 2) * 1 + 1 * (z 0).val = (z 0).val; rw [e10]; omega
    | ⟨1, _⟩ => show win8_1.index t (1 : Fin 2) * 64 + 1 * (z 1).val = (z 1).val; rw [e11]; omega
  · funext z
    show V c (Pipeline.arrRef spec8 2) (((cfg8.win 2).blk t).view.emb z) = V c (Pipeline.arrRef spec8 2) z
    refine congrArg (V c (Pipeline.arrRef spec8 2)) (funext fun a => Fin.ext ?_)
    match a with
    | ⟨0, _⟩ => show win8_2.index t (0 : Fin 2) * 1 + 1 * (z 0).val = (z 0).val; rw [e20]; omega
    | ⟨1, _⟩ => show win8_2.index t (1 : Fin 2) * 64 + 1 * (z 1).val = (z 1).val; rw [e21]; omega
  · funext z
    show V c (Pipeline.arrRef spec8 3) (((cfg8.win 3).blk t).view.emb z) = V c (Pipeline.arrRef spec8 3) z
    refine congrArg (V c (Pipeline.arrRef spec8 3)) (funext fun a => Fin.ext ?_)
    match a with
    | ⟨0, _⟩ => show win8_3.index t (0 : Fin 2) * 1 + 1 * (z 0).val = (z 0).val; rw [e30]; omega
    | ⟨1, _⟩ => show win8_3.index t (1 : Fin 2) * 64 + 1 * (z 1).val = (z 1).val; rw [e31]; omega
  · funext z
    show V c (Pipeline.arrRef spec8 4) (((cfg8.win 4).blk t).view.emb z) = V c (Pipeline.arrRef spec8 4) z
    refine congrArg (V c (Pipeline.arrRef spec8 4)) (funext fun a => Fin.ext ?_)
    match a with
    | ⟨0, _⟩ => show win8_4.index t (0 : Fin 2) * 1 + 1 * (z 0).val = (z 0).val; rw [e40]; omega
    | ⟨1, _⟩ => show win8_4.index t (1 : Fin 2) * 64 + 1 * (z 1).val = (z 1).val; rw [e41]; omega

/-- An index of the output array is in point `t`'s block iff each coordinate is in the block's range on its axis. -/
theorem mem_blk (t : Fin cfg8.N) (i : S100000x64.Idx) :
    i ∈ ((cfg8.win 6).blk t).view.set ↔ ∀ a : Fin 2, win8_6.index t a * S10000x64.size a ≤ (i a).val ∧ (i a).val < win8_6.index t a * S10000x64.size a + S10000x64.size a := by
  show i ∈ ((View.whole main_v187).slice (win8_6.rect t)).set ↔ _
  rw [View.set_slice_whole, Rect.mem_set_unit]
  exact Iff.rfl

/-- Every row of the output is in the block of the point `row / 10000`. -/
theorem cover (i : S100000x64.Idx) : ∃ t : Fin cfg8.N, (cfg8.win 6).flush t = true ∧ i ∈ ((cfg8.win 6).blk t).view.set := by
  have hi0 : (i 0).val < 100000 := (i 0).isLt
  have hi1 : (i 1).val < 64 := (i 1).isLt
  have hN : grid8.N = 10 := N_8
  have ht : (i 0).val / 10000 < cfg8.N := by show _ < grid8.N; rw [hN]; omega
  obtain ⟨-, -, -, -, e60, e61, -⟩ := block_indices ⟨(i 0).val / 10000, ht⟩
  refine ⟨⟨(i 0).val / 10000, ht⟩, flush8_6 _, ?_⟩
  rw [mem_blk]
  intro a
  match a with
  | ⟨0, _⟩ =>
    show win8_6.index ⟨(i 0).val / 10000, ht⟩ (0 : Fin 2) * 10000 ≤ (i 0).val ∧ (i 0).val < win8_6.index ⟨(i 0).val / 10000, ht⟩ (0 : Fin 2) * 10000 + 10000
    rw [e60]; show (i 0).val / 10000 * 10000 ≤ (i 0).val ∧ (i 0).val < (i 0).val / 10000 * 10000 + 10000; omega
  | ⟨1, _⟩ =>
    show win8_6.index ⟨(i 0).val / 10000, ht⟩ (1 : Fin 2) * 64 ≤ (i 1).val ∧ (i 1).val < win8_6.index ⟨(i 0).val / 10000, ht⟩ (1 : Fin 2) * 64 + 64
    rw [e61]; omega

end Bn8

set_option maxHeartbeats 4000000 in
/-- The array after the region: `BnK` of the arrays the region finds (aggregated messages, mean, variance, scale, shift,
    the layer's input, in the windows' order). -/
theorem final8 (V : (c : Dev nD) → (b : Ref sig .tc) → Buf (Elt Ideal) ((c : Thread nD τ).loc b)) (c : Dev nD) :
    (dat8 (F := Ideal) V c).arrAt 6 cfg8.N
      = BnK (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5)) :=
  (dat8 (F := Ideal) V c).arrAt_eq_of_cover 6 _ (fun t _ => Bn8.flushed_eq V c t) Bn8.cover

end Cert.MoNet

end
-- ==== Proof.BnStretch8.lean ====
/-
  The host operations before the batch-normalisation region of layer 2, read at the four per-channel rows the region
  takes: the mean and the variance rows are `MeanK`, `VarK` of the aggregated messages the same operations leave, the scale
  and the shift rows are row 2 of the two parameter tables, sliced, flattened and laid out as 1×64 (`RowK`). Each is the
  operations' own composition, whatever the buffers held before.
-/
import proofs.«168295_j62088047231392_2_alg».proof.Proof.Gen.KernelIdeal.Launch
import proofs.«168295_j62088047231392_2_alg».proof.Proof.BnRef
import Idealize.ShloMosaic.Lib.StableHlo.Run

noncomputable section

namespace Cert.MoNet

open Idealize.ShloMosaic Idealize.ShloMosaic.TcCoe Idealize.ShloMosaic.StableHlo
open Cert.KernelIdeal Cert.KernelIdeal.Gen

/-- The mean row the region of layer 2 reads. -/
theorem stretch8_mean (X : Valuation τ sig (Elt Ideal)) :
    StableHlo.after (hostOps8 (F := Ideal)) X (Proc.devRef .tc main_v179)
      = MeanK (StableHlo.after (hostOps8 (F := Ideal)) X (Proc.devRef .tc main_v168)) := by
  after_results_simp
  rfl

/-- The variance row the region of layer 2 reads. -/
theorem stretch8_var (X : Valuation τ sig (Elt Ideal)) :
    StableHlo.after (hostOps8 (F := Ideal)) X (Proc.devRef .tc main_v180)
      = VarK (StableHlo.after (hostOps8 (F := Ideal)) X (Proc.devRef .tc main_v168)) := by
  after_results_simp
  rfl

/-- The scale row the region of layer 2 reads. -/
theorem stretch8_scale (X : Valuation τ sig (Elt Ideal)) :
    StableHlo.after (hostOps8 (F := Ideal)) X (Proc.devRef .tc main_v183)
      = RowK (extractStridedSlice S1x64 ![2, 0] (X (Proc.devRef .tc main_arg6)) slices_S4x64_S1x64_2_0) := by
  after_results_simp
  rfl

/-- The shift row the region of layer 2 reads. -/
theorem stretch8_shift (X : Valuation τ sig (Elt Ideal)) :
    StableHlo.after (hostOps8 (F := Ideal)) X (Proc.devRef .tc main_v186)
      = RowK (extractStridedSlice S1x64 ![2, 0] (X (Proc.devRef .tc main_arg7)) slices_S4x64_S1x64_2_0) := by
  after_results_simp
  rfl

end Cert.MoNet

end
-- ==== Proof.FeatRegion3.lean ====
import proofs.«168295_j62088047231392_2_alg».proof.Proof.Gen.KernelIdeal.Frame
import proofs.«168295_j62088047231392_2_alg».proof.Proof.FeatPayload
import Idealize.ShloMosaic.Lib.Pipeline.Value

/-! # The featurize region 3: from the blocks to the array

The region runs over 400 points; point `t` reads rows `2000 t … 2000 t + 1999` of the pseudo-coordinates and the four
small parameter arrays whole, and writes the same rows of the `E × 3` output. Each written block is the block of
`FeatK` of the arrays as the region finds them, and the 400 blocks cover the output, so the output array ends at `FeatK`. -/

set_option maxRecDepth 16384

noncomputable section

namespace Cert.MoNet

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- What the body stores is the stored block of region 0's body: the two bodies are the same term. -/
theorem out3_5_apply (x0 : Vec Ideal S2000x2 .f32) (x1 : Vec Ideal S2x2 .f32) (x2 : Vec Ideal S1x2 .f32) (x3 x4 : Vec Ideal S3x2 .f32)
    (r : Fin 2000) (k : Fin 3) :
    out3_5 x0 x1 x2 x3 x4 (ix2 r k) = featEntry (x0 (ix2 r 0)) (x0 (ix2 r 1)) x1 x2 x3 x4 k := by
  unfold out3_5
  rw [View.canon_unit_zero hz3]
  simp only [View.ld_unit_zero (S := S2000x2) hz3, View.ld_unit_zero (S := S2x2) hz3, View.ld_unit_zero (S := S1x2) hz3,
    View.ld_unit_zero (S := S3x2) hz3]
  exact featPay_apply x0 x1 x2 x3 x4 r k

/-- The printed index maps over the grid: the row windows sit at block `t`, the parameter windows at block `0`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A parameter window's block at any point is its whole array. -/
theorem iblk3_1_eq (c : Dev nD) (t : Fin cfg3.N) : (iblk3 V c 1 t : S2x2.Idx → EReal) = V c (Pipeline.arrRef spec3 1) := by
  obtain ⟨-, -, e0, e1, -⟩ := idx_facts3 t
  unfold iblk3
  funext y
  rw [View.read_apply]
  refine congrArg (V c (Pipeline.arrRef spec3 1)) (funext fun a => Fin.ext ?_)
  match a with
  | ⟨0, _⟩ => show win3_1.index t (0 : Fin 2) * 2 + 1 * (y 0).val = (y 0).val; omega
  | ⟨1, _⟩ => show win3_1.index t (1 : Fin 2) * 2 + 1 * (y 1).val = (y 1).val; omega
theorem iblk3_2_eq (c : Dev nD) (t : Fin cfg3.N) : (iblk3 V c 2 t : S1x2.Idx → EReal) = V c (Pipeline.arrRef spec3 2) := by
  obtain ⟨-, -, -, -, e0, e1, -⟩ := idx_facts3 t
  unfold iblk3
  funext y
  rw [View.read_apply]
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 2 + 1 * (y 1).val = (y 1).val; omega
theorem iblk3_3_eq (c : Dev nD) (t : Fin cfg3.N) : (iblk3 V c 3 t : S3x2.Idx → EReal) = V c (Pipeline.arrRef spec3 3) := by
  obtain ⟨-, -, -, -, -, -, e0, e1, -⟩ := idx_facts3 t
  unfold iblk3
  funext y
  rw [View.read_apply]
  refine congrArg (V c (Pipeline.arrRef spec3 3)) (funext fun a => Fin.ext ?_)
  match a with
  | ⟨0, _⟩ => show win3_3.index t (0 : Fin 2) * 3 + 1 * (y 0).val = (y 0).val; omega
  | ⟨1, _⟩ => show win3_3.index t (1 : Fin 2) * 2 + 1 * (y 1).val = (y 1).val; omega
theorem iblk3_4_eq (c : Dev nD) (t : Fin cfg3.N) : (iblk3 V c 4 t : S3x2.Idx → EReal) = V c (Pipeline.arrRef spec3 4) := by
  obtain ⟨-, -, -, -, -, -, -, -, e0, e1, -⟩ := idx_facts3 t
  unfold iblk3
  funext y
  rw [View.read_apply]
  refine congrArg (V c (Pipeline.arrRef spec3 4)) (funext fun a => Fin.ext ?_)
  match a with
  | ⟨0, _⟩ => show win3_4.index t (0 : Fin 2) * 3 + 1 * (y 0).val = (y 0).val; omega
  | ⟨1, _⟩ => show win3_4.index t (1 : Fin 2) * 2 + 1 * (y 1).val = (y 1).val; omega

/-- Row `p` of the pseudo-coordinate window's block at point `t` is row `2000 t + p` of the array. -/
theorem iblk3_0_apply (c : Dev nD) (t : Fin cfg3.N) (p : Fin 2000) (j : Fin 2) (e : Fin 800000) (he : e.val = t.val * 2000 + p.val) :
    (iblk3 V c 0 t : S2000x2.Idx → EReal) (ix2 p j) = (V c (Pipeline.arrRef spec3 0) : S800000x2.Idx → EReal) (ix2 e j) := by
  obtain ⟨e0, e1, -⟩ := idx_facts3 t
  unfold iblk3
  rw [View.read_apply]
  refine congrArg (V c (Pipeline.arrRef spec3 0)) (funext fun a => Fin.ext ?_)
  match a with
  | ⟨0, _⟩ => show win3_0.index t (0 : Fin 2) * 2000 + 1 * p.val = e.val; omega
  | ⟨1, _⟩ => show win3_0.index t (1 : Fin 2) * 2 + 1 * j.val = j.val; omega

/-- Row `p`, column `q` of the output window's block at point `t` sits at row `2000 t + p`, column `q` of the array. -/
theorem blk3_5_emb (t : Fin cfg3.N) (p : Fin 2000) (q : Fin 3) (hlt : t.val * 2000 + p.val < 800000) :
    ((cfg3.win 5).blk t).view.emb (ix2 p q) = (ix2 ⟨t.val * 2000 + p.val, hlt⟩ q : S800000x3.Idx) := by
  obtain ⟨-, -, -, -, -, -, -, -, -, -, e50, e51⟩ := idx_facts3 t
  funext a; apply Fin.ext
  match a with
  | ⟨0, _⟩ => show win3_5.index t (0 : Fin 2) * 2000 + 1 * p.val = t.val * 2000 + p.val; omega
  | ⟨1, _⟩ => show win3_5.index t (1 : Fin 2) * 3 + 1 * q.val = q.val; omega

/-- The body's block at point `t`, in terms of the arrays: `featEntry` of row `2000 t + p` of the pseudo-coordinates. -/
theorem out3_5_iblk (c : Dev nD) (t : Fin cfg3.N) (p : Fin 2000) (q : Fin 3) (hlt : t.val * 2000 + p.val < 800000) :
    out3_5 (iblk3 V c 0 t) (iblk3 V c 1 t) (iblk3 V c 2 t) (iblk3 V c 3 t) (iblk3 V c 4 t) (ix2 p q)
      = FeatK (V c (Pipeline.arrRef spec3 0)) (V c (Pipeline.arrRef spec3 1)) (V c (Pipeline.arrRef spec3 2))
          (V c (Pipeline.arrRef spec3 3)) (V c (Pipeline.arrRef spec3 4)) (ix2 ⟨t.val * 2000 + p.val, hlt⟩ q) := by
  refine (out3_5_apply (iblk3 V c 0 t) (iblk3 V c 1 t) (iblk3 V c 2 t) (iblk3 V c 3 t) (iblk3 V c 4 t) p q).trans ?_
  rw [iblk3_1_eq V c t, iblk3_2_eq V c t, iblk3_3_eq V c t, iblk3_4_eq V c t]
  exact congrArg₂ (fun a b => featEntry a b _ _ _ _ q) (iblk3_0_apply V c t p 0 ⟨t.val * 2000 + p.val, hlt⟩ rfl)
    (iblk3_0_apply V c t p 1 ⟨t.val * 2000 + p.val, hlt⟩ rfl)

/-- WHAT POINT `t` WRITES BACK is block `t` of `FeatK` of the arrays as the region finds them. -/
theorem flushed3_eq (c : Dev nD) (t : Fin cfg3.N) :
    (dat3 (F := Ideal) V c).flushed 5 t = ((cfg3.win 5).blk t).view.read (Elt Ideal)
      (FeatK (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  have hN : cfg3.N = 400 := N_3
  funext y
  obtain ⟨p, q, rfl⟩ : ∃ (p : Fin 2000) (q : Fin 3), y = ix2 p q := ⟨y 0, y 1, eq_ix2 y⟩
  have hp : p.val < 2000 := p.isLt
  have ht : t.val < 400 := hN ▸ t.isLt
  have hlt : t.val * 2000 + p.val < 800000 := by omega
  refine (out3_5_iblk V c t p q hlt).trans ?_
  show _ = FeatK (V c (Pipeline.arrRef spec3 0)) (V c (Pipeline.arrRef spec3 1)) (V c (Pipeline.arrRef spec3 2))
    (V c (Pipeline.arrRef spec3 3)) (V c (Pipeline.arrRef spec3 4)) (((cfg3.win 5).blk t).view.emb (ix2 p q))
  rw [blk3_5_emb t p q hlt]

/-- An index of the output is in point `t`'s block iff each coordinate is in the block's range on its axis. -/
theorem mem_blk3 (t : Fin cfg3.N) (i : S800000x3.Idx) :
    i ∈ ((cfg3.win 5).blk t).view.set ↔ ∀ a : Fin 2, win3_5.index t a * S2000x3.size a ≤ (i a).val ∧ (i a).val < win3_5.index t a * S2000x3.size a + S2000x3.size a := by
  show i ∈ ((View.whole main_v97).slice (win3_5.rect t)).set ↔ _
  rw [View.set_slice_whole, Rect.mem_set_unit]
  exact Iff.rfl

/-- THE ARRAY after the region: `FeatK` of the arrays as the region finds them. -/
theorem final3 (c : Dev nD) :
    (dat3 (F := Ideal) V c).arrAt 5 cfg3.N
      = FeatK (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed3_eq V c t) fun i => by
    have hN : cfg3.N = 400 := N_3
    have hi0 : (i 0).val < 800000 := (i 0).isLt
    have hi1 : (i 1).val < 3 := (i 1).isLt
    refine ⟨⟨(i 0).val / 2000, by omega⟩, flush3_5 _, ?_⟩
    rw [mem_blk3]
    obtain ⟨-, -, -, -, -, -, -, -, -, -, e50, e51⟩ := idx_facts3 ⟨(i 0).val / 2000, by omega⟩
    intro a
    match a with
    | ⟨0, _⟩ => show win3_5.index _ (0 : Fin 2) * 2000 ≤ (i 0).val ∧ (i 0).val < win3_5.index _ (0 : Fin 2) * 2000 + 2000; rw [e50]; show (i 0).val / 2000 * 2000 ≤ _ ∧ _ < (i 0).val / 2000 * 2000 + 2000; omega
    | ⟨1, _⟩ => show win3_5.index _ (1 : Fin 2) * 3 ≤ (i 1).val ∧ (i 1).val < win3_5.index _ (1 : Fin 2) * 3 + 3; rw [e51]; omega

end Cert.MoNet
-- ==== Proof.BnRegion5.lean ====
/-
  The array the batch-normalisation region of layer 1 leaves. Its ten grid points each write back one block of 10000 rows
  and the blocks tile the 100000 rows. At point `t` the body's one store fills the output block with the body's arithmetic
  of the six input blocks; the two big inputs' blocks and the output's block are rows `10000·t …` of their arrays, and the
  four per-channel rows are whole at every point. So block `t` of the result is block `t` of `BnK` of the six arrays the
  region finds, and the array ends as `BnK` of them.
-/
import proofs.«168295_j62088047231392_2_alg».proof.Proof.Gen.KernelIdeal.Frame
import proofs.«168295_j62088047231392_2_alg».proof.Proof.BnPayload
import Idealize.ShloMosaic.Lib.Pipeline.Value
import Idealize.ShloMosaic.Lib.Tactic

noncomputable section

namespace Cert.MoNet

open Idealize.ShloMosaic Idealize.ShloMosaic.TcCoe Idealize.ShloMosaic.ValueIdx Idealize.SL.Sem
open Idealize.ShloMosaic.Pipeline (Dat)
open Cert.KernelIdeal Cert.KernelIdeal.Gen

namespace Bn5

variable (V : (c : Dev nD) → (b : Ref sig .tc) → Buf (Elt Ideal) ((c : Thread nD τ).loc b))

/-- Block indices over the grid: point `t` takes block `t` of rows of the two big inputs and of the output, and block
    `(0, 0)` of each per-channel row. -/
theorem block_indices : ∀ t : Fin cfg5.N,
    win5_0.index t (0 : Fin 2) = t.val ∧ win5_0.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The body's one store fills the output block: what the body leaves there is its arithmetic of the six blocks. -/
theorem out_eq (x0 x5 : Vec Ideal S10000x64 .f32) (x1 x2 x3 x4 : Vec Ideal S1x64 .f32) :
    out5_6 (F := Ideal) x0 x1 x2 x3 x4 x5 = k2_pay1 (F := Ideal) x1 x2 x3 x4 x0 x5 := by
  unfold out5_6
  rw [View.canon_unit_zero zero_offsets]
  simp only [View.ld_unit_zero (S := S1x64) zero_offsets, View.ld_unit_zero (S := S10000x64) zero_offsets]
  rfl

set_option maxHeartbeats 4000000 in
/-- What point `t` writes back is block `t` of `BnK` of the arrays the region finds. -/
theorem flushed_eq (c : Dev nD) (t : Fin cfg5.N) :
    (dat5 (F := Ideal) V c).flushed 6 t = ((cfg5.win 6).blk t).view.read (Elt Ideal)
      (BnK (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  obtain ⟨e00, e01, e50, e51, e60, e61, e10, e11, e20, e21, e30, e31, e40, e41⟩ := block_indices t
  funext j
  refine (congrFun (after5_6 (F := Ideal) V c t) ((cfg5.win 6).xinj (grid5.coords t) j)).trans ?_
  refine (congrFun (out_eq (iblk5 (F := Ideal) V c 0 t) (iblk5 (F := Ideal) V c 5 t) (iblk5 (F := Ideal) V c 1 t) (iblk5 (F := Ideal) V c 2 t) (iblk5 (F := Ideal) V c 3 t) (iblk5 (F := Ideal) V c 4 t)) ((cfg5.win 6).xinj (grid5.coords t) j)).trans ?_
  show k2_pay1 (F := Ideal) (iblk5 (F := Ideal) V c 1 t) (iblk5 (F := Ideal) V c 2 t) (iblk5 (F := Ideal) V c 3 t) (iblk5 (F := Ideal) V c 4 t) (iblk5 (F := Ideal) V c 0 t) (iblk5 (F := Ideal) V c 5 t) j
    = BnK (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (((cfg5.win 6).blk t).view.emb j)
  have hj0 : (j 0).val < 10000 := (j 0).isLt
  have hj1 : (j 1).val < 64 := (j 1).isLt
  have b0 : ((cfg5.win 0).blk t).view.emb j = ((cfg5.win 6).blk t).view.emb j := by
    funext a; apply Fin.ext
    match a with
    | ⟨0, _⟩ => show win5_0.index t (0 : Fin 2) * 10000 + 1 * (j 0).val = win5_6.index t (0 : Fin 2) * 10000 + 1 * (j 0).val; rw [e00, e60]
    | ⟨1, _⟩ => show win5_0.index t (1 : Fin 2) * 64 + 1 * (j 1).val = win5_6.index t (1 : Fin 2) * 64 + 1 * (j 1).val; rw [e01, e61]
  have b5 : ((cfg5.win 5).blk t).view.emb j = ((cfg5.win 6).blk t).view.emb j := by
    funext a; apply Fin.ext
    match a with
    | ⟨0, _⟩ => show win5_5.index t (0 : Fin 2) * 10000 + 1 * (j 0).val = win5_6.index t (0 : Fin 2) * 10000 + 1 * (j 0).val; rw [e50, e60]
    | ⟨1, _⟩ => show win5_5.index t (1 : Fin 2) * 64 + 1 * (j 1).val = win5_6.index t (1 : Fin 2) * 64 + 1 * (j 1).val; rw [e51, e61]
  refine bn_block (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (iblk5 (F := Ideal) V c 1 t) (iblk5 (F := Ideal) V c 2 t) (iblk5 (F := Ideal) V c 3 t) (iblk5 (F := Ideal) V c 4 t) (iblk5 (F := Ideal) V c 0 t) (iblk5 (F := Ideal) V c 5 t) j
    (((cfg5.win 6).blk t).view.emb j) ?_ ?_ ?_ ?_ ?_ ?_ ?_
  · show win5_6.index t (1 : Fin 2) * 64 + 1 * (j 1).val = (j 1).val
    rw [e61]; omega
  · show V c (Pipeline.arrRef spec5 0) (((cfg5.win 0).blk t).view.emb j) = V c (Pipeline.arrRef spec5 0) (((cfg5.win 6).blk t).view.emb j)
    rw [b0]
  · show V c (Pipeline.arrRef spec5 5) (((cfg5.win 5).blk t).view.emb j) = V c (Pipeline.arrRef spec5 5) (((cfg5.win 6).blk t).view.emb j)
    rw [b5]
  · funext z
    show V c (Pipeline.arrRef spec5 1) (((cfg5.win 1).blk t).view.emb z) = V c (Pipeline.arrRef spec5 1) z
    refine congrArg (V c (Pipeline.arrRef spec5 1)) (funext fun a => Fin.ext ?_)
    match a with
    | ⟨0, _⟩ => show win5_1.index t (0 : Fin 2) * 1 + 1 * (z 0).val = (z 0).val; rw [e10]; omega
    | ⟨1, _⟩ => show win5_1.index t (1 : Fin 2) * 64 + 1 * (z 1).val = (z 1).val; rw [e11]; omega
  · funext z
    show V c (Pipeline.arrRef spec5 2) (((cfg5.win 2).blk t).view.emb z) = V c (Pipeline.arrRef spec5 2) z
    refine congrArg (V c (Pipeline.arrRef spec5 2)) (funext fun a => Fin.ext ?_)
    match a with
    | ⟨0, _⟩ => show win5_2.index t (0 : Fin 2) * 1 + 1 * (z 0).val = (z 0).val; rw [e20]; omega
    | ⟨1, _⟩ => show win5_2.index t (1 : Fin 2) * 64 + 1 * (z 1).val = (z 1).val; rw [e21]; omega
  · funext z
    show V c (Pipeline.arrRef spec5 3) (((cfg5.win 3).blk t).view.emb z) = V c (Pipeline.arrRef spec5 3) z
    refine congrArg (V c (Pipeline.arrRef spec5 3)) (funext fun a => Fin.ext ?_)
    match a with
    | ⟨0, _⟩ => show win5_3.index t (0 : Fin 2) * 1 + 1 * (z 0).val = (z 0).val; rw [e30]; omega
    | ⟨1, _⟩ => show win5_3.index t (1 : Fin 2) * 64 + 1 * (z 1).val = (z 1).val; rw [e31]; omega
  · funext z
    show V c (Pipeline.arrRef spec5 4) (((cfg5.win 4).blk t).view.emb z) = V c (Pipeline.arrRef spec5 4) z
    refine congrArg (V c (Pipeline.arrRef spec5 4)) (funext fun a => Fin.ext ?_)
    match a with
    | ⟨0, _⟩ => show win5_4.index t (0 : Fin 2) * 1 + 1 * (z 0).val = (z 0).val; rw [e40]; omega
    | ⟨1, _⟩ => show win5_4.index t (1 : Fin 2) * 64 + 1 * (z 1).val = (z 1).val; rw [e41]; omega

/-- An index of the output array is in point `t`'s block iff each coordinate is in the block's range on its axis. -/
theorem mem_blk (t : Fin cfg5.N) (i : S100000x64.Idx) :
    i ∈ ((cfg5.win 6).blk t).view.set ↔ ∀ a : Fin 2, win5_6.index t a * S10000x64.size a ≤ (i a).val ∧ (i a).val < win5_6.index t a * S10000x64.size a + S10000x64.size a := by
  show i ∈ ((View.whole main_v137).slice (win5_6.rect t)).set ↔ _
  rw [View.set_slice_whole, Rect.mem_set_unit]
  exact Iff.rfl

/-- Every row of the output is in the block of the point `row / 10000`. -/
theorem cover (i : S100000x64.Idx) : ∃ t : Fin cfg5.N, (cfg5.win 6).flush t = true ∧ i ∈ ((cfg5.win 6).blk t).view.set := by
  have hi0 : (i 0).val < 100000 := (i 0).isLt
  have hi1 : (i 1).val < 64 := (i 1).isLt
  have hN : grid5.N = 10 := N_5
  have ht : (i 0).val / 10000 < cfg5.N := by show _ < grid5.N; rw [hN]; omega
  obtain ⟨-, -, -, -, e60, e61, -⟩ := block_indices ⟨(i 0).val / 10000, ht⟩
  refine ⟨⟨(i 0).val / 10000, ht⟩, flush5_6 _, ?_⟩
  rw [mem_blk]
  intro a
  match a with
  | ⟨0, _⟩ =>
    show win5_6.index ⟨(i 0).val / 10000, ht⟩ (0 : Fin 2) * 10000 ≤ (i 0).val ∧ (i 0).val < win5_6.index ⟨(i 0).val / 10000, ht⟩ (0 : Fin 2) * 10000 + 10000
    rw [e60]; show (i 0).val / 10000 * 10000 ≤ (i 0).val ∧ (i 0).val < (i 0).val / 10000 * 10000 + 10000; omega
  | ⟨1, _⟩ =>
    show win5_6.index ⟨(i 0).val / 10000, ht⟩ (1 : Fin 2) * 64 ≤ (i 1).val ∧ (i 1).val < win5_6.index ⟨(i 0).val / 10000, ht⟩ (1 : Fin 2) * 64 + 64
    rw [e61]; omega

end Bn5

set_option maxHeartbeats 4000000 in
/-- The array after the region: `BnK` of the arrays the region finds (aggregated messages, mean, variance, scale, shift,
    the layer's input, in the windows' order). -/
theorem final5 (V : (c : Dev nD) → (b : Ref sig .tc) → Buf (Elt Ideal) ((c : Thread nD τ).loc b)) (c : Dev nD) :
    (dat5 (F := Ideal) V c).arrAt 6 cfg5.N
      = BnK (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 (F := Ideal) V c).arrAt_eq_of_cover 6 _ (fun t _ => Bn5.flushed_eq V c t) Bn5.cover

end Cert.MoNet

end
-- ==== Proof.BnStretch5.lean ====
/-
  The host operations before the batch-normalisation region of layer 1, read at the four per-channel rows the region
  takes: the mean and the variance rows are `MeanK`, `VarK` of the aggregated messages the same operations leave, the scale
  and the shift rows are row 1 of the two parameter tables, sliced, flattened and laid out as 1×64 (`RowK`). Each is the
  operations' own composition, whatever the buffers held before.
-/
import proofs.«168295_j62088047231392_2_alg».proof.Proof.Gen.KernelIdeal.Launch
import proofs.«168295_j62088047231392_2_alg».proof.Proof.BnRef
import Idealize.ShloMosaic.Lib.StableHlo.Run

noncomputable section

namespace Cert.MoNet

open Idealize.ShloMosaic Idealize.ShloMosaic.TcCoe Idealize.ShloMosaic.StableHlo
open Cert.KernelIdeal Cert.KernelIdeal.Gen

/-- The mean row the region of layer 1 reads. -/
theorem stretch5_mean (X : Valuation τ sig (Elt Ideal)) :
    StableHlo.after (hostOps5 (F := Ideal)) X (Proc.devRef .tc main_v129)
      = MeanK (StableHlo.after (hostOps5 (F := Ideal)) X (Proc.devRef .tc main_v118)) := by
  after_results_simp
  rfl

/-- The variance row the region of layer 1 reads. -/
theorem stretch5_var (X : Valuation τ sig (Elt Ideal)) :
    StableHlo.after (hostOps5 (F := Ideal)) X (Proc.devRef .tc main_v130)
      = VarK (StableHlo.after (hostOps5 (F := Ideal)) X (Proc.devRef .tc main_v118)) := by
  after_results_simp
  rfl

/-- The scale row the region of layer 1 reads. -/
theorem stretch5_scale (X : Valuation τ sig (Elt Ideal)) :
    StableHlo.after (hostOps5 (F := Ideal)) X (Proc.devRef .tc main_v133)
      = RowK (extractStridedSlice S1x64 ![1, 0] (X (Proc.devRef .tc main_arg6)) slices_S4x64_S1x64_1_0) := by
  after_results_simp
  rfl

/-- The shift row the region of layer 1 reads. -/
theorem stretch5_shift (X : Valuation τ sig (Elt Ideal)) :
    StableHlo.after (hostOps5 (F := Ideal)) X (Proc.devRef .tc main_v136)
      = RowK (extractStridedSlice S1x64 ![1, 0] (X (Proc.devRef .tc main_arg7)) slices_S4x64_S1x64_1_0) := by
  after_results_simp
  rfl

end Cert.MoNet

end
-- ==== Proof.FeatRegion0.lean ====
import proofs.«168295_j62088047231392_2_alg».proof.Proof.Gen.KernelIdeal.Frame
import proofs.«168295_j62088047231392_2_alg».proof.Proof.FeatPayload
import Idealize.ShloMosaic.Lib.Pipeline.Value

/-! # The featurize region 0: from the blocks to the array

The region runs over 400 points; point `t` reads rows `2000 t … 2000 t + 1999` of the pseudo-coordinates and the four
small parameter arrays whole, and writes the same rows of the `E × 3` output. Each written block is the block of
`FeatK` of the arrays as the region finds them, and the 400 blocks cover the output, so the output array ends at `FeatK`. -/

set_option maxRecDepth 16384

noncomputable section

namespace Cert.MoNet

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- What the body stores is the stored block of region 0's body: the two bodies are the same term. -/
theorem out0_5_apply (x0 : Vec Ideal S2000x2 .f32) (x1 : Vec Ideal S2x2 .f32) (x2 : Vec Ideal S1x2 .f32) (x3 x4 : Vec Ideal S3x2 .f32)
    (r : Fin 2000) (k : Fin 3) :
    out0_5 x0 x1 x2 x3 x4 (ix2 r k) = featEntry (x0 (ix2 r 0)) (x0 (ix2 r 1)) x1 x2 x3 x4 k := by
  unfold out0_5
  rw [View.canon_unit_zero hz0]
  simp only [View.ld_unit_zero (S := S2000x2) hz0, View.ld_unit_zero (S := S2x2) hz0, View.ld_unit_zero (S := S1x2) hz0,
    View.ld_unit_zero (S := S3x2) hz0]
  exact featPay_apply x0 x1 x2 x3 x4 r k

/-- The printed index maps over the grid: the row windows sit at block `t`, the parameter windows at block `0`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A parameter window's block at any point is its whole array. -/
theorem iblk0_1_eq (c : Dev nD) (t : Fin cfg0.N) : (iblk0 V c 1 t : S2x2.Idx → EReal) = V c (Pipeline.arrRef spec0 1) := by
  obtain ⟨-, -, e0, e1, -⟩ := idx_facts0 t
  unfold iblk0
  funext y
  rw [View.read_apply]
  refine congrArg (V c (Pipeline.arrRef spec0 1)) (funext fun a => Fin.ext ?_)
  match a with
  | ⟨0, _⟩ => show win0_1.index t (0 : Fin 2) * 2 + 1 * (y 0).val = (y 0).val; omega
  | ⟨1, _⟩ => show win0_1.index t (1 : Fin 2) * 2 + 1 * (y 1).val = (y 1).val; omega
theorem iblk0_2_eq (c : Dev nD) (t : Fin cfg0.N) : (iblk0 V c 2 t : S1x2.Idx → EReal) = V c (Pipeline.arrRef spec0 2) := by
  obtain ⟨-, -, -, -, e0, e1, -⟩ := idx_facts0 t
  unfold iblk0
  funext y
  rw [View.read_apply]
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 2 + 1 * (y 1).val = (y 1).val; omega
theorem iblk0_3_eq (c : Dev nD) (t : Fin cfg0.N) : (iblk0 V c 3 t : S3x2.Idx → EReal) = V c (Pipeline.arrRef spec0 3) := by
  obtain ⟨-, -, -, -, -, -, e0, e1, -⟩ := idx_facts0 t
  unfold iblk0
  funext y
  rw [View.read_apply]
  refine congrArg (V c (Pipeline.arrRef spec0 3)) (funext fun a => Fin.ext ?_)
  match a with
  | ⟨0, _⟩ => show win0_3.index t (0 : Fin 2) * 3 + 1 * (y 0).val = (y 0).val; omega
  | ⟨1, _⟩ => show win0_3.index t (1 : Fin 2) * 2 + 1 * (y 1).val = (y 1).val; omega
theorem iblk0_4_eq (c : Dev nD) (t : Fin cfg0.N) : (iblk0 V c 4 t : S3x2.Idx → EReal) = V c (Pipeline.arrRef spec0 4) := by
  obtain ⟨-, -, -, -, -, -, -, -, e0, e1, -⟩ := idx_facts0 t
  unfold iblk0
  funext y
  rw [View.read_apply]
  refine congrArg (V c (Pipeline.arrRef spec0 4)) (funext fun a => Fin.ext ?_)
  match a with
  | ⟨0, _⟩ => show win0_4.index t (0 : Fin 2) * 3 + 1 * (y 0).val = (y 0).val; omega
  | ⟨1, _⟩ => show win0_4.index t (1 : Fin 2) * 2 + 1 * (y 1).val = (y 1).val; omega

/-- Row `p` of the pseudo-coordinate window's block at point `t` is row `2000 t + p` of the array. -/
theorem iblk0_0_apply (c : Dev nD) (t : Fin cfg0.N) (p : Fin 2000) (j : Fin 2) (e : Fin 800000) (he : e.val = t.val * 2000 + p.val) :
    (iblk0 V c 0 t : S2000x2.Idx → EReal) (ix2 p j) = (V c (Pipeline.arrRef spec0 0) : S800000x2.Idx → EReal) (ix2 e j) := by
  obtain ⟨e0, e1, -⟩ := idx_facts0 t
  unfold iblk0
  rw [View.read_apply]
  refine congrArg (V c (Pipeline.arrRef spec0 0)) (funext fun a => Fin.ext ?_)
  match a with
  | ⟨0, _⟩ => show win0_0.index t (0 : Fin 2) * 2000 + 1 * p.val = e.val; omega
  | ⟨1, _⟩ => show win0_0.index t (1 : Fin 2) * 2 + 1 * j.val = j.val; omega

/-- Row `p`, column `q` of the output window's block at point `t` sits at row `2000 t + p`, column `q` of the array. -/
theorem blk0_5_emb (t : Fin cfg0.N) (p : Fin 2000) (q : Fin 3) (hlt : t.val * 2000 + p.val < 800000) :
    ((cfg0.win 5).blk t).view.emb (ix2 p q) = (ix2 ⟨t.val * 2000 + p.val, hlt⟩ q : S800000x3.Idx) := by
  obtain ⟨-, -, -, -, -, -, -, -, -, -, e50, e51⟩ := idx_facts0 t
  funext a; apply Fin.ext
  match a with
  | ⟨0, _⟩ => show win0_5.index t (0 : Fin 2) * 2000 + 1 * p.val = t.val * 2000 + p.val; omega
  | ⟨1, _⟩ => show win0_5.index t (1 : Fin 2) * 3 + 1 * q.val = q.val; omega

/-- The body's block at point `t`, in terms of the arrays: `featEntry` of row `2000 t + p` of the pseudo-coordinates. -/
theorem out0_5_iblk (c : Dev nD) (t : Fin cfg0.N) (p : Fin 2000) (q : Fin 3) (hlt : t.val * 2000 + p.val < 800000) :
    out0_5 (iblk0 V c 0 t) (iblk0 V c 1 t) (iblk0 V c 2 t) (iblk0 V c 3 t) (iblk0 V c 4 t) (ix2 p q)
      = FeatK (V c (Pipeline.arrRef spec0 0)) (V c (Pipeline.arrRef spec0 1)) (V c (Pipeline.arrRef spec0 2))
          (V c (Pipeline.arrRef spec0 3)) (V c (Pipeline.arrRef spec0 4)) (ix2 ⟨t.val * 2000 + p.val, hlt⟩ q) := by
  refine (out0_5_apply (iblk0 V c 0 t) (iblk0 V c 1 t) (iblk0 V c 2 t) (iblk0 V c 3 t) (iblk0 V c 4 t) p q).trans ?_
  rw [iblk0_1_eq V c t, iblk0_2_eq V c t, iblk0_3_eq V c t, iblk0_4_eq V c t]
  exact congrArg₂ (fun a b => featEntry a b _ _ _ _ q) (iblk0_0_apply V c t p 0 ⟨t.val * 2000 + p.val, hlt⟩ rfl)
    (iblk0_0_apply V c t p 1 ⟨t.val * 2000 + p.val, hlt⟩ rfl)

/-- WHAT POINT `t` WRITES BACK is block `t` of `FeatK` of the arrays as the region finds them. -/
theorem flushed0_eq (c : Dev nD) (t : Fin cfg0.N) :
    (dat0 (F := Ideal) V c).flushed 5 t = ((cfg0.win 5).blk t).view.read (Elt Ideal)
      (FeatK (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  have hN : cfg0.N = 400 := N_0
  funext y
  obtain ⟨p, q, rfl⟩ : ∃ (p : Fin 2000) (q : Fin 3), y = ix2 p q := ⟨y 0, y 1, eq_ix2 y⟩
  have hp : p.val < 2000 := p.isLt
  have ht : t.val < 400 := hN ▸ t.isLt
  have hlt : t.val * 2000 + p.val < 800000 := by omega
  refine (out0_5_iblk V c t p q hlt).trans ?_
  show _ = FeatK (V c (Pipeline.arrRef spec0 0)) (V c (Pipeline.arrRef spec0 1)) (V c (Pipeline.arrRef spec0 2))
    (V c (Pipeline.arrRef spec0 3)) (V c (Pipeline.arrRef spec0 4)) (((cfg0.win 5).blk t).view.emb (ix2 p q))
  rw [blk0_5_emb t p q hlt]

/-- An index of the output is in point `t`'s block iff each coordinate is in the block's range on its axis. -/
theorem mem_blk0 (t : Fin cfg0.N) (i : S800000x3.Idx) :
    i ∈ ((cfg0.win 5).blk t).view.set ↔ ∀ a : Fin 2, win0_5.index t a * S2000x3.size a ≤ (i a).val ∧ (i a).val < win0_5.index t a * S2000x3.size a + S2000x3.size a := by
  show i ∈ ((View.whole main_v47).slice (win0_5.rect t)).set ↔ _
  rw [View.set_slice_whole, Rect.mem_set_unit]
  exact Iff.rfl

/-- THE ARRAY after the region: `FeatK` of the arrays as the region finds them. -/
theorem final0 (c : Dev nD) :
    (dat0 (F := Ideal) V c).arrAt 5 cfg0.N
      = FeatK (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed0_eq V c t) fun i => by
    have hN : cfg0.N = 400 := N_0
    have hi0 : (i 0).val < 800000 := (i 0).isLt
    have hi1 : (i 1).val < 3 := (i 1).isLt
    refine ⟨⟨(i 0).val / 2000, by omega⟩, flush0_5 _, ?_⟩
    rw [mem_blk0]
    obtain ⟨-, -, -, -, -, -, -, -, -, -, e50, e51⟩ := idx_facts0 ⟨(i 0).val / 2000, by omega⟩
    intro a
    match a with
    | ⟨0, _⟩ => show win0_5.index _ (0 : Fin 2) * 2000 ≤ (i 0).val ∧ (i 0).val < win0_5.index _ (0 : Fin 2) * 2000 + 2000; rw [e50]; show (i 0).val / 2000 * 2000 ≤ _ ∧ _ < (i 0).val / 2000 * 2000 + 2000; omega
    | ⟨1, _⟩ => show win0_5.index _ (1 : Fin 2) * 3 ≤ (i 1).val ∧ (i 1).val < win0_5.index _ (1 : Fin 2) * 3 + 3; rw [e51]; omega

end Cert.MoNet
-- ==== Proof.BnRegion2.lean ====
/-
  The array the batch-normalisation region of layer 0 leaves. Its ten grid points each write back one block of 10000 rows
  and the blocks tile the 100000 rows. At point `t` the body's one store fills the output block with the body's arithmetic
  of the six input blocks; the two big inputs' blocks and the output's block are rows `10000·t …` of their arrays, and the
  four per-channel rows are whole at every point. So block `t` of the result is block `t` of `BnK` of the six arrays the
  region finds, and the array ends as `BnK` of them.
-/
import proofs.«168295_j62088047231392_2_alg».proof.Proof.Gen.KernelIdeal.Frame
import proofs.«168295_j62088047231392_2_alg».proof.Proof.BnPayload
import Idealize.ShloMosaic.Lib.Pipeline.Value
import Idealize.ShloMosaic.Lib.Tactic

noncomputable section

namespace Cert.MoNet

open Idealize.ShloMosaic Idealize.ShloMosaic.TcCoe Idealize.ShloMosaic.ValueIdx Idealize.SL.Sem
open Idealize.ShloMosaic.Pipeline (Dat)
open Cert.KernelIdeal Cert.KernelIdeal.Gen

namespace Bn2

variable (V : (c : Dev nD) → (b : Ref sig .tc) → Buf (Elt Ideal) ((c : Thread nD τ).loc b))

/-- Block indices over the grid: point `t` takes block `t` of rows of the two big inputs and of the output, and block
    `(0, 0)` of each per-channel row. -/
theorem block_indices : ∀ t : Fin cfg2.N,
    win2_0.index t (0 : Fin 2) = t.val ∧ win2_0.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The body's one store fills the output block: what the body leaves there is its arithmetic of the six blocks. -/
theorem out_eq (x0 x5 : Vec Ideal S10000x64 .f32) (x1 x2 x3 x4 : Vec Ideal S1x64 .f32) :
    out2_6 (F := Ideal) x0 x1 x2 x3 x4 x5 = k2_pay1 (F := Ideal) x1 x2 x3 x4 x0 x5 := by
  unfold out2_6
  rw [View.canon_unit_zero zero_offsets]
  simp only [View.ld_unit_zero (S := S1x64) zero_offsets, View.ld_unit_zero (S := S10000x64) zero_offsets]

set_option maxHeartbeats 4000000 in
/-- What point `t` writes back is block `t` of `BnK` of the arrays the region finds. -/
theorem flushed_eq (c : Dev nD) (t : Fin cfg2.N) :
    (dat2 (F := Ideal) V c).flushed 6 t = ((cfg2.win 6).blk t).view.read (Elt Ideal)
      (BnK (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  obtain ⟨e00, e01, e50, e51, e60, e61, e10, e11, e20, e21, e30, e31, e40, e41⟩ := block_indices t
  funext j
  refine (congrFun (after2_6 (F := Ideal) V c t) ((cfg2.win 6).xinj (grid2.coords t) j)).trans ?_
  refine (congrFun (out_eq (iblk2 (F := Ideal) V c 0 t) (iblk2 (F := Ideal) V c 5 t) (iblk2 (F := Ideal) V c 1 t) (iblk2 (F := Ideal) V c 2 t) (iblk2 (F := Ideal) V c 3 t) (iblk2 (F := Ideal) V c 4 t)) ((cfg2.win 6).xinj (grid2.coords t) j)).trans ?_
  show k2_pay1 (F := Ideal) (iblk2 (F := Ideal) V c 1 t) (iblk2 (F := Ideal) V c 2 t) (iblk2 (F := Ideal) V c 3 t) (iblk2 (F := Ideal) V c 4 t) (iblk2 (F := Ideal) V c 0 t) (iblk2 (F := Ideal) V c 5 t) j
    = BnK (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (((cfg2.win 6).blk t).view.emb j)
  have hj0 : (j 0).val < 10000 := (j 0).isLt
  have hj1 : (j 1).val < 64 := (j 1).isLt
  have b0 : ((cfg2.win 0).blk t).view.emb j = ((cfg2.win 6).blk t).view.emb j := by
    funext a; apply Fin.ext
    match a with
    | ⟨0, _⟩ => show win2_0.index t (0 : Fin 2) * 10000 + 1 * (j 0).val = win2_6.index t (0 : Fin 2) * 10000 + 1 * (j 0).val; rw [e00, e60]
    | ⟨1, _⟩ => show win2_0.index t (1 : Fin 2) * 64 + 1 * (j 1).val = win2_6.index t (1 : Fin 2) * 64 + 1 * (j 1).val; rw [e01, e61]
  have b5 : ((cfg2.win 5).blk t).view.emb j = ((cfg2.win 6).blk t).view.emb j := by
    funext a; apply Fin.ext
    match a with
    | ⟨0, _⟩ => show win2_5.index t (0 : Fin 2) * 10000 + 1 * (j 0).val = win2_6.index t (0 : Fin 2) * 10000 + 1 * (j 0).val; rw [e50, e60]
    | ⟨1, _⟩ => show win2_5.index t (1 : Fin 2) * 64 + 1 * (j 1).val = win2_6.index t (1 : Fin 2) * 64 + 1 * (j 1).val; rw [e51, e61]
  refine bn_block (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (iblk2 (F := Ideal) V c 1 t) (iblk2 (F := Ideal) V c 2 t) (iblk2 (F := Ideal) V c 3 t) (iblk2 (F := Ideal) V c 4 t) (iblk2 (F := Ideal) V c 0 t) (iblk2 (F := Ideal) V c 5 t) j
    (((cfg2.win 6).blk t).view.emb j) ?_ ?_ ?_ ?_ ?_ ?_ ?_
  · show win2_6.index t (1 : Fin 2) * 64 + 1 * (j 1).val = (j 1).val
    rw [e61]; omega
  · show V c (Pipeline.arrRef spec2 0) (((cfg2.win 0).blk t).view.emb j) = V c (Pipeline.arrRef spec2 0) (((cfg2.win 6).blk t).view.emb j)
    rw [b0]
  · show V c (Pipeline.arrRef spec2 5) (((cfg2.win 5).blk t).view.emb j) = V c (Pipeline.arrRef spec2 5) (((cfg2.win 6).blk t).view.emb j)
    rw [b5]
  · funext z
    show V c (Pipeline.arrRef spec2 1) (((cfg2.win 1).blk t).view.emb z) = V c (Pipeline.arrRef spec2 1) z
    refine congrArg (V c (Pipeline.arrRef spec2 1)) (funext fun a => Fin.ext ?_)
    match a with
    | ⟨0, _⟩ => show win2_1.index t (0 : Fin 2) * 1 + 1 * (z 0).val = (z 0).val; rw [e10]; omega
    | ⟨1, _⟩ => show win2_1.index t (1 : Fin 2) * 64 + 1 * (z 1).val = (z 1).val; rw [e11]; omega
  · funext z
    show V c (Pipeline.arrRef spec2 2) (((cfg2.win 2).blk t).view.emb z) = V c (Pipeline.arrRef spec2 2) z
    refine congrArg (V c (Pipeline.arrRef spec2 2)) (funext fun a => Fin.ext ?_)
    match a with
    | ⟨0, _⟩ => show win2_2.index t (0 : Fin 2) * 1 + 1 * (z 0).val = (z 0).val; rw [e20]; omega
    | ⟨1, _⟩ => show win2_2.index t (1 : Fin 2) * 64 + 1 * (z 1).val = (z 1).val; rw [e21]; omega
  · funext z
    show V c (Pipeline.arrRef spec2 3) (((cfg2.win 3).blk t).view.emb z) = V c (Pipeline.arrRef spec2 3) z
    refine congrArg (V c (Pipeline.arrRef spec2 3)) (funext fun a => Fin.ext ?_)
    match a with
    | ⟨0, _⟩ => show win2_3.index t (0 : Fin 2) * 1 + 1 * (z 0).val = (z 0).val; rw [e30]; omega
    | ⟨1, _⟩ => show win2_3.index t (1 : Fin 2) * 64 + 1 * (z 1).val = (z 1).val; rw [e31]; omega
  · funext z
    show V c (Pipeline.arrRef spec2 4) (((cfg2.win 4).blk t).view.emb z) = V c (Pipeline.arrRef spec2 4) z
    refine congrArg (V c (Pipeline.arrRef spec2 4)) (funext fun a => Fin.ext ?_)
    match a with
    | ⟨0, _⟩ => show win2_4.index t (0 : Fin 2) * 1 + 1 * (z 0).val = (z 0).val; rw [e40]; omega
    | ⟨1, _⟩ => show win2_4.index t (1 : Fin 2) * 64 + 1 * (z 1).val = (z 1).val; rw [e41]; omega

/-- An index of the output array is in point `t`'s block iff each coordinate is in the block's range on its axis. -/
theorem mem_blk (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v87).slice (win2_6.rect t)).set ↔ _
  rw [View.set_slice_whole, Rect.mem_set_unit]
  exact Iff.rfl

/-- Every row of the output is in the block of the point `row / 10000`. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : grid2.N = 10 := N_2
  have ht : (i 0).val / 10000 < cfg2.N := by show _ < grid2.N; rw [hN]; omega
  obtain ⟨-, -, -, -, e60, e61, -⟩ := block_indices ⟨(i 0).val / 10000, ht⟩
  refine ⟨⟨(i 0).val / 10000, ht⟩, flush2_6 _, ?_⟩
  rw [mem_blk]
  intro a
  match a with
  | ⟨0, _⟩ =>
    show win2_6.index ⟨(i 0).val / 10000, ht⟩ (0 : Fin 2) * 10000 ≤ (i 0).val ∧ (i 0).val < win2_6.index ⟨(i 0).val / 10000, ht⟩ (0 : Fin 2) * 10000 + 10000
    rw [e60]; show (i 0).val / 10000 * 10000 ≤ (i 0).val ∧ (i 0).val < (i 0).val / 10000 * 10000 + 10000; omega
  | ⟨1, _⟩ =>
    show win2_6.index ⟨(i 0).val / 10000, ht⟩ (1 : Fin 2) * 64 ≤ (i 1).val ∧ (i 1).val < win2_6.index ⟨(i 0).val / 10000, ht⟩ (1 : Fin 2) * 64 + 64
    rw [e61]; omega

end Bn2

set_option maxHeartbeats 4000000 in
/-- The array after the region: `BnK` of the arrays the region finds (aggregated messages, mean, variance, scale, shift,
    the layer's input, in the windows' order). -/
theorem final2 (V : (c : Dev nD) → (b : Ref sig .tc) → Buf (Elt Ideal) ((c : Thread nD τ).loc b)) (c : Dev nD) :
    (dat2 (F := Ideal) V c).arrAt 6 cfg2.N
      = BnK (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 (F := Ideal) V c).arrAt_eq_of_cover 6 _ (fun t _ => Bn2.flushed_eq V c t) Bn2.cover

end Cert.MoNet

end
-- ==== Proof.BnStretch2.lean ====
/-
  The host operations before the batch-normalisation region of layer 0, read at the four per-channel rows the region
  takes: the mean and the variance rows are `MeanK`, `VarK` of the aggregated messages the same operations leave, the scale
  and the shift rows are row 0 of the two parameter tables, sliced, flattened and laid out as 1×64 (`RowK`). Each is the
  operations' own composition, whatever the buffers held before.
-/
import proofs.«168295_j62088047231392_2_alg».proof.Proof.Gen.KernelIdeal.Launch
import proofs.«168295_j62088047231392_2_alg».proof.Proof.BnRef
import Idealize.ShloMosaic.Lib.StableHlo.Run

noncomputable section

namespace Cert.MoNet

open Idealize.ShloMosaic Idealize.ShloMosaic.TcCoe Idealize.ShloMosaic.StableHlo
open Cert.KernelIdeal Cert.KernelIdeal.Gen

/-- The mean row the region of layer 0 reads. -/
theorem stretch2_mean (X : Valuation τ sig (Elt Ideal)) :
    StableHlo.after (hostOps2 (F := Ideal)) X (Proc.devRef .tc main_v79)
      = MeanK (StableHlo.after (hostOps2 (F := Ideal)) X (Proc.devRef .tc main_v68)) := by
  after_results_simp
  rfl

/-- The variance row the region of layer 0 reads. -/
theorem stretch2_var (X : Valuation τ sig (Elt Ideal)) :
    StableHlo.after (hostOps2 (F := Ideal)) X (Proc.devRef .tc main_v80)
      = VarK (StableHlo.after (hostOps2 (F := Ideal)) X (Proc.devRef .tc main_v68)) := by
  after_results_simp
  rfl

/-- The scale row the region of layer 0 reads. -/
theorem stretch2_scale (X : Valuation τ sig (Elt Ideal)) :
    StableHlo.after (hostOps2 (F := Ideal)) X (Proc.devRef .tc main_v83)
      = RowK (extractStridedSlice S1x64 ![0, 0] (X (Proc.devRef .tc main_arg6)) slices_S4x64_S1x64_0_0) := by
  after_results_simp
  rfl

/-- The shift row the region of layer 0 reads. -/
theorem stretch2_shift (X : Valuation τ sig (Elt Ideal)) :
    StableHlo.after (hostOps2 (F := Ideal)) X (Proc.devRef .tc main_v86)
      = RowK (extractStridedSlice S1x64 ![0, 0] (X (Proc.devRef .tc main_arg7)) slices_S4x64_S1x64_0_0) := by
  after_results_simp
  rfl

end Cert.MoNet

end
-- ==== Proof.KLayer0.lean ====
/-
  Layer 0 of the network on the kernel's side, buffer by buffer, against the reference's values of the same
  arguments.  The mixture weights gauss[e,k] (the featurize region of its input arrays, which the host stretch before
  it cuts out of the arguments), the projected features hp = h·Wᵀ re-laid as [node, kernel, channel] (the matmul
  region), the aggregate agg[n,c] = Σ over the edges into n and the kernels k of hp[src e, k, c]·gauss[e,k] (host
  operations; the kernel sums over k before it scatters, the reference after: the same finite sum), and the next
  features h + relu(batch-norm(agg)) (the batch-norm region; mean and variance over the nodes are the same host
  chain of agg on both sides).  Each step rewrites the buffers a stretch or a region reads to what they held where
  they were written.
-/
import proofs.«168295_j62088047231392_2_alg».proof.Proof.Gen.KernelIdeal.Frame
import proofs.«168295_j62088047231392_2_alg».proof.Proof.RefRead
import proofs.«168295_j62088047231392_2_alg».proof.Proof.KeepArgsA
import proofs.«168295_j62088047231392_2_alg».proof.Proof.KeepArgsB
import proofs.«168295_j62088047231392_2_alg».proof.Proof.KeepBufs
import proofs.«168295_j62088047231392_2_alg».proof.Proof.KPrefix
import proofs.«168295_j62088047231392_2_alg».proof.Proof.FeatRegion0
import proofs.«168295_j62088047231392_2_alg».proof.Proof.FeatStretch
import proofs.«168295_j62088047231392_2_alg».proof.Proof.FeatRef
import proofs.«168295_j62088047231392_2_alg».proof.Proof.HpLayer
import proofs.«168295_j62088047231392_2_alg».proof.Proof.HpRefLayers
import proofs.«168295_j62088047231392_2_alg».proof.Proof.AggLayer
import proofs.«168295_j62088047231392_2_alg».proof.Proof.BnRegion2
import proofs.«168295_j62088047231392_2_alg».proof.Proof.BnStretch2
import proofs.«168295_j62088047231392_2_alg».proof.Proof.BnRef

set_option maxRecDepth 16384

noncomputable section

namespace Cert.MoNet.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The mixture weights of layer 0. -/
theorem gauss0 (c : Dev nD) :
    W2 m ρ c (Proc.devRef .tc main_v47) = Cert.ReferenceIdeal.ReadP.val_main_v70 (F := Ideal) (m ((c : Thread nD τ).loc main_arg1)) (m ((c : Thread nD τ).loc main_arg4)) (m ((c : Thread nD τ).loc main_arg5)) (m ((c : Thread nD τ).loc main_arg8)) (m ((c : Thread nD τ).loc main_arg9)) := by
  refine (W2_arr m ρ c 5).trans ((Cert.MoNet.final0 (V1 m ρ) c).trans ?_)
  show Cert.MoNet.FeatK (StableHlo.after (hostOps0 (F := Ideal)) (W0 m ρ c) (Proc.devRef .tc main_v30)) (StableHlo.after (hostOps0 (F := Ideal)) (W0 m ρ c) (Proc.devRef .tc main_v39)) (StableHlo.after (hostOps0 (F := Ideal)) (W0 m ρ c) (Proc.devRef .tc main_v42)) (StableHlo.after (hostOps0 (F := Ideal)) (W0 m ρ c) (Proc.devRef .tc main_v44)) (StableHlo.after (hostOps0 (F := Ideal)) (W0 m ρ c) (Proc.devRef .tc main_v46)) = _
  rw [Cert.MoNet.feat_stretch_w_l0, Cert.MoNet.feat_stretch_b_l0, Cert.MoNet.feat_stretch_mu_l0, Cert.MoNet.feat_stretch_isig_l0]
  rw [show (StableHlo.after (hostOps0 (F := Ideal)) (W0 m ρ c) (Proc.devRef .tc main_v30)) = Cert.ReferenceIdeal.ReadP.val_main_v30 (F := Ideal) (m ((c : Thread nD τ).loc main_arg1)) from Cert.MoNet.Prefix.ps_eq m ρ c]
  refine (Cert.MoNet.feat_eq _ _ _ _ _ _ _ _ _ _).trans ?_
  exact (Cert.MoNet.ref_feat_l0 _ _ _ _ _).symm

/-- The projected features of layer 0, re-laid as [node, kernel, channel]. -/
theorem hp0 (c : Dev nD) :
    (fun i => shapeCast S100000x3x64 (W4 m ρ c (Proc.devRef .tc main_v53)) Facts₀.shapeCasts_S100000x192_S100000x3x64 i)
      = Cert.ReferenceIdeal.ReadP.val_main_v52 (F := Ideal) (m ((c : Thread nD τ).loc main_arg0)) (m ((c : Thread nD τ).loc main_arg2)) (m ((c : Thread nD τ).loc main_arg3)) := by
  rw [show W4 m ρ c (Proc.devRef .tc main_v53) = (dat1 (V3 m ρ) c).arrAt 2 cfg1.N from W4_arr m ρ c 2]
  refine (Cert.MoNet.hp_layer1 (W2 m ρ) c).trans ?_
  rw [show W2 m ρ c (Proc.devRef .tc main_v37) = Cert.ReferenceIdeal.ReadP.val_main_v37 (F := Ideal) (m ((c : Thread nD τ).loc main_arg0)) (m ((c : Thread nD τ).loc main_arg2)) from ((Cert.MoNet.Keep.keep_v37_2 m ρ c).trans (Cert.MoNet.Prefix.h0_eq m ρ c)), Cert.MoNet.Keep.keep_arg3_2]
  exact (Cert.MoNet.ref_hp_l0 _ _ _).symm

/-- The aggregate of layer 0. -/
theorem agg0 (c : Dev nD) :
    (StableHlo.after (hostOps2 (F := Ideal)) (W4 m ρ c) (Proc.devRef .tc main_v68)) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) :=
  Cert.MoNet.agg_layer0 (W4 m ρ c) _ _ _ _ _ _ _ _ (hp0 m ρ c)
    ((Cert.MoNet.Keep.keep_v47_4 m ρ c).trans (gauss0 m ρ c))
    ((Cert.MoNet.Keep.keep_v1_4 m ρ c).trans (Cert.MoNet.Prefix.src_eq m ρ c))
    ((Cert.MoNet.Keep.keep_v3_4 m ρ c).trans (Cert.MoNet.Prefix.dst_eq m ρ c))

/-- The node features after layer 0. -/
theorem out0 (c : Dev nD) :
    W6 m ρ c (Proc.devRef .tc main_v87) = Cert.ReferenceIdeal.ReadP.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 6).trans ((Cert.MoNet.final2 (V5 m ρ) c).trans ?_)
  show Cert.MoNet.BnK (StableHlo.after (hostOps2 (F := Ideal)) (W4 m ρ c) (Proc.devRef .tc main_v68)) (StableHlo.after (hostOps2 (F := Ideal)) (W4 m ρ c) (Proc.devRef .tc main_v79)) (StableHlo.after (hostOps2 (F := Ideal)) (W4 m ρ c) (Proc.devRef .tc main_v80)) (StableHlo.after (hostOps2 (F := Ideal)) (W4 m ρ c) (Proc.devRef .tc main_v83)) (StableHlo.after (hostOps2 (F := Ideal)) (W4 m ρ c) (Proc.devRef .tc main_v86)) (StableHlo.after (hostOps2 (F := Ideal)) (W4 m ρ c) (Proc.devRef .tc main_v37)) = _
  rw [Cert.MoNet.stretch2_mean, Cert.MoNet.stretch2_var, Cert.MoNet.stretch2_scale, Cert.MoNet.stretch2_shift]
  rw [agg0 m ρ c]
  rw [show (StableHlo.after (hostOps2 (F := Ideal)) (W4 m ρ c) (Proc.devRef .tc main_v37)) = Cert.ReferenceIdeal.ReadP.val_main_v37 (F := Ideal) (m ((c : Thread nD τ).loc main_arg0)) (m ((c : Thread nD τ).loc main_arg2)) from ((Cert.MoNet.Keep.keep_v37_5 m ρ c).trans (Cert.MoNet.Prefix.h0_eq m ρ c))]
  rw [Cert.MoNet.Keep.keep_arg6_4, Cert.MoNet.Keep.keep_arg7_4]
  refine (Cert.MoNet.bn_eq _ _ _ _).trans ?_
  exact (Cert.MoNet.ref_bn_l0 _ _ _ _ _ _ _ _ _ _).symm

end Cert.MoNet.Chain

end
-- ==== Proof.KLayer1.lean ====
/-
  Layer 1 of the network on the kernel's side, buffer by buffer, against the reference's values of the same
  arguments.  The mixture weights gauss[e,k] (the featurize region of its input arrays, which the host stretch before
  it cuts out of the arguments), the projected features hp = h·Wᵀ re-laid as [node, kernel, channel] (the matmul
  region), the aggregate agg[n,c] = Σ over the edges into n and the kernels k of hp[src e, k, c]·gauss[e,k] (host
  operations; the kernel sums over k before it scatters, the reference after: the same finite sum), and the next
  features h + relu(batch-norm(agg)) (the batch-norm region; mean and variance over the nodes are the same host
  chain of agg on both sides).  Each step rewrites the buffers a stretch or a region reads to what they held where
  they were written.
-/
import proofs.«168295_j62088047231392_2_alg».proof.Proof.Gen.KernelIdeal.Frame
import proofs.«168295_j62088047231392_2_alg».proof.Proof.RefRead
import proofs.«168295_j62088047231392_2_alg».proof.Proof.KeepArgsA
import proofs.«168295_j62088047231392_2_alg».proof.Proof.KeepArgsB
import proofs.«168295_j62088047231392_2_alg».proof.Proof.KeepBufs
import proofs.«168295_j62088047231392_2_alg».proof.Proof.KPrefix
import proofs.«168295_j62088047231392_2_alg».proof.Proof.FeatRegion3
import proofs.«168295_j62088047231392_2_alg».proof.Proof.FeatStretch
import proofs.«168295_j62088047231392_2_alg».proof.Proof.FeatRef
import proofs.«168295_j62088047231392_2_alg».proof.Proof.HpLayer
import proofs.«168295_j62088047231392_2_alg».proof.Proof.HpRefLayers
import proofs.«168295_j62088047231392_2_alg».proof.Proof.AggLayer
import proofs.«168295_j62088047231392_2_alg».proof.Proof.BnRegion5
import proofs.«168295_j62088047231392_2_alg».proof.Proof.BnStretch5
import proofs.«168295_j62088047231392_2_alg».proof.Proof.BnRef
import proofs.«168295_j62088047231392_2_alg».proof.Proof.KLayer0

set_option maxRecDepth 16384

noncomputable section

namespace Cert.MoNet.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The mixture weights of layer 1. -/
theorem gauss1 (c : Dev nD) :
    W8 m ρ c (Proc.devRef .tc main_v97) = Cert.ReferenceIdeal.ReadP.val_main_v148 (F := Ideal) (m ((c : Thread nD τ).loc main_arg1)) (m ((c : Thread nD τ).loc main_arg4)) (m ((c : Thread nD τ).loc main_arg5)) (m ((c : Thread nD τ).loc main_arg8)) (m ((c : Thread nD τ).loc main_arg9)) := by
  refine (W8_arr m ρ c 5).trans ((Cert.MoNet.final3 (V7 m ρ) c).trans ?_)
  show Cert.MoNet.FeatK (StableHlo.after (hostOps3 (F := Ideal)) (W6 m ρ c) (Proc.devRef .tc main_v30)) (StableHlo.after (hostOps3 (F := Ideal)) (W6 m ρ c) (Proc.devRef .tc main_v89)) (StableHlo.after (hostOps3 (F := Ideal)) (W6 m ρ c) (Proc.devRef .tc main_v92)) (StableHlo.after (hostOps3 (F := Ideal)) (W6 m ρ c) (Proc.devRef .tc main_v94)) (StableHlo.after (hostOps3 (F := Ideal)) (W6 m ρ c) (Proc.devRef .tc main_v96)) = _
  rw [Cert.MoNet.feat_stretch_w_l1, Cert.MoNet.feat_stretch_b_l1, Cert.MoNet.feat_stretch_mu_l1, Cert.MoNet.feat_stretch_isig_l1]
  rw [show (StableHlo.after (hostOps3 (F := Ideal)) (W6 m ρ c) (Proc.devRef .tc main_v30)) = Cert.ReferenceIdeal.ReadP.val_main_v30 (F := Ideal) (m ((c : Thread nD τ).loc main_arg1)) from (Cert.MoNet.Keep.keep_v30_7 m ρ c).trans (Cert.MoNet.Prefix.ps_eq m ρ c)]
  rw [Cert.MoNet.Keep.keep_arg8_6, Cert.MoNet.Keep.keep_arg9_6, Cert.MoNet.Keep.keep_arg4_6, Cert.MoNet.Keep.keep_arg5_6]
  refine (Cert.MoNet.feat_eq _ _ _ _ _ _ _ _ _ _).trans ?_
  exact (Cert.MoNet.ref_feat_l1 _ _ _ _ _).symm

/-- The projected features of layer 1, re-laid as [node, kernel, channel]. -/
theorem hp1 (c : Dev nD) :
    (fun i => shapeCast S100000x3x64 (W10 m ρ c (Proc.devRef .tc main_v103)) Facts₀.shapeCasts_S100000x192_S100000x3x64 i)
      = Cert.ReferenceIdeal.ReadP.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W10 m ρ c (Proc.devRef .tc main_v103) = (dat4 (V9 m ρ) c).arrAt 2 cfg4.N from W10_arr m ρ c 2]
  refine (Cert.MoNet.hp_layer4 (W8 m ρ) c).trans ?_
  rw [show W8 m ρ c (Proc.devRef .tc main_v87) = Cert.ReferenceIdeal.ReadP.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) from ((Cert.MoNet.Keep.keep_v87_8 m ρ c).trans (Cert.MoNet.Chain.out0 m ρ c)), Cert.MoNet.Keep.keep_arg3_8]
  exact (Cert.MoNet.ref_hp_l1 _ _ _ _ _ _ _ _ _ _).symm

/-- The aggregate of layer 1. -/
theorem agg1 (c : Dev nD) :
    (StableHlo.after (hostOps5 (F := Ideal)) (W10 m ρ c) (Proc.devRef .tc main_v118)) = Cert.ReferenceIdeal.ReadP.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  Cert.MoNet.agg_layer1 (W10 m ρ c) _ _ _ _ _ _ _ _ _ _ (hp1 m ρ c)
    ((Cert.MoNet.Keep.keep_v97_10 m ρ c).trans (gauss1 m ρ c))
    ((Cert.MoNet.Keep.keep_v1_10 m ρ c).trans (Cert.MoNet.Prefix.src_eq m ρ c))
    ((Cert.MoNet.Keep.keep_v3_10 m ρ c).trans (Cert.MoNet.Prefix.dst_eq m ρ c))

/-- The node features after layer 1. -/
theorem out1 (c : Dev nD) :
    W12 m ρ c (Proc.devRef .tc main_v137) = Cert.ReferenceIdeal.ReadP.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 6).trans ((Cert.MoNet.final5 (V11 m ρ) c).trans ?_)
  show Cert.MoNet.BnK (StableHlo.after (hostOps5 (F := Ideal)) (W10 m ρ c) (Proc.devRef .tc main_v118)) (StableHlo.after (hostOps5 (F := Ideal)) (W10 m ρ c) (Proc.devRef .tc main_v129)) (StableHlo.after (hostOps5 (F := Ideal)) (W10 m ρ c) (Proc.devRef .tc main_v130)) (StableHlo.after (hostOps5 (F := Ideal)) (W10 m ρ c) (Proc.devRef .tc main_v133)) (StableHlo.after (hostOps5 (F := Ideal)) (W10 m ρ c) (Proc.devRef .tc main_v136)) (StableHlo.after (hostOps5 (F := Ideal)) (W10 m ρ c) (Proc.devRef .tc main_v87)) = _
  rw [Cert.MoNet.stretch5_mean, Cert.MoNet.stretch5_var, Cert.MoNet.stretch5_scale, Cert.MoNet.stretch5_shift]
  rw [agg1 m ρ c]
  rw [show (StableHlo.after (hostOps5 (F := Ideal)) (W10 m ρ c) (Proc.devRef .tc main_v87)) = Cert.ReferenceIdeal.ReadP.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) from ((Cert.MoNet.Keep.keep_v87_11 m ρ c).trans (Cert.MoNet.Chain.out0 m ρ c))]
  rw [Cert.MoNet.Keep.keep_arg6_10, Cert.MoNet.Keep.keep_arg7_10]
  refine (Cert.MoNet.bn_eq _ _ _ _).trans ?_
  exact (Cert.MoNet.ref_bn_l1 _ _ _ _ _ _ _ _ _ _).symm

end Cert.MoNet.Chain

end
-- ==== Proof.KLayer2.lean ====
/-
  Layer 2 of the network on the kernel's side, buffer by buffer, against the reference's values of the same
  arguments.  The mixture weights gauss[e,k] (the featurize region of its input arrays, which the host stretch before
  it cuts out of the arguments), the projected features hp = h·Wᵀ re-laid as [node, kernel, channel] (the matmul
  region), the aggregate agg[n,c] = Σ over the edges into n and the kernels k of hp[src e, k, c]·gauss[e,k] (host
  operations; the kernel sums over k before it scatters, the reference after: the same finite sum), and the next
  features h + relu(batch-norm(agg)) (the batch-norm region; mean and variance over the nodes are the same host
  chain of agg on both sides).  Each step rewrites the buffers a stretch or a region reads to what they held where
  they were written.
-/
import proofs.«168295_j62088047231392_2_alg».proof.Proof.Gen.KernelIdeal.Frame
import proofs.«168295_j62088047231392_2_alg».proof.Proof.RefRead
import proofs.«168295_j62088047231392_2_alg».proof.Proof.KeepArgsA
import proofs.«168295_j62088047231392_2_alg».proof.Proof.KeepArgsB
import proofs.«168295_j62088047231392_2_alg».proof.Proof.KeepBufs
import proofs.«168295_j62088047231392_2_alg».proof.Proof.KPrefix
import proofs.«168295_j62088047231392_2_alg».proof.Proof.FeatRegion6
import proofs.«168295_j62088047231392_2_alg».proof.Proof.FeatStretch
import proofs.«168295_j62088047231392_2_alg».proof.Proof.FeatRef
import proofs.«168295_j62088047231392_2_alg».proof.Proof.HpLayer
import proofs.«168295_j62088047231392_2_alg».proof.Proof.HpRefLayers
import proofs.«168295_j62088047231392_2_alg».proof.Proof.AggLayer
import proofs.«168295_j62088047231392_2_alg».proof.Proof.BnRegion8
import proofs.«168295_j62088047231392_2_alg».proof.Proof.BnStretch8
import proofs.«168295_j62088047231392_2_alg».proof.Proof.BnRef
import proofs.«168295_j62088047231392_2_alg».proof.Proof.KLayer1

set_option maxRecDepth 16384

noncomputable section

namespace Cert.MoNet.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The mixture weights of layer 2. -/
theorem gauss2 (c : Dev nD) :
    W14 m ρ c (Proc.devRef .tc main_v147) = Cert.ReferenceIdeal.ReadP.val_main_v226 (F := Ideal) (m ((c : Thread nD τ).loc main_arg1)) (m ((c : Thread nD τ).loc main_arg4)) (m ((c : Thread nD τ).loc main_arg5)) (m ((c : Thread nD τ).loc main_arg8)) (m ((c : Thread nD τ).loc main_arg9)) := by
  refine (W14_arr m ρ c 5).trans ((Cert.MoNet.final6 (V13 m ρ) c).trans ?_)
  show Cert.MoNet.FeatK (StableHlo.after (hostOps6 (F := Ideal)) (W12 m ρ c) (Proc.devRef .tc main_v30)) (StableHlo.after (hostOps6 (F := Ideal)) (W12 m ρ c) (Proc.devRef .tc main_v139)) (StableHlo.after (hostOps6 (F := Ideal)) (W12 m ρ c) (Proc.devRef .tc main_v142)) (StableHlo.after (hostOps6 (F := Ideal)) (W12 m ρ c) (Proc.devRef .tc main_v144)) (StableHlo.after (hostOps6 (F := Ideal)) (W12 m ρ c) (Proc.devRef .tc main_v146)) = _
  rw [Cert.MoNet.feat_stretch_w_l2, Cert.MoNet.feat_stretch_b_l2, Cert.MoNet.feat_stretch_mu_l2, Cert.MoNet.feat_stretch_isig_l2]
  rw [show (StableHlo.after (hostOps6 (F := Ideal)) (W12 m ρ c) (Proc.devRef .tc main_v30)) = Cert.ReferenceIdeal.ReadP.val_main_v30 (F := Ideal) (m ((c : Thread nD τ).loc main_arg1)) from (Cert.MoNet.Keep.keep_v30_13 m ρ c).trans (Cert.MoNet.Prefix.ps_eq m ρ c)]
  rw [Cert.MoNet.Keep.keep_arg8_12, Cert.MoNet.Keep.keep_arg9_12, Cert.MoNet.Keep.keep_arg4_12, Cert.MoNet.Keep.keep_arg5_12]
  refine (Cert.MoNet.feat_eq _ _ _ _ _ _ _ _ _ _).trans ?_
  exact (Cert.MoNet.ref_feat_l2 _ _ _ _ _).symm

/-- The projected features of layer 2, re-laid as [node, kernel, channel]. -/
theorem hp2 (c : Dev nD) :
    (fun i => shapeCast S100000x3x64 (W16 m ρ c (Proc.devRef .tc main_v153)) Facts₀.shapeCasts_S100000x192_S100000x3x64 i)
      = Cert.ReferenceIdeal.ReadP.val_main_v208 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W16 m ρ c (Proc.devRef .tc main_v153) = (dat7 (V15 m ρ) c).arrAt 2 cfg7.N from W16_arr m ρ c 2]
  refine (Cert.MoNet.hp_layer7 (W14 m ρ) c).trans ?_
  rw [show W14 m ρ c (Proc.devRef .tc main_v137) = Cert.ReferenceIdeal.ReadP.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) from ((Cert.MoNet.Keep.keep_v137_14 m ρ c).trans (Cert.MoNet.Chain.out1 m ρ c)), Cert.MoNet.Keep.keep_arg3_14]
  exact (Cert.MoNet.ref_hp_l2 _ _ _ _ _ _ _ _ _ _).symm

/-- The aggregate of layer 2. -/
theorem agg2 (c : Dev nD) :
    (StableHlo.after (hostOps8 (F := Ideal)) (W16 m ρ c) (Proc.devRef .tc main_v168)) = Cert.ReferenceIdeal.ReadP.val_main_v240 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  Cert.MoNet.agg_layer2 (W16 m ρ c) _ _ _ _ _ _ _ _ _ _ (hp2 m ρ c)
    ((Cert.MoNet.Keep.keep_v147_16 m ρ c).trans (gauss2 m ρ c))
    ((Cert.MoNet.Keep.keep_v1_16 m ρ c).trans (Cert.MoNet.Prefix.src_eq m ρ c))
    ((Cert.MoNet.Keep.keep_v3_16 m ρ c).trans (Cert.MoNet.Prefix.dst_eq m ρ c))

/-- The node features after layer 2. -/
theorem out2 (c : Dev nD) :
    W18 m ρ c (Proc.devRef .tc main_v187) = Cert.ReferenceIdeal.ReadP.val_main_v271 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W18_arr m ρ c 6).trans ((Cert.MoNet.final8 (V17 m ρ) c).trans ?_)
  show Cert.MoNet.BnK (StableHlo.after (hostOps8 (F := Ideal)) (W16 m ρ c) (Proc.devRef .tc main_v168)) (StableHlo.after (hostOps8 (F := Ideal)) (W16 m ρ c) (Proc.devRef .tc main_v179)) (StableHlo.after (hostOps8 (F := Ideal)) (W16 m ρ c) (Proc.devRef .tc main_v180)) (StableHlo.after (hostOps8 (F := Ideal)) (W16 m ρ c) (Proc.devRef .tc main_v183)) (StableHlo.after (hostOps8 (F := Ideal)) (W16 m ρ c) (Proc.devRef .tc main_v186)) (StableHlo.after (hostOps8 (F := Ideal)) (W16 m ρ c) (Proc.devRef .tc main_v137)) = _
  rw [Cert.MoNet.stretch8_mean, Cert.MoNet.stretch8_var, Cert.MoNet.stretch8_scale, Cert.MoNet.stretch8_shift]
  rw [agg2 m ρ c]
  rw [show (StableHlo.after (hostOps8 (F := Ideal)) (W16 m ρ c) (Proc.devRef .tc main_v137)) = Cert.ReferenceIdeal.ReadP.val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) from ((Cert.MoNet.Keep.keep_v137_17 m ρ c).trans (Cert.MoNet.Chain.out1 m ρ c))]
  rw [Cert.MoNet.Keep.keep_arg6_16, Cert.MoNet.Keep.keep_arg7_16]
  refine (Cert.MoNet.bn_eq _ _ _ _).trans ?_
  exact (Cert.MoNet.ref_bn_l2 _ _ _ _ _ _ _ _ _ _).symm

end Cert.MoNet.Chain

end
-- ==== Proof.KLayer3.lean ====
/-
  Layer 3 of the network on the kernel's side, buffer by buffer, against the reference's values of the same
  arguments.  The mixture weights gauss[e,k] (the featurize region of its input arrays, which the host stretch before
  it cuts out of the arguments), the projected features hp = h·Wᵀ re-laid as [node, kernel, channel] (the matmul
  region), the aggregate agg[n,c] = Σ over the edges into n and the kernels k of hp[src e, k, c]·gauss[e,k] (host
  operations; the kernel sums over k before it scatters, the reference after: the same finite sum), and the next
  features h + relu(batch-norm(agg)) (the batch-norm region; mean and variance over the nodes are the same host
  chain of agg on both sides).  Each step rewrites the buffers a stretch or a region reads to what they held where
  they were written.
-/
import proofs.«168295_j62088047231392_2_alg».proof.Proof.Gen.KernelIdeal.Frame
import proofs.«168295_j62088047231392_2_alg».proof.Proof.RefRead
import proofs.«168295_j62088047231392_2_alg».proof.Proof.KeepArgsA
import proofs.«168295_j62088047231392_2_alg».proof.Proof.KeepArgsB
import proofs.«168295_j62088047231392_2_alg».proof.Proof.KeepBufs
import proofs.«168295_j62088047231392_2_alg».proof.Proof.KPrefix
import proofs.«168295_j62088047231392_2_alg».proof.Proof.FeatRegion9
import proofs.«168295_j62088047231392_2_alg».proof.Proof.FeatStretch
import proofs.«168295_j62088047231392_2_alg».proof.Proof.FeatRef
import proofs.«168295_j62088047231392_2_alg».proof.Proof.HpLayer
import proofs.«168295_j62088047231392_2_alg».proof.Proof.HpRefLayers
import proofs.«168295_j62088047231392_2_alg».proof.Proof.AggLayer
import proofs.«168295_j62088047231392_2_alg».proof.Proof.BnRegion11
import proofs.«168295_j62088047231392_2_alg».proof.Proof.BnStretch11
import proofs.«168295_j62088047231392_2_alg».proof.Proof.BnRef
import proofs.«168295_j62088047231392_2_alg».proof.Proof.KLayer2

set_option maxRecDepth 16384

noncomputable section

namespace Cert.MoNet.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The mixture weights of layer 3. -/
theorem gauss3 (c : Dev nD) :
    W20 m ρ c (Proc.devRef .tc main_v197) = Cert.ReferenceIdeal.ReadP.val_main_v304 (F := Ideal) (m ((c : Thread nD τ).loc main_arg1)) (m ((c : Thread nD τ).loc main_arg4)) (m ((c : Thread nD τ).loc main_arg5)) (m ((c : Thread nD τ).loc main_arg8)) (m ((c : Thread nD τ).loc main_arg9)) := by
  refine (W20_arr m ρ c 5).trans ((Cert.MoNet.final9 (V19 m ρ) c).trans ?_)
  show Cert.MoNet.FeatK (StableHlo.after (hostOps9 (F := Ideal)) (W18 m ρ c) (Proc.devRef .tc main_v30)) (StableHlo.after (hostOps9 (F := Ideal)) (W18 m ρ c) (Proc.devRef .tc main_v189)) (StableHlo.after (hostOps9 (F := Ideal)) (W18 m ρ c) (Proc.devRef .tc main_v192)) (StableHlo.after (hostOps9 (F := Ideal)) (W18 m ρ c) (Proc.devRef .tc main_v194)) (StableHlo.after (hostOps9 (F := Ideal)) (W18 m ρ c) (Proc.devRef .tc main_v196)) = _
  rw [Cert.MoNet.feat_stretch_w_l3, Cert.MoNet.feat_stretch_b_l3, Cert.MoNet.feat_stretch_mu_l3, Cert.MoNet.feat_stretch_isig_l3]
  rw [show (StableHlo.after (hostOps9 (F := Ideal)) (W18 m ρ c) (Proc.devRef .tc main_v30)) = Cert.ReferenceIdeal.ReadP.val_main_v30 (F := Ideal) (m ((c : Thread nD τ).loc main_arg1)) from (Cert.MoNet.Keep.keep_v30_19 m ρ c).trans (Cert.MoNet.Prefix.ps_eq m ρ c)]
  rw [Cert.MoNet.Keep.keep_arg8_18, Cert.MoNet.Keep.keep_arg9_18, Cert.MoNet.Keep.keep_arg4_18, Cert.MoNet.Keep.keep_arg5_18]
  refine (Cert.MoNet.feat_eq _ _ _ _ _ _ _ _ _ _).trans ?_
  exact (Cert.MoNet.ref_feat_l3 _ _ _ _ _).symm

/-- The projected features of layer 3, re-laid as [node, kernel, channel]. -/
theorem hp3 (c : Dev nD) :
    (fun i => shapeCast S100000x3x64 (W22 m ρ c (Proc.devRef .tc main_v203)) Facts₀.shapeCasts_S100000x192_S100000x3x64 i)
      = Cert.ReferenceIdeal.ReadP.val_main_v286 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W22 m ρ c (Proc.devRef .tc main_v203) = (dat10 (V21 m ρ) c).arrAt 2 cfg10.N from W22_arr m ρ c 2]
  refine (Cert.MoNet.hp_layer10 (W20 m ρ) c).trans ?_
  rw [show W20 m ρ c (Proc.devRef .tc main_v187) = Cert.ReferenceIdeal.ReadP.val_main_v271 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) from ((Cert.MoNet.Keep.keep_v187_20 m ρ c).trans (Cert.MoNet.Chain.out2 m ρ c)), Cert.MoNet.Keep.keep_arg3_20]
  exact (Cert.MoNet.ref_hp_l3 _ _ _ _ _ _ _ _ _ _).symm

/-- The aggregate of layer 3. -/
theorem agg3 (c : Dev nD) :
    (StableHlo.after (hostOps11 (F := Ideal)) (W22 m ρ c) (Proc.devRef .tc main_v218)) = Cert.ReferenceIdeal.ReadP.val_main_v318 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  Cert.MoNet.agg_layer3 (W22 m ρ c) _ _ _ _ _ _ _ _ _ _ (hp3 m ρ c)
    ((Cert.MoNet.Keep.keep_v197_22 m ρ c).trans (gauss3 m ρ c))
    ((Cert.MoNet.Keep.keep_v1_22 m ρ c).trans (Cert.MoNet.Prefix.src_eq m ρ c))
    ((Cert.MoNet.Keep.keep_v3_22 m ρ c).trans (Cert.MoNet.Prefix.dst_eq m ρ c))

/-- The node features after layer 3. -/
theorem out3 (c : Dev nD) :
    W24 m ρ c (Proc.devRef .tc main_v237) = Cert.ReferenceIdeal.ReadP.val_main_v349 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W24_arr m ρ c 6).trans ((Cert.MoNet.final11 (V23 m ρ) c).trans ?_)
  show Cert.MoNet.BnK (StableHlo.after (hostOps11 (F := Ideal)) (W22 m ρ c) (Proc.devRef .tc main_v218)) (StableHlo.after (hostOps11 (F := Ideal)) (W22 m ρ c) (Proc.devRef .tc main_v229)) (StableHlo.after (hostOps11 (F := Ideal)) (W22 m ρ c) (Proc.devRef .tc main_v230)) (StableHlo.after (hostOps11 (F := Ideal)) (W22 m ρ c) (Proc.devRef .tc main_v233)) (StableHlo.after (hostOps11 (F := Ideal)) (W22 m ρ c) (Proc.devRef .tc main_v236)) (StableHlo.after (hostOps11 (F := Ideal)) (W22 m ρ c) (Proc.devRef .tc main_v187)) = _
  rw [Cert.MoNet.stretch11_mean, Cert.MoNet.stretch11_var, Cert.MoNet.stretch11_scale, Cert.MoNet.stretch11_shift]
  rw [agg3 m ρ c]
  rw [show (StableHlo.after (hostOps11 (F := Ideal)) (W22 m ρ c) (Proc.devRef .tc main_v187)) = Cert.ReferenceIdeal.ReadP.val_main_v271 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) from ((Cert.MoNet.Keep.keep_v187_23 m ρ c).trans (Cert.MoNet.Chain.out2 m ρ c))]
  rw [Cert.MoNet.Keep.keep_arg6_22, Cert.MoNet.Keep.keep_arg7_22]
  refine (Cert.MoNet.bn_eq _ _ _ _).trans ?_
  exact (Cert.MoNet.ref_bn_l3 _ _ _ _ _ _ _ _ _ _).symm

end Cert.MoNet.Chain

end
-- ==== Proof.MlpRefRead.lean ====
/-
  The reference program's last operations are the host's readout (`MlpR`) applied to the last graph layer's output and to
  the readout's parameters as the program is given them: the operations are the same, in the same order.
-/
import proofs.«168295_j62088047231392_2_alg».proof.Proof.RefRead
import proofs.«168295_j62088047231392_2_alg».proof.Proof.MlpRef
import Idealize.ShloMosaic.PureOps.Ideal.Laws

noncomputable section

namespace Cert.MoNet

open Idealize.ShloMosaic

/-- The reference's result is its readout of the last graph layer's output and the readout's parameters. -/
theorem ref_mlp (x0 : (⟨Cert.ReferenceIdeal.S100000, .i32⟩ : BufTy).Contents (Elt Ideal))
    (x1 : (⟨Cert.ReferenceIdeal.S2x800000, .i32⟩ : BufTy).Contents (Elt Ideal))
    (x2 : (⟨Cert.ReferenceIdeal.S32x64, .f32⟩ : BufTy).Contents (Elt Ideal))
    (x3 : (⟨Cert.ReferenceIdeal.S4x192x64, .f32⟩ : BufTy).Contents (Elt Ideal))
    (x4 x5 : (⟨Cert.ReferenceIdeal.S4x3x2, .f32⟩ : BufTy).Contents (Elt Ideal))
    (x6 x7 : (⟨Cert.ReferenceIdeal.S4x64, .f32⟩ : BufTy).Contents (Elt Ideal))
    (x8 : (⟨Cert.ReferenceIdeal.S4x2x2, .f32⟩ : BufTy).Contents (Elt Ideal))
    (x9 : (⟨Cert.ReferenceIdeal.S4x2, .f32⟩ : BufTy).Contents (Elt Ideal))
    (x10 : (⟨Cert.ReferenceIdeal.S32x64, .f32⟩ : BufTy).Contents (Elt Ideal))
    (x11 : (⟨Cert.ReferenceIdeal.S32, .f32⟩ : BufTy).Contents (Elt Ideal))
    (x12 : (⟨Cert.ReferenceIdeal.S16x32, .f32⟩ : BufTy).Contents (Elt Ideal))
    (x13 : (⟨Cert.ReferenceIdeal.S16, .f32⟩ : BufTy).Contents (Elt Ideal))
    (x14 : (⟨Cert.ReferenceIdeal.S7x16, .f32⟩ : BufTy).Contents (Elt Ideal))
    (x15 : (⟨Cert.ReferenceIdeal.S7, .f32⟩ : BufTy).Contents (Elt Ideal)) :
    Cert.ReferenceIdeal.ReadP.val_main_v366 (F := Ideal) x0 x1 x2 x3 x4 x5 x6 x7 x8 x9 x10 x11 x12 x13 x14 x15
      = MlpR (Cert.ReferenceIdeal.ReadP.val_main_v349 (F := Ideal) x0 x1 x2 x3 x4 x5 x6 x7 x8 x9) x10 x11 x12 x13 x14 x15 := by
  generalize hh : Cert.ReferenceIdeal.ReadP.val_main_v349 (F := Ideal) x0 x1 x2 x3 x4 x5 x6 x7 x8 x9 = h
  unfold Cert.ReferenceIdeal.ReadP.val_main_v366 Cert.ReferenceIdeal.ReadP.val_main_v365 Cert.ReferenceIdeal.ReadP.val_main_v364
    Cert.ReferenceIdeal.ReadP.val_main_v363 Cert.ReferenceIdeal.ReadP.val_main_v362 Cert.ReferenceIdeal.ReadP.val_main_v361
    Cert.ReferenceIdeal.ReadP.val_main_call5_v0 Cert.ReferenceIdeal.ReadP.val_main_call5_cst
    Cert.ReferenceIdeal.ReadP.val_main_v360 Cert.ReferenceIdeal.ReadP.val_main_v359 Cert.ReferenceIdeal.ReadP.val_main_v358
    Cert.ReferenceIdeal.ReadP.val_main_v357 Cert.ReferenceIdeal.ReadP.val_main_v356 Cert.ReferenceIdeal.ReadP.val_main_v355
    Cert.ReferenceIdeal.ReadP.val_main_call4_v0 Cert.ReferenceIdeal.ReadP.val_main_call4_cst
    Cert.ReferenceIdeal.ReadP.val_main_v354 Cert.ReferenceIdeal.ReadP.val_main_v353 Cert.ReferenceIdeal.ReadP.val_main_v352
    Cert.ReferenceIdeal.ReadP.val_main_v351 Cert.ReferenceIdeal.ReadP.val_main_v350 MlpR
  rw [hh]

end Cert.MoNet

end
-- ==== Proof.KResult.lean ====
/-
  The kernel's result is the reference's.  The result array the idealized kernel leaves — the readout of the node
  features after four layers, each layer read off its three regions and the host stretches between them — is, as
  extended reals and index by index, the value the reference's operations give the same arguments.
-/
import proofs.«168295_j62088047231392_2_alg».proof.Proof.KMlp
import proofs.«168295_j62088047231392_2_alg».proof.Proof.KLayer3
import proofs.«168295_j62088047231392_2_alg».proof.Proof.MlpRefRead

set_option maxRecDepth 16384

noncomputable section

namespace Cert.MoNet.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The last boundary's contents at the result buffer are the reference's result of the launch contents of the arguments. -/
theorem kernel_result (c : Dev nD) :
    W26 m ρ c (Proc.devRef .tc main_v248)
      = Cert.ReferenceIdeal.ReadP.val_main_v366 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [readout m ρ c, out3 m ρ c]
  exact (Cert.MoNet.ref_mlp _ _ _ _ _ _ _ _ _ _ _ _ _ _ _ _).symm

end Cert.MoNet.Chain

end
-- ==== Proof.RefChunks.lean ====
/-
  The reference's @main as six consecutive lists of its host operations, cut where one MoNet layer hands its node
  features to the next: the prefix (edge indices, degree normalisation, embedding), the four layers, the readout. Run in
  order they are the whole program; only a handful of buffers cross a cut (the features, the two edge index arrays, the
  pseudo-coordinates, and the arguments), which is what makes the program's value readable one list at a time.

  Here: the six lists, that every operation of each touches TensorCore buffers only, and that each determines its result.
-/
import proofs.«168295_j62088047231392_2_alg».proof.Proof.Gen.ReferenceIdeal
import Idealize.ShloMosaic.Lib.StableHlo.Run

noncomputable section

namespace Cert.MoNet.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The prefix: the edge index arrays, the node degrees and their inverse square roots (the pseudo-coordinates), and the embedded atom types (48 operations; the last writes the layer-0 features). -/
abbrev opsP : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v1 main_v8 main_v9 (cmpi .slt : (⟨S800000, .i32⟩ : BufTy).Contents (Elt F) → (⟨S800000, .i32⟩ : BufTy).Contents (Elt F) → (⟨S800000, .i1⟩ : BufTy).Contents (Elt F)),
    nullary main_c_1 (constantI S_ 32 100000#32),
    unary main_c_1 main_v10 (broadcastInDim S800000 ![] bcast_S_S800000 : (⟨S_, .i32⟩ : BufTy).Contents (Elt F) → (⟨S800000, .i32⟩ : BufTy).Contents (Elt F)),
    binary main_v1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_v7 main_v13 main_v14 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_cst_2 (constant S_ .f32 0x3F800000#32),
    unary main_cst_2 main_v15 (broadcastInDim S800000 ![] bcast_S_S800000 : (⟨S_, .f32⟩ : BufTy).Contents (Elt F) → (⟨S800000, .f32⟩ : BufTy).Contents (Elt F)),
    binary main_v14 main_v15 main_v16 (addf : (⟨S800000, .f32⟩ : BufTy).Contents (Elt F) → (⟨S800000, .f32⟩ : BufTy).Contents (Elt F) → (⟨S800000, .f32⟩ : BufTy).Contents (Elt F)),
    unary main_v16 main_v17 (Host.rsqrt : (⟨S800000, .f32⟩ : BufTy).Contents (Elt F) → (⟨S800000, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 100000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v7 main_v23 main_v24 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_cst_5 (constant S_ .f32 0x3F800000#32),
    unary main_cst_5 main_v25 (broadcastInDim S800000 ![] bcast_S_S800000 : (⟨S_, .f32⟩ : BufTy).Contents (Elt F) → (⟨S800000, .f32⟩ : BufTy).Contents (Elt F)),
    binary main_v24 main_v25 main_v26 (addf : (⟨S800000, .f32⟩ : BufTy).Contents (Elt F) → (⟨S800000, .f32⟩ : BufTy).Contents (Elt F) → (⟨S800000, .f32⟩ : BufTy).Contents (Elt F)),
    unary main_v26 main_v27 (Host.rsqrt : (⟨S800000, .f32⟩ : BufTy).Contents (Elt F) → (⟨S800000, .f32⟩ : BufTy).Contents (Elt F)),
    unary main_v17 main_v28 (broadcastInDim S800000x1 ![0] bcast_S800000_S800000x1_0 : (⟨S800000, .f32⟩ : BufTy).Contents (Elt F) → (⟨S800000x1, .f32⟩ : BufTy).Contents (Elt F)),
    unary main_v27 main_v29 (broadcastInDim S800000x1 ![0] bcast_S800000_S800000x1_0 : (⟨S800000, .f32⟩ : BufTy).Contents (Elt F) → (⟨S800000x1, .f32⟩ : BufTy).Contents (Elt F)),
    binary main_v28 main_v29 main_v30 ((fun a b => concatenate S800000x2 1 [⟨S800000x1, a⟩, ⟨S800000x1, b⟩] concatenates_S800000x1_S800000x1_S800000x2_d1) : (⟨S800000x1, .f32⟩ : BufTy).Contents (Elt F) → (⟨S800000x1, .f32⟩ : BufTy).Contents (Elt F) → (⟨S800000x2, .f32⟩ : BufTy).Contents (Elt F)),
    nullary main_c_6 (constantI S_ 32 0#32),
    unary main_c_6 main_v31 (broadcastInDim S100000 ![] bcast_S_S100000 : (⟨S_, .i32⟩ : BufTy).Contents (Elt F) → (⟨S100000, .i32⟩ : BufTy).Contents (Elt F)),
    binary main_arg0 main_v31 main_v32 (cmpi .slt : (⟨S100000, .i32⟩ : BufTy).Contents (Elt F) → (⟨S100000, .i32⟩ : BufTy).Contents (Elt F) → (⟨S100000, .i1⟩ : BufTy).Contents (Elt F)),
    nullary main_c_7 (constantI S_ 32 32#32),
    unary main_c_7 main_v33 (broadcastInDim S100000 ![] bcast_S_S100000 : (⟨S_, .i32⟩ : BufTy).Contents (Elt F) → (⟨S100000, .i32⟩ : BufTy).Contents (Elt F)),
    binary main_arg0 main_v33 main_v34 (addi : (⟨S100000, .i32⟩ : BufTy).Contents (Elt F) → (⟨S100000, .i32⟩ : BufTy).Contents (Elt F) → (⟨S100000, .i32⟩ : BufTy).Contents (Elt F)),
    ternary main_v32 main_v34 main_arg0 main_v35 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v35 main_v36 (broadcastInDim S100000x1 ![0] bcast_S100000_S100000x1_0 : (⟨S100000, .i32⟩ : BufTy).Contents (Elt F) → (⟨S100000x1, .i32⟩ : BufTy).Contents (Elt F)),
    binary main_arg2 main_v36 main_v37 ((fun x i => Host.gather gather_S32x64_S100000x1_S100000x64_1_0_n_n_0_1_164 x i) : (⟨S32x64, .f32⟩ : BufTy).Contents (Elt F) → (⟨S100000x1, .i32⟩ : BufTy).Contents (Elt F) → (⟨S100000x64, .f32⟩ : BufTy).Contents (Elt F)) ]

set_option maxRecDepth 8192 in
/-- Each touches TensorCore buffers only. -/
theorem opsP_sub : (opsP : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
/-- Each determines its result (none allocates an unwritten buffer). -/
theorem opsP_fresh : ∀ op ∈ (opsP : List (HloOp τ sig (Elt F))), op.fresh = ∅ := by
  intro _ h; (repeat (cases h with | head => rfl | tail _ h => ?_)); exact nomatch h

set_option maxHeartbeats 4000000 in
/-- Layer 0 (91 operations; the last writes the layer's output features). -/
abbrev opsL0 : List (HloOp τ sig (Elt F)) :=
  [ unary main_arg8 main_v38 ((extractStridedSlice S1x2x2 ![0, 0, 0] · slices_S4x2x2_S1x2x2_0_0_0) : (⟨S4x2x2, .f32⟩ : BufTy).Contents (Elt F) → (⟨S1x2x2, .f32⟩ : BufTy).Contents (Elt F)),
    reshape main_v38 main_v39 rfl shapeCasts_S1x2x2_S2x2,
    unary main_v39 main_v40 ((transpose S2x2 [1, 0] · transposes_S2x2_S2x2_1_0) : (⟨S2x2, .f32⟩ : BufTy).Contents (Elt F) → (⟨S2x2, .f32⟩ : BufTy).Contents (Elt F)),
    binary main_v30 main_v40 main_v41 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    unary main_arg9 main_v42 ((extractStridedSlice S1x2 ![0, 0] · slices_S4x2_S1x2_0_0) : (⟨S4x2, .f32⟩ : BufTy).Contents (Elt F) → (⟨S1x2, .f32⟩ : BufTy).Contents (Elt F)),
    reshape main_v42 main_v43 rfl shapeCasts_S1x2_S2,
    unary main_v43 main_v44 (broadcastInDim S1x2 ![1] bcast_S2_S1x2_1 : (⟨S2, .f32⟩ : BufTy).Contents (Elt F) → (⟨S1x2, .f32⟩ : BufTy).Contents (Elt F)),
    unary main_v44 main_v45 (broadcastInDim S800000x2 ![0, 1] bcast_S1x2_S800000x2_0_1 : (⟨S1x2, .f32⟩ : BufTy).Contents (Elt F) → (⟨S800000x2, .f32⟩ : BufTy).Contents (Elt F)),
    binary main_v41 main_v45 main_v46 (addf : (⟨S800000x2, .f32⟩ : BufTy).Contents (Elt F) → (⟨S800000x2, .f32⟩ : BufTy).Contents (Elt F) → (⟨S800000x2, .f32⟩ : BufTy).Contents (Elt F)),
    unary main_v46 main_v47 (Host.tanh : (⟨S800000x2, .f32⟩ : BufTy).Contents (Elt F) → (⟨S800000x2, .f32⟩ : BufTy).Contents (Elt F)),
    unary main_arg3 main_v48 ((extractStridedSlice S1x192x64 ![0, 0, 0] · slices_S4x192x64_S1x192x64_0_0_0) : (⟨S4x192x64, .f32⟩ : BufTy).Contents (Elt F) → (⟨S1x192x64, .f32⟩ : BufTy).Contents (Elt F)),
    reshape main_v48 main_v49 rfl shapeCasts_S1x192x64_S192x64,
    unary main_v49 main_v50 ((transpose S64x192 [1, 0] · transposes_S192x64_S64x192_1_0) : (⟨S192x64, .f32⟩ : BufTy).Contents (Elt F) → (⟨S64x192, .f32⟩ : BufTy).Contents (Elt F)),
    binary main_v37 main_v50 main_v51 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    reshape main_v51 main_v52 rfl shapeCasts_S100000x192_S100000x3x64,
    unary main_v47 main_v53 (broadcastInDim S800000x1x2 ![0, 2] bcast_S800000x2_S800000x1x2_0_2 : (⟨S800000x2, .f32⟩ : BufTy).Contents (Elt F) → (⟨S800000x1x2, .f32⟩ : BufTy).Contents (Elt F)),
    unary main_arg4 main_v54 ((extractStridedSlice S1x3x2 ![0, 0, 0] · slices_S4x3x2_S1x3x2_0_0_0) : (⟨S4x3x2, .f32⟩ : BufTy).Contents (Elt F) → (⟨S1x3x2, .f32⟩ : BufTy).Contents (Elt F)),
    reshape main_v54 main_v55 rfl shapeCasts_S1x3x2_S3x2,
    unary main_v55 main_v56 (broadcastInDim S1x3x2 ![1, 2] bcast_S3x2_S1x3x2_1_2 : (⟨S3x2, .f32⟩ : BufTy).Contents (Elt F) → (⟨S1x3x2, .f32⟩ : BufTy).Contents (Elt F)),
    unary main_v53 main_v57 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    unary main_v56 main_v58 (broadcastInDim S800000x3x2 ![0, 1, 2] bcast_S1x3x2_S800000x3x2_0_1_2 : (⟨S1x3x2, .f32⟩ : BufTy).Contents (Elt F) → (⟨S800000x3x2, .f32⟩ : BufTy).Contents (Elt F)),
    binary main_v57 main_v58 main_v59 (subf : (⟨S800000x3x2, .f32⟩ : BufTy).Contents (Elt F) → (⟨S800000x3x2, .f32⟩ : BufTy).Contents (Elt F) → (⟨S800000x3x2, .f32⟩ : BufTy).Contents (Elt F)),
    binary main_v59 main_v59 main_v60 (mulf : (⟨S800000x3x2, .f32⟩ : BufTy).Contents (Elt F) → (⟨S800000x3x2, .f32⟩ : BufTy).Contents (Elt F) → (⟨S800000x3x2, .f32⟩ : BufTy).Contents (Elt F)),
    unary main_arg5 main_v61 ((extractStridedSlice S1x3x2 ![0, 0, 0] · slices_S4x3x2_S1x3x2_0_0_0) : (⟨S4x3x2, .f32⟩ : BufTy).Contents (Elt F) → (⟨S1x3x2, .f32⟩ : BufTy).Contents (Elt F)),
    reshape main_v61 main_v62 rfl shapeCasts_S1x3x2_S3x2,
    unary main_v62 main_v63 (broadcastInDim S1x3x2 ![1, 2] bcast_S3x2_S1x3x2_1_2 : (⟨S3x2, .f32⟩ : BufTy).Contents (Elt F) → (⟨S1x3x2, .f32⟩ : BufTy).Contents (Elt F)),
    binary main_v63 main_v63 main_v64 (mulf : (⟨S1x3x2, .f32⟩ : BufTy).Contents (Elt F) → (⟨S1x3x2, .f32⟩ : BufTy).Contents (Elt F) → (⟨S1x3x2, .f32⟩ : BufTy).Contents (Elt F)),
    unary main_v64 main_v65 (broadcastInDim S800000x3x2 ![0, 1, 2] bcast_S1x3x2_S800000x3x2_0_1_2 : (⟨S1x3x2, .f32⟩ : BufTy).Contents (Elt F) → (⟨S800000x3x2, .f32⟩ : BufTy).Contents (Elt F)),
    binary main_v60 main_v65 main_v66 (mulf : (⟨S800000x3x2, .f32⟩ : BufTy).Contents (Elt F) → (⟨S800000x3x2, .f32⟩ : BufTy).Contents (Elt F) → (⟨S800000x3x2, .f32⟩ : BufTy).Contents (Elt F)),
    nullary main_cst_8 (constant S_ .f32 0x00000000#32),
    binary main_v66 main_cst_8 main_v67 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    nullary main_cst_9 (constant S_ .f32 0xBF000000#32),
    unary main_cst_9 main_v68 (broadcastInDim S800000x3 ![] bcast_S_S800000x3 : (⟨S_, .f32⟩ : BufTy).Contents (Elt F) → (⟨S800000x3, .f32⟩ : BufTy).Contents (Elt F)),
    binary main_v68 main_v67 main_v69 (mulf : (⟨S800000x3, .f32⟩ : BufTy).Contents (Elt F) → (⟨S800000x3, .f32⟩ : BufTy).Contents (Elt F) → (⟨S800000x3, .f32⟩ : BufTy).Contents (Elt F)),
    unary main_v69 main_v70 (Host.exp : (⟨S800000x3, .f32⟩ : BufTy).Contents (Elt F) → (⟨S800000x3, .f32⟩ : BufTy).Contents (Elt F)),
    nullary main_c_10 (constantI S_ 32 0#32),
    unary main_c_10 main_v71 (broadcastInDim S800000 ![] bcast_S_S800000 : (⟨S_, .i32⟩ : BufTy).Contents (Elt F) → (⟨S800000, .i32⟩ : BufTy).Contents (Elt F)),
    binary main_v1 main_v71 main_v72 (cmpi .slt : (⟨S800000, .i32⟩ : BufTy).Contents (Elt F) → (⟨S800000, .i32⟩ : BufTy).Contents (Elt F) → (⟨S800000, .i1⟩ : BufTy).Contents (Elt F)),
    nullary main_c_11 (constantI S_ 32 100000#32),
    unary main_c_11 main_v73 (broadcastInDim S800000 ![] bcast_S_S800000 : (⟨S_, .i32⟩ : BufTy).Contents (Elt F) → (⟨S800000, .i32⟩ : BufTy).Contents (Elt F)),
    binary main_v1 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v1 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v52 main_v76 main_v77 ((fun x i => Host.gather gather_S100000x3x64_S800000x1_S800000x3x64_12_0_n_n_0_1_1364 x i) : (⟨S100000x3x64, .f32⟩ : BufTy).Contents (Elt F) → (⟨S800000x1, .i32⟩ : BufTy).Contents (Elt F) → (⟨S800000x3x64, .f32⟩ : BufTy).Contents (Elt F)),
    unary main_v70 main_v78 (broadcastInDim S800000x3x1 ![0, 1] bcast_S800000x3_S800000x3x1_0_1 : (⟨S800000x3, .f32⟩ : BufTy).Contents (Elt F) → (⟨S800000x3x1, .f32⟩ : BufTy).Contents (Elt F)),
    unary main_v78 main_v79 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    binary main_v77 main_v79 main_v80 (mulf : (⟨S800000x3x64, .f32⟩ : BufTy).Contents (Elt F) → (⟨S800000x3x64, .f32⟩ : BufTy).Contents (Elt F) → (⟨S800000x3x64, .f32⟩ : BufTy).Contents (Elt F)),
    nullary main_cst_12 (constant S_ .f32 0x00000000#32),
    unary main_cst_12 main_v81 (broadcastInDim S100000x3x64 ![] bcast_S_S100000x3x64 : (⟨S_, .f32⟩ : BufTy).Contents (Elt F) → (⟨S100000x3x64, .f32⟩ : BufTy).Contents (Elt F)),
    unary main_v3 main_v82 (broadcastInDim S800000x1 ![0] bcast_S800000_S800000x1_0 : (⟨S800000, .i32⟩ : BufTy).Contents (Elt F) → (⟨S800000x1, .i32⟩ : BufTy).Contents (Elt F)),
    ternary main_v81 main_v82 main_v80 main_v83 ((fun x i u => Host.scatterAdd scatter_S100000x3x64_S800000x1_S800000x3x64_12_0_0_1 x i u) : (⟨S100000x3x64, .f32⟩ : BufTy).Contents (Elt F) → (⟨S800000x1, .i32⟩ : BufTy).Contents (Elt F) → (⟨S800000x3x64, .f32⟩ : BufTy).Contents (Elt F) → (⟨S100000x3x64, .f32⟩ : BufTy).Contents (Elt F)),
    nullary main_cst_13 (constant S_ .f32 0x00000000#32),
    binary main_v83 main_cst_13 main_v84 ((fun x v => Host.reduceAdd x v reducesTo_S100000x3x64_S100000x64_d1 h_S_) : (⟨S100000x3x64, .f32⟩ : BufTy).Contents (Elt F) → (⟨S_, .f32⟩ : BufTy).Contents (Elt F) → (⟨S100000x64, .f32⟩ : BufTy).Contents (Elt F)),
    nullary main_cst_14 (constant S_ .f32 0x00000000#32),
    binary main_v84 main_cst_14 main_v85 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_15 (constant S_ .f32 0x47C35000#32),
    unary main_cst_15 main_v86 (broadcastInDim S64 ![] bcast_S_S64 : (⟨S_, .f32⟩ : BufTy).Contents (Elt F) → (⟨S64, .f32⟩ : BufTy).Contents (Elt F)),
    binary main_v85 main_v86 main_v87 (Host.divf : (⟨S64, .f32⟩ : BufTy).Contents (Elt F) → (⟨S64, .f32⟩ : BufTy).Contents (Elt F) → (⟨S64, .f32⟩ : BufTy).Contents (Elt F)),
    unary main_v87 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v84 main_v89 main_v90 (subf : (⟨S100000x64, .f32⟩ : BufTy).Contents (Elt F) → (⟨S100000x64, .f32⟩ : BufTy).Contents (Elt F) → (⟨S100000x64, .f32⟩ : BufTy).Contents (Elt F)),
    binary main_v90 main_v90 main_v91 (mulf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x00000000#32),
    binary main_v91 main_cst_16 main_v92 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_17 (constant S_ .f32 0x47C35000#32),
    unary main_cst_17 main_v93 (broadcastInDim S64 ![] bcast_S_S64 : (⟨S_, .f32⟩ : BufTy).Contents (Elt F) → (⟨S64, .f32⟩ : BufTy).Contents (Elt F)),
    binary main_v92 main_v93 main_v94 (Host.divf : (⟨S64, .f32⟩ : BufTy).Contents (Elt F) → (⟨S64, .f32⟩ : BufTy).Contents (Elt F) → (⟨S64, .f32⟩ : BufTy).Contents (Elt F)),
    unary main_v87 main_v95 (broadcastInDim S1x64 ![1] bcast_S64_S1x64_1 : (⟨S64, .f32⟩ : BufTy).Contents (Elt F) → (⟨S1x64, .f32⟩ : BufTy).Contents (Elt F)),
    unary main_v95 main_v96 (broadcastInDim S100000x64 ![0, 1] bcast_S1x64_S100000x64_0_1 : (⟨S1x64, .f32⟩ : BufTy).Contents (Elt F) → (⟨S100000x64, .f32⟩ : BufTy).Contents (Elt F)),
    binary main_v84 main_v96 main_v97 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v98 (broadcastInDim S64 ![] bcast_S_S64 : (⟨S_, .f32⟩ : BufTy).Contents (Elt F) → (⟨S64, .f32⟩ : BufTy).Contents (Elt F)),
    binary main_v94 main_v98 main_v99 (addf : (⟨S64, .f32⟩ : BufTy).Contents (Elt F) → (⟨S64, .f32⟩ : BufTy).Contents (Elt F) → (⟨S64, .f32⟩ : BufTy).Contents (Elt F)),
    unary main_v99 main_v100 (Host.rsqrt : (⟨S64, .f32⟩ : BufTy).Contents (Elt F) → (⟨S64, .f32⟩ : BufTy).Contents (Elt F)),
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S100000x64 ![0, 1] bcast_S1x64_S100000x64_0_1 : (⟨S1x64, .f32⟩ : BufTy).Contents (Elt F) → (⟨S100000x64, .f32⟩ : BufTy).Contents (Elt F)),
    binary main_v97 main_v102 main_v103 (mulf : (⟨S100000x64, .f32⟩ : BufTy).Contents (Elt F) → (⟨S100000x64, .f32⟩ : BufTy).Contents (Elt F) → (⟨S100000x64, .f32⟩ : BufTy).Contents (Elt F)),
    unary main_arg6 main_v104 ((extractStridedSlice S1x64 ![0, 0] · slices_S4x64_S1x64_0_0) : (⟨S4x64, .f32⟩ : BufTy).Contents (Elt F) → (⟨S1x64, .f32⟩ : BufTy).Contents (Elt F)),
    reshape main_v104 main_v105 rfl shapeCasts_S1x64_S64,
    unary main_v105 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v103 main_v107 main_v108 (mulf : (⟨S100000x64, .f32⟩ : BufTy).Contents (Elt F) → (⟨S100000x64, .f32⟩ : BufTy).Contents (Elt F) → (⟨S100000x64, .f32⟩ : BufTy).Contents (Elt F)),
    unary main_arg7 main_v109 ((extractStridedSlice S1x64 ![0, 0] · slices_S4x64_S1x64_0_0) : (⟨S4x64, .f32⟩ : BufTy).Contents (Elt F) → (⟨S1x64, .f32⟩ : BufTy).Contents (Elt F)),
    reshape main_v109 main_v110 rfl shapeCasts_S1x64_S64,
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v108 main_v112 main_v113 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v113) (TRef.of (T := ⟨S100000x64, .f32⟩) main_call0_v0) (TRef.of (T := ⟨S100000x64, .f32⟩) main_v114) maximumf,
    binary main_v37 main_v114 main_v115 (addf : (⟨S100000x64, .f32⟩ : BufTy).Contents (Elt F) → (⟨S100000x64, .f32⟩ : BufTy).Contents (Elt F) → (⟨S100000x64, .f32⟩ : BufTy).Contents (Elt F)) ]

set_option maxRecDepth 8192 in
/-- Each touches TensorCore buffers only. -/
theorem opsL0_sub : (opsL0 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., reshape_bufs_sub .., unary_bufs_sub .., unary_bufs_sub .., reshape_bufs_sub .., unary_bufs_sub .., unary_bufs_sub .., unary_bufs_sub .., binary_bufs_sub .., binary_bufs_sub .., unary_bufs_sub .., reshape_bufs_sub .., unary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

set_option maxRecDepth 8192 in
/-- Each determines its result (none allocates an unwritten buffer). -/
theorem opsL0_fresh : ∀ op ∈ (opsL0 : List (HloOp τ sig (Elt F))), op.fresh = ∅ := by
  intro _ h; (repeat (cases h with | head => rfl | tail _ h => ?_)); exact nomatch h

set_option maxHeartbeats 4000000 in
/-- Layer 1 (91 operations). -/
abbrev opsL1 : List (HloOp τ sig (Elt F)) :=
  [ unary main_arg8 main_v116 ((extractStridedSlice S1x2x2 ![1, 0, 0] · slices_S4x2x2_S1x2x2_1_0_0) : (⟨S4x2x2, .f32⟩ : BufTy).Contents (Elt F) → (⟨S1x2x2, .f32⟩ : BufTy).Contents (Elt F)),
    reshape main_v116 main_v117 rfl shapeCasts_S1x2x2_S2x2,
    unary main_v117 main_v118 ((transpose S2x2 [1, 0] · transposes_S2x2_S2x2_1_0) : (⟨S2x2, .f32⟩ : BufTy).Contents (Elt F) → (⟨S2x2, .f32⟩ : BufTy).Contents (Elt F)),
    binary main_v30 main_v118 main_v119 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    unary main_arg9 main_v120 ((extractStridedSlice S1x2 ![1, 0] · slices_S4x2_S1x2_1_0) : (⟨S4x2, .f32⟩ : BufTy).Contents (Elt F) → (⟨S1x2, .f32⟩ : BufTy).Contents (Elt F)),
    reshape main_v120 main_v121 rfl shapeCasts_S1x2_S2,
    unary main_v121 main_v122 (broadcastInDim S1x2 ![1] bcast_S2_S1x2_1 : (⟨S2, .f32⟩ : BufTy).Contents (Elt F) → (⟨S1x2, .f32⟩ : BufTy).Contents (Elt F)),
    unary main_v122 main_v123 (broadcastInDim S800000x2 ![0, 1] bcast_S1x2_S800000x2_0_1 : (⟨S1x2, .f32⟩ : BufTy).Contents (Elt F) → (⟨S800000x2, .f32⟩ : BufTy).Contents (Elt F)),
    binary main_v119 main_v123 main_v124 (addf : (⟨S800000x2, .f32⟩ : BufTy).Contents (Elt F) → (⟨S800000x2, .f32⟩ : BufTy).Contents (Elt F) → (⟨S800000x2, .f32⟩ : BufTy).Contents (Elt F)),
    unary main_v124 main_v125 (Host.tanh : (⟨S800000x2, .f32⟩ : BufTy).Contents (Elt F) → (⟨S800000x2, .f32⟩ : BufTy).Contents (Elt F)),
    unary main_arg3 main_v126 ((extractStridedSlice S1x192x64 ![1, 0, 0] · slices_S4x192x64_S1x192x64_1_0_0) : (⟨S4x192x64, .f32⟩ : BufTy).Contents (Elt F) → (⟨S1x192x64, .f32⟩ : BufTy).Contents (Elt F)),
    reshape main_v126 main_v127 rfl shapeCasts_S1x192x64_S192x64,
    unary main_v127 main_v128 ((transpose S64x192 [1, 0] · transposes_S192x64_S64x192_1_0) : (⟨S192x64, .f32⟩ : BufTy).Contents (Elt F) → (⟨S64x192, .f32⟩ : BufTy).Contents (Elt F)),
    binary main_v115 main_v128 main_v129 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    reshape main_v129 main_v130 rfl shapeCasts_S100000x192_S100000x3x64,
    unary main_v125 main_v131 (broadcastInDim S800000x1x2 ![0, 2] bcast_S800000x2_S800000x1x2_0_2 : (⟨S800000x2, .f32⟩ : BufTy).Contents (Elt F) → (⟨S800000x1x2, .f32⟩ : BufTy).Contents (Elt F)),
    unary main_arg4 main_v132 ((extractStridedSlice S1x3x2 ![1, 0, 0] · slices_S4x3x2_S1x3x2_1_0_0) : (⟨S4x3x2, .f32⟩ : BufTy).Contents (Elt F) → (⟨S1x3x2, .f32⟩ : BufTy).Contents (Elt F)),
    reshape main_v132 main_v133 rfl shapeCasts_S1x3x2_S3x2,
    unary main_v133 main_v134 (broadcastInDim S1x3x2 ![1, 2] bcast_S3x2_S1x3x2_1_2 : (⟨S3x2, .f32⟩ : BufTy).Contents (Elt F) → (⟨S1x3x2, .f32⟩ : BufTy).Contents (Elt F)),
    unary main_v131 main_v135 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    unary main_v134 main_v136 (broadcastInDim S800000x3x2 ![0, 1, 2] bcast_S1x3x2_S800000x3x2_0_1_2 : (⟨S1x3x2, .f32⟩ : BufTy).Contents (Elt F) → (⟨S800000x3x2, .f32⟩ : BufTy).Contents (Elt F)),
    binary main_v135 main_v136 main_v137 (subf : (⟨S800000x3x2, .f32⟩ : BufTy).Contents (Elt F) → (⟨S800000x3x2, .f32⟩ : BufTy).Contents (Elt F) → (⟨S800000x3x2, .f32⟩ : BufTy).Contents (Elt F)),
    binary main_v137 main_v137 main_v138 (mulf : (⟨S800000x3x2, .f32⟩ : BufTy).Contents (Elt F) → (⟨S800000x3x2, .f32⟩ : BufTy).Contents (Elt F) → (⟨S800000x3x2, .f32⟩ : BufTy).Contents (Elt F)),
    unary main_arg5 main_v139 ((extractStridedSlice S1x3x2 ![1, 0, 0] · slices_S4x3x2_S1x3x2_1_0_0) : (⟨S4x3x2, .f32⟩ : BufTy).Contents (Elt F) → (⟨S1x3x2, .f32⟩ : BufTy).Contents (Elt F)),
    reshape main_v139 main_v140 rfl shapeCasts_S1x3x2_S3x2,
    unary main_v140 main_v141 (broadcastInDim S1x3x2 ![1, 2] bcast_S3x2_S1x3x2_1_2 : (⟨S3x2, .f32⟩ : BufTy).Contents (Elt F) → (⟨S1x3x2, .f32⟩ : BufTy).Contents (Elt F)),
    binary main_v141 main_v141 main_v142 (mulf : (⟨S1x3x2, .f32⟩ : BufTy).Contents (Elt F) → (⟨S1x3x2, .f32⟩ : BufTy).Contents (Elt F) → (⟨S1x3x2, .f32⟩ : BufTy).Contents (Elt F)),
    unary main_v142 main_v143 (broadcastInDim S800000x3x2 ![0, 1, 2] bcast_S1x3x2_S800000x3x2_0_1_2 : (⟨S1x3x2, .f32⟩ : BufTy).Contents (Elt F) → (⟨S800000x3x2, .f32⟩ : BufTy).Contents (Elt F)),
    binary main_v138 main_v143 main_v144 (mulf : (⟨S800000x3x2, .f32⟩ : BufTy).Contents (Elt F) → (⟨S800000x3x2, .f32⟩ : BufTy).Contents (Elt F) → (⟨S800000x3x2, .f32⟩ : BufTy).Contents (Elt F)),
    nullary main_cst_19 (constant S_ .f32 0x00000000#32),
    binary main_v144 main_cst_19 main_v145 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    nullary main_cst_20 (constant S_ .f32 0xBF000000#32),
    unary main_cst_20 main_v146 (broadcastInDim S800000x3 ![] bcast_S_S800000x3 : (⟨S_, .f32⟩ : BufTy).Contents (Elt F) → (⟨S800000x3, .f32⟩ : BufTy).Contents (Elt F)),
    binary main_v146 main_v145 main_v147 (mulf : (⟨S800000x3, .f32⟩ : BufTy).Contents (Elt F) → (⟨S800000x3, .f32⟩ : BufTy).Contents (Elt F) → (⟨S800000x3, .f32⟩ : BufTy).Contents (Elt F)),
    unary main_v147 main_v148 (Host.exp : (⟨S800000x3, .f32⟩ : BufTy).Contents (Elt F) → (⟨S800000x3, .f32⟩ : BufTy).Contents (Elt F)),
    nullary main_c_21 (constantI S_ 32 0#32),
    unary main_c_21 main_v149 (broadcastInDim S800000 ![] bcast_S_S800000 : (⟨S_, .i32⟩ : BufTy).Contents (Elt F) → (⟨S800000, .i32⟩ : BufTy).Contents (Elt F)),
    binary main_v1 main_v149 main_v150 (cmpi .slt : (⟨S800000, .i32⟩ : BufTy).Contents (Elt F) → (⟨S800000, .i32⟩ : BufTy).Contents (Elt F) → (⟨S800000, .i1⟩ : BufTy).Contents (Elt F)),
    nullary main_c_22 (constantI S_ 32 100000#32),
    unary main_c_22 main_v151 (broadcastInDim S800000 ![] bcast_S_S800000 : (⟨S_, .i32⟩ : BufTy).Contents (Elt F) → (⟨S800000, .i32⟩ : BufTy).Contents (Elt F)),
    binary main_v1 main_v151 main_v152 (addi : (⟨S800000, .i32⟩ : BufTy).Contents (Elt F) → (⟨S800000, .i32⟩ : BufTy).Contents (Elt F) → (⟨S800000, .i32⟩ : BufTy).Contents (Elt F)),
    ternary main_v150 main_v152 main_v1 main_v153 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v153 main_v154 (broadcastInDim S800000x1 ![0] bcast_S800000_S800000x1_0 : (⟨S800000, .i32⟩ : BufTy).Contents (Elt F) → (⟨S800000x1, .i32⟩ : BufTy).Contents (Elt F)),
    binary main_v130 main_v154 main_v155 ((fun x i => Host.gather gather_S100000x3x64_S800000x1_S800000x3x64_12_0_n_n_0_1_1364 x i) : (⟨S100000x3x64, .f32⟩ : BufTy).Contents (Elt F) → (⟨S800000x1, .i32⟩ : BufTy).Contents (Elt F) → (⟨S800000x3x64, .f32⟩ : BufTy).Contents (Elt F)),
    unary main_v148 main_v156 (broadcastInDim S800000x3x1 ![0, 1] bcast_S800000x3_S800000x3x1_0_1 : (⟨S800000x3, .f32⟩ : BufTy).Contents (Elt F) → (⟨S800000x3x1, .f32⟩ : BufTy).Contents (Elt F)),
    unary main_v156 main_v157 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    binary main_v155 main_v157 main_v158 (mulf : (⟨S800000x3x64, .f32⟩ : BufTy).Contents (Elt F) → (⟨S800000x3x64, .f32⟩ : BufTy).Contents (Elt F) → (⟨S800000x3x64, .f32⟩ : BufTy).Contents (Elt F)),
    nullary main_cst_23 (constant S_ .f32 0x00000000#32),
    unary main_cst_23 main_v159 (broadcastInDim S100000x3x64 ![] bcast_S_S100000x3x64 : (⟨S_, .f32⟩ : BufTy).Contents (Elt F) → (⟨S100000x3x64, .f32⟩ : BufTy).Contents (Elt F)),
    unary main_v3 main_v160 (broadcastInDim S800000x1 ![0] bcast_S800000_S800000x1_0 : (⟨S800000, .i32⟩ : BufTy).Contents (Elt F) → (⟨S800000x1, .i32⟩ : BufTy).Contents (Elt F)),
    ternary main_v159 main_v160 main_v158 main_v161 ((fun x i u => Host.scatterAdd scatter_S100000x3x64_S800000x1_S800000x3x64_12_0_0_1 x i u) : (⟨S100000x3x64, .f32⟩ : BufTy).Contents (Elt F) → (⟨S800000x1, .i32⟩ : BufTy).Contents (Elt F) → (⟨S800000x3x64, .f32⟩ : BufTy).Contents (Elt F) → (⟨S100000x3x64, .f32⟩ : BufTy).Contents (Elt F)),
    nullary main_cst_24 (constant S_ .f32 0x00000000#32),
    binary main_v161 main_cst_24 main_v162 ((fun x v => Host.reduceAdd x v reducesTo_S100000x3x64_S100000x64_d1 h_S_) : (⟨S100000x3x64, .f32⟩ : BufTy).Contents (Elt F) → (⟨S_, .f32⟩ : BufTy).Contents (Elt F) → (⟨S100000x64, .f32⟩ : BufTy).Contents (Elt F)),
    nullary main_cst_25 (constant S_ .f32 0x00000000#32),
    binary main_v162 main_cst_25 main_v163 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v164 (broadcastInDim S64 ![] bcast_S_S64 : (⟨S_, .f32⟩ : BufTy).Contents (Elt F) → (⟨S64, .f32⟩ : BufTy).Contents (Elt F)),
    binary main_v163 main_v164 main_v165 (Host.divf : (⟨S64, .f32⟩ : BufTy).Contents (Elt F) → (⟨S64, .f32⟩ : BufTy).Contents (Elt F) → (⟨S64, .f32⟩ : BufTy).Contents (Elt F)),
    unary main_v165 main_v166 (broadcastInDim S1x64 ![1] bcast_S64_S1x64_1 : (⟨S64, .f32⟩ : BufTy).Contents (Elt F) → (⟨S1x64, .f32⟩ : BufTy).Contents (Elt F)),
    unary main_v166 main_v167 (broadcastInDim S100000x64 ![0, 1] bcast_S1x64_S100000x64_0_1 : (⟨S1x64, .f32⟩ : BufTy).Contents (Elt F) → (⟨S100000x64, .f32⟩ : BufTy).Contents (Elt F)),
    binary main_v162 main_v167 main_v168 (subf : (⟨S100000x64, .f32⟩ : BufTy).Contents (Elt F) → (⟨S100000x64, .f32⟩ : BufTy).Contents (Elt F) → (⟨S100000x64, .f32⟩ : BufTy).Contents (Elt F)),
    binary main_v168 main_v168 main_v169 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v169 main_cst_27 main_v170 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v171 (broadcastInDim S64 ![] bcast_S_S64 : (⟨S_, .f32⟩ : BufTy).Contents (Elt F) → (⟨S64, .f32⟩ : BufTy).Contents (Elt F)),
    binary main_v170 main_v171 main_v172 (Host.divf : (⟨S64, .f32⟩ : BufTy).Contents (Elt F) → (⟨S64, .f32⟩ : BufTy).Contents (Elt F) → (⟨S64, .f32⟩ : BufTy).Contents (Elt F)),
    unary main_v165 main_v173 (broadcastInDim S1x64 ![1] bcast_S64_S1x64_1 : (⟨S64, .f32⟩ : BufTy).Contents (Elt F) → (⟨S1x64, .f32⟩ : BufTy).Contents (Elt F)),
    unary main_v173 main_v174 (broadcastInDim S100000x64 ![0, 1] bcast_S1x64_S100000x64_0_1 : (⟨S1x64, .f32⟩ : BufTy).Contents (Elt F) → (⟨S100000x64, .f32⟩ : BufTy).Contents (Elt F)),
    binary main_v162 main_v174 main_v175 (subf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3727C5AC#32),
    unary main_cst_29 main_v176 (broadcastInDim S64 ![] bcast_S_S64 : (⟨S_, .f32⟩ : BufTy).Contents (Elt F) → (⟨S64, .f32⟩ : BufTy).Contents (Elt F)),
    binary main_v172 main_v176 main_v177 (addf : (⟨S64, .f32⟩ : BufTy).Contents (Elt F) → (⟨S64, .f32⟩ : BufTy).Contents (Elt F) → (⟨S64, .f32⟩ : BufTy).Contents (Elt F)),
    unary main_v177 main_v178 (Host.rsqrt : (⟨S64, .f32⟩ : BufTy).Contents (Elt F) → (⟨S64, .f32⟩ : BufTy).Contents (Elt F)),
    unary main_v178 main_v179 (broadcastInDim S1x64 ![1] bcast_S64_S1x64_1 : (⟨S64, .f32⟩ : BufTy).Contents (Elt F) → (⟨S1x64, .f32⟩ : BufTy).Contents (Elt F)),
    unary main_v179 main_v180 (broadcastInDim S100000x64 ![0, 1] bcast_S1x64_S100000x64_0_1 : (⟨S1x64, .f32⟩ : BufTy).Contents (Elt F) → (⟨S100000x64, .f32⟩ : BufTy).Contents (Elt F)),
    binary main_v175 main_v180 main_v181 (mulf : (⟨S100000x64, .f32⟩ : BufTy).Contents (Elt F) → (⟨S100000x64, .f32⟩ : BufTy).Contents (Elt F) → (⟨S100000x64, .f32⟩ : BufTy).Contents (Elt F)),
    unary main_arg6 main_v182 ((extractStridedSlice S1x64 ![1, 0] · slices_S4x64_S1x64_1_0) : (⟨S4x64, .f32⟩ : BufTy).Contents (Elt F) → (⟨S1x64, .f32⟩ : BufTy).Contents (Elt F)),
    reshape main_v182 main_v183 rfl shapeCasts_S1x64_S64,
    unary main_v183 main_v184 (broadcastInDim S1x64 ![1] bcast_S64_S1x64_1 : (⟨S64, .f32⟩ : BufTy).Contents (Elt F) → (⟨S1x64, .f32⟩ : BufTy).Contents (Elt F)),
    unary main_v184 main_v185 (broadcastInDim S100000x64 ![0, 1] bcast_S1x64_S100000x64_0_1 : (⟨S1x64, .f32⟩ : BufTy).Contents (Elt F) → (⟨S100000x64, .f32⟩ : BufTy).Contents (Elt F)),
    binary main_v181 main_v185 main_v186 (mulf : (⟨S100000x64, .f32⟩ : BufTy).Contents (Elt F) → (⟨S100000x64, .f32⟩ : BufTy).Contents (Elt F) → (⟨S100000x64, .f32⟩ : BufTy).Contents (Elt F)),
    unary main_arg7 main_v187 ((extractStridedSlice S1x64 ![1, 0] · slices_S4x64_S1x64_1_0) : (⟨S4x64, .f32⟩ : BufTy).Contents (Elt F) → (⟨S1x64, .f32⟩ : BufTy).Contents (Elt F)),
    reshape main_v187 main_v188 rfl shapeCasts_S1x64_S64,
    unary main_v188 main_v189 (broadcastInDim S1x64 ![1] bcast_S64_S1x64_1 : (⟨S64, .f32⟩ : BufTy).Contents (Elt F) → (⟨S1x64, .f32⟩ : BufTy).Contents (Elt F)),
    unary main_v189 main_v190 (broadcastInDim S100000x64 ![0, 1] bcast_S1x64_S100000x64_0_1 : (⟨S1x64, .f32⟩ : BufTy).Contents (Elt F) → (⟨S100000x64, .f32⟩ : BufTy).Contents (Elt F)),
    binary main_v186 main_v190 main_v191 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v191) (TRef.of (T := ⟨S100000x64, .f32⟩) main_call1_v0) (TRef.of (T := ⟨S100000x64, .f32⟩) main_v192) maximumf,
    binary main_v115 main_v192 main_v193 (addf : (⟨S100000x64, .f32⟩ : BufTy).Contents (Elt F) → (⟨S100000x64, .f32⟩ : BufTy).Contents (Elt F) → (⟨S100000x64, .f32⟩ : BufTy).Contents (Elt F)) ]

set_option maxRecDepth 8192 in
/-- Each touches TensorCore buffers only. -/
theorem opsL1_sub : (opsL1 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., reshape_bufs_sub .., unary_bufs_sub .., unary_bufs_sub .., reshape_bufs_sub .., unary_bufs_sub .., unary_bufs_sub .., unary_bufs_sub .., binary_bufs_sub .., binary_bufs_sub .., unary_bufs_sub .., reshape_bufs_sub .., unary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

set_option maxRecDepth 8192 in
/-- Each determines its result (none allocates an unwritten buffer). -/
theorem opsL1_fresh : ∀ op ∈ (opsL1 : List (HloOp τ sig (Elt F))), op.fresh = ∅ := by
  intro _ h; (repeat (cases h with | head => rfl | tail _ h => ?_)); exact nomatch h

set_option maxHeartbeats 4000000 in
/-- Layer 2 (91 operations). -/
abbrev opsL2 : List (HloOp τ sig (Elt F)) :=
  [ unary main_arg8 main_v194 ((extractStridedSlice S1x2x2 ![2, 0, 0] · slices_S4x2x2_S1x2x2_2_0_0) : (⟨S4x2x2, .f32⟩ : BufTy).Contents (Elt F) → (⟨S1x2x2, .f32⟩ : BufTy).Contents (Elt F)),
    reshape main_v194 main_v195 rfl shapeCasts_S1x2x2_S2x2,
    unary main_v195 main_v196 ((transpose S2x2 [1, 0] · transposes_S2x2_S2x2_1_0) : (⟨S2x2, .f32⟩ : BufTy).Contents (Elt F) → (⟨S2x2, .f32⟩ : BufTy).Contents (Elt F)),
    binary main_v30 main_v196 main_v197 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    unary main_arg9 main_v198 ((extractStridedSlice S1x2 ![2, 0] · slices_S4x2_S1x2_2_0) : (⟨S4x2, .f32⟩ : BufTy).Contents (Elt F) → (⟨S1x2, .f32⟩ : BufTy).Contents (Elt F)),
    reshape main_v198 main_v199 rfl shapeCasts_S1x2_S2,
    unary main_v199 main_v200 (broadcastInDim S1x2 ![1] bcast_S2_S1x2_1 : (⟨S2, .f32⟩ : BufTy).Contents (Elt F) → (⟨S1x2, .f32⟩ : BufTy).Contents (Elt F)),
    unary main_v200 main_v201 (broadcastInDim S800000x2 ![0, 1] bcast_S1x2_S800000x2_0_1 : (⟨S1x2, .f32⟩ : BufTy).Contents (Elt F) → (⟨S800000x2, .f32⟩ : BufTy).Contents (Elt F)),
    binary main_v197 main_v201 main_v202 (addf : (⟨S800000x2, .f32⟩ : BufTy).Contents (Elt F) → (⟨S800000x2, .f32⟩ : BufTy).Contents (Elt F) → (⟨S800000x2, .f32⟩ : BufTy).Contents (Elt F)),
    unary main_v202 main_v203 (Host.tanh : (⟨S800000x2, .f32⟩ : BufTy).Contents (Elt F) → (⟨S800000x2, .f32⟩ : BufTy).Contents (Elt F)),
    unary main_arg3 main_v204 ((extractStridedSlice S1x192x64 ![2, 0, 0] · slices_S4x192x64_S1x192x64_2_0_0) : (⟨S4x192x64, .f32⟩ : BufTy).Contents (Elt F) → (⟨S1x192x64, .f32⟩ : BufTy).Contents (Elt F)),
    reshape main_v204 main_v205 rfl shapeCasts_S1x192x64_S192x64,
    unary main_v205 main_v206 ((transpose S64x192 [1, 0] · transposes_S192x64_S64x192_1_0) : (⟨S192x64, .f32⟩ : BufTy).Contents (Elt F) → (⟨S64x192, .f32⟩ : BufTy).Contents (Elt F)),
    binary main_v193 main_v206 main_v207 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    reshape main_v207 main_v208 rfl shapeCasts_S100000x192_S100000x3x64,
    unary main_v203 main_v209 (broadcastInDim S800000x1x2 ![0, 2] bcast_S800000x2_S800000x1x2_0_2 : (⟨S800000x2, .f32⟩ : BufTy).Contents (Elt F) → (⟨S800000x1x2, .f32⟩ : BufTy).Contents (Elt F)),
    unary main_arg4 main_v210 ((extractStridedSlice S1x3x2 ![2, 0, 0] · slices_S4x3x2_S1x3x2_2_0_0) : (⟨S4x3x2, .f32⟩ : BufTy).Contents (Elt F) → (⟨S1x3x2, .f32⟩ : BufTy).Contents (Elt F)),
    reshape main_v210 main_v211 rfl shapeCasts_S1x3x2_S3x2,
    unary main_v211 main_v212 (broadcastInDim S1x3x2 ![1, 2] bcast_S3x2_S1x3x2_1_2 : (⟨S3x2, .f32⟩ : BufTy).Contents (Elt F) → (⟨S1x3x2, .f32⟩ : BufTy).Contents (Elt F)),
    unary main_v209 main_v213 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    unary main_v212 main_v214 (broadcastInDim S800000x3x2 ![0, 1, 2] bcast_S1x3x2_S800000x3x2_0_1_2 : (⟨S1x3x2, .f32⟩ : BufTy).Contents (Elt F) → (⟨S800000x3x2, .f32⟩ : BufTy).Contents (Elt F)),
    binary main_v213 main_v214 main_v215 (subf : (⟨S800000x3x2, .f32⟩ : BufTy).Contents (Elt F) → (⟨S800000x3x2, .f32⟩ : BufTy).Contents (Elt F) → (⟨S800000x3x2, .f32⟩ : BufTy).Contents (Elt F)),
    binary main_v215 main_v215 main_v216 (mulf : (⟨S800000x3x2, .f32⟩ : BufTy).Contents (Elt F) → (⟨S800000x3x2, .f32⟩ : BufTy).Contents (Elt F) → (⟨S800000x3x2, .f32⟩ : BufTy).Contents (Elt F)),
    unary main_arg5 main_v217 ((extractStridedSlice S1x3x2 ![2, 0, 0] · slices_S4x3x2_S1x3x2_2_0_0) : (⟨S4x3x2, .f32⟩ : BufTy).Contents (Elt F) → (⟨S1x3x2, .f32⟩ : BufTy).Contents (Elt F)),
    reshape main_v217 main_v218 rfl shapeCasts_S1x3x2_S3x2,
    unary main_v218 main_v219 (broadcastInDim S1x3x2 ![1, 2] bcast_S3x2_S1x3x2_1_2 : (⟨S3x2, .f32⟩ : BufTy).Contents (Elt F) → (⟨S1x3x2, .f32⟩ : BufTy).Contents (Elt F)),
    binary main_v219 main_v219 main_v220 (mulf : (⟨S1x3x2, .f32⟩ : BufTy).Contents (Elt F) → (⟨S1x3x2, .f32⟩ : BufTy).Contents (Elt F) → (⟨S1x3x2, .f32⟩ : BufTy).Contents (Elt F)),
    unary main_v220 main_v221 (broadcastInDim S800000x3x2 ![0, 1, 2] bcast_S1x3x2_S800000x3x2_0_1_2 : (⟨S1x3x2, .f32⟩ : BufTy).Contents (Elt F) → (⟨S800000x3x2, .f32⟩ : BufTy).Contents (Elt F)),
    binary main_v216 main_v221 main_v222 (mulf : (⟨S800000x3x2, .f32⟩ : BufTy).Contents (Elt F) → (⟨S800000x3x2, .f32⟩ : BufTy).Contents (Elt F) → (⟨S800000x3x2, .f32⟩ : BufTy).Contents (Elt F)),
    nullary main_cst_30 (constant S_ .f32 0x00000000#32),
    binary main_v222 main_cst_30 main_v223 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    nullary main_cst_31 (constant S_ .f32 0xBF000000#32),
    unary main_cst_31 main_v224 (broadcastInDim S800000x3 ![] bcast_S_S800000x3 : (⟨S_, .f32⟩ : BufTy).Contents (Elt F) → (⟨S800000x3, .f32⟩ : BufTy).Contents (Elt F)),
    binary main_v224 main_v223 main_v225 (mulf : (⟨S800000x3, .f32⟩ : BufTy).Contents (Elt F) → (⟨S800000x3, .f32⟩ : BufTy).Contents (Elt F) → (⟨S800000x3, .f32⟩ : BufTy).Contents (Elt F)),
    unary main_v225 main_v226 (Host.exp : (⟨S800000x3, .f32⟩ : BufTy).Contents (Elt F) → (⟨S800000x3, .f32⟩ : BufTy).Contents (Elt F)),
    nullary main_c_32 (constantI S_ 32 0#32),
    unary main_c_32 main_v227 (broadcastInDim S800000 ![] bcast_S_S800000 : (⟨S_, .i32⟩ : BufTy).Contents (Elt F) → (⟨S800000, .i32⟩ : BufTy).Contents (Elt F)),
    binary main_v1 main_v227 main_v228 (cmpi .slt : (⟨S800000, .i32⟩ : BufTy).Contents (Elt F) → (⟨S800000, .i32⟩ : BufTy).Contents (Elt F) → (⟨S800000, .i1⟩ : BufTy).Contents (Elt F)),
    nullary main_c_33 (constantI S_ 32 100000#32),
    unary main_c_33 main_v229 (broadcastInDim S800000 ![] bcast_S_S800000 : (⟨S_, .i32⟩ : BufTy).Contents (Elt F) → (⟨S800000, .i32⟩ : BufTy).Contents (Elt F)),
    binary main_v1 main_v229 main_v230 (addi : (⟨S800000, .i32⟩ : BufTy).Contents (Elt F) → (⟨S800000, .i32⟩ : BufTy).Contents (Elt F) → (⟨S800000, .i32⟩ : BufTy).Contents (Elt F)),
    ternary main_v228 main_v230 main_v1 main_v231 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v231 main_v232 (broadcastInDim S800000x1 ![0] bcast_S800000_S800000x1_0 : (⟨S800000, .i32⟩ : BufTy).Contents (Elt F) → (⟨S800000x1, .i32⟩ : BufTy).Contents (Elt F)),
    binary main_v208 main_v232 main_v233 ((fun x i => Host.gather gather_S100000x3x64_S800000x1_S800000x3x64_12_0_n_n_0_1_1364 x i) : (⟨S100000x3x64, .f32⟩ : BufTy).Contents (Elt F) → (⟨S800000x1, .i32⟩ : BufTy).Contents (Elt F) → (⟨S800000x3x64, .f32⟩ : BufTy).Contents (Elt F)),
    unary main_v226 main_v234 (broadcastInDim S800000x3x1 ![0, 1] bcast_S800000x3_S800000x3x1_0_1 : (⟨S800000x3, .f32⟩ : BufTy).Contents (Elt F) → (⟨S800000x3x1, .f32⟩ : BufTy).Contents (Elt F)),
    unary main_v234 main_v235 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    binary main_v233 main_v235 main_v236 (mulf : (⟨S800000x3x64, .f32⟩ : BufTy).Contents (Elt F) → (⟨S800000x3x64, .f32⟩ : BufTy).Contents (Elt F) → (⟨S800000x3x64, .f32⟩ : BufTy).Contents (Elt F)),
    nullary main_cst_34 (constant S_ .f32 0x00000000#32),
    unary main_cst_34 main_v237 (broadcastInDim S100000x3x64 ![] bcast_S_S100000x3x64 : (⟨S_, .f32⟩ : BufTy).Contents (Elt F) → (⟨S100000x3x64, .f32⟩ : BufTy).Contents (Elt F)),
    unary main_v3 main_v238 (broadcastInDim S800000x1 ![0] bcast_S800000_S800000x1_0 : (⟨S800000, .i32⟩ : BufTy).Contents (Elt F) → (⟨S800000x1, .i32⟩ : BufTy).Contents (Elt F)),
    ternary main_v237 main_v238 main_v236 main_v239 ((fun x i u => Host.scatterAdd scatter_S100000x3x64_S800000x1_S800000x3x64_12_0_0_1 x i u) : (⟨S100000x3x64, .f32⟩ : BufTy).Contents (Elt F) → (⟨S800000x1, .i32⟩ : BufTy).Contents (Elt F) → (⟨S800000x3x64, .f32⟩ : BufTy).Contents (Elt F) → (⟨S100000x3x64, .f32⟩ : BufTy).Contents (Elt F)),
    nullary main_cst_35 (constant S_ .f32 0x00000000#32),
    binary main_v239 main_cst_35 main_v240 ((fun x v => Host.reduceAdd x v reducesTo_S100000x3x64_S100000x64_d1 h_S_) : (⟨S100000x3x64, .f32⟩ : BufTy).Contents (Elt F) → (⟨S_, .f32⟩ : BufTy).Contents (Elt F) → (⟨S100000x64, .f32⟩ : BufTy).Contents (Elt F)),
    nullary main_cst_36 (constant S_ .f32 0x00000000#32),
    binary main_v240 main_cst_36 main_v241 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_37 (constant S_ .f32 0x47C35000#32),
    unary main_cst_37 main_v242 (broadcastInDim S64 ![] bcast_S_S64 : (⟨S_, .f32⟩ : BufTy).Contents (Elt F) → (⟨S64, .f32⟩ : BufTy).Contents (Elt F)),
    binary main_v241 main_v242 main_v243 (Host.divf : (⟨S64, .f32⟩ : BufTy).Contents (Elt F) → (⟨S64, .f32⟩ : BufTy).Contents (Elt F) → (⟨S64, .f32⟩ : BufTy).Contents (Elt F)),
    unary main_v243 main_v244 (broadcastInDim S1x64 ![1] bcast_S64_S1x64_1 : (⟨S64, .f32⟩ : BufTy).Contents (Elt F) → (⟨S1x64, .f32⟩ : BufTy).Contents (Elt F)),
    unary main_v244 main_v245 (broadcastInDim S100000x64 ![0, 1] bcast_S1x64_S100000x64_0_1 : (⟨S1x64, .f32⟩ : BufTy).Contents (Elt F) → (⟨S100000x64, .f32⟩ : BufTy).Contents (Elt F)),
    binary main_v240 main_v245 main_v246 (subf : (⟨S100000x64, .f32⟩ : BufTy).Contents (Elt F) → (⟨S100000x64, .f32⟩ : BufTy).Contents (Elt F) → (⟨S100000x64, .f32⟩ : BufTy).Contents (Elt F)),
    binary main_v246 main_v246 main_v247 (mulf : (⟨S100000x64, .f32⟩ : BufTy).Contents (Elt F) → (⟨S100000x64, .f32⟩ : BufTy).Contents (Elt F) → (⟨S100000x64, .f32⟩ : BufTy).Contents (Elt F)),
    nullary main_cst_38 (constant S_ .f32 0x00000000#32),
    binary main_v247 main_cst_38 main_v248 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_39 (constant S_ .f32 0x47C35000#32),
    unary main_cst_39 main_v249 (broadcastInDim S64 ![] bcast_S_S64 : (⟨S_, .f32⟩ : BufTy).Contents (Elt F) → (⟨S64, .f32⟩ : BufTy).Contents (Elt F)),
    binary main_v248 main_v249 main_v250 (Host.divf : (⟨S64, .f32⟩ : BufTy).Contents (Elt F) → (⟨S64, .f32⟩ : BufTy).Contents (Elt F) → (⟨S64, .f32⟩ : BufTy).Contents (Elt F)),
    unary main_v243 main_v251 (broadcastInDim S1x64 ![1] bcast_S64_S1x64_1 : (⟨S64, .f32⟩ : BufTy).Contents (Elt F) → (⟨S1x64, .f32⟩ : BufTy).Contents (Elt F)),
    unary main_v251 main_v252 (broadcastInDim S100000x64 ![0, 1] bcast_S1x64_S100000x64_0_1 : (⟨S1x64, .f32⟩ : BufTy).Contents (Elt F) → (⟨S100000x64, .f32⟩ : BufTy).Contents (Elt F)),
    binary main_v240 main_v252 main_v253 (subf : (⟨S100000x64, .f32⟩ : BufTy).Contents (Elt F) → (⟨S100000x64, .f32⟩ : BufTy).Contents (Elt F) → (⟨S100000x64, .f32⟩ : BufTy).Contents (Elt F)),
    nullary main_cst_40 (constant S_ .f32 0x3727C5AC#32),
    unary main_cst_40 main_v254 (broadcastInDim S64 ![] bcast_S_S64 : (⟨S_, .f32⟩ : BufTy).Contents (Elt F) → (⟨S64, .f32⟩ : BufTy).Contents (Elt F)),
    binary main_v250 main_v254 main_v255 (addf : (⟨S64, .f32⟩ : BufTy).Contents (Elt F) → (⟨S64, .f32⟩ : BufTy).Contents (Elt F) → (⟨S64, .f32⟩ : BufTy).Contents (Elt F)),
    unary main_v255 main_v256 (Host.rsqrt : (⟨S64, .f32⟩ : BufTy).Contents (Elt F) → (⟨S64, .f32⟩ : BufTy).Contents (Elt F)),
    unary main_v256 main_v257 (broadcastInDim S1x64 ![1] bcast_S64_S1x64_1 : (⟨S64, .f32⟩ : BufTy).Contents (Elt F) → (⟨S1x64, .f32⟩ : BufTy).Contents (Elt F)),
    unary main_v257 main_v258 (broadcastInDim S100000x64 ![0, 1] bcast_S1x64_S100000x64_0_1 : (⟨S1x64, .f32⟩ : BufTy).Contents (Elt F) → (⟨S100000x64, .f32⟩ : BufTy).Contents (Elt F)),
    binary main_v253 main_v258 main_v259 (mulf : (⟨S100000x64, .f32⟩ : BufTy).Contents (Elt F) → (⟨S100000x64, .f32⟩ : BufTy).Contents (Elt F) → (⟨S100000x64, .f32⟩ : BufTy).Contents (Elt F)),
    unary main_arg6 main_v260 ((extractStridedSlice S1x64 ![2, 0] · slices_S4x64_S1x64_2_0) : (⟨S4x64, .f32⟩ : BufTy).Contents (Elt F) → (⟨S1x64, .f32⟩ : BufTy).Contents (Elt F)),
    reshape main_v260 main_v261 rfl shapeCasts_S1x64_S64,
    unary main_v261 main_v262 (broadcastInDim S1x64 ![1] bcast_S64_S1x64_1 : (⟨S64, .f32⟩ : BufTy).Contents (Elt F) → (⟨S1x64, .f32⟩ : BufTy).Contents (Elt F)),
    unary main_v262 main_v263 (broadcastInDim S100000x64 ![0, 1] bcast_S1x64_S100000x64_0_1 : (⟨S1x64, .f32⟩ : BufTy).Contents (Elt F) → (⟨S100000x64, .f32⟩ : BufTy).Contents (Elt F)),
    binary main_v259 main_v263 main_v264 (mulf : (⟨S100000x64, .f32⟩ : BufTy).Contents (Elt F) → (⟨S100000x64, .f32⟩ : BufTy).Contents (Elt F) → (⟨S100000x64, .f32⟩ : BufTy).Contents (Elt F)),
    unary main_arg7 main_v265 ((extractStridedSlice S1x64 ![2, 0] · slices_S4x64_S1x64_2_0) : (⟨S4x64, .f32⟩ : BufTy).Contents (Elt F) → (⟨S1x64, .f32⟩ : BufTy).Contents (Elt F)),
    reshape main_v265 main_v266 rfl shapeCasts_S1x64_S64,
    unary main_v266 main_v267 (broadcastInDim S1x64 ![1] bcast_S64_S1x64_1 : (⟨S64, .f32⟩ : BufTy).Contents (Elt F) → (⟨S1x64, .f32⟩ : BufTy).Contents (Elt F)),
    unary main_v267 main_v268 (broadcastInDim S100000x64 ![0, 1] bcast_S1x64_S100000x64_0_1 : (⟨S1x64, .f32⟩ : BufTy).Contents (Elt F) → (⟨S100000x64, .f32⟩ : BufTy).Contents (Elt F)),
    binary main_v264 main_v268 main_v269 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v269) (TRef.of (T := ⟨S100000x64, .f32⟩) main_call2_v0) (TRef.of (T := ⟨S100000x64, .f32⟩) main_v270) maximumf,
    binary main_v193 main_v270 main_v271 (addf : (⟨S100000x64, .f32⟩ : BufTy).Contents (Elt F) → (⟨S100000x64, .f32⟩ : BufTy).Contents (Elt F) → (⟨S100000x64, .f32⟩ : BufTy).Contents (Elt F)) ]

set_option maxRecDepth 8192 in
/-- Each touches TensorCore buffers only. -/
theorem opsL2_sub : (opsL2 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., reshape_bufs_sub .., unary_bufs_sub .., unary_bufs_sub .., reshape_bufs_sub .., unary_bufs_sub .., unary_bufs_sub .., unary_bufs_sub .., binary_bufs_sub .., binary_bufs_sub .., unary_bufs_sub .., reshape_bufs_sub .., unary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

set_option maxRecDepth 8192 in
/-- Each determines its result (none allocates an unwritten buffer). -/
theorem opsL2_fresh : ∀ op ∈ (opsL2 : List (HloOp τ sig (Elt F))), op.fresh = ∅ := by
  intro _ h; (repeat (cases h with | head => rfl | tail _ h => ?_)); exact nomatch h

set_option maxHeartbeats 4000000 in
/-- Layer 3 (91 operations). -/
abbrev opsL3 : List (HloOp τ sig (Elt F)) :=
  [ unary main_arg8 main_v272 ((extractStridedSlice S1x2x2 ![3, 0, 0] · slices_S4x2x2_S1x2x2_3_0_0) : (⟨S4x2x2, .f32⟩ : BufTy).Contents (Elt F) → (⟨S1x2x2, .f32⟩ : BufTy).Contents (Elt F)),
    reshape main_v272 main_v273 rfl shapeCasts_S1x2x2_S2x2,
    unary main_v273 main_v274 ((transpose S2x2 [1, 0] · transposes_S2x2_S2x2_1_0) : (⟨S2x2, .f32⟩ : BufTy).Contents (Elt F) → (⟨S2x2, .f32⟩ : BufTy).Contents (Elt F)),
    binary main_v30 main_v274 main_v275 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    unary main_arg9 main_v276 ((extractStridedSlice S1x2 ![3, 0] · slices_S4x2_S1x2_3_0) : (⟨S4x2, .f32⟩ : BufTy).Contents (Elt F) → (⟨S1x2, .f32⟩ : BufTy).Contents (Elt F)),
    reshape main_v276 main_v277 rfl shapeCasts_S1x2_S2,
    unary main_v277 main_v278 (broadcastInDim S1x2 ![1] bcast_S2_S1x2_1 : (⟨S2, .f32⟩ : BufTy).Contents (Elt F) → (⟨S1x2, .f32⟩ : BufTy).Contents (Elt F)),
    unary main_v278 main_v279 (broadcastInDim S800000x2 ![0, 1] bcast_S1x2_S800000x2_0_1 : (⟨S1x2, .f32⟩ : BufTy).Contents (Elt F) → (⟨S800000x2, .f32⟩ : BufTy).Contents (Elt F)),
    binary main_v275 main_v279 main_v280 (addf : (⟨S800000x2, .f32⟩ : BufTy).Contents (Elt F) → (⟨S800000x2, .f32⟩ : BufTy).Contents (Elt F) → (⟨S800000x2, .f32⟩ : BufTy).Contents (Elt F)),
    unary main_v280 main_v281 (Host.tanh : (⟨S800000x2, .f32⟩ : BufTy).Contents (Elt F) → (⟨S800000x2, .f32⟩ : BufTy).Contents (Elt F)),
    unary main_arg3 main_v282 ((extractStridedSlice S1x192x64 ![3, 0, 0] · slices_S4x192x64_S1x192x64_3_0_0) : (⟨S4x192x64, .f32⟩ : BufTy).Contents (Elt F) → (⟨S1x192x64, .f32⟩ : BufTy).Contents (Elt F)),
    reshape main_v282 main_v283 rfl shapeCasts_S1x192x64_S192x64,
    unary main_v283 main_v284 ((transpose S64x192 [1, 0] · transposes_S192x64_S64x192_1_0) : (⟨S192x64, .f32⟩ : BufTy).Contents (Elt F) → (⟨S64x192, .f32⟩ : BufTy).Contents (Elt F)),
    binary main_v271 main_v284 main_v285 ((fun l r => Host.dotGeneral dot_S100000x64_S64x192_S100000x192_1_0_0_1_n_n none l r) : (⟨S100000x64, .f32⟩ : BufTy).Contents (Elt F) → (⟨S64x192, .f32⟩ : BufTy).Contents (Elt F) → (⟨S100000x192, .f32⟩ : BufTy).Contents (Elt F)),
    reshape main_v285 main_v286 rfl shapeCasts_S100000x192_S100000x3x64,
    unary main_v281 main_v287 (broadcastInDim S800000x1x2 ![0, 2] bcast_S800000x2_S800000x1x2_0_2 : (⟨S800000x2, .f32⟩ : BufTy).Contents (Elt F) → (⟨S800000x1x2, .f32⟩ : BufTy).Contents (Elt F)),
    unary main_arg4 main_v288 ((extractStridedSlice S1x3x2 ![3, 0, 0] · slices_S4x3x2_S1x3x2_3_0_0) : (⟨S4x3x2, .f32⟩ : BufTy).Contents (Elt F) → (⟨S1x3x2, .f32⟩ : BufTy).Contents (Elt F)),
    reshape main_v288 main_v289 rfl shapeCasts_S1x3x2_S3x2,
    unary main_v289 main_v290 (broadcastInDim S1x3x2 ![1, 2] bcast_S3x2_S1x3x2_1_2 : (⟨S3x2, .f32⟩ : BufTy).Contents (Elt F) → (⟨S1x3x2, .f32⟩ : BufTy).Contents (Elt F)),
    unary main_v287 main_v291 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    unary main_v290 main_v292 (broadcastInDim S800000x3x2 ![0, 1, 2] bcast_S1x3x2_S800000x3x2_0_1_2 : (⟨S1x3x2, .f32⟩ : BufTy).Contents (Elt F) → (⟨S800000x3x2, .f32⟩ : BufTy).Contents (Elt F)),
    binary main_v291 main_v292 main_v293 (subf : (⟨S800000x3x2, .f32⟩ : BufTy).Contents (Elt F) → (⟨S800000x3x2, .f32⟩ : BufTy).Contents (Elt F) → (⟨S800000x3x2, .f32⟩ : BufTy).Contents (Elt F)),
    binary main_v293 main_v293 main_v294 (mulf : (⟨S800000x3x2, .f32⟩ : BufTy).Contents (Elt F) → (⟨S800000x3x2, .f32⟩ : BufTy).Contents (Elt F) → (⟨S800000x3x2, .f32⟩ : BufTy).Contents (Elt F)),
    unary main_arg5 main_v295 ((extractStridedSlice S1x3x2 ![3, 0, 0] · slices_S4x3x2_S1x3x2_3_0_0) : (⟨S4x3x2, .f32⟩ : BufTy).Contents (Elt F) → (⟨S1x3x2, .f32⟩ : BufTy).Contents (Elt F)),
    reshape main_v295 main_v296 rfl shapeCasts_S1x3x2_S3x2,
    unary main_v296 main_v297 (broadcastInDim S1x3x2 ![1, 2] bcast_S3x2_S1x3x2_1_2 : (⟨S3x2, .f32⟩ : BufTy).Contents (Elt F) → (⟨S1x3x2, .f32⟩ : BufTy).Contents (Elt F)),
    binary main_v297 main_v297 main_v298 (mulf : (⟨S1x3x2, .f32⟩ : BufTy).Contents (Elt F) → (⟨S1x3x2, .f32⟩ : BufTy).Contents (Elt F) → (⟨S1x3x2, .f32⟩ : BufTy).Contents (Elt F)),
    unary main_v298 main_v299 (broadcastInDim S800000x3x2 ![0, 1, 2] bcast_S1x3x2_S800000x3x2_0_1_2 : (⟨S1x3x2, .f32⟩ : BufTy).Contents (Elt F) → (⟨S800000x3x2, .f32⟩ : BufTy).Contents (Elt F)),
    binary main_v294 main_v299 main_v300 (mulf : (⟨S800000x3x2, .f32⟩ : BufTy).Contents (Elt F) → (⟨S800000x3x2, .f32⟩ : BufTy).Contents (Elt F) → (⟨S800000x3x2, .f32⟩ : BufTy).Contents (Elt F)),
    nullary main_cst_41 (constant S_ .f32 0x00000000#32),
    binary main_v300 main_cst_41 main_v301 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    nullary main_cst_42 (constant S_ .f32 0xBF000000#32),
    unary main_cst_42 main_v302 (broadcastInDim S800000x3 ![] bcast_S_S800000x3 : (⟨S_, .f32⟩ : BufTy).Contents (Elt F) → (⟨S800000x3, .f32⟩ : BufTy).Contents (Elt F)),
    binary main_v302 main_v301 main_v303 (mulf : (⟨S800000x3, .f32⟩ : BufTy).Contents (Elt F) → (⟨S800000x3, .f32⟩ : BufTy).Contents (Elt F) → (⟨S800000x3, .f32⟩ : BufTy).Contents (Elt F)),
    unary main_v303 main_v304 (Host.exp : (⟨S800000x3, .f32⟩ : BufTy).Contents (Elt F) → (⟨S800000x3, .f32⟩ : BufTy).Contents (Elt F)),
    nullary main_c_43 (constantI S_ 32 0#32),
    unary main_c_43 main_v305 (broadcastInDim S800000 ![] bcast_S_S800000 : (⟨S_, .i32⟩ : BufTy).Contents (Elt F) → (⟨S800000, .i32⟩ : BufTy).Contents (Elt F)),
    binary main_v1 main_v305 main_v306 (cmpi .slt : (⟨S800000, .i32⟩ : BufTy).Contents (Elt F) → (⟨S800000, .i32⟩ : BufTy).Contents (Elt F) → (⟨S800000, .i1⟩ : BufTy).Contents (Elt F)),
    nullary main_c_44 (constantI S_ 32 100000#32),
    unary main_c_44 main_v307 (broadcastInDim S800000 ![] bcast_S_S800000 : (⟨S_, .i32⟩ : BufTy).Contents (Elt F) → (⟨S800000, .i32⟩ : BufTy).Contents (Elt F)),
    binary main_v1 main_v307 main_v308 (addi : (⟨S800000, .i32⟩ : BufTy).Contents (Elt F) → (⟨S800000, .i32⟩ : BufTy).Contents (Elt F) → (⟨S800000, .i32⟩ : BufTy).Contents (Elt F)),
    ternary main_v306 main_v308 main_v1 main_v309 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v309 main_v310 (broadcastInDim S800000x1 ![0] bcast_S800000_S800000x1_0 : (⟨S800000, .i32⟩ : BufTy).Contents (Elt F) → (⟨S800000x1, .i32⟩ : BufTy).Contents (Elt F)),
    binary main_v286 main_v310 main_v311 ((fun x i => Host.gather gather_S100000x3x64_S800000x1_S800000x3x64_12_0_n_n_0_1_1364 x i) : (⟨S100000x3x64, .f32⟩ : BufTy).Contents (Elt F) → (⟨S800000x1, .i32⟩ : BufTy).Contents (Elt F) → (⟨S800000x3x64, .f32⟩ : BufTy).Contents (Elt F)),
    unary main_v304 main_v312 (broadcastInDim S800000x3x1 ![0, 1] bcast_S800000x3_S800000x3x1_0_1 : (⟨S800000x3, .f32⟩ : BufTy).Contents (Elt F) → (⟨S800000x3x1, .f32⟩ : BufTy).Contents (Elt F)),
    unary main_v312 main_v313 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    binary main_v311 main_v313 main_v314 (mulf : (⟨S800000x3x64, .f32⟩ : BufTy).Contents (Elt F) → (⟨S800000x3x64, .f32⟩ : BufTy).Contents (Elt F) → (⟨S800000x3x64, .f32⟩ : BufTy).Contents (Elt F)),
    nullary main_cst_45 (constant S_ .f32 0x00000000#32),
    unary main_cst_45 main_v315 (broadcastInDim S100000x3x64 ![] bcast_S_S100000x3x64 : (⟨S_, .f32⟩ : BufTy).Contents (Elt F) → (⟨S100000x3x64, .f32⟩ : BufTy).Contents (Elt F)),
    unary main_v3 main_v316 (broadcastInDim S800000x1 ![0] bcast_S800000_S800000x1_0 : (⟨S800000, .i32⟩ : BufTy).Contents (Elt F) → (⟨S800000x1, .i32⟩ : BufTy).Contents (Elt F)),
    ternary main_v315 main_v316 main_v314 main_v317 ((fun x i u => Host.scatterAdd scatter_S100000x3x64_S800000x1_S800000x3x64_12_0_0_1 x i u) : (⟨S100000x3x64, .f32⟩ : BufTy).Contents (Elt F) → (⟨S800000x1, .i32⟩ : BufTy).Contents (Elt F) → (⟨S800000x3x64, .f32⟩ : BufTy).Contents (Elt F) → (⟨S100000x3x64, .f32⟩ : BufTy).Contents (Elt F)),
    nullary main_cst_46 (constant S_ .f32 0x00000000#32),
    binary main_v317 main_cst_46 main_v318 ((fun x v => Host.reduceAdd x v reducesTo_S100000x3x64_S100000x64_d1 h_S_) : (⟨S100000x3x64, .f32⟩ : BufTy).Contents (Elt F) → (⟨S_, .f32⟩ : BufTy).Contents (Elt F) → (⟨S100000x64, .f32⟩ : BufTy).Contents (Elt F)),
    nullary main_cst_47 (constant S_ .f32 0x00000000#32),
    binary main_v318 main_cst_47 main_v319 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_48 (constant S_ .f32 0x47C35000#32),
    unary main_cst_48 main_v320 (broadcastInDim S64 ![] bcast_S_S64 : (⟨S_, .f32⟩ : BufTy).Contents (Elt F) → (⟨S64, .f32⟩ : BufTy).Contents (Elt F)),
    binary main_v319 main_v320 main_v321 (Host.divf : (⟨S64, .f32⟩ : BufTy).Contents (Elt F) → (⟨S64, .f32⟩ : BufTy).Contents (Elt F) → (⟨S64, .f32⟩ : BufTy).Contents (Elt F)),
    unary main_v321 main_v322 (broadcastInDim S1x64 ![1] bcast_S64_S1x64_1 : (⟨S64, .f32⟩ : BufTy).Contents (Elt F) → (⟨S1x64, .f32⟩ : BufTy).Contents (Elt F)),
    unary main_v322 main_v323 (broadcastInDim S100000x64 ![0, 1] bcast_S1x64_S100000x64_0_1 : (⟨S1x64, .f32⟩ : BufTy).Contents (Elt F) → (⟨S100000x64, .f32⟩ : BufTy).Contents (Elt F)),
    binary main_v318 main_v323 main_v324 (subf : (⟨S100000x64, .f32⟩ : BufTy).Contents (Elt F) → (⟨S100000x64, .f32⟩ : BufTy).Contents (Elt F) → (⟨S100000x64, .f32⟩ : BufTy).Contents (Elt F)),
    binary main_v324 main_v324 main_v325 (mulf : (⟨S100000x64, .f32⟩ : BufTy).Contents (Elt F) → (⟨S100000x64, .f32⟩ : BufTy).Contents (Elt F) → (⟨S100000x64, .f32⟩ : BufTy).Contents (Elt F)),
    nullary main_cst_49 (constant S_ .f32 0x00000000#32),
    binary main_v325 main_cst_49 main_v326 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_50 (constant S_ .f32 0x47C35000#32),
    unary main_cst_50 main_v327 (broadcastInDim S64 ![] bcast_S_S64 : (⟨S_, .f32⟩ : BufTy).Contents (Elt F) → (⟨S64, .f32⟩ : BufTy).Contents (Elt F)),
    binary main_v326 main_v327 main_v328 (Host.divf : (⟨S64, .f32⟩ : BufTy).Contents (Elt F) → (⟨S64, .f32⟩ : BufTy).Contents (Elt F) → (⟨S64, .f32⟩ : BufTy).Contents (Elt F)),
    unary main_v321 main_v329 (broadcastInDim S1x64 ![1] bcast_S64_S1x64_1 : (⟨S64, .f32⟩ : BufTy).Contents (Elt F) → (⟨S1x64, .f32⟩ : BufTy).Contents (Elt F)),
    unary main_v329 main_v330 (broadcastInDim S100000x64 ![0, 1] bcast_S1x64_S100000x64_0_1 : (⟨S1x64, .f32⟩ : BufTy).Contents (Elt F) → (⟨S100000x64, .f32⟩ : BufTy).Contents (Elt F)),
    binary main_v318 main_v330 main_v331 (subf : (⟨S100000x64, .f32⟩ : BufTy).Contents (Elt F) → (⟨S100000x64, .f32⟩ : BufTy).Contents (Elt F) → (⟨S100000x64, .f32⟩ : BufTy).Contents (Elt F)),
    nullary main_cst_51 (constant S_ .f32 0x3727C5AC#32),
    unary main_cst_51 main_v332 (broadcastInDim S64 ![] bcast_S_S64 : (⟨S_, .f32⟩ : BufTy).Contents (Elt F) → (⟨S64, .f32⟩ : BufTy).Contents (Elt F)),
    binary main_v328 main_v332 main_v333 (addf : (⟨S64, .f32⟩ : BufTy).Contents (Elt F) → (⟨S64, .f32⟩ : BufTy).Contents (Elt F) → (⟨S64, .f32⟩ : BufTy).Contents (Elt F)),
    unary main_v333 main_v334 (Host.rsqrt : (⟨S64, .f32⟩ : BufTy).Contents (Elt F) → (⟨S64, .f32⟩ : BufTy).Contents (Elt F)),
    unary main_v334 main_v335 (broadcastInDim S1x64 ![1] bcast_S64_S1x64_1 : (⟨S64, .f32⟩ : BufTy).Contents (Elt F) → (⟨S1x64, .f32⟩ : BufTy).Contents (Elt F)),
    unary main_v335 main_v336 (broadcastInDim S100000x64 ![0, 1] bcast_S1x64_S100000x64_0_1 : (⟨S1x64, .f32⟩ : BufTy).Contents (Elt F) → (⟨S100000x64, .f32⟩ : BufTy).Contents (Elt F)),
    binary main_v331 main_v336 main_v337 (mulf : (⟨S100000x64, .f32⟩ : BufTy).Contents (Elt F) → (⟨S100000x64, .f32⟩ : BufTy).Contents (Elt F) → (⟨S100000x64, .f32⟩ : BufTy).Contents (Elt F)),
    unary main_arg6 main_v338 ((extractStridedSlice S1x64 ![3, 0] · slices_S4x64_S1x64_3_0) : (⟨S4x64, .f32⟩ : BufTy).Contents (Elt F) → (⟨S1x64, .f32⟩ : BufTy).Contents (Elt F)),
    reshape main_v338 main_v339 rfl shapeCasts_S1x64_S64,
    unary main_v339 main_v340 (broadcastInDim S1x64 ![1] bcast_S64_S1x64_1 : (⟨S64, .f32⟩ : BufTy).Contents (Elt F) → (⟨S1x64, .f32⟩ : BufTy).Contents (Elt F)),
    unary main_v340 main_v341 (broadcastInDim S100000x64 ![0, 1] bcast_S1x64_S100000x64_0_1 : (⟨S1x64, .f32⟩ : BufTy).Contents (Elt F) → (⟨S100000x64, .f32⟩ : BufTy).Contents (Elt F)),
    binary main_v337 main_v341 main_v342 (mulf : (⟨S100000x64, .f32⟩ : BufTy).Contents (Elt F) → (⟨S100000x64, .f32⟩ : BufTy).Contents (Elt F) → (⟨S100000x64, .f32⟩ : BufTy).Contents (Elt F)),
    unary main_arg7 main_v343 ((extractStridedSlice S1x64 ![3, 0] · slices_S4x64_S1x64_3_0) : (⟨S4x64, .f32⟩ : BufTy).Contents (Elt F) → (⟨S1x64, .f32⟩ : BufTy).Contents (Elt F)),
    reshape main_v343 main_v344 rfl shapeCasts_S1x64_S64,
    unary main_v344 main_v345 (broadcastInDim S1x64 ![1] bcast_S64_S1x64_1 : (⟨S64, .f32⟩ : BufTy).Contents (Elt F) → (⟨S1x64, .f32⟩ : BufTy).Contents (Elt F)),
    unary main_v345 main_v346 (broadcastInDim S100000x64 ![0, 1] bcast_S1x64_S100000x64_0_1 : (⟨S1x64, .f32⟩ : BufTy).Contents (Elt F) → (⟨S100000x64, .f32⟩ : BufTy).Contents (Elt F)),
    binary main_v342 main_v346 main_v347 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v347) (TRef.of (T := ⟨S100000x64, .f32⟩) main_call3_v0) (TRef.of (T := ⟨S100000x64, .f32⟩) main_v348) maximumf,
    binary main_v271 main_v348 main_v349 (addf : (⟨S100000x64, .f32⟩ : BufTy).Contents (Elt F) → (⟨S100000x64, .f32⟩ : BufTy).Contents (Elt F) → (⟨S100000x64, .f32⟩ : BufTy).Contents (Elt F)) ]

set_option maxRecDepth 8192 in
/-- Each touches TensorCore buffers only. -/
theorem opsL3_sub : (opsL3 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., reshape_bufs_sub .., unary_bufs_sub .., unary_bufs_sub .., reshape_bufs_sub .., unary_bufs_sub .., unary_bufs_sub .., unary_bufs_sub .., binary_bufs_sub .., binary_bufs_sub .., unary_bufs_sub .., reshape_bufs_sub .., unary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

set_option maxRecDepth 8192 in
/-- Each determines its result (none allocates an unwritten buffer). -/
theorem opsL3_fresh : ∀ op ∈ (opsL3 : List (HloOp τ sig (Elt F))), op.fresh = ∅ := by
  intro _ h; (repeat (cases h with | head => rfl | tail _ h => ?_)); exact nomatch h

set_option maxHeartbeats 4000000 in
/-- The readout perceptron (21 operations; the last writes the result). -/
abbrev opsM : List (HloOp τ sig (Elt F)) :=
  [ unary main_arg10 main_v350 ((transpose S64x32 [1, 0] · transposes_S32x64_S64x32_1_0) : (⟨S32x64, .f32⟩ : BufTy).Contents (Elt F) → (⟨S64x32, .f32⟩ : BufTy).Contents (Elt F)),
    binary main_v349 main_v350 main_v351 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg11 main_v352 (broadcastInDim S1x32 ![1] bcast_S32_S1x32_1 : (⟨S32, .f32⟩ : BufTy).Contents (Elt F) → (⟨S1x32, .f32⟩ : BufTy).Contents (Elt F)),
    unary main_v352 main_v353 (broadcastInDim S100000x32 ![0, 1] bcast_S1x32_S100000x32_0_1 : (⟨S1x32, .f32⟩ : BufTy).Contents (Elt F) → (⟨S100000x32, .f32⟩ : BufTy).Contents (Elt F)),
    binary main_v351 main_v353 main_v354 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x32, .f32⟩) main_call4_v0) (broadcastInDim S100000x32 ![] bcast_S_S100000x32),
    TRef.binary (TRef.of (T := ⟨S100000x32, .f32⟩) main_v354) (TRef.of (T := ⟨S100000x32, .f32⟩) main_call4_v0) (TRef.of (T := ⟨S100000x32, .f32⟩) main_v355) maximumf,
    unary main_arg12 main_v356 ((transpose S32x16 [1, 0] · transposes_S16x32_S32x16_1_0) : (⟨S16x32, .f32⟩ : BufTy).Contents (Elt F) → (⟨S32x16, .f32⟩ : BufTy).Contents (Elt F)),
    binary main_v355 main_v356 main_v357 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg13 main_v358 (broadcastInDim S1x16 ![1] bcast_S16_S1x16_1 : (⟨S16, .f32⟩ : BufTy).Contents (Elt F) → (⟨S1x16, .f32⟩ : BufTy).Contents (Elt F)),
    unary main_v358 main_v359 (broadcastInDim S100000x16 ![0, 1] bcast_S1x16_S100000x16_0_1 : (⟨S1x16, .f32⟩ : BufTy).Contents (Elt F) → (⟨S100000x16, .f32⟩ : BufTy).Contents (Elt F)),
    binary main_v357 main_v359 main_v360 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x16, .f32⟩) main_call5_v0) (broadcastInDim S100000x16 ![] bcast_S_S100000x16),
    TRef.binary (TRef.of (T := ⟨S100000x16, .f32⟩) main_v360) (TRef.of (T := ⟨S100000x16, .f32⟩) main_call5_v0) (TRef.of (T := ⟨S100000x16, .f32⟩) main_v361) maximumf,
    unary main_arg14 main_v362 ((transpose S16x7 [1, 0] · transposes_S7x16_S16x7_1_0) : (⟨S7x16, .f32⟩ : BufTy).Contents (Elt F) → (⟨S16x7, .f32⟩ : BufTy).Contents (Elt F)),
    binary main_v361 main_v362 main_v363 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    unary main_arg15 main_v364 (broadcastInDim S1x7 ![1] bcast_S7_S1x7_1 : (⟨S7, .f32⟩ : BufTy).Contents (Elt F) → (⟨S1x7, .f32⟩ : BufTy).Contents (Elt F)),
    unary main_v364 main_v365 (broadcastInDim S100000x7 ![0, 1] bcast_S1x7_S100000x7_0_1 : (⟨S1x7, .f32⟩ : BufTy).Contents (Elt F) → (⟨S100000x7, .f32⟩ : BufTy).Contents (Elt F)),
    binary main_v363 main_v365 main_v366 (addf : (⟨S100000x7, .f32⟩ : BufTy).Contents (Elt F) → (⟨S100000x7, .f32⟩ : BufTy).Contents (Elt F) → (⟨S100000x7, .f32⟩ : BufTy).Contents (Elt F)) ]

set_option maxRecDepth 8192 in
/-- Each touches TensorCore buffers only. -/
theorem opsM_sub : (opsM : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

set_option maxRecDepth 8192 in
/-- Each determines its result (none allocates an unwritten buffer). -/
theorem opsM_fresh : ∀ op ∈ (opsM : List (HloOp τ sig (Elt F))), op.fresh = ∅ := by
  intro _ h; (repeat (cases h with | head => rfl | tail _ h => ?_)); exact nomatch h

end Cert.MoNet.RefRun

end
-- ==== Proof.RefRunSeq.lean ====
/-
  The reference's @main run as its six lists in order: the program is the sequence of the concatenated lists, so after it
  every TensorCore buffer holds what the six folds, applied one after the other to the launch contents, leave there.
-/
import proofs.«168295_j62088047231392_2_alg».proof.Proof.RefChunks

noncomputable section

namespace Cert.MoNet.RefRun

open Cert.ReferenceIdeal Cert.ReferenceIdeal.Gen Idealize.ShloMosaic Idealize.ShloMosaic.TcCoe Idealize.SL.Sem Idealize.ShloMosaic.StableHlo

variable {F : FTy → Type} [FloatOps F]

/-- Folding two lists in a row is folding their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole program's operations: the six lists in order. -/
abbrev opsAll : List (HloOp τ sig (Elt F)) := opsP ++ (opsL0 ++ (opsL1 ++ (opsL2 ++ (opsL3 ++ opsM))))

/-- An operation of the program is in one of the six lists. -/
theorem mem_opsAll {op : HloOp τ sig (Elt F)} (h : op ∈ (opsAll : List (HloOp τ sig (Elt F)))) :
    op ∈ (opsP : List (HloOp τ sig (Elt F))) ∨ op ∈ (opsL0 : List (HloOp τ sig (Elt F))) ∨ op ∈ (opsL1 : List (HloOp τ sig (Elt F)))
      ∨ op ∈ (opsL2 : List (HloOp τ sig (Elt F))) ∨ op ∈ (opsL3 : List (HloOp τ sig (Elt F))) ∨ op ∈ (opsM : List (HloOp τ sig (Elt F))) := by
  rcases List.mem_append.mp h with h | h
  · exact Or.inl h
  rcases List.mem_append.mp h with h | h
  · exact Or.inr (Or.inl h)
  rcases List.mem_append.mp h with h | h
  · exact Or.inr (Or.inr (Or.inl h))
  rcases List.mem_append.mp h with h | h
  · exact Or.inr (Or.inr (Or.inr (Or.inl h)))
  rcases List.mem_append.mp h with h | h
  · exact Or.inr (Or.inr (Or.inr (Or.inr (Or.inl h))))
  · exact Or.inr (Or.inr (Or.inr (Or.inr (Or.inr h))))

/-- Every operation of the program touches TensorCore buffers only. -/
theorem opsAll_sub : (opsAll : List (HloOp τ sig (Elt F))).Forall fun op => op.bufs ⊆ tcRefs τ sig :=
  List.forall_iff_forall_mem.mpr fun op h => by
    rcases mem_opsAll h with h | h | h | h | h | h
    · exact List.forall_iff_forall_mem.mp opsP_sub op h
    · exact List.forall_iff_forall_mem.mp opsL0_sub op h
    · exact List.forall_iff_forall_mem.mp opsL1_sub op h
    · exact List.forall_iff_forall_mem.mp opsL2_sub op h
    · exact List.forall_iff_forall_mem.mp opsL3_sub op h
    · exact List.forall_iff_forall_mem.mp opsM_sub op h

/-- Every operation of the program determines its result. -/
theorem opsAll_fresh : ∀ op ∈ (opsAll : List (HloOp τ sig (Elt F))), op.fresh = ∅ := fun op h => by
  rcases mem_opsAll h with h | h | h | h | h | h
  · exact opsP_fresh op h
  · exact opsL0_fresh op h
  · exact opsL1_fresh op h
  · exact opsL2_fresh op h
  · exact opsL3_fresh op h
  · exact opsM_fresh op h

/-- The fold of the whole program is the six folds in order. -/
theorem after_all (V : Valuation τ sig (Elt F)) :
    after (opsAll (F := F)) V = after opsM (after opsL3 (after opsL2 (after opsL1 (after opsL0 (after opsP V))))) := by
  show after (opsP ++ (opsL0 ++ (opsL1 ++ (opsL2 ++ (opsL3 ++ opsM))))) V = _
  rw [after_append, after_append, after_append, after_append, after_append]

set_option maxRecDepth 16384 in
set_option maxHeartbeats 8000000 in
/-- The printed @main is the sequence of its operations. -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, with every TensorCore buffer at
    the six folds of the launch contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after opsM (after opsL3 (after opsL2 (after opsL1 (after opsL0 (after opsP (launchContents m c)))))) (Proc.devRef .tc b) :=
  (θ_run defs _ _).mono (fun _ h c b => (h c b).trans (congrFun (after_all (launchContents m c)) (Proc.devRef .tc b)))
    (run_seq scopedRefs_eq scopedSems_eq defs main (fun _ => opsAll) main_eq (fun _ => opsAll_sub) m ρ (fun _ => opsAll_fresh))

end Cert.MoNet.RefRun

end
-- ==== Proof.RefChunkReadsP.lean ====
/-
  The reference program's operations, cut into six consecutive stretches. After a stretch, each buffer that later stretches read holds
  the operations of the stretch composed, in the program's order, over what the buffers held before the stretch: the
  stage functions of the reference's reading name exactly these compositions.
-/
import proofs.«168295_j62088047231392_2_alg».proof.Proof.RefRead
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
theorem read_P_v1 (X : Valuation τ sig (Elt Ideal)) :
    after (opsP (F := Ideal)) X (Proc.devRef .tc main_v1) = Cert.ReferenceIdeal.ReadP.val_main_v1 (F := Ideal) (X (Proc.devRef .tc main_arg1)) := by
  simp only [opsP]
  after_results_simp
  unfold Cert.ReferenceIdeal.ReadP.val_main_v1 Cert.ReferenceIdeal.ReadP.val_main_v0
  rfl

set_option maxRecDepth 8192 in
set_option maxHeartbeats 4000000 in
theorem read_P_v3 (X : Valuation τ sig (Elt Ideal)) :
    after (opsP (F := Ideal)) X (Proc.devRef .tc main_v3) = Cert.ReferenceIdeal.ReadP.val_main_v3 (F := Ideal) (X (Proc.devRef .tc main_arg1)) := by
  simp only [opsP]
  after_results_simp
  unfold Cert.ReferenceIdeal.ReadP.val_main_v3 Cert.ReferenceIdeal.ReadP.val_main_v2
  rfl

set_option maxRecDepth 8192 in
set_option maxHeartbeats 4000000 in
theorem read_P_v37 (X : Valuation τ sig (Elt Ideal)) :
    after (opsP (F := Ideal)) X (Proc.devRef .tc main_v37) = Cert.ReferenceIdeal.ReadP.val_main_v37 (F := Ideal) (X (Proc.devRef .tc main_arg0)) (X (Proc.devRef .tc main_arg2)) := by
  simp only [opsP]
  after_results_simp
  unfold Cert.ReferenceIdeal.ReadP.val_main_v37 Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_c_7 Cert.ReferenceIdeal.ReadP.val_main_v32 Cert.ReferenceIdeal.ReadP.val_main_v31 Cert.ReferenceIdeal.ReadP.val_main_c_6
  rfl

/-! ## The edge weights' buffer

Its last operation joins two columns; the stretch is read in two parts, the columns first. -/

section
variable {F : FTy → Type} [FloatOps F]

set_option maxHeartbeats 4000000 in
/-- The stretch's operations up to the two columns, -/
abbrev opsPa : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v1 main_v8 main_v9 (cmpi .slt : (⟨S800000, .i32⟩ : BufTy).Contents (Elt F) → (⟨S800000, .i32⟩ : BufTy).Contents (Elt F) → (⟨S800000, .i1⟩ : BufTy).Contents (Elt F)),
    nullary main_c_1 (constantI S_ 32 100000#32),
    unary main_c_1 main_v10 (broadcastInDim S800000 ![] bcast_S_S800000 : (⟨S_, .i32⟩ : BufTy).Contents (Elt F) → (⟨S800000, .i32⟩ : BufTy).Contents (Elt F)),
    binary main_v1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_v7 main_v13 main_v14 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_cst_2 (constant S_ .f32 0x3F800000#32),
    unary main_cst_2 main_v15 (broadcastInDim S800000 ![] bcast_S_S800000 : (⟨S_, .f32⟩ : BufTy).Contents (Elt F) → (⟨S800000, .f32⟩ : BufTy).Contents (Elt F)),
    binary main_v14 main_v15 main_v16 (addf : (⟨S800000, .f32⟩ : BufTy).Contents (Elt F) → (⟨S800000, .f32⟩ : BufTy).Contents (Elt F) → (⟨S800000, .f32⟩ : BufTy).Contents (Elt F)),
    unary main_v16 main_v17 (Host.rsqrt : (⟨S800000, .f32⟩ : BufTy).Contents (Elt F) → (⟨S800000, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 100000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v7 main_v23 main_v24 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_cst_5 (constant S_ .f32 0x3F800000#32),
    unary main_cst_5 main_v25 (broadcastInDim S800000 ![] bcast_S_S800000 : (⟨S_, .f32⟩ : BufTy).Contents (Elt F) → (⟨S800000, .f32⟩ : BufTy).Contents (Elt F)),
    binary main_v24 main_v25 main_v26 (addf : (⟨S800000, .f32⟩ : BufTy).Contents (Elt F) → (⟨S800000, .f32⟩ : BufTy).Contents (Elt F) → (⟨S800000, .f32⟩ : BufTy).Contents (Elt F)),
    unary main_v26 main_v27 (Host.rsqrt : (⟨S800000, .f32⟩ : BufTy).Contents (Elt F) → (⟨S800000, .f32⟩ : BufTy).Contents (Elt F)),
    unary main_v17 main_v28 (broadcastInDim S800000x1 ![0] bcast_S800000_S800000x1_0 : (⟨S800000, .f32⟩ : BufTy).Contents (Elt F) → (⟨S800000x1, .f32⟩ : BufTy).Contents (Elt F)),
    unary main_v27 main_v29 (broadcastInDim S800000x1 ![0] bcast_S800000_S800000x1_0 : (⟨S800000, .f32⟩ : BufTy).Contents (Elt F) → (⟨S800000x1, .f32⟩ : BufTy).Contents (Elt F)) ]

set_option maxHeartbeats 4000000 in
/-- and from their joining on. -/
abbrev opsPb : List (HloOp τ sig (Elt F)) :=
  [ binary main_v28 main_v29 main_v30 ((fun a b => concatenate S800000x2 1 [⟨S800000x1, a⟩, ⟨S800000x1, b⟩] concatenates_S800000x1_S800000x1_S800000x2_d1) : (⟨S800000x1, .f32⟩ : BufTy).Contents (Elt F) → (⟨S800000x1, .f32⟩ : BufTy).Contents (Elt F) → (⟨S800000x2, .f32⟩ : BufTy).Contents (Elt F)),
    nullary main_c_6 (constantI S_ 32 0#32),
    unary main_c_6 main_v31 (broadcastInDim S100000 ![] bcast_S_S100000 : (⟨S_, .i32⟩ : BufTy).Contents (Elt F) → (⟨S100000, .i32⟩ : BufTy).Contents (Elt F)),
    binary main_arg0 main_v31 main_v32 (cmpi .slt : (⟨S100000, .i32⟩ : BufTy).Contents (Elt F) → (⟨S100000, .i32⟩ : BufTy).Contents (Elt F) → (⟨S100000, .i1⟩ : BufTy).Contents (Elt F)),
    nullary main_c_7 (constantI S_ 32 32#32),
    unary main_c_7 main_v33 (broadcastInDim S100000 ![] bcast_S_S100000 : (⟨S_, .i32⟩ : BufTy).Contents (Elt F) → (⟨S100000, .i32⟩ : BufTy).Contents (Elt F)),
    binary main_arg0 main_v33 main_v34 (addi : (⟨S100000, .i32⟩ : BufTy).Contents (Elt F) → (⟨S100000, .i32⟩ : BufTy).Contents (Elt F) → (⟨S100000, .i32⟩ : BufTy).Contents (Elt F)),
    ternary main_v32 main_v34 main_arg0 main_v35 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v35 main_v36 (broadcastInDim S100000x1 ![0] bcast_S100000_S100000x1_0 : (⟨S100000, .i32⟩ : BufTy).Contents (Elt F) → (⟨S100000x1, .i32⟩ : BufTy).Contents (Elt F)),
    binary main_arg2 main_v36 main_v37 ((fun x i => Host.gather gather_S32x64_S100000x1_S100000x64_1_0_n_n_0_1_164 x i) : (⟨S32x64, .f32⟩ : BufTy).Contents (Elt F) → (⟨S100000x1, .i32⟩ : BufTy).Contents (Elt F) → (⟨S100000x64, .f32⟩ : BufTy).Contents (Elt F)) ]

set_option maxRecDepth 8192 in
set_option maxHeartbeats 4000000 in
theorem opsP_parts : (opsP : List (HloOp τ sig (Elt F))) = opsPa ++ opsPb := rfl

/-- Operations run one after the other: the contents after a list joined to another. -/
theorem after_parts (l₁ l₂ : List (HloOp τ sig (Elt F))) (V : Valuation τ sig (Elt F)) :
    after (l₁ ++ l₂) V = after l₂ (after l₁ V) := by
  induction l₁ generalizing V with
  | nil => rfl
  | cons op l ih => exact ih (op.result V)

end

set_option maxRecDepth 8192 in
set_option maxHeartbeats 4000000 in
theorem read_Pa_v28 (X : Valuation τ sig (Elt Ideal)) :
    after (opsPa (F := Ideal)) X (Proc.devRef .tc main_v28) = Cert.ReferenceIdeal.ReadP.val_main_v28 (F := Ideal) (X (Proc.devRef .tc main_arg1)) := by
  simp only [opsPa]
  after_results_simp
  unfold Cert.ReferenceIdeal.ReadP.val_main_v28 Cert.ReferenceIdeal.ReadP.val_main_v17 Cert.ReferenceIdeal.ReadP.val_main_v16 Cert.ReferenceIdeal.ReadP.val_main_v15 Cert.ReferenceIdeal.ReadP.val_main_cst_2 Cert.ReferenceIdeal.ReadP.val_main_v14 Cert.ReferenceIdeal.ReadP.val_main_v13 Cert.ReferenceIdeal.ReadP.val_main_v12 Cert.ReferenceIdeal.ReadP.val_main_v11 Cert.ReferenceIdeal.ReadP.val_main_v10 Cert.ReferenceIdeal.ReadP.val_main_c_1 Cert.ReferenceIdeal.ReadP.val_main_v9 Cert.ReferenceIdeal.ReadP.val_main_v8 Cert.ReferenceIdeal.ReadP.val_main_c Cert.ReferenceIdeal.ReadP.val_main_v7 Cert.ReferenceIdeal.ReadP.val_main_v6 Cert.ReferenceIdeal.ReadP.val_main_v5 Cert.ReferenceIdeal.ReadP.val_main_cst_0 Cert.ReferenceIdeal.ReadP.val_main_v4 Cert.ReferenceIdeal.ReadP.val_main_cst Cert.ReferenceIdeal.ReadP.val_main_v3 Cert.ReferenceIdeal.ReadP.val_main_v2 Cert.ReferenceIdeal.ReadP.val_main_v1 Cert.ReferenceIdeal.ReadP.val_main_v0
  rfl

set_option maxRecDepth 8192 in
set_option maxHeartbeats 4000000 in
theorem read_Pa_v29 (X : Valuation τ sig (Elt Ideal)) :
    after (opsPa (F := Ideal)) X (Proc.devRef .tc main_v29) = Cert.ReferenceIdeal.ReadP.val_main_v29 (F := Ideal) (X (Proc.devRef .tc main_arg1)) := by
  simp only [opsPa]
  after_results_simp
  unfold Cert.ReferenceIdeal.ReadP.val_main_v29 Cert.ReferenceIdeal.ReadP.val_main_v27 Cert.ReferenceIdeal.ReadP.val_main_v26 Cert.ReferenceIdeal.ReadP.val_main_v25 Cert.ReferenceIdeal.ReadP.val_main_cst_5 Cert.ReferenceIdeal.ReadP.val_main_v24 Cert.ReferenceIdeal.ReadP.val_main_v23 Cert.ReferenceIdeal.ReadP.val_main_v22 Cert.ReferenceIdeal.ReadP.val_main_v21 Cert.ReferenceIdeal.ReadP.val_main_v20 Cert.ReferenceIdeal.ReadP.val_main_c_4 Cert.ReferenceIdeal.ReadP.val_main_v19 Cert.ReferenceIdeal.ReadP.val_main_v18 Cert.ReferenceIdeal.ReadP.val_main_c_3 Cert.ReferenceIdeal.ReadP.val_main_v7 Cert.ReferenceIdeal.ReadP.val_main_v6 Cert.ReferenceIdeal.ReadP.val_main_v5 Cert.ReferenceIdeal.ReadP.val_main_cst_0 Cert.ReferenceIdeal.ReadP.val_main_v4 Cert.ReferenceIdeal.ReadP.val_main_cst Cert.ReferenceIdeal.ReadP.val_main_v3 Cert.ReferenceIdeal.ReadP.val_main_v2
  rfl

set_option maxRecDepth 8192 in
set_option maxHeartbeats 4000000 in
/-- The joining, from what the two columns' buffers hold. -/
theorem read_Pb_v30 (Y : Valuation τ sig (Elt Ideal)) (A B : (⟨S800000x1, .f32⟩ : BufTy).Contents (Elt Ideal))
    (h28 : Y (Proc.devRef .tc main_v28) = A) (h29 : Y (Proc.devRef .tc main_v29) = B) :
    after (opsPb (F := Ideal)) Y (Proc.devRef .tc main_v30)
      = concatenate S800000x2 1 [⟨S800000x1, A⟩, ⟨S800000x1, B⟩] concatenates_S800000x1_S800000x1_S800000x2_d1 := by
  simp only [opsPb]
  after_results_simp
  rw [h28, h29]

theorem read_P_v30 (X : Valuation τ sig (Elt Ideal)) :
    after (opsP (F := Ideal)) X (Proc.devRef .tc main_v30) = Cert.ReferenceIdeal.ReadP.val_main_v30 (F := Ideal) (X (Proc.devRef .tc main_arg1)) := by
  rw [opsP_parts, after_parts]
  refine (read_Pb_v30 _ _ _ (read_Pa_v28 X) (read_Pa_v29 X)).trans ?_
  unfold Cert.ReferenceIdeal.ReadP.val_main_v30
  rfl

end Cert.MoNet.RefRun

end
-- ==== Proof.RefChunkReadsL0.lean ====
/-
  The reference program's operations, cut into six consecutive stretches. After a stretch, the graph layer's output buffer holds
  the operations of the stretch composed, in the program's order, over what the buffers held before the stretch: the
  stage functions of the reference's reading name exactly these compositions.
-/
import proofs.«168295_j62088047231392_2_alg».proof.Proof.RefRead
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 8000000 in
theorem read_L0 (X : Valuation τ sig (Elt Ideal)) (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 : (⟨S4x3x2, .f32⟩ : BufTy).Contents (Elt Ideal)) (x5 : (⟨S4x3x2, .f32⟩ : BufTy).Contents (Elt Ideal)) (x6 : (⟨S4x64, .f32⟩ : BufTy).Contents (Elt Ideal)) (x7 : (⟨S4x64, .f32⟩ : BufTy).Contents (Elt Ideal)) (x8 : (⟨S4x2x2, .f32⟩ : BufTy).Contents (Elt Ideal)) (x9 : (⟨S4x2, .f32⟩ : BufTy).Contents (Elt Ideal))
    (h_v37 : X (Proc.devRef .tc main_v37) = Cert.ReferenceIdeal.ReadP.val_main_v37 (F := Ideal) x0 x2)
    (h_v30 : X (Proc.devRef .tc main_v30) = Cert.ReferenceIdeal.ReadP.val_main_v30 (F := Ideal) x1)
    (h_v1 : X (Proc.devRef .tc main_v1) = Cert.ReferenceIdeal.ReadP.val_main_v1 (F := Ideal) x1)
    (h_v3 : X (Proc.devRef .tc main_v3) = Cert.ReferenceIdeal.ReadP.val_main_v3 (F := Ideal) x1)
    (a3 : X (Proc.devRef .tc main_arg3) = x3)
    (a4 : X (Proc.devRef .tc main_arg4) = x4)
    (a5 : X (Proc.devRef .tc main_arg5) = x5)
    (a6 : X (Proc.devRef .tc main_arg6) = x6)
    (a7 : X (Proc.devRef .tc main_arg7) = x7)
    (a8 : X (Proc.devRef .tc main_arg8) = x8)
    (a9 : X (Proc.devRef .tc main_arg9) = x9) :
    after (opsL0 (F := Ideal)) X (Proc.devRef .tc main_v115) = Cert.ReferenceIdeal.ReadP.val_main_v115 (F := Ideal) x0 x1 x2 x3 x4 x5 x6 x7 x8 x9 := by
  simp only [opsL0]
  after_results_simp
  simp only [h_v37, h_v30, h_v1, h_v3, a3, a4, a5, a6, a7, a8, a9]
  unfold Cert.ReferenceIdeal.ReadP.val_main_v115 Cert.ReferenceIdeal.ReadP.val_main_v114 Cert.ReferenceIdeal.ReadP.val_main_call0_v0 Cert.ReferenceIdeal.ReadP.val_main_call0_cst Cert.ReferenceIdeal.ReadP.val_main_v113 Cert.ReferenceIdeal.ReadP.val_main_v112 Cert.ReferenceIdeal.ReadP.val_main_v111 Cert.ReferenceIdeal.ReadP.val_main_v110 Cert.ReferenceIdeal.ReadP.val_main_v109 Cert.ReferenceIdeal.ReadP.val_main_v108 Cert.ReferenceIdeal.ReadP.val_main_v107 Cert.ReferenceIdeal.ReadP.val_main_v106 Cert.ReferenceIdeal.ReadP.val_main_v105 Cert.ReferenceIdeal.ReadP.val_main_v104 Cert.ReferenceIdeal.ReadP.val_main_v103 Cert.ReferenceIdeal.ReadP.val_main_v102 Cert.ReferenceIdeal.ReadP.val_main_v101 Cert.ReferenceIdeal.ReadP.val_main_v100 Cert.ReferenceIdeal.ReadP.val_main_v99 Cert.ReferenceIdeal.ReadP.val_main_v98 Cert.ReferenceIdeal.ReadP.val_main_cst_18 Cert.ReferenceIdeal.ReadP.val_main_v97 Cert.ReferenceIdeal.ReadP.val_main_v96 Cert.ReferenceIdeal.ReadP.val_main_v95 Cert.ReferenceIdeal.ReadP.val_main_v94 Cert.ReferenceIdeal.ReadP.val_main_v93 Cert.ReferenceIdeal.ReadP.val_main_cst_17 Cert.ReferenceIdeal.ReadP.val_main_v92 Cert.ReferenceIdeal.ReadP.val_main_cst_16 Cert.ReferenceIdeal.ReadP.val_main_v91 Cert.ReferenceIdeal.ReadP.val_main_v90 Cert.ReferenceIdeal.ReadP.val_main_v89 Cert.ReferenceIdeal.ReadP.val_main_v88 Cert.ReferenceIdeal.ReadP.val_main_v87 Cert.ReferenceIdeal.ReadP.val_main_v86 Cert.ReferenceIdeal.ReadP.val_main_cst_15 Cert.ReferenceIdeal.ReadP.val_main_v85 Cert.ReferenceIdeal.ReadP.val_main_cst_14 Cert.ReferenceIdeal.ReadP.val_main_v84 Cert.ReferenceIdeal.ReadP.val_main_cst_13 Cert.ReferenceIdeal.ReadP.val_main_v83 Cert.ReferenceIdeal.ReadP.val_main_v82 Cert.ReferenceIdeal.ReadP.val_main_v81 Cert.ReferenceIdeal.ReadP.val_main_cst_12 Cert.ReferenceIdeal.ReadP.val_main_v80 Cert.ReferenceIdeal.ReadP.val_main_v79 Cert.ReferenceIdeal.ReadP.val_main_v78 Cert.ReferenceIdeal.ReadP.val_main_v77 Cert.ReferenceIdeal.ReadP.val_main_v76 Cert.ReferenceIdeal.ReadP.val_main_v75 Cert.ReferenceIdeal.ReadP.val_main_v74 Cert.ReferenceIdeal.ReadP.val_main_v73 Cert.ReferenceIdeal.ReadP.val_main_c_11 Cert.ReferenceIdeal.ReadP.val_main_v72 Cert.ReferenceIdeal.ReadP.val_main_v71 Cert.ReferenceIdeal.ReadP.val_main_c_10 Cert.ReferenceIdeal.ReadP.val_main_v70 Cert.ReferenceIdeal.ReadP.val_main_v69 Cert.ReferenceIdeal.ReadP.val_main_v68 Cert.ReferenceIdeal.ReadP.val_main_cst_9 Cert.ReferenceIdeal.ReadP.val_main_v67 Cert.ReferenceIdeal.ReadP.val_main_cst_8 Cert.ReferenceIdeal.ReadP.val_main_v66 Cert.ReferenceIdeal.ReadP.val_main_v65 Cert.ReferenceIdeal.ReadP.val_main_v64 Cert.ReferenceIdeal.ReadP.val_main_v63 Cert.ReferenceIdeal.ReadP.val_main_v62 Cert.ReferenceIdeal.ReadP.val_main_v61 Cert.ReferenceIdeal.ReadP.val_main_v60 Cert.ReferenceIdeal.ReadP.val_main_v59 Cert.ReferenceIdeal.ReadP.val_main_v58 Cert.ReferenceIdeal.ReadP.val_main_v57 Cert.ReferenceIdeal.ReadP.val_main_v56 Cert.ReferenceIdeal.ReadP.val_main_v55 Cert.ReferenceIdeal.ReadP.val_main_v54 Cert.ReferenceIdeal.ReadP.val_main_v53 Cert.ReferenceIdeal.ReadP.val_main_v52 Cert.ReferenceIdeal.ReadP.val_main_v51 Cert.ReferenceIdeal.ReadP.val_main_v50 Cert.ReferenceIdeal.ReadP.val_main_v49 Cert.ReferenceIdeal.ReadP.val_main_v48 Cert.ReferenceIdeal.ReadP.val_main_v47 Cert.ReferenceIdeal.ReadP.val_main_v46 Cert.ReferenceIdeal.ReadP.val_main_v45 Cert.ReferenceIdeal.ReadP.val_main_v44 Cert.ReferenceIdeal.ReadP.val_main_v43 Cert.ReferenceIdeal.ReadP.val_main_v42 Cert.ReferenceIdeal.ReadP.val_main_v41 Cert.ReferenceIdeal.ReadP.val_main_v40 Cert.ReferenceIdeal.ReadP.val_main_v39 Cert.ReferenceIdeal.ReadP.val_main_v38
  rfl

end Cert.MoNet.RefRun

end
-- ==== Proof.RefChunkReadsL1.lean ====
/-
  The reference program's operations, cut into six consecutive stretches. After a stretch, the graph layer's output buffer holds
  the operations of the stretch composed, in the program's order, over what the buffers held before the stretch: the
  stage functions of the reference's reading name exactly these compositions.
-/
import proofs.«168295_j62088047231392_2_alg».proof.Proof.RefRead
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 8000000 in
theorem read_L1 (X : Valuation τ sig (Elt Ideal)) (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 : (⟨S4x3x2, .f32⟩ : BufTy).Contents (Elt Ideal)) (x5 : (⟨S4x3x2, .f32⟩ : BufTy).Contents (Elt Ideal)) (x6 : (⟨S4x64, .f32⟩ : BufTy).Contents (Elt Ideal)) (x7 : (⟨S4x64, .f32⟩ : BufTy).Contents (Elt Ideal)) (x8 : (⟨S4x2x2, .f32⟩ : BufTy).Contents (Elt Ideal)) (x9 : (⟨S4x2, .f32⟩ : BufTy).Contents (Elt Ideal))
    (h_v115 : X (Proc.devRef .tc main_v115) = Cert.ReferenceIdeal.ReadP.val_main_v115 (F := Ideal) x0 x1 x2 x3 x4 x5 x6 x7 x8 x9)
    (h_v30 : X (Proc.devRef .tc main_v30) = Cert.ReferenceIdeal.ReadP.val_main_v30 (F := Ideal) x1)
    (h_v1 : X (Proc.devRef .tc main_v1) = Cert.ReferenceIdeal.ReadP.val_main_v1 (F := Ideal) x1)
    (h_v3 : X (Proc.devRef .tc main_v3) = Cert.ReferenceIdeal.ReadP.val_main_v3 (F := Ideal) x1)
    (a3 : X (Proc.devRef .tc main_arg3) = x3)
    (a4 : X (Proc.devRef .tc main_arg4) = x4)
    (a5 : X (Proc.devRef .tc main_arg5) = x5)
    (a6 : X (Proc.devRef .tc main_arg6) = x6)
    (a7 : X (Proc.devRef .tc main_arg7) = x7)
    (a8 : X (Proc.devRef .tc main_arg8) = x8)
    (a9 : X (Proc.devRef .tc main_arg9) = x9) :
    after (opsL1 (F := Ideal)) X (Proc.devRef .tc main_v193) = Cert.ReferenceIdeal.ReadP.val_main_v193 (F := Ideal) x0 x1 x2 x3 x4 x5 x6 x7 x8 x9 := by
  simp only [opsL1]
  after_results_simp
  simp only [h_v115, h_v30, h_v1, h_v3, a3, a4, a5, a6, a7, a8, a9]
  unfold Cert.ReferenceIdeal.ReadP.val_main_v193 Cert.ReferenceIdeal.ReadP.val_main_v192 Cert.ReferenceIdeal.ReadP.val_main_call1_v0 Cert.ReferenceIdeal.ReadP.val_main_call1_cst Cert.ReferenceIdeal.ReadP.val_main_v191 Cert.ReferenceIdeal.ReadP.val_main_v190 Cert.ReferenceIdeal.ReadP.val_main_v189 Cert.ReferenceIdeal.ReadP.val_main_v188 Cert.ReferenceIdeal.ReadP.val_main_v187 Cert.ReferenceIdeal.ReadP.val_main_v186 Cert.ReferenceIdeal.ReadP.val_main_v185 Cert.ReferenceIdeal.ReadP.val_main_v184 Cert.ReferenceIdeal.ReadP.val_main_v183 Cert.ReferenceIdeal.ReadP.val_main_v182 Cert.ReferenceIdeal.ReadP.val_main_v181 Cert.ReferenceIdeal.ReadP.val_main_v180 Cert.ReferenceIdeal.ReadP.val_main_v179 Cert.ReferenceIdeal.ReadP.val_main_v178 Cert.ReferenceIdeal.ReadP.val_main_v177 Cert.ReferenceIdeal.ReadP.val_main_v176 Cert.ReferenceIdeal.ReadP.val_main_cst_29 Cert.ReferenceIdeal.ReadP.val_main_v175 Cert.ReferenceIdeal.ReadP.val_main_v174 Cert.ReferenceIdeal.ReadP.val_main_v173 Cert.ReferenceIdeal.ReadP.val_main_v172 Cert.ReferenceIdeal.ReadP.val_main_v171 Cert.ReferenceIdeal.ReadP.val_main_cst_28 Cert.ReferenceIdeal.ReadP.val_main_v170 Cert.ReferenceIdeal.ReadP.val_main_cst_27 Cert.ReferenceIdeal.ReadP.val_main_v169 Cert.ReferenceIdeal.ReadP.val_main_v168 Cert.ReferenceIdeal.ReadP.val_main_v167 Cert.ReferenceIdeal.ReadP.val_main_v166 Cert.ReferenceIdeal.ReadP.val_main_v165 Cert.ReferenceIdeal.ReadP.val_main_v164 Cert.ReferenceIdeal.ReadP.val_main_cst_26 Cert.ReferenceIdeal.ReadP.val_main_v163 Cert.ReferenceIdeal.ReadP.val_main_cst_25 Cert.ReferenceIdeal.ReadP.val_main_v162 Cert.ReferenceIdeal.ReadP.val_main_cst_24 Cert.ReferenceIdeal.ReadP.val_main_v161 Cert.ReferenceIdeal.ReadP.val_main_v160 Cert.ReferenceIdeal.ReadP.val_main_v159 Cert.ReferenceIdeal.ReadP.val_main_cst_23 Cert.ReferenceIdeal.ReadP.val_main_v158 Cert.ReferenceIdeal.ReadP.val_main_v157 Cert.ReferenceIdeal.ReadP.val_main_v156 Cert.ReferenceIdeal.ReadP.val_main_v155 Cert.ReferenceIdeal.ReadP.val_main_v154 Cert.ReferenceIdeal.ReadP.val_main_v153 Cert.ReferenceIdeal.ReadP.val_main_v152 Cert.ReferenceIdeal.ReadP.val_main_v151 Cert.ReferenceIdeal.ReadP.val_main_c_22 Cert.ReferenceIdeal.ReadP.val_main_v150 Cert.ReferenceIdeal.ReadP.val_main_v149 Cert.ReferenceIdeal.ReadP.val_main_c_21 Cert.ReferenceIdeal.ReadP.val_main_v148 Cert.ReferenceIdeal.ReadP.val_main_v147 Cert.ReferenceIdeal.ReadP.val_main_v146 Cert.ReferenceIdeal.ReadP.val_main_cst_20 Cert.ReferenceIdeal.ReadP.val_main_v145 Cert.ReferenceIdeal.ReadP.val_main_cst_19 Cert.ReferenceIdeal.ReadP.val_main_v144 Cert.ReferenceIdeal.ReadP.val_main_v143 Cert.ReferenceIdeal.ReadP.val_main_v142 Cert.ReferenceIdeal.ReadP.val_main_v141 Cert.ReferenceIdeal.ReadP.val_main_v140 Cert.ReferenceIdeal.ReadP.val_main_v139 Cert.ReferenceIdeal.ReadP.val_main_v138 Cert.ReferenceIdeal.ReadP.val_main_v137 Cert.ReferenceIdeal.ReadP.val_main_v136 Cert.ReferenceIdeal.ReadP.val_main_v135 Cert.ReferenceIdeal.ReadP.val_main_v134 Cert.ReferenceIdeal.ReadP.val_main_v133 Cert.ReferenceIdeal.ReadP.val_main_v132 Cert.ReferenceIdeal.ReadP.val_main_v131 Cert.ReferenceIdeal.ReadP.val_main_v130 Cert.ReferenceIdeal.ReadP.val_main_v129 Cert.ReferenceIdeal.ReadP.val_main_v128 Cert.ReferenceIdeal.ReadP.val_main_v127 Cert.ReferenceIdeal.ReadP.val_main_v126 Cert.ReferenceIdeal.ReadP.val_main_v125 Cert.ReferenceIdeal.ReadP.val_main_v124 Cert.ReferenceIdeal.ReadP.val_main_v123 Cert.ReferenceIdeal.ReadP.val_main_v122 Cert.ReferenceIdeal.ReadP.val_main_v121 Cert.ReferenceIdeal.ReadP.val_main_v120 Cert.ReferenceIdeal.ReadP.val_main_v119 Cert.ReferenceIdeal.ReadP.val_main_v118 Cert.ReferenceIdeal.ReadP.val_main_v117 Cert.ReferenceIdeal.ReadP.val_main_v116
  rfl

end Cert.MoNet.RefRun

end
-- ==== Proof.RefChunkReadsL2.lean ====
/-
  The reference program's operations, cut into six consecutive stretches. After a stretch, the graph layer's output buffer holds
  the operations of the stretch composed, in the program's order, over what the buffers held before the stretch: the
  stage functions of the reference's reading name exactly these compositions.
-/
import proofs.«168295_j62088047231392_2_alg».proof.Proof.RefRead
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 8000000 in
theorem read_L2 (X : Valuation τ sig (Elt Ideal)) (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 : (⟨S4x3x2, .f32⟩ : BufTy).Contents (Elt Ideal)) (x5 : (⟨S4x3x2, .f32⟩ : BufTy).Contents (Elt Ideal)) (x6 : (⟨S4x64, .f32⟩ : BufTy).Contents (Elt Ideal)) (x7 : (⟨S4x64, .f32⟩ : BufTy).Contents (Elt Ideal)) (x8 : (⟨S4x2x2, .f32⟩ : BufTy).Contents (Elt Ideal)) (x9 : (⟨S4x2, .f32⟩ : BufTy).Contents (Elt Ideal))
    (h_v193 : X (Proc.devRef .tc main_v193) = Cert.ReferenceIdeal.ReadP.val_main_v193 (F := Ideal) x0 x1 x2 x3 x4 x5 x6 x7 x8 x9)
    (h_v30 : X (Proc.devRef .tc main_v30) = Cert.ReferenceIdeal.ReadP.val_main_v30 (F := Ideal) x1)
    (h_v1 : X (Proc.devRef .tc main_v1) = Cert.ReferenceIdeal.ReadP.val_main_v1 (F := Ideal) x1)
    (h_v3 : X (Proc.devRef .tc main_v3) = Cert.ReferenceIdeal.ReadP.val_main_v3 (F := Ideal) x1)
    (a3 : X (Proc.devRef .tc main_arg3) = x3)
    (a4 : X (Proc.devRef .tc main_arg4) = x4)
    (a5 : X (Proc.devRef .tc main_arg5) = x5)
    (a6 : X (Proc.devRef .tc main_arg6) = x6)
    (a7 : X (Proc.devRef .tc main_arg7) = x7)
    (a8 : X (Proc.devRef .tc main_arg8) = x8)
    (a9 : X (Proc.devRef .tc main_arg9) = x9) :
    after (opsL2 (F := Ideal)) X (Proc.devRef .tc main_v271) = Cert.ReferenceIdeal.ReadP.val_main_v271 (F := Ideal) x0 x1 x2 x3 x4 x5 x6 x7 x8 x9 := by
  simp only [opsL2]
  after_results_simp
  simp only [h_v193, h_v30, h_v1, h_v3, a3, a4, a5, a6, a7, a8, a9]
  unfold Cert.ReferenceIdeal.ReadP.val_main_v271 Cert.ReferenceIdeal.ReadP.val_main_v270 Cert.ReferenceIdeal.ReadP.val_main_call2_v0 Cert.ReferenceIdeal.ReadP.val_main_call2_cst Cert.ReferenceIdeal.ReadP.val_main_v269 Cert.ReferenceIdeal.ReadP.val_main_v268 Cert.ReferenceIdeal.ReadP.val_main_v267 Cert.ReferenceIdeal.ReadP.val_main_v266 Cert.ReferenceIdeal.ReadP.val_main_v265 Cert.ReferenceIdeal.ReadP.val_main_v264 Cert.ReferenceIdeal.ReadP.val_main_v263 Cert.ReferenceIdeal.ReadP.val_main_v262 Cert.ReferenceIdeal.ReadP.val_main_v261 Cert.ReferenceIdeal.ReadP.val_main_v260 Cert.ReferenceIdeal.ReadP.val_main_v259 Cert.ReferenceIdeal.ReadP.val_main_v258 Cert.ReferenceIdeal.ReadP.val_main_v257 Cert.ReferenceIdeal.ReadP.val_main_v256 Cert.ReferenceIdeal.ReadP.val_main_v255 Cert.ReferenceIdeal.ReadP.val_main_v254 Cert.ReferenceIdeal.ReadP.val_main_cst_40 Cert.ReferenceIdeal.ReadP.val_main_v253 Cert.ReferenceIdeal.ReadP.val_main_v252 Cert.ReferenceIdeal.ReadP.val_main_v251 Cert.ReferenceIdeal.ReadP.val_main_v250 Cert.ReferenceIdeal.ReadP.val_main_v249 Cert.ReferenceIdeal.ReadP.val_main_cst_39 Cert.ReferenceIdeal.ReadP.val_main_v248 Cert.ReferenceIdeal.ReadP.val_main_cst_38 Cert.ReferenceIdeal.ReadP.val_main_v247 Cert.ReferenceIdeal.ReadP.val_main_v246 Cert.ReferenceIdeal.ReadP.val_main_v245 Cert.ReferenceIdeal.ReadP.val_main_v244 Cert.ReferenceIdeal.ReadP.val_main_v243 Cert.ReferenceIdeal.ReadP.val_main_v242 Cert.ReferenceIdeal.ReadP.val_main_cst_37 Cert.ReferenceIdeal.ReadP.val_main_v241 Cert.ReferenceIdeal.ReadP.val_main_cst_36 Cert.ReferenceIdeal.ReadP.val_main_v240 Cert.ReferenceIdeal.ReadP.val_main_cst_35 Cert.ReferenceIdeal.ReadP.val_main_v239 Cert.ReferenceIdeal.ReadP.val_main_v238 Cert.ReferenceIdeal.ReadP.val_main_v237 Cert.ReferenceIdeal.ReadP.val_main_cst_34 Cert.ReferenceIdeal.ReadP.val_main_v236 Cert.ReferenceIdeal.ReadP.val_main_v235 Cert.ReferenceIdeal.ReadP.val_main_v234 Cert.ReferenceIdeal.ReadP.val_main_v233 Cert.ReferenceIdeal.ReadP.val_main_v232 Cert.ReferenceIdeal.ReadP.val_main_v231 Cert.ReferenceIdeal.ReadP.val_main_v230 Cert.ReferenceIdeal.ReadP.val_main_v229 Cert.ReferenceIdeal.ReadP.val_main_c_33 Cert.ReferenceIdeal.ReadP.val_main_v228 Cert.ReferenceIdeal.ReadP.val_main_v227 Cert.ReferenceIdeal.ReadP.val_main_c_32 Cert.ReferenceIdeal.ReadP.val_main_v226 Cert.ReferenceIdeal.ReadP.val_main_v225 Cert.ReferenceIdeal.ReadP.val_main_v224 Cert.ReferenceIdeal.ReadP.val_main_cst_31 Cert.ReferenceIdeal.ReadP.val_main_v223 Cert.ReferenceIdeal.ReadP.val_main_cst_30 Cert.ReferenceIdeal.ReadP.val_main_v222 Cert.ReferenceIdeal.ReadP.val_main_v221 Cert.ReferenceIdeal.ReadP.val_main_v220 Cert.ReferenceIdeal.ReadP.val_main_v219 Cert.ReferenceIdeal.ReadP.val_main_v218 Cert.ReferenceIdeal.ReadP.val_main_v217 Cert.ReferenceIdeal.ReadP.val_main_v216 Cert.ReferenceIdeal.ReadP.val_main_v215 Cert.ReferenceIdeal.ReadP.val_main_v214 Cert.ReferenceIdeal.ReadP.val_main_v213 Cert.ReferenceIdeal.ReadP.val_main_v212 Cert.ReferenceIdeal.ReadP.val_main_v211 Cert.ReferenceIdeal.ReadP.val_main_v210 Cert.ReferenceIdeal.ReadP.val_main_v209 Cert.ReferenceIdeal.ReadP.val_main_v208 Cert.ReferenceIdeal.ReadP.val_main_v207 Cert.ReferenceIdeal.ReadP.val_main_v206 Cert.ReferenceIdeal.ReadP.val_main_v205 Cert.ReferenceIdeal.ReadP.val_main_v204 Cert.ReferenceIdeal.ReadP.val_main_v203 Cert.ReferenceIdeal.ReadP.val_main_v202 Cert.ReferenceIdeal.ReadP.val_main_v201 Cert.ReferenceIdeal.ReadP.val_main_v200 Cert.ReferenceIdeal.ReadP.val_main_v199 Cert.ReferenceIdeal.ReadP.val_main_v198 Cert.ReferenceIdeal.ReadP.val_main_v197 Cert.ReferenceIdeal.ReadP.val_main_v196 Cert.ReferenceIdeal.ReadP.val_main_v195 Cert.ReferenceIdeal.ReadP.val_main_v194
  rfl

end Cert.MoNet.RefRun

end
-- ==== Proof.RefChunkReadsL3.lean ====
/-
  The reference program's operations, cut into six consecutive stretches. After a stretch, the graph layer's output buffer holds
  the operations of the stretch composed, in the program's order, over what the buffers held before the stretch: the
  stage functions of the reference's reading name exactly these compositions.
-/
import proofs.«168295_j62088047231392_2_alg».proof.Proof.RefRead
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 8000000 in
theorem read_L3 (X : Valuation τ sig (Elt Ideal)) (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 : (⟨S4x3x2, .f32⟩ : BufTy).Contents (Elt Ideal)) (x5 : (⟨S4x3x2, .f32⟩ : BufTy).Contents (Elt Ideal)) (x6 : (⟨S4x64, .f32⟩ : BufTy).Contents (Elt Ideal)) (x7 : (⟨S4x64, .f32⟩ : BufTy).Contents (Elt Ideal)) (x8 : (⟨S4x2x2, .f32⟩ : BufTy).Contents (Elt Ideal)) (x9 : (⟨S4x2, .f32⟩ : BufTy).Contents (Elt Ideal))
    (h_v271 : X (Proc.devRef .tc main_v271) = Cert.ReferenceIdeal.ReadP.val_main_v271 (F := Ideal) x0 x1 x2 x3 x4 x5 x6 x7 x8 x9)
    (h_v30 : X (Proc.devRef .tc main_v30) = Cert.ReferenceIdeal.ReadP.val_main_v30 (F := Ideal) x1)
    (h_v1 : X (Proc.devRef .tc main_v1) = Cert.ReferenceIdeal.ReadP.val_main_v1 (F := Ideal) x1)
    (h_v3 : X (Proc.devRef .tc main_v3) = Cert.ReferenceIdeal.ReadP.val_main_v3 (F := Ideal) x1)
    (a3 : X (Proc.devRef .tc main_arg3) = x3)
    (a4 : X (Proc.devRef .tc main_arg4) = x4)
    (a5 : X (Proc.devRef .tc main_arg5) = x5)
    (a6 : X (Proc.devRef .tc main_arg6) = x6)
    (a7 : X (Proc.devRef .tc main_arg7) = x7)
    (a8 : X (Proc.devRef .tc main_arg8) = x8)
    (a9 : X (Proc.devRef .tc main_arg9) = x9) :
    after (opsL3 (F := Ideal)) X (Proc.devRef .tc main_v349) = Cert.ReferenceIdeal.ReadP.val_main_v349 (F := Ideal) x0 x1 x2 x3 x4 x5 x6 x7 x8 x9 := by
  simp only [opsL3]
  after_results_simp
  simp only [h_v271, h_v30, h_v1, h_v3, a3, a4, a5, a6, a7, a8, a9]
  unfold Cert.ReferenceIdeal.ReadP.val_main_v349 Cert.ReferenceIdeal.ReadP.val_main_v348 Cert.ReferenceIdeal.ReadP.val_main_call3_v0 Cert.ReferenceIdeal.ReadP.val_main_call3_cst Cert.ReferenceIdeal.ReadP.val_main_v347 Cert.ReferenceIdeal.ReadP.val_main_v346 Cert.ReferenceIdeal.ReadP.val_main_v345 Cert.ReferenceIdeal.ReadP.val_main_v344 Cert.ReferenceIdeal.ReadP.val_main_v343 Cert.ReferenceIdeal.ReadP.val_main_v342 Cert.ReferenceIdeal.ReadP.val_main_v341 Cert.ReferenceIdeal.ReadP.val_main_v340 Cert.ReferenceIdeal.ReadP.val_main_v339 Cert.ReferenceIdeal.ReadP.val_main_v338 Cert.ReferenceIdeal.ReadP.val_main_v337 Cert.ReferenceIdeal.ReadP.val_main_v336 Cert.ReferenceIdeal.ReadP.val_main_v335 Cert.ReferenceIdeal.ReadP.val_main_v334 Cert.ReferenceIdeal.ReadP.val_main_v333 Cert.ReferenceIdeal.ReadP.val_main_v332 Cert.ReferenceIdeal.ReadP.val_main_cst_51 Cert.ReferenceIdeal.ReadP.val_main_v331 Cert.ReferenceIdeal.ReadP.val_main_v330 Cert.ReferenceIdeal.ReadP.val_main_v329 Cert.ReferenceIdeal.ReadP.val_main_v328 Cert.ReferenceIdeal.ReadP.val_main_v327 Cert.ReferenceIdeal.ReadP.val_main_cst_50 Cert.ReferenceIdeal.ReadP.val_main_v326 Cert.ReferenceIdeal.ReadP.val_main_cst_49 Cert.ReferenceIdeal.ReadP.val_main_v325 Cert.ReferenceIdeal.ReadP.val_main_v324 Cert.ReferenceIdeal.ReadP.val_main_v323 Cert.ReferenceIdeal.ReadP.val_main_v322 Cert.ReferenceIdeal.ReadP.val_main_v321 Cert.ReferenceIdeal.ReadP.val_main_v320 Cert.ReferenceIdeal.ReadP.val_main_cst_48 Cert.ReferenceIdeal.ReadP.val_main_v319 Cert.ReferenceIdeal.ReadP.val_main_cst_47 Cert.ReferenceIdeal.ReadP.val_main_v318 Cert.ReferenceIdeal.ReadP.val_main_cst_46 Cert.ReferenceIdeal.ReadP.val_main_v317 Cert.ReferenceIdeal.ReadP.val_main_v316 Cert.ReferenceIdeal.ReadP.val_main_v315 Cert.ReferenceIdeal.ReadP.val_main_cst_45 Cert.ReferenceIdeal.ReadP.val_main_v314 Cert.ReferenceIdeal.ReadP.val_main_v313 Cert.ReferenceIdeal.ReadP.val_main_v312 Cert.ReferenceIdeal.ReadP.val_main_v311 Cert.ReferenceIdeal.ReadP.val_main_v310 Cert.ReferenceIdeal.ReadP.val_main_v309 Cert.ReferenceIdeal.ReadP.val_main_v308 Cert.ReferenceIdeal.ReadP.val_main_v307 Cert.ReferenceIdeal.ReadP.val_main_c_44 Cert.ReferenceIdeal.ReadP.val_main_v306 Cert.ReferenceIdeal.ReadP.val_main_v305 Cert.ReferenceIdeal.ReadP.val_main_c_43 Cert.ReferenceIdeal.ReadP.val_main_v304 Cert.ReferenceIdeal.ReadP.val_main_v303 Cert.ReferenceIdeal.ReadP.val_main_v302 Cert.ReferenceIdeal.ReadP.val_main_cst_42 Cert.ReferenceIdeal.ReadP.val_main_v301 Cert.ReferenceIdeal.ReadP.val_main_cst_41 Cert.ReferenceIdeal.ReadP.val_main_v300 Cert.ReferenceIdeal.ReadP.val_main_v299 Cert.ReferenceIdeal.ReadP.val_main_v298 Cert.ReferenceIdeal.ReadP.val_main_v297 Cert.ReferenceIdeal.ReadP.val_main_v296 Cert.ReferenceIdeal.ReadP.val_main_v295 Cert.ReferenceIdeal.ReadP.val_main_v294 Cert.ReferenceIdeal.ReadP.val_main_v293 Cert.ReferenceIdeal.ReadP.val_main_v292 Cert.ReferenceIdeal.ReadP.val_main_v291 Cert.ReferenceIdeal.ReadP.val_main_v290 Cert.ReferenceIdeal.ReadP.val_main_v289 Cert.ReferenceIdeal.ReadP.val_main_v288 Cert.ReferenceIdeal.ReadP.val_main_v287 Cert.ReferenceIdeal.ReadP.val_main_v286 Cert.ReferenceIdeal.ReadP.val_main_v285 Cert.ReferenceIdeal.ReadP.val_main_v284 Cert.ReferenceIdeal.ReadP.val_main_v283 Cert.ReferenceIdeal.ReadP.val_main_v282 Cert.ReferenceIdeal.ReadP.val_main_v281 Cert.ReferenceIdeal.ReadP.val_main_v280 Cert.ReferenceIdeal.ReadP.val_main_v279 Cert.ReferenceIdeal.ReadP.val_main_v278 Cert.ReferenceIdeal.ReadP.val_main_v277 Cert.ReferenceIdeal.ReadP.val_main_v276 Cert.ReferenceIdeal.ReadP.val_main_v275 Cert.ReferenceIdeal.ReadP.val_main_v274 Cert.ReferenceIdeal.ReadP.val_main_v273 Cert.ReferenceIdeal.ReadP.val_main_v272
  rfl

end Cert.MoNet.RefRun

end
-- ==== Proof.RefChunkReadsM.lean ====
/-
  The reference program's operations, cut into six consecutive stretches. After a stretch, the result buffer holds
  the operations of the stretch composed, in the program's order, over what the buffers held before the stretch: the
  stage functions of the reference's reading name exactly these compositions.
-/
import proofs.«168295_j62088047231392_2_alg».proof.Proof.RefRead
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 2000000 in
theorem read_M (X : Valuation τ sig (Elt Ideal)) (x0 : (⟨S100000, .i32⟩ : BufTy).Contents (Elt Ideal)) (x1 : (⟨S2x800000, .i32⟩ : BufTy).Contents (Elt Ideal)) (x2 : (⟨S32x64, .f32⟩ : BufTy).Contents (Elt Ideal)) (x3 : (⟨S4x192x64, .f32⟩ : BufTy).Contents (Elt Ideal)) (x4 : (⟨S4x3x2, .f32⟩ : BufTy).Contents (Elt Ideal)) (x5 : (⟨S4x3x2, .f32⟩ : BufTy).Contents (Elt Ideal)) (x6 : (⟨S4x64, .f32⟩ : BufTy).Contents (Elt Ideal)) (x7 : (⟨S4x64, .f32⟩ : BufTy).Contents (Elt Ideal)) (x8 : (⟨S4x2x2, .f32⟩ : BufTy).Contents (Elt Ideal)) (x9 : (⟨S4x2, .f32⟩ : BufTy).Contents (Elt Ideal)) (x10 : (⟨S32x64, .f32⟩ : BufTy).Contents (Elt Ideal)) (x11 : (⟨S32, .f32⟩ : BufTy).Contents (Elt Ideal)) (x12 : (⟨S16x32, .f32⟩ : BufTy).Contents (Elt Ideal)) (x13 : (⟨S16, .f32⟩ : BufTy).Contents (Elt Ideal)) (x14 : (⟨S7x16, .f32⟩ : BufTy).Contents (Elt Ideal)) (x15 : (⟨S7, .f32⟩ : BufTy).Contents (Elt Ideal))
    (h_v349 : X (Proc.devRef .tc main_v349) = Cert.ReferenceIdeal.ReadP.val_main_v349 (F := Ideal) x0 x1 x2 x3 x4 x5 x6 x7 x8 x9)
    (a10 : X (Proc.devRef .tc main_arg10) = x10)
    (a11 : X (Proc.devRef .tc main_arg11) = x11)
    (a12 : X (Proc.devRef .tc main_arg12) = x12)
    (a13 : X (Proc.devRef .tc main_arg13) = x13)
    (a14 : X (Proc.devRef .tc main_arg14) = x14)
    (a15 : X (Proc.devRef .tc main_arg15) = x15) :
    after (opsM (F := Ideal)) X (Proc.devRef .tc main_v366) = Cert.ReferenceIdeal.ReadP.val_main_v366 (F := Ideal) x0 x1 x2 x3 x4 x5 x6 x7 x8 x9 x10 x11 x12 x13 x14 x15 := by
  simp only [opsM]
  after_results_simp
  simp only [h_v349, a10, a11, a12, a13, a14, a15]
  unfold Cert.ReferenceIdeal.ReadP.val_main_v366 Cert.ReferenceIdeal.ReadP.val_main_v365 Cert.ReferenceIdeal.ReadP.val_main_v364 Cert.ReferenceIdeal.ReadP.val_main_v363 Cert.ReferenceIdeal.ReadP.val_main_v362 Cert.ReferenceIdeal.ReadP.val_main_v361 Cert.ReferenceIdeal.ReadP.val_main_call5_v0 Cert.ReferenceIdeal.ReadP.val_main_call5_cst Cert.ReferenceIdeal.ReadP.val_main_v360 Cert.ReferenceIdeal.ReadP.val_main_v359 Cert.ReferenceIdeal.ReadP.val_main_v358 Cert.ReferenceIdeal.ReadP.val_main_v357 Cert.ReferenceIdeal.ReadP.val_main_v356 Cert.ReferenceIdeal.ReadP.val_main_v355 Cert.ReferenceIdeal.ReadP.val_main_call4_v0 Cert.ReferenceIdeal.ReadP.val_main_call4_cst Cert.ReferenceIdeal.ReadP.val_main_v354 Cert.ReferenceIdeal.ReadP.val_main_v353 Cert.ReferenceIdeal.ReadP.val_main_v352 Cert.ReferenceIdeal.ReadP.val_main_v351 Cert.ReferenceIdeal.ReadP.val_main_v350
  rfl

end Cert.MoNet.RefRun

end
-- ==== Proof.RefChunkCarriesP.lean ====
/-
  The reference program's operations, cut into six consecutive stretches, write each buffer once. A buffer that a stretch
  does not write holds after the stretch what it held before: here for stretch `opsP`, the program's sixteen arguments.
-/
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

/-- The buffers the operations of `opsP` write. -/
abbrev writtenP : List (Ref sig .tc) := [main_v0, main_v1, main_v2, main_v3, main_cst, main_v4, main_cst_0, main_v5, main_v6, main_v7, main_c, main_v8, main_v9, main_c_1, main_v10, main_v11, main_v12, main_v13, main_v14, main_cst_2, main_v15, main_v16, main_v17, main_c_3, main_v18, main_v19, main_c_4, main_v20, main_v21, main_v22, main_v23, main_v24, main_cst_5, main_v25, main_v26, main_v27, main_v28, main_v29, main_v30, main_c_6, main_v31, main_v32, main_c_7, main_v33, main_v34, main_v35, main_v36, main_v37]
set_option maxRecDepth 8192 in
set_option maxHeartbeats 4000000 in
theorem writes_sub_P : (opsP (F := Ideal) : List (HloOp τ sig (Elt Ideal))).Forall fun op =>
    op.writes ⊆ (writtenP.map (Proc.devRef (τ := τ) .tc)).toFinset := by
  simp only [opsP, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem carry_P_main_arg0 (X : Valuation τ sig (Elt Ideal)) :
    after (opsP (F := Ideal)) X (Proc.devRef .tc main_arg0) = X (Proc.devRef .tc main_arg0) :=
  after_of_writes_sub _ X writes_sub_P (by decide)
theorem carry_P_main_arg1 (X : Valuation τ sig (Elt Ideal)) :
    after (opsP (F := Ideal)) X (Proc.devRef .tc main_arg1) = X (Proc.devRef .tc main_arg1) :=
  after_of_writes_sub _ X writes_sub_P (by decide)
theorem carry_P_main_arg2 (X : Valuation τ sig (Elt Ideal)) :
    after (opsP (F := Ideal)) X (Proc.devRef .tc main_arg2) = X (Proc.devRef .tc main_arg2) :=
  after_of_writes_sub _ X writes_sub_P (by decide)
theorem carry_P_main_arg3 (X : Valuation τ sig (Elt Ideal)) :
    after (opsP (F := Ideal)) X (Proc.devRef .tc main_arg3) = X (Proc.devRef .tc main_arg3) :=
  after_of_writes_sub _ X writes_sub_P (by decide)
theorem carry_P_main_arg4 (X : Valuation τ sig (Elt Ideal)) :
    after (opsP (F := Ideal)) X (Proc.devRef .tc main_arg4) = X (Proc.devRef .tc main_arg4) :=
  after_of_writes_sub _ X writes_sub_P (by decide)
theorem carry_P_main_arg5 (X : Valuation τ sig (Elt Ideal)) :
    after (opsP (F := Ideal)) X (Proc.devRef .tc main_arg5) = X (Proc.devRef .tc main_arg5) :=
  after_of_writes_sub _ X writes_sub_P (by decide)
theorem carry_P_main_arg6 (X : Valuation τ sig (Elt Ideal)) :
    after (opsP (F := Ideal)) X (Proc.devRef .tc main_arg6) = X (Proc.devRef .tc main_arg6) :=
  after_of_writes_sub _ X writes_sub_P (by decide)
theorem carry_P_main_arg7 (X : Valuation τ sig (Elt Ideal)) :
    after (opsP (F := Ideal)) X (Proc.devRef .tc main_arg7) = X (Proc.devRef .tc main_arg7) :=
  after_of_writes_sub _ X writes_sub_P (by decide)
theorem carry_P_main_arg8 (X : Valuation τ sig (Elt Ideal)) :
    after (opsP (F := Ideal)) X (Proc.devRef .tc main_arg8) = X (Proc.devRef .tc main_arg8) :=
  after_of_writes_sub _ X writes_sub_P (by decide)
theorem carry_P_main_arg9 (X : Valuation τ sig (Elt Ideal)) :
    after (opsP (F := Ideal)) X (Proc.devRef .tc main_arg9) = X (Proc.devRef .tc main_arg9) :=
  after_of_writes_sub _ X writes_sub_P (by decide)
theorem carry_P_main_arg10 (X : Valuation τ sig (Elt Ideal)) :
    after (opsP (F := Ideal)) X (Proc.devRef .tc main_arg10) = X (Proc.devRef .tc main_arg10) :=
  after_of_writes_sub _ X writes_sub_P (by decide)
theorem carry_P_main_arg11 (X : Valuation τ sig (Elt Ideal)) :
    after (opsP (F := Ideal)) X (Proc.devRef .tc main_arg11) = X (Proc.devRef .tc main_arg11) :=
  after_of_writes_sub _ X writes_sub_P (by decide)
theorem carry_P_main_arg12 (X : Valuation τ sig (Elt Ideal)) :
    after (opsP (F := Ideal)) X (Proc.devRef .tc main_arg12) = X (Proc.devRef .tc main_arg12) :=
  after_of_writes_sub _ X writes_sub_P (by decide)
theorem carry_P_main_arg13 (X : Valuation τ sig (Elt Ideal)) :
    after (opsP (F := Ideal)) X (Proc.devRef .tc main_arg13) = X (Proc.devRef .tc main_arg13) :=
  after_of_writes_sub _ X writes_sub_P (by decide)
theorem carry_P_main_arg14 (X : Valuation τ sig (Elt Ideal)) :
    after (opsP (F := Ideal)) X (Proc.devRef .tc main_arg14) = X (Proc.devRef .tc main_arg14) :=
  after_of_writes_sub _ X writes_sub_P (by decide)
theorem carry_P_main_arg15 (X : Valuation τ sig (Elt Ideal)) :
    after (opsP (F := Ideal)) X (Proc.devRef .tc main_arg15) = X (Proc.devRef .tc main_arg15) :=
  after_of_writes_sub _ X writes_sub_P (by decide)

end Cert.MoNet.RefRun

end
-- ==== Proof.RefChunkCarriesL0.lean ====
/-
  The reference program's operations, cut into six consecutive stretches, write each buffer once. A buffer that a stretch
  does not write holds after the stretch what it held before: here for stretch `opsL0`, the program's sixteen arguments and the three
  buffers computed from the edge list that every graph layer reads.
-/
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

/-- The buffers the operations of `opsL0` write. -/
abbrev writtenL0 : List (Ref sig .tc) := [main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_cst_8, main_v67, main_cst_9, main_v68, main_v69, main_v70, main_c_10, main_v71, main_v72, main_c_11, main_v73, main_v74, main_v75, main_v76, main_v77, main_v78, main_v79, main_v80, main_cst_12, main_v81, main_v82, main_v83, main_cst_13, main_v84, main_cst_14, main_v85, main_cst_15, main_v86, main_v87, main_v88, main_v89, main_v90, main_v91, main_cst_16, main_v92, main_cst_17, main_v93, main_v94, main_v95, main_v96, main_v97, main_cst_18, main_v98, main_v99, main_v100, main_v101, main_v102, main_v103, main_v104, main_v105, main_v106, main_v107, main_v108, main_v109, main_v110, main_v111, main_v112, main_v113, main_call0_cst, main_call0_v0, main_v114, main_v115]
set_option maxRecDepth 8192 in
set_option maxHeartbeats 4000000 in
theorem writes_sub_L0 : (opsL0 (F := Ideal) : List (HloOp τ sig (Elt Ideal))).Forall fun op =>
    op.writes ⊆ (writtenL0.map (Proc.devRef (τ := τ) .tc)).toFinset := by
  simp only [opsL0, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem carry_L0_main_arg0 (X : Valuation τ sig (Elt Ideal)) :
    after (opsL0 (F := Ideal)) X (Proc.devRef .tc main_arg0) = X (Proc.devRef .tc main_arg0) :=
  after_of_writes_sub _ X writes_sub_L0 (by decide)
theorem carry_L0_main_arg1 (X : Valuation τ sig (Elt Ideal)) :
    after (opsL0 (F := Ideal)) X (Proc.devRef .tc main_arg1) = X (Proc.devRef .tc main_arg1) :=
  after_of_writes_sub _ X writes_sub_L0 (by decide)
theorem carry_L0_main_arg2 (X : Valuation τ sig (Elt Ideal)) :
    after (opsL0 (F := Ideal)) X (Proc.devRef .tc main_arg2) = X (Proc.devRef .tc main_arg2) :=
  after_of_writes_sub _ X writes_sub_L0 (by decide)
theorem carry_L0_main_arg3 (X : Valuation τ sig (Elt Ideal)) :
    after (opsL0 (F := Ideal)) X (Proc.devRef .tc main_arg3) = X (Proc.devRef .tc main_arg3) :=
  after_of_writes_sub _ X writes_sub_L0 (by decide)
theorem carry_L0_main_arg4 (X : Valuation τ sig (Elt Ideal)) :
    after (opsL0 (F := Ideal)) X (Proc.devRef .tc main_arg4) = X (Proc.devRef .tc main_arg4) :=
  after_of_writes_sub _ X writes_sub_L0 (by decide)
theorem carry_L0_main_arg5 (X : Valuation τ sig (Elt Ideal)) :
    after (opsL0 (F := Ideal)) X (Proc.devRef .tc main_arg5) = X (Proc.devRef .tc main_arg5) :=
  after_of_writes_sub _ X writes_sub_L0 (by decide)
theorem carry_L0_main_arg6 (X : Valuation τ sig (Elt Ideal)) :
    after (opsL0 (F := Ideal)) X (Proc.devRef .tc main_arg6) = X (Proc.devRef .tc main_arg6) :=
  after_of_writes_sub _ X writes_sub_L0 (by decide)
theorem carry_L0_main_arg7 (X : Valuation τ sig (Elt Ideal)) :
    after (opsL0 (F := Ideal)) X (Proc.devRef .tc main_arg7) = X (Proc.devRef .tc main_arg7) :=
  after_of_writes_sub _ X writes_sub_L0 (by decide)
theorem carry_L0_main_arg8 (X : Valuation τ sig (Elt Ideal)) :
    after (opsL0 (F := Ideal)) X (Proc.devRef .tc main_arg8) = X (Proc.devRef .tc main_arg8) :=
  after_of_writes_sub _ X writes_sub_L0 (by decide)
theorem carry_L0_main_arg9 (X : Valuation τ sig (Elt Ideal)) :
    after (opsL0 (F := Ideal)) X (Proc.devRef .tc main_arg9) = X (Proc.devRef .tc main_arg9) :=
  after_of_writes_sub _ X writes_sub_L0 (by decide)
theorem carry_L0_main_arg10 (X : Valuation τ sig (Elt Ideal)) :
    after (opsL0 (F := Ideal)) X (Proc.devRef .tc main_arg10) = X (Proc.devRef .tc main_arg10) :=
  after_of_writes_sub _ X writes_sub_L0 (by decide)
theorem carry_L0_main_arg11 (X : Valuation τ sig (Elt Ideal)) :
    after (opsL0 (F := Ideal)) X (Proc.devRef .tc main_arg11) = X (Proc.devRef .tc main_arg11) :=
  after_of_writes_sub _ X writes_sub_L0 (by decide)
theorem carry_L0_main_arg12 (X : Valuation τ sig (Elt Ideal)) :
    after (opsL0 (F := Ideal)) X (Proc.devRef .tc main_arg12) = X (Proc.devRef .tc main_arg12) :=
  after_of_writes_sub _ X writes_sub_L0 (by decide)
theorem carry_L0_main_arg13 (X : Valuation τ sig (Elt Ideal)) :
    after (opsL0 (F := Ideal)) X (Proc.devRef .tc main_arg13) = X (Proc.devRef .tc main_arg13) :=
  after_of_writes_sub _ X writes_sub_L0 (by decide)
theorem carry_L0_main_arg14 (X : Valuation τ sig (Elt Ideal)) :
    after (opsL0 (F := Ideal)) X (Proc.devRef .tc main_arg14) = X (Proc.devRef .tc main_arg14) :=
  after_of_writes_sub _ X writes_sub_L0 (by decide)
theorem carry_L0_main_arg15 (X : Valuation τ sig (Elt Ideal)) :
    after (opsL0 (F := Ideal)) X (Proc.devRef .tc main_arg15) = X (Proc.devRef .tc main_arg15) :=
  after_of_writes_sub _ X writes_sub_L0 (by decide)
theorem carry_L0_main_v1 (X : Valuation τ sig (Elt Ideal)) :
    after (opsL0 (F := Ideal)) X (Proc.devRef .tc main_v1) = X (Proc.devRef .tc main_v1) :=
  after_of_writes_sub _ X writes_sub_L0 (by decide)
theorem carry_L0_main_v3 (X : Valuation τ sig (Elt Ideal)) :
    after (opsL0 (F := Ideal)) X (Proc.devRef .tc main_v3) = X (Proc.devRef .tc main_v3) :=
  after_of_writes_sub _ X writes_sub_L0 (by decide)
theorem carry_L0_main_v30 (X : Valuation τ sig (Elt Ideal)) :
    after (opsL0 (F := Ideal)) X (Proc.devRef .tc main_v30) = X (Proc.devRef .tc main_v30) :=
  after_of_writes_sub _ X writes_sub_L0 (by decide)

end Cert.MoNet.RefRun

end
-- ==== Proof.RefChunkCarriesL1.lean ====
/-
  The reference program's operations, cut into six consecutive stretches, write each buffer once. A buffer that a stretch
  does not write holds after the stretch what it held before: here for stretch `opsL1`, the program's sixteen arguments and the three
  buffers computed from the edge list that every graph layer reads.
-/
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

/-- The buffers the operations of `opsL1` write. -/
abbrev writtenL1 : List (Ref sig .tc) := [main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_cst_19, main_v145, main_cst_20, main_v146, main_v147, main_v148, main_c_21, main_v149, main_v150, main_c_22, main_v151, main_v152, main_v153, main_v154, main_v155, main_v156, main_v157, main_v158, main_cst_23, main_v159, main_v160, main_v161, main_cst_24, main_v162, main_cst_25, main_v163, main_cst_26, main_v164, main_v165, main_v166, main_v167, main_v168, main_v169, main_cst_27, main_v170, main_cst_28, main_v171, main_v172, main_v173, main_v174, main_v175, main_cst_29, main_v176, main_v177, main_v178, main_v179, main_v180, main_v181, main_v182, main_v183, main_v184, main_v185, main_v186, main_v187, main_v188, main_v189, main_v190, main_v191, main_call1_cst, main_call1_v0, main_v192, main_v193]
set_option maxRecDepth 8192 in
set_option maxHeartbeats 4000000 in
theorem writes_sub_L1 : (opsL1 (F := Ideal) : List (HloOp τ sig (Elt Ideal))).Forall fun op =>
    op.writes ⊆ (writtenL1.map (Proc.devRef (τ := τ) .tc)).toFinset := by
  simp only [opsL1, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem carry_L1_main_arg0 (X : Valuation τ sig (Elt Ideal)) :
    after (opsL1 (F := Ideal)) X (Proc.devRef .tc main_arg0) = X (Proc.devRef .tc main_arg0) :=
  after_of_writes_sub _ X writes_sub_L1 (by decide)
theorem carry_L1_main_arg1 (X : Valuation τ sig (Elt Ideal)) :
    after (opsL1 (F := Ideal)) X (Proc.devRef .tc main_arg1) = X (Proc.devRef .tc main_arg1) :=
  after_of_writes_sub _ X writes_sub_L1 (by decide)
theorem carry_L1_main_arg2 (X : Valuation τ sig (Elt Ideal)) :
    after (opsL1 (F := Ideal)) X (Proc.devRef .tc main_arg2) = X (Proc.devRef .tc main_arg2) :=
  after_of_writes_sub _ X writes_sub_L1 (by decide)
theorem carry_L1_main_arg3 (X : Valuation τ sig (Elt Ideal)) :
    after (opsL1 (F := Ideal)) X (Proc.devRef .tc main_arg3) = X (Proc.devRef .tc main_arg3) :=
  after_of_writes_sub _ X writes_sub_L1 (by decide)
theorem carry_L1_main_arg4 (X : Valuation τ sig (Elt Ideal)) :
    after (opsL1 (F := Ideal)) X (Proc.devRef .tc main_arg4) = X (Proc.devRef .tc main_arg4) :=
  after_of_writes_sub _ X writes_sub_L1 (by decide)
theorem carry_L1_main_arg5 (X : Valuation τ sig (Elt Ideal)) :
    after (opsL1 (F := Ideal)) X (Proc.devRef .tc main_arg5) = X (Proc.devRef .tc main_arg5) :=
  after_of_writes_sub _ X writes_sub_L1 (by decide)
theorem carry_L1_main_arg6 (X : Valuation τ sig (Elt Ideal)) :
    after (opsL1 (F := Ideal)) X (Proc.devRef .tc main_arg6) = X (Proc.devRef .tc main_arg6) :=
  after_of_writes_sub _ X writes_sub_L1 (by decide)
theorem carry_L1_main_arg7 (X : Valuation τ sig (Elt Ideal)) :
    after (opsL1 (F := Ideal)) X (Proc.devRef .tc main_arg7) = X (Proc.devRef .tc main_arg7) :=
  after_of_writes_sub _ X writes_sub_L1 (by decide)
theorem carry_L1_main_arg8 (X : Valuation τ sig (Elt Ideal)) :
    after (opsL1 (F := Ideal)) X (Proc.devRef .tc main_arg8) = X (Proc.devRef .tc main_arg8) :=
  after_of_writes_sub _ X writes_sub_L1 (by decide)
theorem carry_L1_main_arg9 (X : Valuation τ sig (Elt Ideal)) :
    after (opsL1 (F := Ideal)) X (Proc.devRef .tc main_arg9) = X (Proc.devRef .tc main_arg9) :=
  after_of_writes_sub _ X writes_sub_L1 (by decide)
theorem carry_L1_main_arg10 (X : Valuation τ sig (Elt Ideal)) :
    after (opsL1 (F := Ideal)) X (Proc.devRef .tc main_arg10) = X (Proc.devRef .tc main_arg10) :=
  after_of_writes_sub _ X writes_sub_L1 (by decide)
theorem carry_L1_main_arg11 (X : Valuation τ sig (Elt Ideal)) :
    after (opsL1 (F := Ideal)) X (Proc.devRef .tc main_arg11) = X (Proc.devRef .tc main_arg11) :=
  after_of_writes_sub _ X writes_sub_L1 (by decide)
theorem carry_L1_main_arg12 (X : Valuation τ sig (Elt Ideal)) :
    after (opsL1 (F := Ideal)) X (Proc.devRef .tc main_arg12) = X (Proc.devRef .tc main_arg12) :=
  after_of_writes_sub _ X writes_sub_L1 (by decide)
theorem carry_L1_main_arg13 (X : Valuation τ sig (Elt Ideal)) :
    after (opsL1 (F := Ideal)) X (Proc.devRef .tc main_arg13) = X (Proc.devRef .tc main_arg13) :=
  after_of_writes_sub _ X writes_sub_L1 (by decide)
theorem carry_L1_main_arg14 (X : Valuation τ sig (Elt Ideal)) :
    after (opsL1 (F := Ideal)) X (Proc.devRef .tc main_arg14) = X (Proc.devRef .tc main_arg14) :=
  after_of_writes_sub _ X writes_sub_L1 (by decide)
theorem carry_L1_main_arg15 (X : Valuation τ sig (Elt Ideal)) :
    after (opsL1 (F := Ideal)) X (Proc.devRef .tc main_arg15) = X (Proc.devRef .tc main_arg15) :=
  after_of_writes_sub _ X writes_sub_L1 (by decide)
theorem carry_L1_main_v1 (X : Valuation τ sig (Elt Ideal)) :
    after (opsL1 (F := Ideal)) X (Proc.devRef .tc main_v1) = X (Proc.devRef .tc main_v1) :=
  after_of_writes_sub _ X writes_sub_L1 (by decide)
theorem carry_L1_main_v3 (X : Valuation τ sig (Elt Ideal)) :
    after (opsL1 (F := Ideal)) X (Proc.devRef .tc main_v3) = X (Proc.devRef .tc main_v3) :=
  after_of_writes_sub _ X writes_sub_L1 (by decide)
theorem carry_L1_main_v30 (X : Valuation τ sig (Elt Ideal)) :
    after (opsL1 (F := Ideal)) X (Proc.devRef .tc main_v30) = X (Proc.devRef .tc main_v30) :=
  after_of_writes_sub _ X writes_sub_L1 (by decide)

end Cert.MoNet.RefRun

end
-- ==== Proof.RefChunkCarriesL2.lean ====
/-
  The reference program's operations, cut into six consecutive stretches, write each buffer once. A buffer that a stretch
  does not write holds after the stretch what it held before: here for stretch `opsL2`, the program's sixteen arguments and the three
  buffers computed from the edge list that every graph layer reads.
-/
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

/-- The buffers the operations of `opsL2` write. -/
abbrev writtenL2 : List (Ref sig .tc) := [main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_cst_30, main_v223, main_cst_31, main_v224, main_v225, main_v226, main_c_32, main_v227, main_v228, main_c_33, main_v229, main_v230, main_v231, main_v232, main_v233, main_v234, main_v235, main_v236, main_cst_34, main_v237, main_v238, main_v239, main_cst_35, main_v240, main_cst_36, main_v241, main_cst_37, main_v242, main_v243, main_v244, main_v245, main_v246, main_v247, main_cst_38, main_v248, main_cst_39, main_v249, main_v250, main_v251, main_v252, main_v253, main_cst_40, main_v254, main_v255, main_v256, main_v257, main_v258, main_v259, main_v260, main_v261, main_v262, main_v263, main_v264, main_v265, main_v266, main_v267, main_v268, main_v269, main_call2_cst, main_call2_v0, main_v270, main_v271]
set_option maxRecDepth 8192 in
set_option maxHeartbeats 4000000 in
theorem writes_sub_L2 : (opsL2 (F := Ideal) : List (HloOp τ sig (Elt Ideal))).Forall fun op =>
    op.writes ⊆ (writtenL2.map (Proc.devRef (τ := τ) .tc)).toFinset := by
  simp only [opsL2, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem carry_L2_main_arg0 (X : Valuation τ sig (Elt Ideal)) :
    after (opsL2 (F := Ideal)) X (Proc.devRef .tc main_arg0) = X (Proc.devRef .tc main_arg0) :=
  after_of_writes_sub _ X writes_sub_L2 (by decide)
theorem carry_L2_main_arg1 (X : Valuation τ sig (Elt Ideal)) :
    after (opsL2 (F := Ideal)) X (Proc.devRef .tc main_arg1) = X (Proc.devRef .tc main_arg1) :=
  after_of_writes_sub _ X writes_sub_L2 (by decide)
theorem carry_L2_main_arg2 (X : Valuation τ sig (Elt Ideal)) :
    after (opsL2 (F := Ideal)) X (Proc.devRef .tc main_arg2) = X (Proc.devRef .tc main_arg2) :=
  after_of_writes_sub _ X writes_sub_L2 (by decide)
theorem carry_L2_main_arg3 (X : Valuation τ sig (Elt Ideal)) :
    after (opsL2 (F := Ideal)) X (Proc.devRef .tc main_arg3) = X (Proc.devRef .tc main_arg3) :=
  after_of_writes_sub _ X writes_sub_L2 (by decide)
theorem carry_L2_main_arg4 (X : Valuation τ sig (Elt Ideal)) :
    after (opsL2 (F := Ideal)) X (Proc.devRef .tc main_arg4) = X (Proc.devRef .tc main_arg4) :=
  after_of_writes_sub _ X writes_sub_L2 (by decide)
theorem carry_L2_main_arg5 (X : Valuation τ sig (Elt Ideal)) :
    after (opsL2 (F := Ideal)) X (Proc.devRef .tc main_arg5) = X (Proc.devRef .tc main_arg5) :=
  after_of_writes_sub _ X writes_sub_L2 (by decide)
theorem carry_L2_main_arg6 (X : Valuation τ sig (Elt Ideal)) :
    after (opsL2 (F := Ideal)) X (Proc.devRef .tc main_arg6) = X (Proc.devRef .tc main_arg6) :=
  after_of_writes_sub _ X writes_sub_L2 (by decide)
theorem carry_L2_main_arg7 (X : Valuation τ sig (Elt Ideal)) :
    after (opsL2 (F := Ideal)) X (Proc.devRef .tc main_arg7) = X (Proc.devRef .tc main_arg7) :=
  after_of_writes_sub _ X writes_sub_L2 (by decide)
theorem carry_L2_main_arg8 (X : Valuation τ sig (Elt Ideal)) :
    after (opsL2 (F := Ideal)) X (Proc.devRef .tc main_arg8) = X (Proc.devRef .tc main_arg8) :=
  after_of_writes_sub _ X writes_sub_L2 (by decide)
theorem carry_L2_main_arg9 (X : Valuation τ sig (Elt Ideal)) :
    after (opsL2 (F := Ideal)) X (Proc.devRef .tc main_arg9) = X (Proc.devRef .tc main_arg9) :=
  after_of_writes_sub _ X writes_sub_L2 (by decide)
theorem carry_L2_main_arg10 (X : Valuation τ sig (Elt Ideal)) :
    after (opsL2 (F := Ideal)) X (Proc.devRef .tc main_arg10) = X (Proc.devRef .tc main_arg10) :=
  after_of_writes_sub _ X writes_sub_L2 (by decide)
theorem carry_L2_main_arg11 (X : Valuation τ sig (Elt Ideal)) :
    after (opsL2 (F := Ideal)) X (Proc.devRef .tc main_arg11) = X (Proc.devRef .tc main_arg11) :=
  after_of_writes_sub _ X writes_sub_L2 (by decide)
theorem carry_L2_main_arg12 (X : Valuation τ sig (Elt Ideal)) :
    after (opsL2 (F := Ideal)) X (Proc.devRef .tc main_arg12) = X (Proc.devRef .tc main_arg12) :=
  after_of_writes_sub _ X writes_sub_L2 (by decide)
theorem carry_L2_main_arg13 (X : Valuation τ sig (Elt Ideal)) :
    after (opsL2 (F := Ideal)) X (Proc.devRef .tc main_arg13) = X (Proc.devRef .tc main_arg13) :=
  after_of_writes_sub _ X writes_sub_L2 (by decide)
theorem carry_L2_main_arg14 (X : Valuation τ sig (Elt Ideal)) :
    after (opsL2 (F := Ideal)) X (Proc.devRef .tc main_arg14) = X (Proc.devRef .tc main_arg14) :=
  after_of_writes_sub _ X writes_sub_L2 (by decide)
theorem carry_L2_main_arg15 (X : Valuation τ sig (Elt Ideal)) :
    after (opsL2 (F := Ideal)) X (Proc.devRef .tc main_arg15) = X (Proc.devRef .tc main_arg15) :=
  after_of_writes_sub _ X writes_sub_L2 (by decide)
theorem carry_L2_main_v1 (X : Valuation τ sig (Elt Ideal)) :
    after (opsL2 (F := Ideal)) X (Proc.devRef .tc main_v1) = X (Proc.devRef .tc main_v1) :=
  after_of_writes_sub _ X writes_sub_L2 (by decide)
theorem carry_L2_main_v3 (X : Valuation τ sig (Elt Ideal)) :
    after (opsL2 (F := Ideal)) X (Proc.devRef .tc main_v3) = X (Proc.devRef .tc main_v3) :=
  after_of_writes_sub _ X writes_sub_L2 (by decide)
theorem carry_L2_main_v30 (X : Valuation τ sig (Elt Ideal)) :
    after (opsL2 (F := Ideal)) X (Proc.devRef .tc main_v30) = X (Proc.devRef .tc main_v30) :=
  after_of_writes_sub _ X writes_sub_L2 (by decide)

end Cert.MoNet.RefRun

end
-- ==== Proof.RefChunkCarriesL3.lean ====
/-
  The reference program's operations, cut into six consecutive stretches, write each buffer once. A buffer that a stretch
  does not write holds after the stretch what it held before: here for stretch `opsL3`, the program's sixteen arguments and the three
  buffers computed from the edge list that every graph layer reads.
-/
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

/-- The buffers the operations of `opsL3` write. -/
abbrev writtenL3 : List (Ref sig .tc) := [main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_cst_41, main_v301, main_cst_42, main_v302, main_v303, main_v304, main_c_43, main_v305, main_v306, main_c_44, main_v307, main_v308, main_v309, main_v310, main_v311, main_v312, main_v313, main_v314, main_cst_45, main_v315, main_v316, main_v317, main_cst_46, main_v318, main_cst_47, main_v319, main_cst_48, main_v320, main_v321, main_v322, main_v323, main_v324, main_v325, main_cst_49, main_v326, main_cst_50, main_v327, main_v328, main_v329, main_v330, main_v331, main_cst_51, main_v332, main_v333, main_v334, main_v335, main_v336, main_v337, main_v338, main_v339, main_v340, main_v341, main_v342, main_v343, main_v344, main_v345, main_v346, main_v347, main_call3_cst, main_call3_v0, main_v348, main_v349]
set_option maxRecDepth 8192 in
set_option maxHeartbeats 4000000 in
theorem writes_sub_L3 : (opsL3 (F := Ideal) : List (HloOp τ sig (Elt Ideal))).Forall fun op =>
    op.writes ⊆ (writtenL3.map (Proc.devRef (τ := τ) .tc)).toFinset := by
  simp only [opsL3, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem carry_L3_main_arg0 (X : Valuation τ sig (Elt Ideal)) :
    after (opsL3 (F := Ideal)) X (Proc.devRef .tc main_arg0) = X (Proc.devRef .tc main_arg0) :=
  after_of_writes_sub _ X writes_sub_L3 (by decide)
theorem carry_L3_main_arg1 (X : Valuation τ sig (Elt Ideal)) :
    after (opsL3 (F := Ideal)) X (Proc.devRef .tc main_arg1) = X (Proc.devRef .tc main_arg1) :=
  after_of_writes_sub _ X writes_sub_L3 (by decide)
theorem carry_L3_main_arg2 (X : Valuation τ sig (Elt Ideal)) :
    after (opsL3 (F := Ideal)) X (Proc.devRef .tc main_arg2) = X (Proc.devRef .tc main_arg2) :=
  after_of_writes_sub _ X writes_sub_L3 (by decide)
theorem carry_L3_main_arg3 (X : Valuation τ sig (Elt Ideal)) :
    after (opsL3 (F := Ideal)) X (Proc.devRef .tc main_arg3) = X (Proc.devRef .tc main_arg3) :=
  after_of_writes_sub _ X writes_sub_L3 (by decide)
theorem carry_L3_main_arg4 (X : Valuation τ sig (Elt Ideal)) :
    after (opsL3 (F := Ideal)) X (Proc.devRef .tc main_arg4) = X (Proc.devRef .tc main_arg4) :=
  after_of_writes_sub _ X writes_sub_L3 (by decide)
theorem carry_L3_main_arg5 (X : Valuation τ sig (Elt Ideal)) :
    after (opsL3 (F := Ideal)) X (Proc.devRef .tc main_arg5) = X (Proc.devRef .tc main_arg5) :=
  after_of_writes_sub _ X writes_sub_L3 (by decide)
theorem carry_L3_main_arg6 (X : Valuation τ sig (Elt Ideal)) :
    after (opsL3 (F := Ideal)) X (Proc.devRef .tc main_arg6) = X (Proc.devRef .tc main_arg6) :=
  after_of_writes_sub _ X writes_sub_L3 (by decide)
theorem carry_L3_main_arg7 (X : Valuation τ sig (Elt Ideal)) :
    after (opsL3 (F := Ideal)) X (Proc.devRef .tc main_arg7) = X (Proc.devRef .tc main_arg7) :=
  after_of_writes_sub _ X writes_sub_L3 (by decide)
theorem carry_L3_main_arg8 (X : Valuation τ sig (Elt Ideal)) :
    after (opsL3 (F := Ideal)) X (Proc.devRef .tc main_arg8) = X (Proc.devRef .tc main_arg8) :=
  after_of_writes_sub _ X writes_sub_L3 (by decide)
theorem carry_L3_main_arg9 (X : Valuation τ sig (Elt Ideal)) :
    after (opsL3 (F := Ideal)) X (Proc.devRef .tc main_arg9) = X (Proc.devRef .tc main_arg9) :=
  after_of_writes_sub _ X writes_sub_L3 (by decide)
theorem carry_L3_main_arg10 (X : Valuation τ sig (Elt Ideal)) :
    after (opsL3 (F := Ideal)) X (Proc.devRef .tc main_arg10) = X (Proc.devRef .tc main_arg10) :=
  after_of_writes_sub _ X writes_sub_L3 (by decide)
theorem carry_L3_main_arg11 (X : Valuation τ sig (Elt Ideal)) :
    after (opsL3 (F := Ideal)) X (Proc.devRef .tc main_arg11) = X (Proc.devRef .tc main_arg11) :=
  after_of_writes_sub _ X writes_sub_L3 (by decide)
theorem carry_L3_main_arg12 (X : Valuation τ sig (Elt Ideal)) :
    after (opsL3 (F := Ideal)) X (Proc.devRef .tc main_arg12) = X (Proc.devRef .tc main_arg12) :=
  after_of_writes_sub _ X writes_sub_L3 (by decide)
theorem carry_L3_main_arg13 (X : Valuation τ sig (Elt Ideal)) :
    after (opsL3 (F := Ideal)) X (Proc.devRef .tc main_arg13) = X (Proc.devRef .tc main_arg13) :=
  after_of_writes_sub _ X writes_sub_L3 (by decide)
theorem carry_L3_main_arg14 (X : Valuation τ sig (Elt Ideal)) :
    after (opsL3 (F := Ideal)) X (Proc.devRef .tc main_arg14) = X (Proc.devRef .tc main_arg14) :=
  after_of_writes_sub _ X writes_sub_L3 (by decide)
theorem carry_L3_main_arg15 (X : Valuation τ sig (Elt Ideal)) :
    after (opsL3 (F := Ideal)) X (Proc.devRef .tc main_arg15) = X (Proc.devRef .tc main_arg15) :=
  after_of_writes_sub _ X writes_sub_L3 (by decide)
theorem carry_L3_main_v1 (X : Valuation τ sig (Elt Ideal)) :
    after (opsL3 (F := Ideal)) X (Proc.devRef .tc main_v1) = X (Proc.devRef .tc main_v1) :=
  after_of_writes_sub _ X writes_sub_L3 (by decide)
theorem carry_L3_main_v3 (X : Valuation τ sig (Elt Ideal)) :
    after (opsL3 (F := Ideal)) X (Proc.devRef .tc main_v3) = X (Proc.devRef .tc main_v3) :=
  after_of_writes_sub _ X writes_sub_L3 (by decide)
theorem carry_L3_main_v30 (X : Valuation τ sig (Elt Ideal)) :
    after (opsL3 (F := Ideal)) X (Proc.devRef .tc main_v30) = X (Proc.devRef .tc main_v30) :=
  after_of_writes_sub _ X writes_sub_L3 (by decide)

end Cert.MoNet.RefRun

end
-- ==== Proof.RefChunkCarriesM.lean ====
/-
  The reference program's operations, cut into six consecutive stretches, write each buffer once. A buffer that a stretch
  does not write holds after the stretch what it held before: here for stretch `opsM`, the program's sixteen arguments.
-/
import proofs.«168295_j62088047231392_2_alg».proof.Proof.RefChunks
import Idealize.ShloMosaic.Lib.StableHlo.Run
import Idealize.ShloMosaic.PureOps.Ideal.Laws

noncomputable section

namespace Cert.MoNet.RefRun

open Cert.ReferenceIdeal Cert.ReferenceIdeal.Gen Idealize.ShloMosaic Idealize.ShloMosaic.TcCoe Idealize.SL.Sem Idealize.ShloMosaic.StableHlo

/-- The buffers the operations of `opsM` write. -/
abbrev writtenM : List (Ref sig .tc) := [main_v350, main_v351, main_v352, main_v353, main_v354, main_call4_cst, main_call4_v0, main_v355, main_v356, main_v357, main_v358, main_v359, main_v360, main_call5_cst, main_call5_v0, main_v361, main_v362, main_v363, main_v364, main_v365, main_v366]
set_option maxRecDepth 8192 in
set_option maxHeartbeats 4000000 in
theorem writes_sub_M : (opsM (F := Ideal) : List (HloOp τ sig (Elt Ideal))).Forall fun op =>
    op.writes ⊆ (writtenM.map (Proc.devRef (τ := τ) .tc)).toFinset := by
  simp only [opsM, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem carry_M_main_arg0 (X : Valuation τ sig (Elt Ideal)) :
    after (opsM (F := Ideal)) X (Proc.devRef .tc main_arg0) = X (Proc.devRef .tc main_arg0) :=
  after_of_writes_sub _ X writes_sub_M (by decide)
theorem carry_M_main_arg1 (X : Valuation τ sig (Elt Ideal)) :
    after (opsM (F := Ideal)) X (Proc.devRef .tc main_arg1) = X (Proc.devRef .tc main_arg1) :=
  after_of_writes_sub _ X writes_sub_M (by decide)
theorem carry_M_main_arg2 (X : Valuation τ sig (Elt Ideal)) :
    after (opsM (F := Ideal)) X (Proc.devRef .tc main_arg2) = X (Proc.devRef .tc main_arg2) :=
  after_of_writes_sub _ X writes_sub_M (by decide)
theorem carry_M_main_arg3 (X : Valuation τ sig (Elt Ideal)) :
    after (opsM (F := Ideal)) X (Proc.devRef .tc main_arg3) = X (Proc.devRef .tc main_arg3) :=
  after_of_writes_sub _ X writes_sub_M (by decide)
theorem carry_M_main_arg4 (X : Valuation τ sig (Elt Ideal)) :
    after (opsM (F := Ideal)) X (Proc.devRef .tc main_arg4) = X (Proc.devRef .tc main_arg4) :=
  after_of_writes_sub _ X writes_sub_M (by decide)
theorem carry_M_main_arg5 (X : Valuation τ sig (Elt Ideal)) :
    after (opsM (F := Ideal)) X (Proc.devRef .tc main_arg5) = X (Proc.devRef .tc main_arg5) :=
  after_of_writes_sub _ X writes_sub_M (by decide)
theorem carry_M_main_arg6 (X : Valuation τ sig (Elt Ideal)) :
    after (opsM (F := Ideal)) X (Proc.devRef .tc main_arg6) = X (Proc.devRef .tc main_arg6) :=
  after_of_writes_sub _ X writes_sub_M (by decide)
theorem carry_M_main_arg7 (X : Valuation τ sig (Elt Ideal)) :
    after (opsM (F := Ideal)) X (Proc.devRef .tc main_arg7) = X (Proc.devRef .tc main_arg7) :=
  after_of_writes_sub _ X writes_sub_M (by decide)
theorem carry_M_main_arg8 (X : Valuation τ sig (Elt Ideal)) :
    after (opsM (F := Ideal)) X (Proc.devRef .tc main_arg8) = X (Proc.devRef .tc main_arg8) :=
  after_of_writes_sub _ X writes_sub_M (by decide)
theorem carry_M_main_arg9 (X : Valuation τ sig (Elt Ideal)) :
    after (opsM (F := Ideal)) X (Proc.devRef .tc main_arg9) = X (Proc.devRef .tc main_arg9) :=
  after_of_writes_sub _ X writes_sub_M (by decide)
theorem carry_M_main_arg10 (X : Valuation τ sig (Elt Ideal)) :
    after (opsM (F := Ideal)) X (Proc.devRef .tc main_arg10) = X (Proc.devRef .tc main_arg10) :=
  after_of_writes_sub _ X writes_sub_M (by decide)
theorem carry_M_main_arg11 (X : Valuation τ sig (Elt Ideal)) :
    after (opsM (F := Ideal)) X (Proc.devRef .tc main_arg11) = X (Proc.devRef .tc main_arg11) :=
  after_of_writes_sub _ X writes_sub_M (by decide)
theorem carry_M_main_arg12 (X : Valuation τ sig (Elt Ideal)) :
    after (opsM (F := Ideal)) X (Proc.devRef .tc main_arg12) = X (Proc.devRef .tc main_arg12) :=
  after_of_writes_sub _ X writes_sub_M (by decide)
theorem carry_M_main_arg13 (X : Valuation τ sig (Elt Ideal)) :
    after (opsM (F := Ideal)) X (Proc.devRef .tc main_arg13) = X (Proc.devRef .tc main_arg13) :=
  after_of_writes_sub _ X writes_sub_M (by decide)
theorem carry_M_main_arg14 (X : Valuation τ sig (Elt Ideal)) :
    after (opsM (F := Ideal)) X (Proc.devRef .tc main_arg14) = X (Proc.devRef .tc main_arg14) :=
  after_of_writes_sub _ X writes_sub_M (by decide)
theorem carry_M_main_arg15 (X : Valuation τ sig (Elt Ideal)) :
    after (opsM (F := Ideal)) X (Proc.devRef .tc main_arg15) = X (Proc.devRef .tc main_arg15) :=
  after_of_writes_sub _ X writes_sub_M (by decide)

end Cert.MoNet.RefRun

end
-- ==== Proof.RefChunkReads.lean ====
/-
  The reference program's operations cut into six consecutive stretches: what each stretch leaves in the buffers later
  stretches read, and which buffers it leaves alone — the modules below, one per stretch, gathered under one name.
-/
import proofs.«168295_j62088047231392_2_alg».proof.Proof.RefChunkReadsP
import proofs.«168295_j62088047231392_2_alg».proof.Proof.RefChunkReadsL0
import proofs.«168295_j62088047231392_2_alg».proof.Proof.RefChunkReadsL1
import proofs.«168295_j62088047231392_2_alg».proof.Proof.RefChunkReadsL2
import proofs.«168295_j62088047231392_2_alg».proof.Proof.RefChunkReadsL3
import proofs.«168295_j62088047231392_2_alg».proof.Proof.RefChunkReadsM
import proofs.«168295_j62088047231392_2_alg».proof.Proof.RefChunkCarriesP
import proofs.«168295_j62088047231392_2_alg».proof.Proof.RefChunkCarriesL0
import proofs.«168295_j62088047231392_2_alg».proof.Proof.RefChunkCarriesL1
import proofs.«168295_j62088047231392_2_alg».proof.Proof.RefChunkCarriesL2
import proofs.«168295_j62088047231392_2_alg».proof.Proof.RefChunkCarriesL3
import proofs.«168295_j62088047231392_2_alg».proof.Proof.RefChunkCarriesM
-- ==== Proof.RefRunStaged.lean ====
/-
  The reference's run, read: after @main the result buffer holds the staged value of the arguments' launch contents — the
  value of each operation as a function of the arguments it depends on, stage by stage — and the arguments are unchanged.

  The program is six lists run in order. Each list's result is read from what it starts from: the prefix gives the two
  edge index arrays, the pseudo-coordinates and the layer-0 features; each layer turns the features it is handed into the
  next; the readout turns the last features into the result. What a later list reads and no list in between writes (the
  arguments, the index arrays, the pseudo-coordinates) is carried across unchanged.
-/
import proofs.«168295_j62088047231392_2_alg».proof.Proof.RefRunSeq
import proofs.«168295_j62088047231392_2_alg».proof.Proof.RefRead
import proofs.«168295_j62088047231392_2_alg».proof.Proof.RefChunkReads

noncomputable section

namespace Cert.MoNet.RefRun

open Cert.ReferenceIdeal Cert.ReferenceIdeal.Gen Idealize.ShloMosaic Idealize.ShloMosaic.TcCoe Idealize.SL.Sem Idealize.ShloMosaic.StableHlo

/-- The six folds from any contents X0 (X1 … X6 name the contents after each list): the arguments are carried through all
    of them, and the result buffer ends at the staged value of X0's arguments. -/
theorem staged (X0 X1 X2 X3 X4 X5 X6 : Valuation τ sig (Elt Ideal))
    (e1 : X1 = after (opsP (F := Ideal)) X0) (e2 : X2 = after (opsL0 (F := Ideal)) X1) (e3 : X3 = after (opsL1 (F := Ideal)) X2)
    (e4 : X4 = after (opsL2 (F := Ideal)) X3) (e5 : X5 = after (opsL3 (F := Ideal)) X4) (e6 : X6 = after (opsM (F := Ideal)) X5) :
    X6 (Proc.devRef .tc main_v366) = Cert.ReferenceIdeal.ReadP.val_main_v366 (F := Ideal) (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) (X0 (Proc.devRef .tc main_arg10)) (X0 (Proc.devRef .tc main_arg11)) (X0 (Proc.devRef .tc main_arg12)) (X0 (Proc.devRef .tc main_arg13)) (X0 (Proc.devRef .tc main_arg14)) (X0 (Proc.devRef .tc main_arg15))
      ∧ X6 (Proc.devRef .tc main_arg0) = X0 (Proc.devRef .tc main_arg0)
      ∧ X6 (Proc.devRef .tc main_arg1) = X0 (Proc.devRef .tc main_arg1)
      ∧ X6 (Proc.devRef .tc main_arg2) = X0 (Proc.devRef .tc main_arg2)
      ∧ X6 (Proc.devRef .tc main_arg3) = X0 (Proc.devRef .tc main_arg3)
      ∧ X6 (Proc.devRef .tc main_arg4) = X0 (Proc.devRef .tc main_arg4)
      ∧ X6 (Proc.devRef .tc main_arg5) = X0 (Proc.devRef .tc main_arg5)
      ∧ X6 (Proc.devRef .tc main_arg6) = X0 (Proc.devRef .tc main_arg6)
      ∧ X6 (Proc.devRef .tc main_arg7) = X0 (Proc.devRef .tc main_arg7)
      ∧ X6 (Proc.devRef .tc main_arg8) = X0 (Proc.devRef .tc main_arg8)
      ∧ X6 (Proc.devRef .tc main_arg9) = X0 (Proc.devRef .tc main_arg9)
      ∧ X6 (Proc.devRef .tc main_arg10) = X0 (Proc.devRef .tc main_arg10)
      ∧ X6 (Proc.devRef .tc main_arg11) = X0 (Proc.devRef .tc main_arg11)
      ∧ X6 (Proc.devRef .tc main_arg12) = X0 (Proc.devRef .tc main_arg12)
      ∧ X6 (Proc.devRef .tc main_arg13) = X0 (Proc.devRef .tc main_arg13)
      ∧ X6 (Proc.devRef .tc main_arg14) = X0 (Proc.devRef .tc main_arg14)
      ∧ X6 (Proc.devRef .tc main_arg15) = X0 (Proc.devRef .tc main_arg15) := by
  -- the arguments, carried through each list
  have a1_0 : X1 (Proc.devRef .tc main_arg0) = X0 (Proc.devRef .tc main_arg0) := by rw [e1]; exact (carry_P_main_arg0 X0)
  have a1_1 : X1 (Proc.devRef .tc main_arg1) = X0 (Proc.devRef .tc main_arg1) := by rw [e1]; exact (carry_P_main_arg1 X0)
  have a1_2 : X1 (Proc.devRef .tc main_arg2) = X0 (Proc.devRef .tc main_arg2) := by rw [e1]; exact (carry_P_main_arg2 X0)
  have a1_3 : X1 (Proc.devRef .tc main_arg3) = X0 (Proc.devRef .tc main_arg3) := by rw [e1]; exact (carry_P_main_arg3 X0)
  have a1_4 : X1 (Proc.devRef .tc main_arg4) = X0 (Proc.devRef .tc main_arg4) := by rw [e1]; exact (carry_P_main_arg4 X0)
  have a1_5 : X1 (Proc.devRef .tc main_arg5) = X0 (Proc.devRef .tc main_arg5) := by rw [e1]; exact (carry_P_main_arg5 X0)
  have a1_6 : X1 (Proc.devRef .tc main_arg6) = X0 (Proc.devRef .tc main_arg6) := by rw [e1]; exact (carry_P_main_arg6 X0)
  have a1_7 : X1 (Proc.devRef .tc main_arg7) = X0 (Proc.devRef .tc main_arg7) := by rw [e1]; exact (carry_P_main_arg7 X0)
  have a1_8 : X1 (Proc.devRef .tc main_arg8) = X0 (Proc.devRef .tc main_arg8) := by rw [e1]; exact (carry_P_main_arg8 X0)
  have a1_9 : X1 (Proc.devRef .tc main_arg9) = X0 (Proc.devRef .tc main_arg9) := by rw [e1]; exact (carry_P_main_arg9 X0)
  have a1_10 : X1 (Proc.devRef .tc main_arg10) = X0 (Proc.devRef .tc main_arg10) := by rw [e1]; exact (carry_P_main_arg10 X0)
  have a1_11 : X1 (Proc.devRef .tc main_arg11) = X0 (Proc.devRef .tc main_arg11) := by rw [e1]; exact (carry_P_main_arg11 X0)
  have a1_12 : X1 (Proc.devRef .tc main_arg12) = X0 (Proc.devRef .tc main_arg12) := by rw [e1]; exact (carry_P_main_arg12 X0)
  have a1_13 : X1 (Proc.devRef .tc main_arg13) = X0 (Proc.devRef .tc main_arg13) := by rw [e1]; exact (carry_P_main_arg13 X0)
  have a1_14 : X1 (Proc.devRef .tc main_arg14) = X0 (Proc.devRef .tc main_arg14) := by rw [e1]; exact (carry_P_main_arg14 X0)
  have a1_15 : X1 (Proc.devRef .tc main_arg15) = X0 (Proc.devRef .tc main_arg15) := by rw [e1]; exact (carry_P_main_arg15 X0)
  have a2_0 : X2 (Proc.devRef .tc main_arg0) = X0 (Proc.devRef .tc main_arg0) := by rw [e2]; exact (carry_L0_main_arg0 X1).trans a1_0
  have a2_1 : X2 (Proc.devRef .tc main_arg1) = X0 (Proc.devRef .tc main_arg1) := by rw [e2]; exact (carry_L0_main_arg1 X1).trans a1_1
  have a2_2 : X2 (Proc.devRef .tc main_arg2) = X0 (Proc.devRef .tc main_arg2) := by rw [e2]; exact (carry_L0_main_arg2 X1).trans a1_2
  have a2_3 : X2 (Proc.devRef .tc main_arg3) = X0 (Proc.devRef .tc main_arg3) := by rw [e2]; exact (carry_L0_main_arg3 X1).trans a1_3
  have a2_4 : X2 (Proc.devRef .tc main_arg4) = X0 (Proc.devRef .tc main_arg4) := by rw [e2]; exact (carry_L0_main_arg4 X1).trans a1_4
  have a2_5 : X2 (Proc.devRef .tc main_arg5) = X0 (Proc.devRef .tc main_arg5) := by rw [e2]; exact (carry_L0_main_arg5 X1).trans a1_5
  have a2_6 : X2 (Proc.devRef .tc main_arg6) = X0 (Proc.devRef .tc main_arg6) := by rw [e2]; exact (carry_L0_main_arg6 X1).trans a1_6
  have a2_7 : X2 (Proc.devRef .tc main_arg7) = X0 (Proc.devRef .tc main_arg7) := by rw [e2]; exact (carry_L0_main_arg7 X1).trans a1_7
  have a2_8 : X2 (Proc.devRef .tc main_arg8) = X0 (Proc.devRef .tc main_arg8) := by rw [e2]; exact (carry_L0_main_arg8 X1).trans a1_8
  have a2_9 : X2 (Proc.devRef .tc main_arg9) = X0 (Proc.devRef .tc main_arg9) := by rw [e2]; exact (carry_L0_main_arg9 X1).trans a1_9
  have a2_10 : X2 (Proc.devRef .tc main_arg10) = X0 (Proc.devRef .tc main_arg10) := by rw [e2]; exact (carry_L0_main_arg10 X1).trans a1_10
  have a2_11 : X2 (Proc.devRef .tc main_arg11) = X0 (Proc.devRef .tc main_arg11) := by rw [e2]; exact (carry_L0_main_arg11 X1).trans a1_11
  have a2_12 : X2 (Proc.devRef .tc main_arg12) = X0 (Proc.devRef .tc main_arg12) := by rw [e2]; exact (carry_L0_main_arg12 X1).trans a1_12
  have a2_13 : X2 (Proc.devRef .tc main_arg13) = X0 (Proc.devRef .tc main_arg13) := by rw [e2]; exact (carry_L0_main_arg13 X1).trans a1_13
  have a2_14 : X2 (Proc.devRef .tc main_arg14) = X0 (Proc.devRef .tc main_arg14) := by rw [e2]; exact (carry_L0_main_arg14 X1).trans a1_14
  have a2_15 : X2 (Proc.devRef .tc main_arg15) = X0 (Proc.devRef .tc main_arg15) := by rw [e2]; exact (carry_L0_main_arg15 X1).trans a1_15
  have a3_0 : X3 (Proc.devRef .tc main_arg0) = X0 (Proc.devRef .tc main_arg0) := by rw [e3]; exact (carry_L1_main_arg0 X2).trans a2_0
  have a3_1 : X3 (Proc.devRef .tc main_arg1) = X0 (Proc.devRef .tc main_arg1) := by rw [e3]; exact (carry_L1_main_arg1 X2).trans a2_1
  have a3_2 : X3 (Proc.devRef .tc main_arg2) = X0 (Proc.devRef .tc main_arg2) := by rw [e3]; exact (carry_L1_main_arg2 X2).trans a2_2
  have a3_3 : X3 (Proc.devRef .tc main_arg3) = X0 (Proc.devRef .tc main_arg3) := by rw [e3]; exact (carry_L1_main_arg3 X2).trans a2_3
  have a3_4 : X3 (Proc.devRef .tc main_arg4) = X0 (Proc.devRef .tc main_arg4) := by rw [e3]; exact (carry_L1_main_arg4 X2).trans a2_4
  have a3_5 : X3 (Proc.devRef .tc main_arg5) = X0 (Proc.devRef .tc main_arg5) := by rw [e3]; exact (carry_L1_main_arg5 X2).trans a2_5
  have a3_6 : X3 (Proc.devRef .tc main_arg6) = X0 (Proc.devRef .tc main_arg6) := by rw [e3]; exact (carry_L1_main_arg6 X2).trans a2_6
  have a3_7 : X3 (Proc.devRef .tc main_arg7) = X0 (Proc.devRef .tc main_arg7) := by rw [e3]; exact (carry_L1_main_arg7 X2).trans a2_7
  have a3_8 : X3 (Proc.devRef .tc main_arg8) = X0 (Proc.devRef .tc main_arg8) := by rw [e3]; exact (carry_L1_main_arg8 X2).trans a2_8
  have a3_9 : X3 (Proc.devRef .tc main_arg9) = X0 (Proc.devRef .tc main_arg9) := by rw [e3]; exact (carry_L1_main_arg9 X2).trans a2_9
  have a3_10 : X3 (Proc.devRef .tc main_arg10) = X0 (Proc.devRef .tc main_arg10) := by rw [e3]; exact (carry_L1_main_arg10 X2).trans a2_10
  have a3_11 : X3 (Proc.devRef .tc main_arg11) = X0 (Proc.devRef .tc main_arg11) := by rw [e3]; exact (carry_L1_main_arg11 X2).trans a2_11
  have a3_12 : X3 (Proc.devRef .tc main_arg12) = X0 (Proc.devRef .tc main_arg12) := by rw [e3]; exact (carry_L1_main_arg12 X2).trans a2_12
  have a3_13 : X3 (Proc.devRef .tc main_arg13) = X0 (Proc.devRef .tc main_arg13) := by rw [e3]; exact (carry_L1_main_arg13 X2).trans a2_13
  have a3_14 : X3 (Proc.devRef .tc main_arg14) = X0 (Proc.devRef .tc main_arg14) := by rw [e3]; exact (carry_L1_main_arg14 X2).trans a2_14
  have a3_15 : X3 (Proc.devRef .tc main_arg15) = X0 (Proc.devRef .tc main_arg15) := by rw [e3]; exact (carry_L1_main_arg15 X2).trans a2_15
  have a4_0 : X4 (Proc.devRef .tc main_arg0) = X0 (Proc.devRef .tc main_arg0) := by rw [e4]; exact (carry_L2_main_arg0 X3).trans a3_0
  have a4_1 : X4 (Proc.devRef .tc main_arg1) = X0 (Proc.devRef .tc main_arg1) := by rw [e4]; exact (carry_L2_main_arg1 X3).trans a3_1
  have a4_2 : X4 (Proc.devRef .tc main_arg2) = X0 (Proc.devRef .tc main_arg2) := by rw [e4]; exact (carry_L2_main_arg2 X3).trans a3_2
  have a4_3 : X4 (Proc.devRef .tc main_arg3) = X0 (Proc.devRef .tc main_arg3) := by rw [e4]; exact (carry_L2_main_arg3 X3).trans a3_3
  have a4_4 : X4 (Proc.devRef .tc main_arg4) = X0 (Proc.devRef .tc main_arg4) := by rw [e4]; exact (carry_L2_main_arg4 X3).trans a3_4
  have a4_5 : X4 (Proc.devRef .tc main_arg5) = X0 (Proc.devRef .tc main_arg5) := by rw [e4]; exact (carry_L2_main_arg5 X3).trans a3_5
  have a4_6 : X4 (Proc.devRef .tc main_arg6) = X0 (Proc.devRef .tc main_arg6) := by rw [e4]; exact (carry_L2_main_arg6 X3).trans a3_6
  have a4_7 : X4 (Proc.devRef .tc main_arg7) = X0 (Proc.devRef .tc main_arg7) := by rw [e4]; exact (carry_L2_main_arg7 X3).trans a3_7
  have a4_8 : X4 (Proc.devRef .tc main_arg8) = X0 (Proc.devRef .tc main_arg8) := by rw [e4]; exact (carry_L2_main_arg8 X3).trans a3_8
  have a4_9 : X4 (Proc.devRef .tc main_arg9) = X0 (Proc.devRef .tc main_arg9) := by rw [e4]; exact (carry_L2_main_arg9 X3).trans a3_9
  have a4_10 : X4 (Proc.devRef .tc main_arg10) = X0 (Proc.devRef .tc main_arg10) := by rw [e4]; exact (carry_L2_main_arg10 X3).trans a3_10
  have a4_11 : X4 (Proc.devRef .tc main_arg11) = X0 (Proc.devRef .tc main_arg11) := by rw [e4]; exact (carry_L2_main_arg11 X3).trans a3_11
  have a4_12 : X4 (Proc.devRef .tc main_arg12) = X0 (Proc.devRef .tc main_arg12) := by rw [e4]; exact (carry_L2_main_arg12 X3).trans a3_12
  have a4_13 : X4 (Proc.devRef .tc main_arg13) = X0 (Proc.devRef .tc main_arg13) := by rw [e4]; exact (carry_L2_main_arg13 X3).trans a3_13
  have a4_14 : X4 (Proc.devRef .tc main_arg14) = X0 (Proc.devRef .tc main_arg14) := by rw [e4]; exact (carry_L2_main_arg14 X3).trans a3_14
  have a4_15 : X4 (Proc.devRef .tc main_arg15) = X0 (Proc.devRef .tc main_arg15) := by rw [e4]; exact (carry_L2_main_arg15 X3).trans a3_15
  have a5_0 : X5 (Proc.devRef .tc main_arg0) = X0 (Proc.devRef .tc main_arg0) := by rw [e5]; exact (carry_L3_main_arg0 X4).trans a4_0
  have a5_1 : X5 (Proc.devRef .tc main_arg1) = X0 (Proc.devRef .tc main_arg1) := by rw [e5]; exact (carry_L3_main_arg1 X4).trans a4_1
  have a5_2 : X5 (Proc.devRef .tc main_arg2) = X0 (Proc.devRef .tc main_arg2) := by rw [e5]; exact (carry_L3_main_arg2 X4).trans a4_2
  have a5_3 : X5 (Proc.devRef .tc main_arg3) = X0 (Proc.devRef .tc main_arg3) := by rw [e5]; exact (carry_L3_main_arg3 X4).trans a4_3
  have a5_4 : X5 (Proc.devRef .tc main_arg4) = X0 (Proc.devRef .tc main_arg4) := by rw [e5]; exact (carry_L3_main_arg4 X4).trans a4_4
  have a5_5 : X5 (Proc.devRef .tc main_arg5) = X0 (Proc.devRef .tc main_arg5) := by rw [e5]; exact (carry_L3_main_arg5 X4).trans a4_5
  have a5_6 : X5 (Proc.devRef .tc main_arg6) = X0 (Proc.devRef .tc main_arg6) := by rw [e5]; exact (carry_L3_main_arg6 X4).trans a4_6
  have a5_7 : X5 (Proc.devRef .tc main_arg7) = X0 (Proc.devRef .tc main_arg7) := by rw [e5]; exact (carry_L3_main_arg7 X4).trans a4_7
  have a5_8 : X5 (Proc.devRef .tc main_arg8) = X0 (Proc.devRef .tc main_arg8) := by rw [e5]; exact (carry_L3_main_arg8 X4).trans a4_8
  have a5_9 : X5 (Proc.devRef .tc main_arg9) = X0 (Proc.devRef .tc main_arg9) := by rw [e5]; exact (carry_L3_main_arg9 X4).trans a4_9
  have a5_10 : X5 (Proc.devRef .tc main_arg10) = X0 (Proc.devRef .tc main_arg10) := by rw [e5]; exact (carry_L3_main_arg10 X4).trans a4_10
  have a5_11 : X5 (Proc.devRef .tc main_arg11) = X0 (Proc.devRef .tc main_arg11) := by rw [e5]; exact (carry_L3_main_arg11 X4).trans a4_11
  have a5_12 : X5 (Proc.devRef .tc main_arg12) = X0 (Proc.devRef .tc main_arg12) := by rw [e5]; exact (carry_L3_main_arg12 X4).trans a4_12
  have a5_13 : X5 (Proc.devRef .tc main_arg13) = X0 (Proc.devRef .tc main_arg13) := by rw [e5]; exact (carry_L3_main_arg13 X4).trans a4_13
  have a5_14 : X5 (Proc.devRef .tc main_arg14) = X0 (Proc.devRef .tc main_arg14) := by rw [e5]; exact (carry_L3_main_arg14 X4).trans a4_14
  have a5_15 : X5 (Proc.devRef .tc main_arg15) = X0 (Proc.devRef .tc main_arg15) := by rw [e5]; exact (carry_L3_main_arg15 X4).trans a4_15
  have a6_0 : X6 (Proc.devRef .tc main_arg0) = X0 (Proc.devRef .tc main_arg0) := by rw [e6]; exact (carry_M_main_arg0 X5).trans a5_0
  have a6_1 : X6 (Proc.devRef .tc main_arg1) = X0 (Proc.devRef .tc main_arg1) := by rw [e6]; exact (carry_M_main_arg1 X5).trans a5_1
  have a6_2 : X6 (Proc.devRef .tc main_arg2) = X0 (Proc.devRef .tc main_arg2) := by rw [e6]; exact (carry_M_main_arg2 X5).trans a5_2
  have a6_3 : X6 (Proc.devRef .tc main_arg3) = X0 (Proc.devRef .tc main_arg3) := by rw [e6]; exact (carry_M_main_arg3 X5).trans a5_3
  have a6_4 : X6 (Proc.devRef .tc main_arg4) = X0 (Proc.devRef .tc main_arg4) := by rw [e6]; exact (carry_M_main_arg4 X5).trans a5_4
  have a6_5 : X6 (Proc.devRef .tc main_arg5) = X0 (Proc.devRef .tc main_arg5) := by rw [e6]; exact (carry_M_main_arg5 X5).trans a5_5
  have a6_6 : X6 (Proc.devRef .tc main_arg6) = X0 (Proc.devRef .tc main_arg6) := by rw [e6]; exact (carry_M_main_arg6 X5).trans a5_6
  have a6_7 : X6 (Proc.devRef .tc main_arg7) = X0 (Proc.devRef .tc main_arg7) := by rw [e6]; exact (carry_M_main_arg7 X5).trans a5_7
  have a6_8 : X6 (Proc.devRef .tc main_arg8) = X0 (Proc.devRef .tc main_arg8) := by rw [e6]; exact (carry_M_main_arg8 X5).trans a5_8
  have a6_9 : X6 (Proc.devRef .tc main_arg9) = X0 (Proc.devRef .tc main_arg9) := by rw [e6]; exact (carry_M_main_arg9 X5).trans a5_9
  have a6_10 : X6 (Proc.devRef .tc main_arg10) = X0 (Proc.devRef .tc main_arg10) := by rw [e6]; exact (carry_M_main_arg10 X5).trans a5_10
  have a6_11 : X6 (Proc.devRef .tc main_arg11) = X0 (Proc.devRef .tc main_arg11) := by rw [e6]; exact (carry_M_main_arg11 X5).trans a5_11
  have a6_12 : X6 (Proc.devRef .tc main_arg12) = X0 (Proc.devRef .tc main_arg12) := by rw [e6]; exact (carry_M_main_arg12 X5).trans a5_12
  have a6_13 : X6 (Proc.devRef .tc main_arg13) = X0 (Proc.devRef .tc main_arg13) := by rw [e6]; exact (carry_M_main_arg13 X5).trans a5_13
  have a6_14 : X6 (Proc.devRef .tc main_arg14) = X0 (Proc.devRef .tc main_arg14) := by rw [e6]; exact (carry_M_main_arg14 X5).trans a5_14
  have a6_15 : X6 (Proc.devRef .tc main_arg15) = X0 (Proc.devRef .tc main_arg15) := by rw [e6]; exact (carry_M_main_arg15 X5).trans a5_15
  -- the prefix's results
  have v1_1 : X1 (Proc.devRef .tc main_v1) = Cert.ReferenceIdeal.ReadP.val_main_v1 (F := Ideal) (X0 (Proc.devRef .tc main_arg1)) := by rw [e1]; exact read_P_v1 X0
  have v3_1 : X1 (Proc.devRef .tc main_v3) = Cert.ReferenceIdeal.ReadP.val_main_v3 (F := Ideal) (X0 (Proc.devRef .tc main_arg1)) := by rw [e1]; exact read_P_v3 X0
  have v30_1 : X1 (Proc.devRef .tc main_v30) = Cert.ReferenceIdeal.ReadP.val_main_v30 (F := Ideal) (X0 (Proc.devRef .tc main_arg1)) := by rw [e1]; exact read_P_v30 X0
  have v37_1 : X1 (Proc.devRef .tc main_v37) = Cert.ReferenceIdeal.ReadP.val_main_v37 (F := Ideal) (X0 (Proc.devRef .tc main_arg0)) (X0 (Proc.devRef .tc main_arg2)) := by rw [e1]; exact read_P_v37 X0
  -- the index arrays and the pseudo-coordinates, carried through the layers
  have v1_2 : X2 (Proc.devRef .tc main_v1) = Cert.ReferenceIdeal.ReadP.val_main_v1 (F := Ideal) (X0 (Proc.devRef .tc main_arg1)) := by rw [e2]; exact (carry_L0_main_v1 X1).trans v1_1
  have v3_2 : X2 (Proc.devRef .tc main_v3) = Cert.ReferenceIdeal.ReadP.val_main_v3 (F := Ideal) (X0 (Proc.devRef .tc main_arg1)) := by rw [e2]; exact (carry_L0_main_v3 X1).trans v3_1
  have v30_2 : X2 (Proc.devRef .tc main_v30) = Cert.ReferenceIdeal.ReadP.val_main_v30 (F := Ideal) (X0 (Proc.devRef .tc main_arg1)) := by rw [e2]; exact (carry_L0_main_v30 X1).trans v30_1
  have v1_3 : X3 (Proc.devRef .tc main_v1) = Cert.ReferenceIdeal.ReadP.val_main_v1 (F := Ideal) (X0 (Proc.devRef .tc main_arg1)) := by rw [e3]; exact (carry_L1_main_v1 X2).trans v1_2
  have v3_3 : X3 (Proc.devRef .tc main_v3) = Cert.ReferenceIdeal.ReadP.val_main_v3 (F := Ideal) (X0 (Proc.devRef .tc main_arg1)) := by rw [e3]; exact (carry_L1_main_v3 X2).trans v3_2
  have v30_3 : X3 (Proc.devRef .tc main_v30) = Cert.ReferenceIdeal.ReadP.val_main_v30 (F := Ideal) (X0 (Proc.devRef .tc main_arg1)) := by rw [e3]; exact (carry_L1_main_v30 X2).trans v30_2
  have v1_4 : X4 (Proc.devRef .tc main_v1) = Cert.ReferenceIdeal.ReadP.val_main_v1 (F := Ideal) (X0 (Proc.devRef .tc main_arg1)) := by rw [e4]; exact (carry_L2_main_v1 X3).trans v1_3
  have v3_4 : X4 (Proc.devRef .tc main_v3) = Cert.ReferenceIdeal.ReadP.val_main_v3 (F := Ideal) (X0 (Proc.devRef .tc main_arg1)) := by rw [e4]; exact (carry_L2_main_v3 X3).trans v3_3
  have v30_4 : X4 (Proc.devRef .tc main_v30) = Cert.ReferenceIdeal.ReadP.val_main_v30 (F := Ideal) (X0 (Proc.devRef .tc main_arg1)) := by rw [e4]; exact (carry_L2_main_v30 X3).trans v30_3
  -- the layers
  have f0 : X2 (Proc.devRef .tc main_v115) = Cert.ReferenceIdeal.ReadP.val_main_v115 (F := Ideal) (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) := by
    rw [e2]; exact read_L0 X1 (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) v37_1 v30_1 v1_1 v3_1 a1_3 a1_4 a1_5 a1_6 a1_7 a1_8 a1_9
  have f1 : X3 (Proc.devRef .tc main_v193) = Cert.ReferenceIdeal.ReadP.val_main_v193 (F := Ideal) (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) := by
    rw [e3]; exact read_L1 X2 (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) f0 v30_2 v1_2 v3_2 a2_3 a2_4 a2_5 a2_6 a2_7 a2_8 a2_9
  have f2 : X4 (Proc.devRef .tc main_v271) = Cert.ReferenceIdeal.ReadP.val_main_v271 (F := Ideal) (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) := by
    rw [e4]; exact read_L2 X3 (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) f1 v30_3 v1_3 v3_3 a3_3 a3_4 a3_5 a3_6 a3_7 a3_8 a3_9
  have f3 : X5 (Proc.devRef .tc main_v349) = Cert.ReferenceIdeal.ReadP.val_main_v349 (F := Ideal) (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) := by
    rw [e5]; exact read_L3 X4 (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) f2 v30_4 v1_4 v3_4 a4_3 a4_4 a4_5 a4_6 a4_7 a4_8 a4_9
  -- the readout
  refine ⟨?_, a6_0, a6_1, a6_2, a6_3, a6_4, a6_5, a6_6, a6_7, a6_8, a6_9, a6_10, a6_11, a6_12, a6_13, a6_14, a6_15⟩
  rw [e6]
  exact read_M X5 (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) (X0 (Proc.devRef .tc main_arg10)) (X0 (Proc.devRef .tc main_arg11)) (X0 (Proc.devRef .tc main_arg12)) (X0 (Proc.devRef .tc main_arg13)) (X0 (Proc.devRef .tc main_arg14)) (X0 (Proc.devRef .tc main_arg15)) f3 a5_10 a5_11 a5_12 a5_13 a5_14 a5_15

/-- THE REFERENCE'S RUN: from any memory with zero counters every weakly fair execution of @main terminates with the result
    buffer at the staged value of the arguments' launch contents, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v366) = Cert.ReferenceIdeal.ReadP.val_main_v366 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
    obtain ⟨s, s0, s1, s2, s3, s4, s5, s6, s7, s8, s9, s10, s11, s12, s13, s14, s15⟩ := staged (launchContents m c) _ _ _ _ _ _ rfl rfl rfl rfl rfl rfl
    exact ⟨(h c main_v366).trans s, (h c main_arg0).trans s0, (h c main_arg1).trans s1, (h c main_arg2).trans s2, (h c main_arg3).trans s3, (h c main_arg4).trans s4, (h c main_arg5).trans s5, (h c main_arg6).trans s6, (h c main_arg7).trans s7, (h c main_arg8).trans s8, (h c main_arg9).trans s9, (h c main_arg10).trans s10, (h c main_arg11).trans s11, (h c main_arg12).trans s12, (h c main_arg13).trans s13, (h c main_arg14).trans s14, (h c main_arg15).trans s15⟩)
    (run_all (F := Ideal) m ρ)

end Cert.MoNet.RefRun

end
-- ==== Proof.lean ====
/-
  The kernel and its reference compute one function.  The program is a four-layer mixture-model graph network:
  per layer, mixture weights of the edges' pseudo-coordinates (a region), the node features projected by a matrix
  product (a region), a weighted gather–scatter aggregation along the edges (host operations), and batch
  normalisation with a rectifier and a residual (a region); then a three-layer perceptron (a region).  At the ideal
  instance a float is an extended real, a change of float format is the identity, a matrix product into a zero
  accumulator is the plain finite sum, and the two programs differ only in how they tile their arrays, in the
  grouping of a product ((d·d·s)·s against (d·d)·(s·s)), and in whether the sum over the three mixture components
  comes before or after the scatter over the edges: commutativity and associativity of + and · on the extended
  reals, and nothing that needs finiteness of the inputs.
  The three frames: the word-level kernel's and the idealized kernel's are the generated frame certificates; the
  reference's is its run with the result dropped.  The ideal pass rewrote nothing, so the idealization conjunct is
  trivial.  The value conjunct puts the kernel's run with its result named beside the reference's run, rewrites
  the arguments' agreement, and cites the equality of the two results.
-/
import proofs.«168295_j62088047231392_2_alg».proof.Defs
import proofs.«168295_j62088047231392_2_alg».proof.Proof.Gen.Kernel
import proofs.«168295_j62088047231392_2_alg».proof.Proof.Gen.Kernel.Frame
import proofs.«168295_j62088047231392_2_alg».proof.Proof.Gen.KernelIdeal
import proofs.«168295_j62088047231392_2_alg».proof.Proof.Gen.KernelIdeal.Frame
import proofs.«168295_j62088047231392_2_alg».proof.Proof.Gen.ReferenceIdeal
import proofs.«168295_j62088047231392_2_alg».proof.Proof.Gen.Pre_finite_inputs
import proofs.«168295_j62088047231392_2_alg».proof.Proof.KRun
import proofs.«168295_j62088047231392_2_alg».proof.Proof.KResult
import proofs.«168295_j62088047231392_2_alg».proof.Proof.RefRunStaged
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference terminates without a fault and leaves its arguments as launched: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.MoNet.RefRun.ref_run m ρ)

/-- From memories agreeing on the arguments both programs run, and the reference's result is the kernel's: the
    kernel's result is the reference's value of the kernel's arguments, which are the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W26 m ρ c (Proc.devRef .tc Cert.KernelIdeal.main_v248),
    Cert.MoNet.KRun.run_named (F := Ideal) m ρ, ?_⟩
  refine (θ_run Cert.ReferenceIdeal.defs _ _).mono (fun _ h c => ⟨(h c).1.trans ?_, (h c).2⟩) (Cert.MoNet.RefRun.ref_run m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact (Cert.MoNet.Chain.kernel_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
